-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S32768x2 : Shape := ⟨2, ![32768, 2]⟩
abbrev S32768 : Shape := ⟨1, ![32768]⟩
abbrev S16x102 : Shape := ⟨2, ![16, 102]⟩
abbrev S102x128 : Shape := ⟨2, ![102, 128]⟩
abbrev S11x128 : Shape := ⟨2, ![11, 128]⟩
abbrev S128 : Shape := ⟨1, ![128]⟩
abbrev S256x128 : Shape := ⟨2, ![256, 128]⟩
abbrev S128x18 : Shape := ⟨2, ![128, 18]⟩
abbrev S18 : Shape := ⟨1, ![18]⟩
abbrev S_ : Shape := ⟨0, ![]⟩

class Facts : Prop where
  bcast_S_S16x102 : S_.BroadcastsInDim S16x102 (![] : Fin 0 → Fin S16x102.rank)
  reducesTo_S16x102_S_d0_1 : S16x102.ReducesTo [0, 1] S_
  h_S_ : 0 < S_.numel
  bcast_S_S102x128 : S_.BroadcastsInDim S102x128 (![] : Fin 0 → Fin S102x128.rank)
  reducesTo_S102x128_S_d0_1 : S102x128.ReducesTo [0, 1] S_
  bcast_S_S11x128 : S_.BroadcastsInDim S11x128 (![] : Fin 0 → Fin S11x128.rank)
  reducesTo_S11x128_S_d0_1 : S11x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x18 : S_.BroadcastsInDim S128x18 (![] : Fin 0 → Fin S128x18.rank)
  reducesTo_S128x18_S_d0_1 : S128x18.ReducesTo [0, 1] S_
  bcast_S_S18 : S_.BroadcastsInDim S18 (![] : Fin 0 → Fin S18.rank)
  reducesTo_S18_S_d0 : S18.ReducesTo [0] S_
  bcast_S_S32768x2 : S_.BroadcastsInDim S32768x2 (![] : Fin 0 → Fin S32768x2.rank)
  reducesTo_S32768x2_S_d0_1 : S32768x2.ReducesTo [0, 1] S_
  bcast_S_S32768 : S_.BroadcastsInDim S32768 (![] : Fin 0 → Fin S32768.rank)
  reducesTo_S32768_S_d0 : S32768.ReducesTo [0] S_

variable [Facts]

def fn_part3 {F : FTy → Type} [FloatOps F] (main_arg1 : IVec S32768 32) (main_v50 : IVec S_ 1) : IVec S_ 1 :=
  let main_c_19 : IVec S_ 32 := constantI S_ 32 0#32
  let main_v51 : IVec S32768 32 := broadcastInDim S32768 ![] bcast_S_S32768 main_c_19
  let main_v52 : IVec S32768 1 := cmpi .sge main_arg1 main_v51
  let main_c_20 : IVec S_ 32 := constantI S_ 32 15#32
  let main_v53 : IVec S32768 32 := broadcastInDim S32768 ![] bcast_S_S32768 main_c_20
  let main_v54 : IVec S32768 1 := cmpi .sle main_arg1 main_v53
  let main_v55 : IVec S32768 1 := andi main_v52 main_v54
  let main_c_21 : IVec S_ 1 := constantI S_ 1 1#1
  let main_v56 : IVec S_ 1 := (fun x v => Host.reduce IntOp.andi x v reducesTo_S32768_S_d0 h_S_) main_v55 main_c_21
  let main_v57 : IVec S_ 1 := andi main_v50 main_v56
  main_v57

def fn_part2 {F : FTy → Type} [FloatOps F] (main_arg0 : IVec S32768x2 32) (main_arg1 : IVec S32768 32) (main_arg9 : FVec F S128x18 .f32) (main_arg10 : FVec F S18 .f32) (main_v33 : IVec S_ 1) : IVec S_ 1 :=
  let main_v34 : FVec F S128x18 .f32 := Host.absf main_arg9
  let main_cst_12 : FVec F S_ .f32 := constant S_ .f32 0x7F800000#32
  let main_v35 : FVec F S128x18 .f32 := broadcastInDim S128x18 ![] bcast_S_S128x18 main_cst_12
  let main_v36 : IVec S128x18 1 := cmpf .olt main_v34 main_v35
  let main_c_13 : IVec S_ 1 := constantI S_ 1 1#1
  let main_v37 : IVec S_ 1 := (fun x v => Host.reduce IntOp.andi x v reducesTo_S128x18_S_d0_1 h_S_) main_v36 main_c_13
  let main_v38 : IVec S_ 1 := andi main_v33 main_v37
  let main_v39 : FVec F S18 .f32 := Host.absf main_arg10
  let main_cst_14 : FVec F S_ .f32 := constant S_ .f32 0x7F800000#32
  let main_v40 : FVec F S18 .f32 := broadcastInDim S18 ![] bcast_S_S18 main_cst_14
  let main_v41 : IVec S18 1 := cmpf .olt main_v39 main_v40
  let main_c_15 : IVec S_ 1 := constantI S_ 1 1#1
  let main_v42 : IVec S_ 1 := (fun x v => Host.reduce IntOp.andi x v reducesTo_S18_S_d0 h_S_) main_v41 main_c_15
  let main_v43 : IVec S_ 1 := andi main_v38 main_v42
  let main_c_16 : IVec S_ 32 := constantI S_ 32 0#32
  let main_v44 : IVec S32768x2 32 := broadcastInDim S32768x2 ![] bcast_S_S32768x2 main_c_16
  let main_v45 : IVec S32768x2 1 := cmpi .sge main_arg0 main_v44
  let main_c_17 : IVec S_ 32 := constantI S_ 32 10#32
  let main_v46 : IVec S32768x2 32 := broadcastInDim S32768x2 ![] bcast_S_S32768x2 main_c_17
  let main_v47 : IVec S32768x2 1 := cmpi .sle main_arg0 main_v46
  let main_v48 : IVec S32768x2 1 := andi main_v45 main_v47
  let main_c_18 : IVec S_ 1 := constantI S_ 1 1#1
  let main_v49 : IVec S_ 1 := (fun x v => Host.reduce IntOp.andi x v reducesTo_S32768x2_S_d0_1 h_S_) main_v48 main_c_18
  let main_v50 : IVec S_ 1 := andi main_v43 main_v49
  fn_part3 (F := F) main_arg1 main_v50

def fn_part1 {F : FTy → Type} [FloatOps F] (main_arg0 : IVec S32768x2 32) (main_arg1 : IVec S32768 32) (main_arg6 : FVec F S128 .f32) (main_arg7 : FVec F S256x128 .f32) (main_arg8 : FVec F S128 .f32) (main_arg9 : FVec F S128x18 .f32) (main_arg10 : FVec F S18 .f32) (main_v13 : IVec S_ 1) (main_v16 : IVec S102x128 1) : IVec S_ 1 :=
  let main_c_5 : IVec S_ 1 := constantI S_ 1 1#1
  let main_v17 : IVec S_ 1 := (fun x v => Host.reduce IntOp.andi x v reducesTo_S102x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_arg1 main_arg9 main_arg10 main_v33

def fn {F : FTy → Type} [FloatOps F] (main_arg0 : IVec S32768x2 32) (main_arg1 : IVec S32768 32) (main_arg2 : FVec F S16x102 .f32) (main_arg3 : FVec F S102x128 .f32) (main_arg4 : FVec F S11x128 .f32) (main_arg5 : FVec F S102x128 .f32) (main_arg6 : FVec F S128 .f32) (main_arg7 : FVec F S256x128 .f32) (main_arg8 : FVec F S128 .f32) (main_arg9 : FVec F S128x18 .f32) (main_arg10 : FVec F S18 .f32) : IVec S_ 1 :=
  let main_v0 : FVec F S16x102 .f32 := Host.absf main_arg2
  let main_cst : FVec F S_ .f32 := constant S_ .f32 0x7F800000#32
  let main_v1 : FVec F S16x102 .f32 := broadcastInDim S16x102 ![] bcast_S_S16x102 main_cst
  let main_v2 : IVec S16x102 1 := cmpf .olt main_v0 main_v1
  let main_c : IVec S_ 1 := constantI S_ 1 1#1
  let main_v3 : IVec S_ 1 := (fun x v => Host.reduce IntOp.andi x v reducesTo_S16x102_S_d0_1 h_S_) main_v2 main_c
  let main_v4 : FVec F S102x128 .f32 := Host.absf main_arg3
  let main_cst_0 : FVec F S_ .f32 := constant S_ .f32 0x7F800000#32
  let main_v5 : FVec F S102x128 .f32 := broadcastInDim S102x128 ![] bcast_S_S102x128 main_cst_0
  let main_v6 : IVec S102x128 1 := cmpf .olt main_v4 main_v5
  let main_c_1 : IVec S_ 1 := constantI S_ 1 1#1
  let main_v7 : IVec S_ 1 := (fun x v => Host.reduce IntOp.andi x v reducesTo_S102x128_S_d0_1 h_S_) main_v6 main_c_1
  let main_v8 : IVec S_ 1 := andi main_v3 main_v7
  let main_v9 : FVec F S11x128 .f32 := Host.absf main_arg4
  let main_cst_2 : FVec F S_ .f32 := constant S_ .f32 0x7F800000#32
  let main_v10 : FVec F S11x128 .f32 := broadcastInDim S11x128 ![] bcast_S_S11x128 main_cst_2
  let main_v11 : IVec S11x128 1 := cmpf .olt main_v9 main_v10
  let main_c_3 : IVec S_ 1 := constantI S_ 1 1#1
  let main_v12 : IVec S_ 1 := (fun x v => Host.reduce IntOp.andi x v reducesTo_S11x128_S_d0_1 h_S_) main_v11 main_c_3
  let main_v13 : IVec S_ 1 := andi main_v8 main_v12
  let main_v14 : FVec F S102x128 .f32 := Host.absf main_arg5
  let main_cst_4 : FVec F S_ .f32 := constant S_ .f32 0x7F800000#32
  let main_v15 : FVec F S102x128 .f32 := broadcastInDim S102x128 ![] bcast_S_S102x128 main_cst_4
  let main_v16 : IVec S102x128 1 := cmpf .olt main_v14 main_v15
  fn_part1 (F := F) main_arg0 main_arg1 main_arg6 main_arg7 main_arg8 main_arg9 main_arg10 main_v13 main_v16
-- ==== Kernel.lean ====
abbrev S32768x2 : Shape := ⟨2, ![32768, 2]⟩
abbrev S32768 : Shape := ⟨1, ![32768]⟩
abbrev S16x102 : Shape := ⟨2, ![16, 102]⟩
abbrev S102x128 : Shape := ⟨2, ![102, 128]⟩
abbrev S11x128 : Shape := ⟨2, ![11, 128]⟩
abbrev S128 : Shape := ⟨1, ![128]⟩
abbrev S256x128 : Shape := ⟨2, ![256, 128]⟩
abbrev S128x18 : Shape := ⟨2, ![128, 18]⟩
abbrev S18 : Shape := ⟨1, ![18]⟩
abbrev S32768x1 : Shape := ⟨2, ![32768, 1]⟩
abbrev S32x32x128 : Shape := ⟨3, ![32, 32, 128]⟩
abbrev S1024 : Shape := ⟨1, ![1024]⟩
abbrev S32x128 : Shape := ⟨2, ![32, 128]⟩
abbrev S16 : Shape := ⟨1, ![16]⟩
abbrev S1x16 : Shape := ⟨2, ![1, 16]⟩
abbrev S_ : Shape := ⟨0, ![]⟩
abbrev S1x32x128 : Shape := ⟨3, ![1, 32, 128]⟩
abbrev S1x128 : Shape := ⟨2, ![1, 128]⟩
abbrev S1x18 : Shape := ⟨2, ![1, 18]⟩
abbrev S16x18 : Shape := ⟨2, ![16, 18]⟩
abbrev S16x11 : Shape := ⟨2, ![16, 11]⟩
abbrev S16x128 : Shape := ⟨2, ![16, 128]⟩
abbrev S16x256 : Shape := ⟨2, ![16, 256]⟩

abbrev nBuf : Table → Nat
  | .hbm => 20
  | .local .tc .vmem => 11
  | .local .scVector .vmem => 4
  | _ => 0

abbrev bufTy : (tb : Table) → Fin (nBuf tb) → BufTy
  | .hbm, ⟨0, _⟩ => ⟨S32768x2, .i32⟩
  | .hbm, ⟨1, _⟩ => ⟨S32768, .i32⟩
  | .hbm, ⟨2, _⟩ => ⟨S16x102, .f32⟩
  | .hbm, ⟨3, _⟩ => ⟨S102x128, .f32⟩
  | .hbm, ⟨4, _⟩ => ⟨S11x128, .f32⟩
  | .hbm, ⟨5, _⟩ => ⟨S102x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x18, .f32⟩
  | .hbm, ⟨10, _⟩ => ⟨S18, .f32⟩
  | .hbm, ⟨11, _⟩ => ⟨S32768x1, .i32⟩
  | .hbm, ⟨12, _⟩ => ⟨S32768, .i32⟩
  | .hbm, ⟨13, _⟩ => ⟨S32768x1, .i32⟩
  | .hbm, ⟨14, _⟩ => ⟨S32768, .i32⟩
  | .hbm, ⟨15, _⟩ => ⟨S32x32x128, .f32⟩
  | .hbm, ⟨16, _⟩ => ⟨S1x128, .f32⟩
  | .hbm, ⟨17, _⟩ => ⟨S1x128, .f32⟩
  | .hbm, ⟨18, _⟩ => ⟨S1x18, .f32⟩
  | .hbm, ⟨19, _⟩ => ⟨S16x18, .f32⟩
  | .local .tc .vmem, ⟨0, _⟩ => ⟨S32x32x128, .f32⟩
  | .local .tc .vmem, ⟨1, _⟩ => ⟨S16x102, .f32⟩
  | .local .tc .vmem, ⟨2, _⟩ => ⟨S102x128, .f32⟩
  | .local .tc .vmem, ⟨3, _⟩ => ⟨S11x128, .f32⟩
  | .local .tc .vmem, ⟨4, _⟩ => ⟨S102x128, .f32⟩
  | .local .tc .vmem, ⟨5, _⟩ => ⟨S1x128, .f32⟩
  | .local .tc .vmem, ⟨6, _⟩ => ⟨S256x128, .f32⟩
  | .local .tc .vmem, ⟨7, _⟩ => ⟨S1x128, .f32⟩
  | .local .tc .vmem, ⟨8, _⟩ => ⟨S128x18, .f32⟩
  | .local .tc .vmem, ⟨9, _⟩ => ⟨S1x18, .f32⟩
  | .local .tc .vmem, ⟨10, _⟩ => ⟨S16x18, .f32⟩
  | .local .scVector .vmem, ⟨0, _⟩ => ⟨S1024, .i32⟩
  | .local .scVector .vmem, ⟨1, _⟩ => ⟨S1024, .i32⟩
  | .local .scVector .vmem, ⟨2, _⟩ => ⟨S1024, .i32⟩
  | .local .scVector .vmem, ⟨3, _⟩ => ⟨S32x128, .f32⟩
  | _, _ => ⟨S32768x2, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v1_scv : Ref sig .scVector := ⟨.hbm, 12, rfl⟩
abbrev main_v3_scv : Ref sig .scVector := ⟨.hbm, 14, rfl⟩
abbrev main_arg1_scv : Ref sig .scVector := ⟨.hbm, 1, rfl⟩
abbrev main_v4_scv : Ref sig .scVector := ⟨.hbm, 15, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg8_0 : Ref sig .tc := ⟨.vmem, 8, rfl⟩
abbrev cc1_stg9_0 : Ref sig .tc := ⟨.vmem, 9, rfl⟩
abbrev cc1_stg10_0 : Ref sig .tc := ⟨.vmem, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem9_0 : DmaSem sig := 13
abbrev cc1_sem10_0 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c32_i32 : BitVec 32 := 32#32
  let v4 : BitVec 32 := Scalar.addi c0_i32 c32_i32
  let c1_i32 : BitVec 32 := 1#32
  ⟨c0_i32, v4, c1_i32⟩
def k0_off1 (k0_t1 : Fin k0_t1_loop.trips) : Fin 2 → Nat :=
  let c0_i32_7 : BitVec 32 := 0#32
  let c0_i32 : BitVec 32 := 0#32
  let c1_i32 : BitVec 32 := 1#32
  let arg10 : BitVec 32 := Scf.iv c0_i32 c1_i32 k0_t1
  let c1_i32_6 : BitVec 32 := 1#32
  let v7 : BitVec 32 := Scalar.muli arg10 c1_i32_6
  let v8 : BitVec 32 := Scalar.addi c0_i32_7 v7
  let v9 : Index := Scalar.indexCast v8
  let c0 : Index := 0#32
  ![v9.toNat, 0]
def k0_off2 (k0_t1 : Fin k0_t1_loop.trips) : Fin 2 → Nat :=
  let c0_i32_7 : BitVec 32 := 0#32
  let c0_i32 : BitVec 32 := 0#32
  let c1_i32 : BitVec 32 := 1#32
  let arg10 : BitVec 32 := Scf.iv c0_i32 c1_i32 k0_t1
  let c1_i32_6 : BitVec 32 := 1#32
  let v7 : BitVec 32 := Scalar.muli arg10 c1_i32_6
  let v8 : BitVec 32 := Scalar.addi c0_i32_7 v7
  let v11 : Index := Scalar.indexCast v8
  let c16 : Index := 16#32
  ![v11.toNat, 16]
def k0_off3 (k0_t1 : Fin k0_t1_loop.trips) : Fin 2 → Nat :=
  let c0_i32_7 : BitVec 32 := 0#32
  let c0_i32 : BitVec 32 := 0#32
  let c1_i32 : BitVec 32 := 1#32
  let arg10 : BitVec 32 := Scf.iv c0_i32 c1_i32 k0_t1
  let c1_i32_6 : BitVec 32 := 1#32
  let v7 : BitVec 32 := Scalar.muli arg10 c1_i32_6
  let v8 : BitVec 32 := Scalar.addi c0_i32_7 v7
  let v13 : Index := Scalar.indexCast v8
  let c32 : Index := 32#32
  ![v13.toNat, 32]
def k0_off4 (k0_t1 : Fin k0_t1_loop.trips) : Fin 2 → Nat :=
  let c0_i32_7 : BitVec 32 := 0#32
  let c0_i32 : BitVec 32 := 0#32
  let c1_i32 : BitVec 32 := 1#32
  let arg10 : BitVec 32 := Scf.iv c0_i32 c1_i32 k0_t1
  let c1_i32_6 : BitVec 32 := 1#32
  let v7 : BitVec 32 := Scalar.muli arg10 c1_i32_6
  let v8 : BitVec 32 := Scalar.addi c0_i32_7 v7
  let v15 : Index := Scalar.indexCast v8
  let c48 : Index := 48#32
  ![v15.toNat, 48]
def k0_off5 (k0_t1 : Fin k0_t1_loop.trips) : Fin 2 → Nat :=
  let c0_i32_7 : BitVec 32 := 0#32
  let c0_i32 : BitVec 32 := 0#32
  let c1_i32 : BitVec 32 := 1#32
  let arg10 : BitVec 32 := Scf.iv c0_i32 c1_i32 k0_t1
  let c1_i32_6 : BitVec 32 := 1#32
  let v7 : BitVec 32 := Scalar.muli arg10 c1_i32_6
  let v8 : BitVec 32 := Scalar.addi c0_i32_7 v7
  let v17 : Index := Scalar.indexCast v8
  let c64 : Index := 64#32
  ![v17.toNat, 64]
def k0_off6 (k0_t1 : Fin k0_t1_loop.trips) : Fin 2 → Nat :=
  let c0_i32_7 : BitVec 32 := 0#32
  let c0_i32 : BitVec 32 := 0#32
  let c1_i32 : BitVec 32 := 1#32
  let arg10 : BitVec 32 := Scf.iv c0_i32 c1_i32 k0_t1
  let c1_i32_6 : BitVec 32 := 1#32
  let v7 : BitVec 32 := Scalar.muli arg10 c1_i32_6
  let v8 : BitVec 32 := Scalar.addi c0_i32_7 v7
  let v19 : Index := Scalar.indexCast v8
  let c80 : Index := 80#32
  ![v19.toNat, 80]
def k0_off7 (k0_t1 : Fin k0_t1_loop.trips) : Fin 2 → Nat :=
  let c0_i32_7 : BitVec 32 := 0#32
  let c0_i32 : BitVec 32 := 0#32
  let c1_i32 : BitVec 32 := 1#32
  let arg10 : BitVec 32 := Scf.iv c0_i32 c1_i32 k0_t1
  let c1_i32_6 : BitVec 32 := 1#32
  let v7 : BitVec 32 := Scalar.muli arg10 c1_i32_6
  let v8 : BitVec 32 := Scalar.addi c0_i32_7 v7
  let v21 : Index := Scalar.indexCast v8
  let c96 : Index := 96#32
  ![v21.toNat, 96]
def k0_off8 (k0_t1 : Fin k0_t1_loop.trips) : Fin 2 → Nat :=
  let c0_i32_7 : BitVec 32 := 0#32
  let c0_i32 : BitVec 32 := 0#32
  let c1_i32 : BitVec 32 := 1#32
  let arg10 : BitVec 32 := Scf.iv c0_i32 c1_i32 k0_t1
  let c1_i32_6 : BitVec 32 := 1#32
  let v7 : BitVec 32 := Scalar.muli arg10 c1_i32_6
  let v8 : BitVec 32 := Scalar.addi c0_i32_7 v7
  let v23 : Index := Scalar.indexCast v8
  let c112 : Index := 112#32
  ![v23.toNat, 112]
def k0_off9 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32 : BitVec 32 := 1024#32
  let v2 : BitVec 32 := Scalar.muli v1 c1024_i32
  ![v2.toNat]
@[reducible] def k0_t2_loop : Scf.Loop 32 :=
  let c0_i32_2 : BitVec 32 := 0#32
  let c16_i32_3 : BitVec 32 := 16#32
  let v6 : BitVec 32 := Scalar.addi c0_i32_2 c16_i32_3
  let c1_i32_4 : BitVec 32 := 1#32
  ⟨c0_i32_2, v6, c1_i32_4⟩
def k0_off10 (k0_t2 : Fin k0_t2_loop.trips) : Fin 1 → Nat :=
  let c0_i32_6 : BitVec 32 := 0#32
  let c0_i32_2 : BitVec 32 := 0#32
  let c1_i32_4 : BitVec 32 := 1#32
  let arg10 : BitVec 32 := Scf.iv c0_i32_2 c1_i32_4 k0_t2
  let c64_i32 : BitVec 32 := 64#32
  let v7 : BitVec 32 := Scalar.muli arg10 c64_i32
  let v8 : BitVec 32 := Scalar.addi c0_i32_6 v7
  let c0_i32_7 : BitVec 32 := 0#32
  let v9 : BitVec 32 := Scalar.addi v8 c0_i32_7
  let v10 : Index := Scalar.indexCast v9
  ![v10.toNat]

def k0_chk1 (v11 : IVec S16 32) (v18 : IVec S16 32) : Prop :=
  (∀ a x, ((![v11, v18] : Fin 2 → IVec S16 32) a x).toNat < S32x128.size a)
instance k0_chk1.dec : ∀ (v11 : IVec S16 32) (v18 : IVec S16 32), Decidable (k0_chk1 v11 v18) := fun v11 v18 => decidable_of_iff' _ (Iff.of_eq (k0_chk1.eq_1 v11 v18))
theorem k0_idx1_inb : ∀ (v11 : IVec S16 32) (v18 : IVec S16 32) (k0_hw1 : k0_chk1 v11 v18), ∀ a x, ((![v11, v18] : Fin 2 → IVec S16 32) a x).toNat < S32x128.size a := fun v11 v18 k0_hw1 => k0_hw1

def k0_chk2 (v25 : IVec S16 32) (v27 : IVec S16 32) : Prop :=
  (∀ a x, ((![v27, v25] : Fin 2 → IVec S16 32) a x).toNat < S32x128.size a)
instance k0_chk2.dec : ∀ (v25 : IVec S16 32) (v27 : IVec S16 32), Decidable (k0_chk2 v25 v27) := fun v25 v27 => decidable_of_iff' _ (Iff.of_eq (k0_chk2.eq_1 v25 v27))
theorem k0_idx2_inb : ∀ (v25 : IVec S16 32) (v27 : IVec S16 32) (k0_hw2 : k0_chk2 v25 v27), ∀ a x, ((![v27, v25] : Fin 2 → IVec S16 32) a x).toNat < S32x128.size a := fun v25 v27 k0_hw2 => k0_hw2
def k0_off11 (k0_t2 : Fin k0_t2_loop.trips) : Fin 1 → Nat :=
  let c0_i32_6 : BitVec 32 := 0#32
  let c0_i32_2 : BitVec 32 := 0#32
  let c1_i32_4 : BitVec 32 := 1#32
  let arg10 : BitVec 32 := Scf.iv c0_i32_2 c1_i32_4 k0_t2
  let c64_i32 : BitVec 32 := 64#32
  let v7 : BitVec 32 := Scalar.muli arg10 c64_i32
  let v8 : BitVec 32 := Scalar.addi c0_i32_6 v7
  let c16_i32_13 : BitVec 32 := 16#32
  let v28 : BitVec 32 := Scalar.addi v8 c16_i32_13
  let v29 : Index := Scalar.indexCast v28
  ![v29.toNat]

def k0_chk3 (v30 : IVec S16 32) (v37 : IVec S16 32) : Prop :=
  (∀ a x, ((![v30, v37] : Fin 2 → IVec S16 32) a x).toNat < S32x128.size a)
instance k0_chk3.dec : ∀ (v30 : IVec S16 32) (v37 : IVec S16 32), Decidable (k0_chk3 v30 v37) := fun v30 v37 => decidable_of_iff' _ (Iff.of_eq (k0_chk3.eq_1 v30 v37))
theorem k0_idx3_inb : ∀ (v30 : IVec S16 32) (v37 : IVec S16 32) (k0_hw3 : k0_chk3 v30 v37), ∀ a x, ((![v30, v37] : Fin 2 → IVec S16 32) a x).toNat < S32x128.size a := fun v30 v37 k0_hw3 => k0_hw3

def k0_chk4 (v44 : IVec S16 32) (v46 : IVec S16 32) : Prop :=
  (∀ a x, ((![v46, v44] : Fin 2 → IVec S16 32) a x).toNat < S32x128.size a)
instance k0_chk4.dec : ∀ (v44 : IVec S16 32) (v46 : IVec S16 32), Decidable (k0_chk4 v44 v46) := fun v44 v46 => decidable_of_iff' _ (Iff.of_eq (k0_chk4.eq_1 v44 v46))
theorem k0_idx4_inb : ∀ (v44 : IVec S16 32) (v46 : IVec S16 32) (k0_hw4 : k0_chk4 v44 v46), ∀ a x, ((![v46, v44] : Fin 2 → IVec S16 32) a x).toNat < S32x128.size a := fun v44 v46 k0_hw4 => k0_hw4
def k0_off12 (k0_t2 : Fin k0_t2_loop.trips) : Fin 1 → Nat :=
  let c0_i32_6 : BitVec 32 := 0#32
  let c0_i32_2 : BitVec 32 := 0#32
  let c1_i32_4 : BitVec 32 := 1#32
  let arg10 : BitVec 32 := Scf.iv c0_i32_2 c1_i32_4 k0_t2
  let c64_i32 : BitVec 32 := 64#32
  let v7 : BitVec 32 := Scalar.muli arg10 c64_i32
  let v8 : BitVec 32 := Scalar.addi c0_i32_6 v7
  let c32_i32_21 : BitVec 32 := 32#32
  let v47 : BitVec 32 := Scalar.addi v8 c32_i32_21
  let v48 : Index := Scalar.indexCast v47
  ![v48.toNat]

def k0_chk5 (v49 : IVec S16 32) (v56 : IVec S16 32) : Prop :=
  (∀ a x, ((![v49, v56] : Fin 2 → IVec S16 32) a x).toNat < S32x128.size a)
instance k0_chk5.dec : ∀ (v49 : IVec S16 32) (v56 : IVec S16 32), Decidable (k0_chk5 v49 v56) := fun v49 v56 => decidable_of_iff' _ (Iff.of_eq (k0_chk5.eq_1 v49 v56))
theorem k0_idx5_inb : ∀ (v49 : IVec S16 32) (v56 : IVec S16 32) (k0_hw5 : k0_chk5 v49 v56), ∀ a x, ((![v49, v56] : Fin 2 → IVec S16 32) a x).toNat < S32x128.size a := fun v49 v56 k0_hw5 => k0_hw5

def k0_chk6 (v63 : IVec S16 32) (v65 : IVec S16 32) : Prop :=
  (∀ a x, ((![v65, v63] : Fin 2 → IVec S16 32) a x).toNat < S32x128.size a)
instance k0_chk6.dec : ∀ (v63 : IVec S16 32) (v65 : IVec S16 32), Decidable (k0_chk6 v63 v65) := fun v63 v65 => decidable_of_iff' _ (Iff.of_eq (k0_chk6.eq_1 v63 v65))
theorem k0_idx6_inb : ∀ (v63 : IVec S16 32) (v65 : IVec S16 32) (k0_hw6 : k0_chk6 v63 v65), ∀ a x, ((![v65, v63] : Fin 2 → IVec S16 32) a x).toNat < S32x128.size a := fun v63 v65 k0_hw6 => k0_hw6
def k0_off13 (k0_t2 : Fin k0_t2_loop.trips) : Fin 1 → Nat :=
  let c0_i32_6 : BitVec 32 := 0#32
  let c0_i32_2 : BitVec 32 := 0#32
  let c1_i32_4 : BitVec 32 := 1#32
  let arg10 : BitVec 32 := Scf.iv c0_i32_2 c1_i32_4 k0_t2
  let c64_i32 : BitVec 32 := 64#32
  let v7 : BitVec 32 := Scalar.muli arg10 c64_i32
  let v8 : BitVec 32 := Scalar.addi c0_i32_6 v7
  let c48_i32 : BitVec 32 := 48#32
  let v66 : BitVec 32 := Scalar.addi v8 c48_i32
  let v67 : Index := Scalar.indexCast v66
  ![v67.toNat]

def k0_chk7 (v68 : IVec S16 32) (v75 : IVec S16 32) : Prop :=
  (∀ a x, ((![v68, v75] : Fin 2 → IVec S16 32) a x).toNat < S32x128.size a)
instance k0_chk7.dec : ∀ (v68 : IVec S16 32) (v75 : IVec S16 32), Decidable (k0_chk7 v68 v75) := fun v68 v75 => decidable_of_iff' _ (Iff.of_eq (k0_chk7.eq_1 v68 v75))
theorem k0_idx7_inb : ∀ (v68 : IVec S16 32) (v75 : IVec S16 32) (k0_hw7 : k0_chk7 v68 v75), ∀ a x, ((![v68, v75] : Fin 2 → IVec S16 32) a x).toNat < S32x128.size a := fun v68 v75 k0_hw7 => k0_hw7

def k0_chk8 (v82 : IVec S16 32) (v84 : IVec S16 32) : Prop :=
  (∀ a x, ((![v84, v82] : Fin 2 → IVec S16 32) a x).toNat < S32x128.size a)
instance k0_chk8.dec : ∀ (v82 : IVec S16 32) (v84 : IVec S16 32), Decidable (k0_chk8 v82 v84) := fun v82 v84 => decidable_of_iff' _ (Iff.of_eq (k0_chk8.eq_1 v82 v84))
theorem k0_idx8_inb : ∀ (v82 : IVec S16 32) (v84 : IVec S16 32) (k0_hw8 : k0_chk8 v82 v84), ∀ a x, ((![v84, v82] : Fin 2 → IVec S16 32) a x).toNat < S32x128.size a := fun v82 v84 k0_hw8 => k0_hw8
def k0_off14 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_6_r3 : BitVec 32 := 0#32
  let c0_i32_7_r3 : BitVec 32 := 0#32
  ![v1.toNat, 0, 0]
abbrev grid1 : Pipeline.Grid := .none

abbrev stage1_0 : Fin 1 → Memref sig .tc .vmem S32x32x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x102 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S102x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S11x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S102x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S256x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S128x18 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1x18 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S16x18 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S32768x2_S32768x1_0_0 : S32768x2.Slices ![0, 0] S32768x1
  shapeCasts_S32768x1_S32768 : S32768x1.ShapeCasts S32768
  slices_S32768x2_S32768x1_0_1 : S32768x2.Slices ![0, 1] S32768x1
  h_S1x16 : 0 < S1x16.numel
  shapeCasts_S1x16_S16 : S1x16.ShapeCasts S16
  shapeCasts_S16_S1x16 : S16.ShapeCasts S1x16
  h_S16 : 0 < S16.numel
  h_S32x128 : 0 < S32x128.numel
  squeezes_S1x32x128_S32x128 : S1x32x128.Squeezes S32x128
  shapeCasts_S128_S1x128 : S128.ShapeCasts S1x128
  shapeCasts_S18_S1x18 : S18.ShapeCasts S1x18
  inb_S32x32x128_S32x32x128_0_0_0 : ∀ a, (![0, 0, 0] : Fin 3 → Nat) a + S32x32x128.size a ≤ S32x32x128.size a
  h_S32x32x128 : 0 < S32x32x128.numel
  shapeCasts_S32x32x128_S32x32x128 : S32x32x128.ShapeCasts S32x32x128
  reduces_S32x32x128_S32x128 : S32x32x128.Reduces [0] S32x128
  slices_S32x128_o0_0_S16x102 : S32x128.Slices ![0, 0] S16x102
  slices_S32x128_o16_0_S16x11 : S32x128.Slices ![16, 0] S16x11
  inb_S102x128_S102x128_0_0 : ∀ a, (![0, 0] : Fin 2 → Nat) a + S102x128.size a ≤ S102x128.size a
  h_S102x128 : 0 < S102x128.numel
  inb_S11x128_S11x128_0_0 : ∀ a, (![0, 0] : Fin 2 → Nat) a + S11x128.size a ≤ S11x128.size a
  h_S11x128 : 0 < S11x128.numel
  inb_S16x102_S16x102_0_0 : ∀ a, (![0, 0] : Fin 2 → Nat) a + S16x102.size a ≤ S16x102.size a
  h_S16x102 : 0 < S16x102.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16x128 : S1x128.Broadcasts S16x128
  concatenates_S16x128_S16x128_S16x256_d1 : Shape.Concatenates [S16x128, S16x128] S16x256 1
  inb_S256x128_S256x128_0_0 : ∀ a, (![0, 0] : Fin 2 → Nat) a + S256x128.size a ≤ S256x128.size a
  h_S256x128 : 0 < S256x128.numel
  inb_S128x18_S128x18_0_0 : ∀ a, (![0, 0] : Fin 2 → Nat) a + S128x18.size a ≤ S128x18.size a
  h_S128x18 : 0 < S128x18.numel
  inb_S1x18_S1x18_0_0 : ∀ a, (![0, 0] : Fin 2 → Nat) a + S1x18.size a ≤ S1x18.size a
  h_S1x18 : 0 < S1x18.numel
  shapeCasts_S1x18_S1x18 : S1x18.ShapeCasts S1x18
  broadcasts_S1x18_S16x18 : S1x18.Broadcasts S16x18
  inb_S16x18_S16x18_0_0 : ∀ a, (![0, 0] : Fin 2 → Nat) a + S16x18.size a ≤ S16x18.size a
  h_S16x18 : 0 < S16x18.numel
  dot_S16x102_S102x128_S16x128_1_0_0_1_n_n_wf : DotDims.WF S16x102 S102x128 S16x128 [1] [0] [0] [1] [] []
  dot_S16x11_S11x128_S16x128_1_0_0_1_n_n_wf : DotDims.WF S16x11 S11x128 S16x128 [1] [0] [0] [1] [] []
  dot_S16x256_S256x128_S16x128_1_0_0_1_n_n_wf : DotDims.WF S16x256 S256x128 S16x128 [1] [0] [0] [1] [] []
  dot_S16x128_S128x18_S16x18_1_0_0_1_n_n_wf : DotDims.WF S16x128 S128x18 S16x18 [1] [0] [0] [1] [] []
  hcc0_scoped0 : 0 + S_.numel ≤ 15
  hcc0_scoped1 : 1 + S_.numel ≤ 15
  hcc0_scoped2 : 2 + S_.numel ≤ 15
  hcc0_scoped3 : 3 + S_.numel ≤ 15
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ k0_t1 : Fin k0_t1_loop.trips, ∀ a, (k0_off1 k0_t1) a + S1x16.size a ≤ S32x128.size a
  k0_off2_inb : ∀ k0_t1 : Fin k0_t1_loop.trips, ∀ a, (k0_off2 k0_t1) a + S1x16.size a ≤ S32x128.size a
  k0_off3_inb : ∀ k0_t1 : Fin k0_t1_loop.trips, ∀ a, (k0_off3 k0_t1) a + S1x16.size a ≤ S32x128.size a
  k0_off4_inb : ∀ k0_t1 : Fin k0_t1_loop.trips, ∀ a, (k0_off4 k0_t1) a + S1x16.size a ≤ S32x128.size a
  k0_off5_inb : ∀ k0_t1 : Fin k0_t1_loop.trips, ∀ a, (k0_off5 k0_t1) a + S1x16.size a ≤ S32x128.size a
  k0_off6_inb : ∀ k0_t1 : Fin k0_t1_loop.trips, ∀ a, (k0_off6 k0_t1) a + S1x16.size a ≤ S32x128.size a
  k0_off7_inb : ∀ k0_t1 : Fin k0_t1_loop.trips, ∀ a, (k0_off7 k0_t1) a + S1x16.size a ≤ S32x128.size a
  k0_off8_inb : ∀ k0_t1 : Fin k0_t1_loop.trips, ∀ a, (k0_off8 k0_t1) a + S1x16.size a ≤ S32x128.size a
  k0_off9_inb : ∀ i : grid0.Coords, ∀ a, (k0_off9 i) a + S1024.size a ≤ S32768.size a
  k0_t2_ok : k0_t2_loop.OK
  k0_off10_inb : ∀ k0_t2 : Fin k0_t2_loop.trips, ∀ a, (k0_off10 k0_t2) a + S16.size a ≤ S1024.size a
  k0_off11_inb : ∀ k0_t2 : Fin k0_t2_loop.trips, ∀ a, (k0_off11 k0_t2) a + S16.size a ≤ S1024.size a
  k0_off12_inb : ∀ k0_t2 : Fin k0_t2_loop.trips, ∀ a, (k0_off12 k0_t2) a + S16.size a ≤ S1024.size a
  k0_off13_inb : ∀ k0_t2 : Fin k0_t2_loop.trips, ∀ a, (k0_off13 k0_t2) a + S16.size a ≤ S1024.size a
  k0_off14_inb : ∀ i : grid0.Coords, ∀ a, (k0_off14 i) a + S1x32x128.size a ≤ S32x32x128.size a
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hstage1_5 : ∀ j, (stage1_5 j).IsWhole
  hstage1_6 : ∀ j, (stage1_6 j).IsWhole
  hstage1_7 : ∀ j, (stage1_7 j).IsWhole
  hstage1_8 : ∀ j, (stage1_8 j).IsWhole
  hstage1_9 : ∀ j, (stage1_9 j).IsWhole
  hstage1_10 : ∀ j, (stage1_10 j).IsWhole

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3
def dot_S16x102_S102x128_S16x128_1_0_0_1_n_n : DotDims S16x102 S102x128 S16x128 where
  lhsContracting := [1]
  rhsContracting := [0]
  lhsNonContracting := [0]
  rhsNonContracting := [1]
  lhsBatch := []
  rhsBatch := []
  wf := dot_S16x102_S102x128_S16x128_1_0_0_1_n_n_wf
def dot_S16x11_S11x128_S16x128_1_0_0_1_n_n : DotDims S16x11 S11x128 S16x128 where
  lhsContracting := [1]
  rhsContracting := [0]
  lhsNonContracting := [0]
  rhsNonContracting := [1]
  lhsBatch := []
  rhsBatch := []
  wf := dot_S16x11_S11x128_S16x128_1_0_0_1_n_n_wf
def dot_S16x256_S256x128_S16x128_1_0_0_1_n_n : DotDims S16x256 S256x128 S16x128 where
  lhsContracting := [1]
  rhsContracting := [0]
  lhsNonContracting := [0]
  rhsNonContracting := [1]
  lhsBatch := []
  rhsBatch := []
  wf := dot_S16x256_S256x128_S16x128_1_0_0_1_n_n_wf
def dot_S16x128_S128x18_S16x18_1_0_0_1_n_n : DotDims S16x128 S128x18 S16x18 where
  lhsContracting := [1]
  rhsContracting := [0]
  lhsNonContracting := [0]
  rhsNonContracting := [1]
  lhsBatch := []
  rhsBatch := []
  wf := dot_S16x128_S128x18_S16x18_1_0_0_1_n_n_wf

abbrev win1_0 : Pipeline.Window sig grid1 :=
  Pipeline.Window.whole (Memref.whole main_v4) false false (stage1_0 0) (sem1_0 0) (Memref.isWhole_whole _) (hstage1_0 0)

abbrev win1_1 : Pipeline.Window sig grid1 :=
  Pipeline.Window.whole (Memref.whole main_arg2) false false (stage1_1 0) (sem1_1 0) (Memref.isWhole_whole _) (hstage1_1 0)

abbrev win1_2 : Pipeline.Window sig grid1 :=
  Pipeline.Window.whole (Memref.whole main_arg3) false false (stage1_2 0) (sem1_2 0) (Memref.isWhole_whole _) (hstage1_2 0)

abbrev win1_3 : Pipeline.Window sig grid1 :=
  Pipeline.Window.whole (Memref.whole main_arg4) false false (stage1_3 0) (sem1_3 0) (Memref.isWhole_whole _) (hstage1_3 0)

abbrev win1_4 : Pipeline.Window sig grid1 :=
  Pipeline.Window.whole (Memref.whole main_arg5) false false (stage1_4 0) (sem1_4 0) (Memref.isWhole_whole _) (hstage1_4 0)

abbrev win1_5 : Pipeline.Window sig grid1 :=
  Pipeline.Window.whole (Memref.whole main_v5) false false (stage1_5 0) (sem1_5 0) (Memref.isWhole_whole _) (hstage1_5 0)

abbrev win1_6 : Pipeline.Window sig grid1 :=
  Pipeline.Window.whole (Memref.whole main_arg7) false false (stage1_6 0) (sem1_6 0) (Memref.isWhole_whole _) (hstage1_6 0)

abbrev win1_7 : Pipeline.Window sig grid1 :=
  Pipeline.Window.whole (Memref.whole main_v6) false false (stage1_7 0) (sem1_7 0) (Memref.isWhole_whole _) (hstage1_7 0)

abbrev win1_8 : Pipeline.Window sig grid1 :=
  Pipeline.Window.whole (Memref.whole main_arg9) false false (stage1_8 0) (sem1_8 0) (Memref.isWhole_whole _) (hstage1_8 0)

abbrev win1_9 : Pipeline.Window sig grid1 :=
  Pipeline.Window.whole (Memref.whole main_v7) false false (stage1_9 0) (sem1_9 0) (Memref.isWhole_whole _) (hstage1_9 0)

abbrev win1_10 : Pipeline.Window sig grid1 :=
  Pipeline.Window.whole (Memref.whole main_v8) true false (stage1_10 0) (sem1_10 0) (Memref.isWhole_whole _) (hstage1_10 0)

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S32768x2 : Shape := ⟨2, ![32768, 2]⟩
abbrev S32768 : Shape := ⟨1, ![32768]⟩
abbrev S16x102 : Shape := ⟨2, ![16, 102]⟩
abbrev S102x128 : Shape := ⟨2, ![102, 128]⟩
abbrev S11x128 : Shape := ⟨2, ![11, 128]⟩
abbrev S128 : Shape := ⟨1, ![128]⟩
abbrev S256x128 : Shape := ⟨2, ![256, 128]⟩
abbrev S128x18 : Shape := ⟨2, ![128, 18]⟩
abbrev S18 : Shape := ⟨1, ![18]⟩
abbrev S32768x1 : Shape := ⟨2, ![32768, 1]⟩
abbrev S_ : Shape := ⟨0, ![]⟩
abbrev S1 : Shape := ⟨1, ![1]⟩
abbrev S1x1 : Shape := ⟨2, ![1, 1]⟩
abbrev S32768x128 : Shape := ⟨2, ![32768, 128]⟩
abbrev S16x128 : Shape := ⟨2, ![16, 128]⟩
abbrev S1x128 : Shape := ⟨2, ![1, 128]⟩
abbrev S16x256 : Shape := ⟨2, ![16, 256]⟩
abbrev S16x18 : Shape := ⟨2, ![16, 18]⟩
abbrev S1x18 : Shape := ⟨2, ![1, 18]⟩

abbrev nBuf : Space → Nat
  | .hbm => 98
  | .vmem => 0
  | .smem => 0
  | _ => 0

abbrev bufTy : (tb : Table) → Fin (tcTables nBuf tb) → BufTy
  | .hbm, ⟨0, _⟩ => ⟨S32768x2, .i32⟩
  | .hbm, ⟨1, _⟩ => ⟨S32768, .i32⟩
  | .hbm, ⟨2, _⟩ => ⟨S16x102, .f32⟩
  | .hbm, ⟨3, _⟩ => ⟨S102x128, .f32⟩
  | .hbm, ⟨4, _⟩ => ⟨S11x128, .f32⟩
  | .hbm, ⟨5, _⟩ => ⟨S102x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x18, .f32⟩
  | .hbm, ⟨10, _⟩ => ⟨S18, .f32⟩
  | .hbm, ⟨11, _⟩ => ⟨S32768x1, .i32⟩
  | .hbm, ⟨12, _⟩ => ⟨S32768, .i32⟩
  | .hbm, ⟨13, _⟩ => ⟨S32768x1, .i32⟩
  | .hbm, ⟨14, _⟩ => ⟨S32768, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S32768, .i32⟩
  | .hbm, ⟨19, _⟩ => ⟨S32768, .i32⟩
  | .hbm, ⟨20, _⟩ => ⟨S_, .i32⟩
  | .hbm, ⟨21, _⟩ => ⟨S32768, .i32⟩
  | .hbm, ⟨22, _⟩ => ⟨S32768, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S32768, .i32⟩
  | .hbm, ⟨27, _⟩ => ⟨S32768, .i32⟩
  | .hbm, ⟨28, _⟩ => ⟨S_, .i32⟩
  | .hbm, ⟨29, _⟩ => ⟨S32768, .i32⟩
  | .hbm, ⟨30, _⟩ => ⟨S32768, .i32⟩
  | .hbm, ⟨31, _⟩ => ⟨S_, .i32⟩
  | .hbm, ⟨32, _⟩ => ⟨S32768, .i32⟩
  | .hbm, ⟨33, _⟩ => ⟨S32768, .i1⟩
  | .hbm, ⟨34, _⟩ => ⟨S_, .i32⟩
  | .hbm, ⟨35, _⟩ => ⟨S32768, .i32⟩
  | .hbm, ⟨36, _⟩ => ⟨S32768, .i32⟩
  | .hbm, ⟨37, _⟩ => ⟨S32768, .i32⟩
  | .hbm, ⟨38, _⟩ => ⟨S32768x1, .i32⟩
  | .hbm, ⟨39, _⟩ => ⟨S1, .i32⟩
  | .hbm, ⟨40, _⟩ => ⟨S_, .i32⟩
  | .hbm, ⟨41, _⟩ => ⟨S32768x1, .i32⟩
  | .hbm, ⟨42, _⟩ => ⟨S32768x1, .i1⟩
  | .hbm, ⟨43, _⟩ => ⟨S1x1, .i32⟩
  | .hbm, ⟨44, _⟩ => ⟨S32768x1, .i32⟩
  | .hbm, ⟨45, _⟩ => ⟨S32768x1, .i1⟩
  | .hbm, ⟨46, _⟩ => ⟨S32768x1, .i1⟩
  | .hbm, ⟨47, _⟩ => ⟨S_, .i1⟩
  | .hbm, ⟨48, _⟩ => ⟨S32768, .i1⟩
  | .hbm, ⟨49, _⟩ => ⟨S32768x128, .f32⟩
  | .hbm, ⟨50, _⟩ => ⟨S32768x128, .i1⟩
  | .hbm, ⟨51, _⟩ => ⟨S_, .f32⟩
  | .hbm, ⟨52, _⟩ => ⟨S32768x128, .f32⟩
  | .hbm, ⟨53, _⟩ => ⟨S32768x128, .f32⟩
  | .hbm, ⟨54, _⟩ => ⟨S_, .i32⟩
  | .hbm, ⟨55, _⟩ => ⟨S32768, .i32⟩
  | .hbm, ⟨56, _⟩ => ⟨S32768, .i1⟩
  | .hbm, ⟨57, _⟩ => ⟨S_, .i32⟩
  | .hbm, ⟨58, _⟩ => ⟨S32768, .i32⟩
  | .hbm, ⟨59, _⟩ => ⟨S32768, .i32⟩
  | .hbm, ⟨60, _⟩ => ⟨S32768, .i32⟩
  | .hbm, ⟨61, _⟩ => ⟨S32768x1, .i32⟩
  | .hbm, ⟨62, _⟩ => ⟨S1, .i32⟩
  | .hbm, ⟨63, _⟩ => ⟨S_, .i32⟩
  | .hbm, ⟨64, _⟩ => ⟨S32768x1, .i32⟩
  | .hbm, ⟨65, _⟩ => ⟨S32768x1, .i1⟩
  | .hbm, ⟨66, _⟩ => ⟨S1x1, .i32⟩
  | .hbm, ⟨67, _⟩ => ⟨S32768x1, .i32⟩
  | .hbm, ⟨68, _⟩ => ⟨S32768x1, .i1⟩
  | .hbm, ⟨69, _⟩ => ⟨S32768x1, .i1⟩
  | .hbm, ⟨70, _⟩ => ⟨S_, .i1⟩
  | .hbm, ⟨71, _⟩ => ⟨S32768, .i1⟩
  | .hbm, ⟨72, _⟩ => ⟨S32768x128, .f32⟩
  | .hbm, ⟨73, _⟩ => ⟨S32768x128, .i1⟩
  | .hbm, ⟨74, _⟩ => ⟨S_, .f32⟩
  | .hbm, ⟨75, _⟩ => ⟨S32768x128, .f32⟩
  | .hbm, ⟨76, _⟩ => ⟨S32768x128, .f32⟩
  | .hbm, ⟨77, _⟩ => ⟨S32768x128, .f32⟩
  | .hbm, ⟨78, _⟩ => ⟨S_, .f32⟩
  | .hbm, ⟨79, _⟩ => ⟨S16x128, .f32⟩
  | .hbm, ⟨80, _⟩ => ⟨S32768x1, .i32⟩
  | .hbm, ⟨81, _⟩ => ⟨S16x128, .f32⟩
  | .hbm, ⟨82, _⟩ => ⟨S16x128, .f32⟩
  | .hbm, ⟨83, _⟩ => ⟨S1x128, .f32⟩
  | .hbm, ⟨84, _⟩ => ⟨S16x128, .f32⟩
  | .hbm, ⟨85, _⟩ => ⟨S16x128, .f32⟩
  | .hbm, ⟨86, _⟩ => ⟨S16x256, .f32⟩
  | .hbm, ⟨87, _⟩ => ⟨S16x128, .f32⟩
  | .hbm, ⟨88, _⟩ => ⟨S1x128, .f32⟩
  | .hbm, ⟨89, _⟩ => ⟨S16x128, .f32⟩
  | .hbm, ⟨90, _⟩ => ⟨S16x128, .f32⟩
  | .hbm, ⟨91, _⟩ => ⟨S_, .f32⟩
  | .hbm, ⟨92, _⟩ => ⟨S16x128, .f32⟩
  | .hbm, ⟨93, _⟩ => ⟨S16x128, .f32⟩
  | .hbm, ⟨94, _⟩ => ⟨S16x18, .f32⟩
  | .hbm, ⟨95, _⟩ => ⟨S1x18, .f32⟩
  | .hbm, ⟨96, _⟩ => ⟨S16x18, .f32⟩
  | .hbm, ⟨97, _⟩ => ⟨S16x18, .f32⟩
  | _, _ => ⟨S32768x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v4 : Ref sig .tc := ⟨.hbm, 22, rfl⟩
abbrev main_c_1 : Ref sig .tc := ⟨.hbm, 23, rfl⟩
abbrev main_c_2 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v5 : Ref sig .tc := ⟨.hbm, 30, rfl⟩
abbrev main_call2_c : Ref sig .tc := ⟨.hbm, 31, rfl⟩
abbrev main_call2_v0 : Ref sig .tc := ⟨.hbm, 32, rfl⟩
abbrev main_call2_v1 : Ref sig .tc := ⟨.hbm, 33, rfl⟩
abbrev main_call2_c_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_c_1 : Ref sig .tc := ⟨.hbm, 39, rfl⟩
abbrev main_call2_c_2 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_3 : Ref sig .tc := ⟨.hbm, 47, rfl⟩
abbrev main_call2_v12 : Ref sig .tc := ⟨.hbm, 48, rfl⟩
abbrev main_call2_v13 : Ref sig .tc := ⟨.hbm, 49, rfl⟩
abbrev main_call2_v14 : Ref sig .tc := ⟨.hbm, 50, rfl⟩
abbrev main_call2_cst : Ref sig .tc := ⟨.hbm, 51, rfl⟩
abbrev main_call2_v15 : Ref sig .tc := ⟨.hbm, 52, rfl⟩
abbrev main_v6 : Ref sig .tc := ⟨.hbm, 53, rfl⟩
abbrev main_call3_c : Ref sig .tc := ⟨.hbm, 54, rfl⟩
abbrev main_call3_v0 : Ref sig .tc := ⟨.hbm, 55, rfl⟩
abbrev main_call3_v1 : Ref sig .tc := ⟨.hbm, 56, rfl⟩
abbrev main_call3_c_0 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_call3_v5 : Ref sig .tc := ⟨.hbm, 61, rfl⟩
abbrev main_call3_c_1 : Ref sig .tc := ⟨.hbm, 62, rfl⟩
abbrev main_call3_c_2 : Ref sig .tc := ⟨.hbm, 63, rfl⟩
abbrev main_call3_v6 : Ref sig .tc := ⟨.hbm, 64, rfl⟩
abbrev main_call3_v7 : Ref sig .tc := ⟨.hbm, 65, rfl⟩
abbrev main_call3_v8 : Ref sig .tc := ⟨.hbm, 66, rfl⟩
abbrev main_call3_v9 : Ref sig .tc := ⟨.hbm, 67, rfl⟩
abbrev main_call3_v10 : Ref sig .tc := ⟨.hbm, 68, rfl⟩
abbrev main_call3_v11 : Ref sig .tc := ⟨.hbm, 69, rfl⟩
abbrev main_call3_c_3 : Ref sig .tc := ⟨.hbm, 70, rfl⟩
abbrev main_call3_v12 : Ref sig .tc := ⟨.hbm, 71, rfl⟩
abbrev main_call3_v13 : Ref sig .tc := ⟨.hbm, 72, rfl⟩
abbrev main_call3_v14 : Ref sig .tc := ⟨.hbm, 73, rfl⟩
abbrev main_call3_cst : Ref sig .tc := ⟨.hbm, 74, rfl⟩
abbrev main_call3_v15 : Ref sig .tc := ⟨.hbm, 75, rfl⟩
abbrev main_v7 : Ref sig .tc := ⟨.hbm, 76, rfl⟩
abbrev main_v8 : Ref sig .tc := ⟨.hbm, 77, rfl⟩
abbrev main_cst : Ref sig .tc := ⟨.hbm, 78, rfl⟩
abbrev main_v9 : Ref sig .tc := ⟨.hbm, 79, rfl⟩
abbrev main_v10 : Ref sig .tc := ⟨.hbm, 80, rfl⟩
abbrev main_v11 : Ref sig .tc := ⟨.hbm, 81, rfl⟩
abbrev main_v12 : Ref sig .tc := ⟨.hbm, 82, rfl⟩
abbrev main_v13 : Ref sig .tc := ⟨.hbm, 83, rfl⟩
abbrev main_v14 : Ref sig .tc := ⟨.hbm, 84, rfl⟩
abbrev main_v15 : Ref sig .tc := ⟨.hbm, 85, rfl⟩
abbrev main_v16 : Ref sig .tc := ⟨.hbm, 86, rfl⟩
abbrev main_v17 : Ref sig .tc := ⟨.hbm, 87, rfl⟩
abbrev main_v18 : Ref sig .tc := ⟨.hbm, 88, rfl⟩
abbrev main_v19 : Ref sig .tc := ⟨.hbm, 89, rfl⟩
abbrev main_v20 : Ref sig .tc := ⟨.hbm, 90, rfl⟩
abbrev main_cst_3 : Ref sig .tc := ⟨.hbm, 91, rfl⟩
abbrev main_v21 : Ref sig .tc := ⟨.hbm, 92, rfl⟩
abbrev main_v22 : Ref sig .tc := ⟨.hbm, 93, rfl⟩
abbrev main_v23 : Ref sig .tc := ⟨.hbm, 94, rfl⟩
abbrev main_v24 : Ref sig .tc := ⟨.hbm, 95, rfl⟩
abbrev main_v25 : Ref sig .tc := ⟨.hbm, 96, rfl⟩
abbrev main_v26 : Ref sig .tc := ⟨.hbm, 97, rfl⟩

abbrev nD : Nat := 1
abbrev τ : Topo := Topo.v7x

variable {F : FTy → Type} [FloatOps F]

class Facts₀ : Prop where
  slices_S32768x2_S32768x1_0_0 : S32768x2.Slices ![0, 0] S32768x1
  shapeCasts_S32768x1_S32768 : S32768x1.ShapeCasts S32768
  slices_S32768x2_S32768x1_0_1 : S32768x2.Slices ![0, 1] S32768x1
  bcast_S_S32768 : S_.BroadcastsInDim S32768 (![] : Fin 0 → Fin S32768.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  reducesTo_S32768x1_S32768_d1 : S32768x1.ReducesTo [1] S32768
  h_S_ : 0 < S_.numel
  bcast_S32768_S32768x128_0 : S32768.BroadcastsInDim S32768x128 (![0] : Fin 1 → Fin S32768x128.rank)
  bcast_S_S32768x128 : S_.BroadcastsInDim S32768x128 (![] : Fin 0 → Fin S32768x128.rank)
  bcast_S_S16x128 : S_.BroadcastsInDim S16x128 (![] : Fin 0 → Fin S16x128.rank)
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  concatenates_S16x128_S16x128_S16x256_d1 : Shape.Concatenates [S16x128, S16x128] S16x256 1
  bcast_S18_S1x18_1 : S18.BroadcastsInDim S1x18 (![1] : Fin 1 → Fin S1x18.rank)
  bcast_S1x18_S16x18_0_1 : S1x18.BroadcastsInDim S16x18 (![0, 1] : Fin 2 → Fin S16x18.rank)
  gather_S102x128_S32768x1_S32768x128_1_0_n_n_0_1_1128_wf : GatherDims.WF S102x128 S32768x1 S32768x128 [1] [0] [] [0] [] 1 ![1, 128]
  gather_S11x128_S32768x1_S32768x128_1_0_n_n_0_1_1128_wf : GatherDims.WF S11x128 S32768x1 S32768x128 [1] [0] [] [0] [] 1 ![1, 128]
  scatter_S16x128_S32768x1_S32768x128_1_0_0_1_wf : ScatterDims.WF S16x128 S32768x1 S32768x128 [1] [0] [0] 1
  dot_S16x102_S102x128_S16x128_1_0_0_1_n_n_wf : DotDims.WF S16x102 S102x128 S16x128 [1] [0] [0] [1] [] []
  dot_S16x256_S256x128_S16x128_1_0_0_1_n_n_wf : DotDims.WF S16x256 S256x128 S16x128 [1] [0] [0] [1] [] []
  dot_S16x128_S128x18_S16x18_1_0_0_1_n_n_wf : DotDims.WF S16x128 S128x18 S16x18 [1] [0] [0] [1] [] []

variable [Facts₀]

def gather_S102x128_S32768x1_S32768x128_1_0_n_n_0_1_1128 : GatherDims S102x128 S32768x1 S32768x128 where
  offsetDims := [1]
  collapsedSliceDims := [0]
  operandBatchingDims := []
  startIndicesBatchingDims := []
  startIndexMap := [0]
  indexVectorDim := 1
  sliceSizes := ![1, 128]
  wf := gather_S102x128_S32768x1_S32768x128_1_0_n_n_0_1_1128_wf
def gather_S11x128_S32768x1_S32768x128_1_0_n_n_0_1_1128 : GatherDims S11x128 S32768x1 S32768x128 where
  offsetDims := [1]
  collapsedSliceDims := [0]
  operandBatchingDims := []
  startIndicesBatchingDims := []
  startIndexMap := [0]
  indexVectorDim := 1
  sliceSizes := ![1, 128]
  wf := gather_S11x128_S32768x1_S32768x128_1_0_n_n_0_1_1128_wf
def scatter_S16x128_S32768x1_S32768x128_1_0_0_1 : ScatterDims S16x128 S32768x1 S32768x128 where
  updateWindowDims := [1]
  insertedWindowDims := [0]
  scatterDimsToOperandDims := [0]
  indexVectorDim := 1
  wf := scatter_S16x128_S32768x1_S32768x128_1_0_0_1_wf
def dot_S16x102_S102x128_S16x128_1_0_0_1_n_n : DotDims S16x102 S102x128 S16x128 where
  lhsContracting := [1]
  rhsContracting := [0]
  lhsNonContracting := [0]
  rhsNonContracting := [1]
  lhsBatch := []
  rhsBatch := []
  wf := dot_S16x102_S102x128_S16x128_1_0_0_1_n_n_wf
def dot_S16x256_S256x128_S16x128_1_0_0_1_n_n : DotDims S16x256 S256x128 S16x128 where
  lhsContracting := [1]
  rhsContracting := [0]
  lhsNonContracting := [0]
  rhsNonContracting := [1]
  lhsBatch := []
  rhsBatch := []
  wf := dot_S16x256_S256x128_S16x128_1_0_0_1_n_n_wf
def dot_S16x128_S128x18_S16x18_1_0_0_1_n_n : DotDims S16x128 S128x18 S16x18 where
  lhsContracting := [1]
  rhsContracting := [0]
  lhsNonContracting := [0]
  rhsNonContracting := [1]
  lhsBatch := []
  rhsBatch := []
  wf := dot_S16x128_S128x18_S16x18_1_0_0_1_n_n_wf

class Facts : Prop extends Facts₀ where

variable [Facts]
-- ==== Proof.KSetup.lean ====
/-
  The kernel program as the launch theorem for SparseCore programs sees it, and the pieces of memory its threads
  exchange. Thirty-two tiles (two SparseCores of sixteen) each own one 1024-entry slice of the three index arrays
  (labels, degrees, segment ids) and one 32 x 128 row of the count array; slice and row number w = 16 c + s for
  tile s of SparseCore c. The resource algebra has three parts: the launch handshakes' rounds, the rounds of the
  TensorCore region's staging cells, and the counters of the tiles' own local copies.
-/
import proofs.«203920_g2267742732911_cont_8to1_1065_18_alg».proof.KernelIdeal
import Idealize.ShloMosaic.Lib.SparseCore.Launch
import Idealize.ShloMosaic.Lib.StableHlo.Run
import Idealize.ShloMosaic.Lib.Pipeline.Kit
import Idealize.ShloMosaic.Lib.Tactic
import proofs.«203920_g2267742732911_cont_8to1_1065_18_alg».proof.Proof.Gen.KernelIdeal
import proofs.«203920_g2267742732911_cont_8to1_1065_18_alg».proof.Proof.Gen.KernelIdeal.Skeleton

noncomputable section

namespace Cert.KernelIdeal.Setup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UR : Type := URounds (GSem nD τ sig) Unit
abbrev UU : Type := UH × (UR × Counters)

local notation "𝕄" => MT nD τ sig (HIx 1) (Elt F) ℕ UU ℕ

/-- The handshakes' rounds: the left factor. -/
abbrev EH : Emb UH (MT nD τ sig (HIx 1) (Elt F) ℕ UU ℕ) := embL
/-- The staging cells' rounds: the left factor of the right factor. -/
def ER : Emb UR (MT nD τ sig (HIx 1) (Elt F) ℕ UU ℕ) := (Emb.inl : Emb UR (UR × Counters)).trans embR

instance ER_landsIn : (ER : Emb UR 𝕄).LandsIn (upEmb : UEmb _ 𝕄) := by unfold ER embR; infer_instance

/-! ## Arrays, as the TensorCore and as a tile name them -/

abbrev labLoc (d : Dev nD) : Loc nD τ sig := (SparseCore.T d).loc main_v1
abbrev degLoc (d : Dev nD) : Loc nD τ sig := (SparseCore.T d).loc main_v3
abbrev batLoc (d : Dev nD) : Loc nD τ sig := (SparseCore.T d).loc main_arg1
abbrev cntLoc (d : Dev nD) : Loc nD τ sig := (SparseCore.T d).loc main_v4

abbrev labV : Memref sig .scVector .hbm S32768 .i32 := Memref.whole main_v1_scv
abbrev degV : Memref sig .scVector .hbm S32768 .i32 := Memref.whole main_v3_scv
abbrev batV : Memref sig .scVector .hbm S32768 .i32 := Memref.whole main_arg1_scv
abbrev cntV : Memref sig .scVector .hbm S32x32x128 .f32 := Memref.whole main_v4_scv
abbrev sLab : Memref sig .scVector .vmem S1024 .i32 := Memref.whole cc0_scratch0
abbrev sDeg : Memref sig .scVector .vmem S1024 .i32 := Memref.whole cc0_scratch1
abbrev sBat : Memref sig .scVector .vmem S1024 .i32 := Memref.whole cc0_scratch2
abbrev sTab : Memref sig .scVector .vmem S32x128 .f32 := Memref.whole cc0_scratch3

/-- The tile of grid coordinates `L`. -/
abbrev cV (L : grid0.Coords) : Fin τ.nSC := (L 0).castLE hcore0
abbrev jV (L : grid0.Coords) : Fin τ.nSub := (L 1).castLE hsub0

/-- Slice `16 c + s` of a 32768-entry index array, as the body slices it. -/
abbrev slRect (L : grid0.Coords) : Rect S32768 := Rect.unit (s := S32768) (k0_off9 L) S1024.size (k0_off9_inb L)
abbrev labSl (L : grid0.Coords) : Memref sig .scVector .hbm S1024 .i32 := (labV).slice (slRect L) (fun _ => rfl)
abbrev degSl (L : grid0.Coords) : Memref sig .scVector .hbm S1024 .i32 := (degV).slice (slRect L) (fun _ => rfl)
abbrev batSl (L : grid0.Coords) : Memref sig .scVector .hbm S1024 .i32 := (batV).slice (slRect L) (fun _ => rfl)
/-- Row `16 c + s` of the count array, as the body slices and squeezes it. -/
abbrev rowRect (L : grid0.Coords) : Rect S32x32x128 := Rect.unit (s := S32x32x128) (k0_off14 L) S1x32x128.size (k0_off14_inb L)
abbrev cntRow (L : grid0.Coords) : Memref sig .scVector .hbm S32x128 .f32 := ((cntV).slice (rowRect L) (fun _ => rfl)).squeeze S32x128 squeezes_S1x32x128_S32x128

/-- The elements of a slice, and of a row. -/
abbrev slSet (L : grid0.Coords) : Finset S32768.Idx := (labSl L).view.set
abbrev rowSet (L : grid0.Coords) : Finset S32x32x128.Idx := (cntRow L).view.set

variable (m : (ℓ : Loc nD τ sig) → Buf (Elt F) ℓ)

/-- One tile's share of the four arrays: its slice of each index array at the contents `fl fd fb`, its row of the
    count array at `fc`. -/
abbrev labSlPts (d : Dev nD) (L : grid0.Coords) (f : Buf (Elt F) (labLoc d)) : sProp 𝕄 := labLoc d ↦[slSet L]{fullShare} f
abbrev degSlPts (d : Dev nD) (L : grid0.Coords) (f : Buf (Elt F) (degLoc d)) : sProp 𝕄 := degLoc d ↦[slSet L]{fullShare} f
abbrev batSlPts (d : Dev nD) (L : grid0.Coords) (f : Buf (Elt F) (batLoc d)) : sProp 𝕄 := batLoc d ↦[slSet L]{fullShare} f
abbrev cntRowPts (d : Dev nD) (L : grid0.Coords) (f : Buf (Elt F) (cntLoc d)) : sProp 𝕄 := cntLoc d ↦[rowSet L]{fullShare} f

end Cert.KernelIdeal.Setup

end
-- ==== Proof.TileSpec.lean ====
import proofs.«203920_g2267742732911_cont_8to1_1065_18_alg».proof.KernelIdeal
import proofs.«203920_g2267742732911_cont_8to1_1065_18_alg».proof.Proof.Gen.KernelIdeal
import proofs.«203920_g2267742732911_cont_8to1_1065_18_alg».proof.Proof.Gen.KernelIdeal.Skeleton

/-! # One tile's table, as a pure function of the three 1024-entry slices it reads

A tile starts from the all-zero 32 x 128 table and then, for each of its 64 groups of sixteen
consecutive entries (ascending), adds a one at (batch, clipped label) and a one at
(batch + 16, clipped degree) for each of the sixteen lanes, lanes ascending. -/

noncomputable section

namespace Cert.KernelIdeal.Hist

open Idealize.ShloMosaic Cert.KernelIdeal Cert.KernelIdeal.Gen

variable {F : FTy → Type} [FloatOps F]

/-- Lanes 16q .. 16q+15 of a 1024-vector (the index is taken mod 1024 so that the definition is
    total; for q < 64 nothing wraps). -/
def lanes (v : Vec F S1024 .i32) (q : Nat) : IVec S16 32 :=
  fun x => v (Shape.ofLane (d := ![1024]) ⟨(16 * q + (x 0).val) % 1024, Nat.mod_lt _ (by decide)⟩)

/-- Sixteen ones accumulated at (row k, col k), lanes ascending; the table is left unchanged if
    some index is out of range. -/
def scat (tab : Vec F S32x128 .f32) (row col : IVec S16 32) : Vec F S32x128 .f32 :=
  if h : ∀ (a : Fin S32x128.rank) (x : S16.Idx),
      ((![row, col] : Fin 2 → IVec S16 32) a x).toNat < S32x128.size a
  then storeIdx tab ![row, col] (k0_pay2 (F := F)) (fun _ => 1#1) true h else tab

/-- Group q: labels clipped to [0, 101], degrees clipped to [0, 10], the degree rows shifted by 16. -/
def group (tab : Vec F S32x128 .f32) (lab deg bat : Vec F S1024 .i32) (q : Nat) : Vec F S32x128 .f32 :=
  scat (scat tab (lanes (F := F) bat q) (k0_pay5 (F := F) (lanes (F := F) lab q)))
    (k0_pay7 (F := F) (lanes (F := F) bat q)) (k0_pay6 (F := F) (lanes (F := F) deg q))

/-- The table after the first q groups. -/
def tabAfter (lab deg bat : Vec F S1024 .i32) : Nat → Vec F S32x128 .f32
  | 0 => fun _ => Scalar.ofBits .f32 0x00000000#32
  | q + 1 => group (tabAfter lab deg bat q) lab deg bat q

/-- The table a tile copies out: all 64 groups done. -/
def tileTab (lab deg bat : Vec F S1024 .i32) : Vec F S32x128 .f32 := tabAfter lab deg bat 64

theorem scat_eq (tab : Vec F S32x128 .f32) (row col : IVec S16 32)
    (h : ∀ (a : Fin S32x128.rank) (x : S16.Idx),
      ((![row, col] : Fin 2 → IVec S16 32) a x).toNat < S32x128.size a) :
    storeIdx tab ![row, col] (k0_pay2 (F := F)) (fun _ => 1#1) true h = scat tab row col := by
  unfold scat; rw [dif_pos h]

theorem tabAfter_succ (lab deg bat : Vec F S1024 .i32) (q : Nat) :
    tabAfter lab deg bat (q + 1) = group (tabAfter lab deg bat q) lab deg bat q := rfl

end Cert.KernelIdeal.Hist

end
-- ==== Proof.KPay.lean ====
/-
  The payloads of the launch handshakes for the count kernel, and its operand split. A SparseCore is handed the
  shares of its sixteen tiles side by side; a tile is handed its slice of the three index arrays and its row of the
  count array, and hands back the slices unchanged and the row holding its table.
-/
import proofs.«203920_g2267742732911_cont_8to1_1065_18_alg».proof.Proof.KSetup
import proofs.«203920_g2267742732911_cont_8to1_1065_18_alg».proof.Proof.TileSpec

noncomputable section

namespace Cert.KernelIdeal.Pay

open Cert.KernelIdeal Cert.KernelIdeal.Gen Cert.KernelIdeal.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- Grid coordinates from a SparseCore's and a tile's number. -/
def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

theorem nCore_le (q : Fin 1) : (K (F := F)).nCore q ≤ grid0.bound 0 := by
  match q with | 0 => exact Nat.le_refl _
theorem nSub_le (q : Fin 1) : (K (F := F)).nSub q ≤ grid0.bound 1 := by
  match q with | 0 => exact Nat.le_refl _

/-- The tile that runs task i of SparseCore c of the call's grid. -/
abbrev Lof {q : Fin 1} (c : Fin ((K (F := F)).nCore q)) (i : Fin ((K (F := F)).nSub q)) : grid0.Coords :=
  coordsV ⟨c.val, Nat.lt_of_lt_of_le c.isLt (nCore_le q)⟩ ⟨i.val, Nat.lt_of_lt_of_le i.isLt (nSub_le q)⟩

variable [FloatOps F]

/-- A buffer of the count array holds, on the row of tile `L`, the table of the tile's slices. -/
def RowOK (d : Dev nD) (L : grid0.Coords) (fl : Buf (Elt F) (labLoc d)) (fd : Buf (Elt F) (degLoc d)) (fb : Buf (Elt F) (batLoc d))
    (f : Buf (Elt F) (cntLoc d)) : Prop :=
  ∀ y : S32x128.Idx, (cntRow L).view.read (Elt F) f y
    = Hist.tileTab (F := F) ((labSl L).view.read (Elt F) fl) ((degSl L).view.read (Elt F) fd) ((batSl L).view.read (Elt F) fb) y

section P

variable (fl : (d : Dev nD) → Buf (Elt F) (labLoc d)) (fd : (d : Dev nD) → Buf (Elt F) (degLoc d))
  (fb : (d : Dev nD) → Buf (Elt F) (batLoc d)) (fc : (d : Dev nD) → Buf (Elt F) (cntLoc d))

/-- What a tile is handed, and what it hands back. -/
def goT (d : Dev nD) (L : grid0.Coords) : sProp 𝕄 :=
  iprop(labSlPts d L (fl d) ∗ degSlPts d L (fd d) ∗ batSlPts d L (fb d) ∗ cntRowPts d L (fc d))
def tdT (d : Dev nD) (L : grid0.Coords) : sProp 𝕄 :=
  iprop(labSlPts d L (fl d) ∗ degSlPts d L (fd d) ∗ batSlPts d L (fb d) ∗ ∃ f, ⌜RowOK d L (fl d) (fd d) (fb d) f⌝ ∗ cntRowPts d L f)

instance goT_storable (d : Dev nD) (L : grid0.Coords) : BI.Storable (upEmb : UEmb _ 𝕄) (goT fl fd fb fc d L) := by
  unfold goT; infer_instance
instance tdT_storable (d : Dev nD) (L : grid0.Coords) : BI.Storable (upEmb : UEmb _ 𝕄) (tdT fl fd fb d L) := by
  unfold tdT; infer_instance

/-- The call's payloads: a SparseCore's are its tiles'. -/
def P : (K (F := F)).Pay (nD := nD) (Val := Elt F) (Name := ℕ) (U := UU) where
  st := fun q d c => bigSep Finset.univ fun i : Fin ((K (F := F)).nSub q) => goT fl fd fb fc d (Lof c i)
  dn := fun q d c => bigSep Finset.univ fun i : Fin ((K (F := F)).nSub q) => tdT fl fd fb d (Lof c i)
  go := fun _ d c i => goT fl fd fb fc d (Lof c i)
  td := fun _ d c i => tdT fl fd fb d (Lof c i)
  x := fun _ _ => iprop(emp)

instance P_storable : (P (F := F) fl fd fb fc).IsStorable where
  st _ d c := by unfold P; infer_instance
  dn _ d c := by unfold P; infer_instance
  go _ _ _ _ := by unfold P; infer_instance
  td _ _ _ _ := by unfold P; infer_instance

/-- The split of a SparseCore's operands among its tiles is the identity. -/
theorem vecSplit : (K (F := F)).VecSplit' (P fl fd fb fc) 0 := by
  intro d c
  show (bigSep Finset.univ fun i : Fin ((K (F := F)).nSub 0) => goT fl fd fb fc d (Lof c i)) ⊢ |={Set.univ}=> iprop(
      (bigSep Finset.univ fun i : Fin ((K (F := F)).nSub 0) => goT fl fd fb fc d (Lof c i))
      ∗ ((bigSep Finset.univ fun i : Fin ((K (F := F)).nSub 0) => tdT fl fd fb d (Lof c i))
          -∗ (bigSep Finset.univ fun i : Fin ((K (F := F)).nSub 0) => tdT fl fd fb d (Lof c i))))
  iintro H; imodintro
  isplitl [H]; · iexact H
  iintro H; iexact H

end P

end Cert.KernelIdeal.Pay

end
-- ==== Proof.KPart.lean ====
/-
  The thirty-two tiles' slices partition a 32768-entry index array, and their rows partition the count array:
  slice (c, s) is the interval [16384 c + 1024 s, 16384 c + 1024 s + 1024), row (c, s) the indices whose first
  coordinate is 16 c + s. Hence an array held whole is its slices (rows) held side by side, and back.
-/
import proofs.«203920_g2267742732911_cont_8to1_1065_18_alg».proof.Proof.KPay
import proofs.«203920_g2267742732911_cont_8to1_1065_18_alg».proof.Proof.Gen.KernelIdeal.Launch

noncomputable section

namespace Cert.KernelIdeal.Part

open Cert.KernelIdeal Cert.KernelIdeal.Gen Cert.KernelIdeal.Setup Cert.KernelIdeal.Pay

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## Membership -/

theorem mem_slSet (L : grid0.Coords) (j : S32768.Idx) :
    j ∈ slSet L ↔ 16384 * (L 0).val + 1024 * (L 1).val ≤ (j 0).val ∧ (j 0).val < 16384 * (L 0).val + 1024 * (L 1).val + 1024 := by
  show j ∈ ((View.whole (main_v1_scv : Ref sig .scVector)).slice (slRect L)).set ↔ _
  rw [View.set_slice_whole, Rect.mem_set_unit]
  constructor
  · intro h
    have h0 := h 0
    rw [k0_off9_eq] at h0
    exact ⟨h0.1, h0.2⟩
  · intro h a
    rw [k0_off9_eq]
    obtain ⟨a, ha⟩ := a
    have ha0 : a = 0 := by change a < 1 at ha; omega
    subst ha0
    exact ⟨h.1, h.2⟩

theorem mem_rowSet (L : grid0.Coords) (j : S32x32x128.Idx) :
    j ∈ rowSet L ↔ (j 0).val = 16 * (L 0).val + (L 1).val := by
  show j ∈ (((cntV : Memref sig .scVector .hbm S32x32x128 .f32).view.slice (rowRect L)).reshape S32x128 squeezes_S1x32x128_S32x128.numel_eq).set ↔ _
  rw [View.set_reshape]
  show j ∈ ((View.whole (main_v4_scv : Ref sig .scVector)).slice (rowRect L)).set ↔ _
  rw [View.set_slice_whole, Rect.mem_set_unit]
  constructor
  · intro h
    have h0 := h 0
    rw [k0_off14_eq] at h0
    have : (S1x32x128.size 0) = 1 := rfl
    simp only [Matrix.cons_val_zero] at h0
    omega
  · intro h a
    rw [k0_off14_eq]
    have hb := (j a).isLt
    match a with
    | 0 => simp only [Matrix.cons_val_zero]; exact ⟨by omega, by show (j 0).val < _ + 1; omega⟩
    | 1 => exact ⟨Nat.zero_le _, by show (j 1).val < 0 + 32; have : (j 1).val < 32 := (j 1).isLt; omega⟩
    | 2 => exact ⟨Nat.zero_le _, by show (j 2).val < 0 + 128; have : (j 2).val < 128 := (j 2).isLt; omega⟩

/-! ## The tiles, as pairs -/

abbrev Tile : Type := Fin ((K (F := F)).nCore 0) × Fin ((K (F := F)).nSub 0)
abbrev LofP (p : Tile (F := F)) : grid0.Coords := Lof (F := F) p.1 p.2

theorem Lof_zero (p : Tile (F := F)) : ((LofP p) 0).val = p.1.val := rfl
theorem Lof_one (p : Tile (F := F)) : ((LofP p) 1).val = p.2.val := rfl

theorem tile_ne {p p' : Tile (F := F)} (h : p ≠ p') : p.1.val ≠ p'.1.val ∨ p.2.val ≠ p'.2.val := by
  by_contra hc
  rw [not_or, not_not, not_not] at hc
  exact h (Prod.ext (Fin.ext hc.1) (Fin.ext hc.2))

theorem slices_disjoint : ∀ p ∈ (Finset.univ : Finset (Tile (F := F))), ∀ p' ∈ (Finset.univ : Finset (Tile (F := F))), p ≠ p' →
    Disjoint (slSet (LofP p)) (slSet (LofP p')) := by
  intro p _ p' _ h
  rw [Finset.disjoint_left]
  intro j hj hj'
  rw [mem_slSet, Lof_zero, Lof_one] at hj hj'
  have h1 : p.1.val < 2 := p.1.isLt
  have h2 : p.2.val < 16 := p.2.isLt
  have h1' : p'.1.val < 2 := p'.1.isLt
  have h2' : p'.2.val < 16 := p'.2.isLt
  rcases tile_ne h with hne | hne <;> omega

theorem slices_cover : (Finset.univ : Finset (Tile (F := F))).biUnion (fun p => slSet (LofP p)) = Finset.univ := by
  ext j
  simp only [Finset.mem_biUnion, Finset.mem_univ, true_and, iff_true]
  have hj : (j 0).val < 32768 := (j 0).isLt
  refine ⟨(⟨(j 0).val / 16384, by show _ < 2; omega⟩, ⟨((j 0).val % 16384) / 1024, by show _ < 16; omega⟩), ?_⟩
  rw [mem_slSet, Lof_zero, Lof_one]
  show 16384 * ((j 0).val / 16384) + 1024 * (((j 0).val % 16384) / 1024) ≤ (j 0).val
    ∧ (j 0).val < 16384 * ((j 0).val / 16384) + 1024 * (((j 0).val % 16384) / 1024) + 1024
  omega

theorem rows_disjoint : ∀ p ∈ (Finset.univ : Finset (Tile (F := F))), ∀ p' ∈ (Finset.univ : Finset (Tile (F := F))), p ≠ p' →
    Disjoint (rowSet (LofP p)) (rowSet (LofP p')) := by
  intro p _ p' _ h
  rw [Finset.disjoint_left]
  intro j hj hj'
  rw [mem_rowSet, Lof_zero, Lof_one] at hj hj'
  have h2 : p.2.val < 16 := p.2.isLt
  have h2' : p'.2.val < 16 := p'.2.isLt
  rcases tile_ne h with hne | hne <;> omega

theorem rows_cover : (Finset.univ : Finset (Tile (F := F))).biUnion (fun p => rowSet (LofP p)) = Finset.univ := by
  ext j
  simp only [Finset.mem_biUnion, Finset.mem_univ, true_and, iff_true]
  have hj : (j 0).val < 32 := (j 0).isLt
  refine ⟨(⟨(j 0).val / 16, by show _ < 2; omega⟩, ⟨(j 0).val % 16, by show _ < 16; omega⟩), ?_⟩
  rw [mem_rowSet, Lof_zero, Lof_one]
  show (j 0).val = 16 * ((j 0).val / 16) + (j 0).val % 16
  omega

/-! ## An array whole is its tiles' pieces side by side -/

theorem lab_pieces (d : Dev nD) (f : Buf (Elt F) (labLoc d)) :
    (labLoc d ↦{fullShare} f : sProp 𝕄) = bigSep Finset.univ fun p : Tile (F := F) => labLoc d ↦[slSet (LofP p)]{fullShare} f := by
  rw [← pointsTo_biUnion Finset.univ (ℓ := labLoc d) (fun p : Tile (F := F) => slSet (LofP p)) slices_disjoint, slices_cover]; try rfl
theorem deg_pieces (d : Dev nD) (f : Buf (Elt F) (degLoc d)) :
    (degLoc d ↦{fullShare} f : sProp 𝕄) = bigSep Finset.univ fun p : Tile (F := F) => degLoc d ↦[slSet (LofP p)]{fullShare} f := by
  rw [← pointsTo_biUnion Finset.univ (ℓ := degLoc d) (fun p : Tile (F := F) => slSet (LofP p)) slices_disjoint, slices_cover]; try rfl
theorem bat_pieces (d : Dev nD) (f : Buf (Elt F) (batLoc d)) :
    (batLoc d ↦{fullShare} f : sProp 𝕄) = bigSep Finset.univ fun p : Tile (F := F) => batLoc d ↦[slSet (LofP p)]{fullShare} f := by
  rw [← pointsTo_biUnion Finset.univ (ℓ := batLoc d) (fun p : Tile (F := F) => slSet (LofP p)) slices_disjoint, slices_cover]; try rfl
theorem cnt_pieces (d : Dev nD) (f : Buf (Elt F) (cntLoc d)) :
    (cntLoc d ↦{fullShare} f : sProp 𝕄) = bigSep Finset.univ fun p : Tile (F := F) => cntLoc d ↦[rowSet (LofP p)]{fullShare} f := by
  rw [← pointsTo_biUnion Finset.univ (ℓ := cntLoc d) (fun p : Tile (F := F) => rowSet (LofP p)) rows_disjoint, rows_cover]; try rfl

end Cert.KernelIdeal.Part

end
-- ==== Proof.KDeal.lean ====
/-
  Dealing the four arrays to the two SparseCores and taking them back. What the call hands out is the arrays whole,
  cut into the thirty-two tiles' pieces; what comes back is the three index arrays whole and unchanged and the count
  array whole at SOME contents whose every row is its tile's table.
-/
import proofs.«203920_g2267742732911_cont_8to1_1065_18_alg».proof.Proof.KPay
import proofs.«203920_g2267742732911_cont_8to1_1065_18_alg».proof.Proof.Gen.KernelIdeal.Launch
import proofs.«203920_g2267742732911_cont_8to1_1065_18_alg».proof.Proof.KPart

noncomputable section

namespace Cert.KernelIdeal.Deal

open Cert.KernelIdeal Cert.KernelIdeal.Gen Cert.KernelIdeal.Setup Cert.KernelIdeal.Pay

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Cert.KernelIdeal.Part

variable [FloatOps F]
variable (fl : (d : Dev nD) → Buf (Elt F) (labLoc d)) (fd : (d : Dev nD) → Buf (Elt F) (degLoc d))
  (fb : (d : Dev nD) → Buf (Elt F) (batLoc d)) (fc : (d : Dev nD) → Buf (Elt F) (cntLoc d))

/-- Every row of the count array is its tile's table. -/
def CntOK (d : Dev nD) (g : Buf (Elt F) (cntLoc d)) : Prop :=
  ∀ p : Tile (F := F), RowOK d (LofP p) (fl d) (fd d) (fb d) g

theorem st_eq (d : Dev nD) :
    (bigSep Finset.univ fun c : Fin ((K (F := F)).nCore 0) => (P fl fd fb fc).st 0 d c)
      = iprop((labLoc d ↦{fullShare} fl d) ∗ (degLoc d ↦{fullShare} fd d) ∗ (batLoc d ↦{fullShare} fb d) ∗ (cntLoc d ↦{fullShare} fc d)) := by
  rw [lab_pieces, deg_pieces, bat_pieces, cnt_pieces, ← bigSep_sep', ← bigSep_sep', ← bigSep_sep', bigSep_univ_prod]
  rfl

theorem emb_mem_rowSet (L : grid0.Coords) (y : S32x128.Idx) : (cntRow L).view.emb y ∈ rowSet L :=
  Finset.mem_map_of_mem _ (Finset.mem_univ y)

theorem dn_join (d : Dev nD) :
    (bigSep Finset.univ fun c : Fin ((K (F := F)).nCore 0) => (P fl fd fb fc).dn 0 d c)
      ⊢ iprop((labLoc d ↦{fullShare} fl d) ∗ (degLoc d ↦{fullShare} fd d) ∗ (batLoc d ↦{fullShare} fb d)
          ∗ ∃ g, ⌜CntOK fl fd fb d g⌝ ∗ (cntLoc d ↦{fullShare} g)) := by
  have e : (bigSep Finset.univ fun c : Fin ((K (F := F)).nCore 0) => (P fl fd fb fc).dn 0 d c)
      = bigSep (Finset.univ : Finset (Tile (F := F))) fun p => tdT fl fd fb d (LofP p) := by
    rw [bigSep_univ_prod]; rfl
  have hj : ∀ fs : Tile (F := F) → Buf (Elt F) (cntLoc d),
      (bigSep (Finset.univ : Finset (Tile (F := F))) (fun p => cntLoc d ↦[rowSet (LofP p)]{fullShare} fs p) : sProp 𝕄)
        ⊢ iprop(∃ g, ⌜∀ p ∈ (Finset.univ : Finset (Tile (F := F))), ∀ i ∈ rowSet (LofP p), g i = fs p i⌝ ∗ cntLoc d ↦{fullShare} g) := by
    intro fs
    have h := pointsTo_biUnion_join (Ix := HIx 1) (Name := ℕ) (U := UU) (Lvl := ℕ) (q := fullShare) (ℓ := cntLoc d) (Finset.univ : Finset (Tile (F := F))) (fun p => rowSet (LofP p)) fs (fc d) rows_disjoint
    rw [rows_cover] at h
    exact h
  rw [e]
  unfold tdT
  rw [bigSep_sep', bigSep_sep', bigSep_sep', ← lab_pieces, ← deg_pieces, ← bat_pieces]
  iintro ⟨Hl, Hd, Hb, Hc⟩
  isplitl [Hl]; · iexact Hl
  isplitl [Hd]; · iexact Hd
  isplitl [Hb]; · iexact Hb
  ihave Hc1 := (bigSep_exists_pi Finset.univ (fun (p : Tile (F := F)) (f : Buf (Elt F) (cntLoc d)) =>
      iprop(⌜RowOK d (LofP p) (fl d) (fd d) (fb d) f⌝ ∗ cntRowPts d (LofP p) f))) $$ Hc
  icases Hc1 with ⟨%fs, Hc⟩
  ihave Hc2 := (bigSep_pure_sep Finset.univ (fun p : Tile (F := F) => RowOK d (LofP p) (fl d) (fd d) (fb d) (fs p))
      (fun p => cntRowPts d (LofP p) (fs p))) $$ Hc
  icases Hc2 with ⟨%hok, Hc⟩
  ihave Hc3 := (hj fs) $$ Hc
  icases Hc3 with ⟨%g, %hg, Hg⟩
  iexists g
  isplitr
  · ipureintro
    intro p y
    rw [View.read_congr_at y (hg p (Finset.mem_univ p) _ (emb_mem_rowSet (LofP p) y))]
    exact hok p (Finset.mem_univ p) y
  · iexact Hg

end Cert.KernelIdeal.Deal

end
-- ==== Proof.HeadBody.lean ====
import proofs.«203920_g2267742732911_cont_8to1_1065_18_alg».proof.Proof.Gen.KernelIdeal.Skeleton
import Idealize.ShloMosaic.Lib.Tactic
import Idealize.ShloMosaic.Lib.Pipeline.Kit
import Idealize.ShloMosaic.Lib.SparseCore.Cells

/-!
  The dense head of the kernel, as a triple about its body alone.

  The body reads ten operands, each staged whole in a buffer of its own, forms one pure term of
  what it read — the per-tile count tables summed over the tiles, the two embedding products,
  the projection of the graph features, and the two-layer perceptron on their concatenation —
  and writes that term over the whole of the eleventh buffer. Nothing else is touched. So from
  the eleven buffers held whole, the ten operands at contents of any choosing and the result's
  at anything, the body runs to its return with the ten as they were and the eleventh at the term.
-/

noncomputable section

namespace Cert.Proof.HeadKernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Name : Type} [DecidableEq Name] {U : Type} [URA U]

local notation "𝕄" => MT nD τ sig (SparseCore.Cfg.HIx 1) (Elt F) Name U ℕ

/-- The contents type of memref `M`'s buffer on core `c`, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A load through a whole staging buffer at its full extent reads the buffer's contents. -/
theorem rd0 (f : (cc1_stg0_0 : Ref sig .tc).ty.Contents (Elt F)) :
    View.readAt (Elt F) (View.whole cc1_stg0_0) (Rect.unit (s := S32x32x128) ![0, 0, 0] ![32, 32, 128] inb_S32x32x128_S32x32x128_0_0_0).toLoadRect f = f :=
  Memref.readAt_unit_zero (Elt F) cc1_stg0_0 (by decide) _ f
theorem rd1 (f : (cc1_stg1_0 : Ref sig .tc).ty.Contents (Elt F)) :
    View.readAt (Elt F) (View.whole cc1_stg1_0) (Rect.unit (s := S16x102) ![0, 0] ![16, 102] inb_S16x102_S16x102_0_0).toLoadRect f = f :=
  Memref.readAt_unit_zero (Elt F) cc1_stg1_0 (by decide) _ f
theorem rd2 (f : (cc1_stg2_0 : Ref sig .tc).ty.Contents (Elt F)) :
    View.readAt (Elt F) (View.whole cc1_stg2_0) (Rect.unit (s := S102x128) ![0, 0] ![102, 128] inb_S102x128_S102x128_0_0).toLoadRect f = f :=
  Memref.readAt_unit_zero (Elt F) cc1_stg2_0 (by decide) _ f
theorem rd3 (f : (cc1_stg3_0 : Ref sig .tc).ty.Contents (Elt F)) :
    View.readAt (Elt F) (View.whole cc1_stg3_0) (Rect.unit (s := S11x128) ![0, 0] ![11, 128] inb_S11x128_S11x128_0_0).toLoadRect f = f :=
  Memref.readAt_unit_zero (Elt F) cc1_stg3_0 (by decide) _ f
theorem rd4 (f : (cc1_stg4_0 : Ref sig .tc).ty.Contents (Elt F)) :
    View.readAt (Elt F) (View.whole cc1_stg4_0) (Rect.unit (s := S102x128) ![0, 0] ![102, 128] inb_S102x128_S102x128_0_0).toLoadRect f = f :=
  Memref.readAt_unit_zero (Elt F) cc1_stg4_0 (by decide) _ f
theorem rd5 (f : (cc1_stg5_0 : Ref sig .tc).ty.Contents (Elt F)) :
    View.readAt (Elt F) (View.whole cc1_stg5_0) (Rect.unit (s := S1x128) ![0, 0] ![1, 128] inb_S1x128_S1x128_0_0).toLoadRect f = f :=
  Memref.readAt_unit_zero (Elt F) cc1_stg5_0 (by decide) _ f
theorem rd6 (f : (cc1_stg6_0 : Ref sig .tc).ty.Contents (Elt F)) :
    View.readAt (Elt F) (View.whole cc1_stg6_0) (Rect.unit (s := S256x128) ![0, 0] ![256, 128] inb_S256x128_S256x128_0_0).toLoadRect f = f :=
  Memref.readAt_unit_zero (Elt F) cc1_stg6_0 (by decide) _ f
theorem rd7 (f : (cc1_stg7_0 : Ref sig .tc).ty.Contents (Elt F)) :
    View.readAt (Elt F) (View.whole cc1_stg7_0) (Rect.unit (s := S1x128) ![0, 0] ![1, 128] inb_S1x128_S1x128_0_0).toLoadRect f = f :=
  Memref.readAt_unit_zero (Elt F) cc1_stg7_0 (by decide) _ f
theorem rd8 (f : (cc1_stg8_0 : Ref sig .tc).ty.Contents (Elt F)) :
    View.readAt (Elt F) (View.whole cc1_stg8_0) (Rect.unit (s := S128x18) ![0, 0] ![128, 18] inb_S128x18_S128x18_0_0).toLoadRect f = f :=
  Memref.readAt_unit_zero (Elt F) cc1_stg8_0 (by decide) _ f
theorem rd9 (f : (cc1_stg9_0 : Ref sig .tc).ty.Contents (Elt F)) :
    View.readAt (Elt F) (View.whole cc1_stg9_0) (Rect.unit (s := S1x18) ![0, 0] ![1, 18] inb_S1x18_S1x18_0_0).toLoadRect f = f :=
  Memref.readAt_unit_zero (Elt F) cc1_stg9_0 (by decide) _ f

/-- An unmasked store through a whole staging buffer at its full extent replaces the buffer's contents. -/
theorem wr10 (f w : (cc1_stg10_0 : Ref sig .tc).ty.Contents (Elt F)) :
    View.write (Elt F) ((View.whole cc1_stg10_0).slice (Rect.unit (s := S16x18) ![0, 0] ![16, 18] inb_S16x18_S16x18_0_0)) f w Finset.univ = w :=
  Memref.write_access_unit_zero_univ (Elt F) cc1_stg10_0 (by decide) _ f w

set_option maxHeartbeats 2000000 in
/-- The body's triple on the eleven staging buffers: the ten operands' come back as they were, the
    result's holds the body's one pure term of what the ten held. -/
theorem kernelRun (c : Dev nD)
    (f0 : Bf (F := F) c (Memref.whole cc1_stg0_0)) (f1 : Bf (F := F) c (Memref.whole cc1_stg1_0)) (f2 : Bf (F := F) c (Memref.whole cc1_stg2_0)) (f3 : Bf (F := F) c (Memref.whole cc1_stg3_0)) (f4 : Bf (F := F) c (Memref.whole cc1_stg4_0)) (f5 : Bf (F := F) c (Memref.whole cc1_stg5_0)) (f6 : Bf (F := F) c (Memref.whole cc1_stg6_0)) (f7 : Bf (F := F) c (Memref.whole cc1_stg7_0)) (f8 : Bf (F := F) c (Memref.whole cc1_stg8_0)) (f9 : Bf (F := F) c (Memref.whole cc1_stg9_0)) (f10 : Bf (F := F) c (Memref.whole cc1_stg10_0)) (Q : PUnit → sProp 𝕄) :
    iprop(pt c (Memref.whole cc1_stg0_0) f0 ∗ pt c (Memref.whole cc1_stg1_0) f1 ∗ pt c (Memref.whole cc1_stg2_0) f2 ∗ pt c (Memref.whole cc1_stg3_0) f3 ∗ pt c (Memref.whole cc1_stg4_0) f4 ∗ pt c (Memref.whole cc1_stg5_0) f5 ∗ pt c (Memref.whole cc1_stg6_0) f6 ∗ pt c (Memref.whole cc1_stg7_0) f7 ∗ pt c (Memref.whole cc1_stg8_0) f8 ∗ pt c (Memref.whole cc1_stg9_0) f9 ∗ pt c (Memref.whole cc1_stg10_0) f10
        ∗ (iprop(pt c (Memref.whole cc1_stg0_0) f0 ∗ pt c (Memref.whole cc1_stg1_0) f1 ∗ pt c (Memref.whole cc1_stg2_0) f2 ∗ pt c (Memref.whole cc1_stg3_0) f3 ∗ pt c (Memref.whole cc1_stg4_0) f4 ∗ pt c (Memref.whole cc1_stg5_0) f5 ∗ pt c (Memref.whole cc1_stg6_0) f6 ∗ pt c (Memref.whole cc1_stg7_0) f7 ∗ pt c (Memref.whole cc1_stg8_0) f8 ∗ pt c (Memref.whole cc1_stg9_0) f9 ∗ pt c (Memref.whole cc1_stg10_0) (k1_pay1 f0 f2 f3 f1 f4 f5 f6 f7 f8 f9)) -∗ Q ⟨⟩))
      ⊢ wp frame (wpE (defs₀ (F := F)) Variants.none c none) Set.univ
          (cc1__tc_head_body (Memref.whole cc1_stg0_0) (hstage1_0 0) (Memref.whole cc1_stg1_0) (hstage1_1 0) (Memref.whole cc1_stg2_0) (hstage1_2 0) (Memref.whole cc1_stg3_0) (hstage1_3 0) (Memref.whole cc1_stg4_0) (hstage1_4 0) (Memref.whole cc1_stg5_0) (hstage1_5 0) (Memref.whole cc1_stg6_0) (hstage1_6 0) (Memref.whole cc1_stg7_0) (hstage1_7 0) (Memref.whole cc1_stg8_0) (hstage1_8 0) (Memref.whole cc1_stg9_0) (hstage1_9 0) (Memref.whole cc1_stg10_0) (hstage1_10 0)) Q := by
  iintro ⟨H0, H1, H2, H3, H4, H5, H6, H7, H8, H9, H10, Hk⟩
  simp only [cc1__tc_head_body_eq_skeleton]
  unfold cc1__tc_head_body_skel
  simp only [k1_part1_eq_skeleton]
  unfold k1_part1_skel
  sl_exec
  sl_step
  simp only [View.writes_singleton, rd0, rd1, rd2, rd3, rd4, rd5, rd6, rd7, rd8, rd9, wr10]
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.Proof.HeadKernelIdeal

end
-- ==== Proof.HeadData.lean ====
import proofs.«203920_g2267742732911_cont_8to1_1065_18_alg».proof.Proof.HeadBody
import proofs.«203920_g2267742732911_cont_8to1_1065_18_alg».proof.Proof.Gen.KernelIdeal.Launch
import proofs.«203920_g2267742732911_cont_8to1_1065_18_alg».proof.Proof.Gen.KernelIdeal.Points
import Idealize.ShloMosaic.Lib.Pipeline.Regions
import Idealize.ShloMosaic.Lib.SparseCore.Threads

/-!
  The dense head of the kernel, as a line of the TensorCore's program.

  The line is one kernel region: a pipeline with no grid over eleven windows, each a whole array
  staged once. Ten are operands — the per-tile count tables the SparseCores left, the four
  embedding and weight tables, the graph features, the three bias rows — fetched before the
  body's one point; the eleventh is the result, written back after it. The region's proof data
  says just that: every operand's staging buffer holds the operand when the body runs and is
  left as found, the result's is left at the body's one pure term of the ten operands, nothing
  is owed, and the only waits recorded are the pipeline's own on its staging semaphores.
  From the TensorCore holding the eleven arrays whole, the region boundary and the staging
  cells' launch ghost state, the line runs to the same arrays with the result at that term.
-/

noncomputable section

namespace Cert.Proof.HeadKernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]
variable {Name : Type} [DecidableEq Name] {U : Type} [URA U]

local notation "𝕄" => MT nD τ sig (HIx 1) (Elt F) Name U ℕ

/-- The body makes no call of its own. -/
abbrev 𝒱₀ : Variants := Variants.none
/-- No prefetched table. -/
abbrev adm : (p : Fin 1) → (pcfgs (F := F) p).Adm := fun p => (cfgs p).toPCfg_adm

/-- Contents for each of the TensorCore's buffers. -/
abbrev HVal (F : FTy → Type) : Type := (b : Ref sig .tc) → b.ty.Contents (Elt F)

variable (W : HVal F) (f8 : (main_v8 : Ref sig .tc).ty.Contents (Elt F)) (bnd : ℕ)

/-- What the region leaves in the result: the body's term of the ten operands. -/
def headVal : (main_v8 : Ref sig .tc).ty.Contents (Elt F) :=
  (k1_pay1 (W main_v4) (W main_arg3) (W main_arg4) (W main_arg2) (W main_arg5) (W main_v5) (W main_arg7) (W main_v6) (W main_arg9) (W main_v7) : FVec F S16x18 .f32)

/-! ## The proof data -/

/-- Each window's array at the region's entry: the operands at `W`, the result at `f8`. -/
def arrIn (c : Dev nD) : (w : Fin cfg1.W) → Buf (Elt F) ((cfg1.win w).arr.view.loc (c.tc : Thread nD τ))
  | 0 => W main_v4
  | 1 => W main_arg2
  | 2 => W main_arg3
  | 3 => W main_arg4
  | 4 => W main_arg5
  | 5 => W main_v5
  | 6 => W main_arg7
  | 7 => W main_v6
  | 8 => W main_arg9
  | 9 => W main_v7
  | 10 => f8
  | ⟨_ + 11, h⟩ => absurd h (Nat.not_lt.2 (Nat.le_add_left _ _))

/-- Each window's staging buffer after the body: an operand's as fetched, the result's at the term. -/
def stgAfter : (w : Fin cfg1.W) → (cfg1.win w).block.Idx → Elt F (cfg1.win w).elt
  | 0 => W main_v4
  | 1 => W main_arg2
  | 2 => W main_arg3
  | 3 => W main_arg4
  | 4 => W main_arg5
  | 5 => W main_v5
  | 6 => W main_arg7
  | 7 => W main_v6
  | 8 => W main_arg9
  | 9 => W main_v7
  | 10 => headVal W
  | ⟨_ + 11, h⟩ => absurd h (Nat.not_lt.2 (Nat.le_add_left _ _))

/-- The proof data on core `c`: between the region's ends the body keeps nothing but the scoped buffers
    no window stages; nothing is owed; the recorded waits stay at levels at most `bnd`. -/
def dats (_ : Fin 1) (c : Dev nD) : Dat τ (Elt F) (HIx 1) Name U ℕ cfg1 c where
  A := arrIn W f8 c
  after w _ := stgAfter W w
  Φ _ := Pipeline.scopedRest spec1 c
  q _ := fullShare
  owed _ := 0
  recorded _ := {p | (sc (F := F)).lev ((c.tc : Thread nD τ), p.1) p.2 ≤ bnd}

/-! ## What the body finds, and what the region leaves -/

/-- Reading a whole array through its one block gives the array. -/
theorem rdArr0 (f : (main_v4 : Ref sig .tc).ty.Contents (Elt F)) : ((cfg1.win 0).blk t1_0).view.read (Elt F) f = f :=
  Memref.read_access_unit_zero (Elt F) main_v4 (by decide) _ f
theorem rdArr1 (f : (main_arg2 : Ref sig .tc).ty.Contents (Elt F)) : ((cfg1.win 1).blk t1_0).view.read (Elt F) f = f :=
  Memref.read_access_unit_zero (Elt F) main_arg2 (by decide) _ f
theorem rdArr2 (f : (main_arg3 : Ref sig .tc).ty.Contents (Elt F)) : ((cfg1.win 2).blk t1_0).view.read (Elt F) f = f :=
  Memref.read_access_unit_zero (Elt F) main_arg3 (by decide) _ f
theorem rdArr3 (f : (main_arg4 : Ref sig .tc).ty.Contents (Elt F)) : ((cfg1.win 3).blk t1_0).view.read (Elt F) f = f :=
  Memref.read_access_unit_zero (Elt F) main_arg4 (by decide) _ f
theorem rdArr4 (f : (main_arg5 : Ref sig .tc).ty.Contents (Elt F)) : ((cfg1.win 4).blk t1_0).view.read (Elt F) f = f :=
  Memref.read_access_unit_zero (Elt F) main_arg5 (by decide) _ f
theorem rdArr5 (f : (main_v5 : Ref sig .tc).ty.Contents (Elt F)) : ((cfg1.win 5).blk t1_0).view.read (Elt F) f = f :=
  Memref.read_access_unit_zero (Elt F) main_v5 (by decide) _ f
theorem rdArr6 (f : (main_arg7 : Ref sig .tc).ty.Contents (Elt F)) : ((cfg1.win 6).blk t1_0).view.read (Elt F) f = f :=
  Memref.read_access_unit_zero (Elt F) main_arg7 (by decide) _ f
theorem rdArr7 (f : (main_v6 : Ref sig .tc).ty.Contents (Elt F)) : ((cfg1.win 7).blk t1_0).view.read (Elt F) f = f :=
  Memref.read_access_unit_zero (Elt F) main_v6 (by decide) _ f
theorem rdArr8 (f : (main_arg9 : Ref sig .tc).ty.Contents (Elt F)) : ((cfg1.win 8).blk t1_0).view.read (Elt F) f = f :=
  Memref.read_access_unit_zero (Elt F) main_arg9 (by decide) _ f
theorem rdArr9 (f : (main_v7 : Ref sig .tc).ty.Contents (Elt F)) : ((cfg1.win 9).blk t1_0).view.read (Elt F) f = f :=
  Memref.read_access_unit_zero (Elt F) main_v7 (by decide) _ f

/-- An operand's staging buffer holds the operand when the body runs. -/
theorem before_in0 (c : Dev nD) (d : (cfg1.win 0).block.Idx → Elt F (cfg1.win 0).elt) :
    (dats (Name := Name) (U := U) W f8 bnd 0 c).before 0 t1_0 d = W main_v4 := by
  unfold Dat.before; rw [if_pos (fetch1_0 _)]
  exact rdArr0 (W main_v4)
theorem before_in1 (c : Dev nD) (d : (cfg1.win 1).block.Idx → Elt F (cfg1.win 1).elt) :
    (dats (Name := Name) (U := U) W f8 bnd 0 c).before 1 t1_0 d = W main_arg2 := by
  unfold Dat.before; rw [if_pos (fetch1_1 _)]
  exact rdArr1 (W main_arg2)
theorem before_in2 (c : Dev nD) (d : (cfg1.win 2).block.Idx → Elt F (cfg1.win 2).elt) :
    (dats (Name := Name) (U := U) W f8 bnd 0 c).before 2 t1_0 d = W main_arg3 := by
  unfold Dat.before; rw [if_pos (fetch1_2 _)]
  exact rdArr2 (W main_arg3)
theorem before_in3 (c : Dev nD) (d : (cfg1.win 3).block.Idx → Elt F (cfg1.win 3).elt) :
    (dats (Name := Name) (U := U) W f8 bnd 0 c).before 3 t1_0 d = W main_arg4 := by
  unfold Dat.before; rw [if_pos (fetch1_3 _)]
  exact rdArr3 (W main_arg4)
theorem before_in4 (c : Dev nD) (d : (cfg1.win 4).block.Idx → Elt F (cfg1.win 4).elt) :
    (dats (Name := Name) (U := U) W f8 bnd 0 c).before 4 t1_0 d = W main_arg5 := by
  unfold Dat.before; rw [if_pos (fetch1_4 _)]
  exact rdArr4 (W main_arg5)
theorem before_in5 (c : Dev nD) (d : (cfg1.win 5).block.Idx → Elt F (cfg1.win 5).elt) :
    (dats (Name := Name) (U := U) W f8 bnd 0 c).before 5 t1_0 d = W main_v5 := by
  unfold Dat.before; rw [if_pos (fetch1_5 _)]
  exact rdArr5 (W main_v5)
theorem before_in6 (c : Dev nD) (d : (cfg1.win 6).block.Idx → Elt F (cfg1.win 6).elt) :
    (dats (Name := Name) (U := U) W f8 bnd 0 c).before 6 t1_0 d = W main_arg7 := by
  unfold Dat.before; rw [if_pos (fetch1_6 _)]
  exact rdArr6 (W main_arg7)
theorem before_in7 (c : Dev nD) (d : (cfg1.win 7).block.Idx → Elt F (cfg1.win 7).elt) :
    (dats (Name := Name) (U := U) W f8 bnd 0 c).before 7 t1_0 d = W main_v6 := by
  unfold Dat.before; rw [if_pos (fetch1_7 _)]
  exact rdArr7 (W main_v6)
theorem before_in8 (c : Dev nD) (d : (cfg1.win 8).block.Idx → Elt F (cfg1.win 8).elt) :
    (dats (Name := Name) (U := U) W f8 bnd 0 c).before 8 t1_0 d = W main_arg9 := by
  unfold Dat.before; rw [if_pos (fetch1_8 _)]
  exact rdArr8 (W main_arg9)
theorem before_in9 (c : Dev nD) (d : (cfg1.win 9).block.Idx → Elt F (cfg1.win 9).elt) :
    (dats (Name := Name) (U := U) W f8 bnd 0 c).before 9 t1_0 d = W main_v7 := by
  unfold Dat.before; rw [if_pos (fetch1_9 _)]
  exact rdArr9 (W main_v7)

/-- Writing a whole array back through its one block replaces the array. -/
theorem wrArr10 (f w : (main_v8 : Ref sig .tc).ty.Contents (Elt F)) : ((cfg1.win 10).blk t1_0).view.write (Elt F) f w Finset.univ = w :=
  Memref.write_access_unit_zero_univ (Elt F) main_v8 (by decide) _ f w

/-- After the region the result's array holds the body's term of the operands. -/
theorem arrAt_out (c : Dev nD) : (dats (Name := Name) (U := U) W f8 bnd 0 c).arrAt 10 cfg1.N = headVal W := by
  show (dats (Name := Name) (U := U) W f8 bnd 0 c).arrAt 10 (t1_0.val + 1) = _
  rw [Pipeline.Dat.arrAt_succ, if_pos (flush1_10 _)]
  exact wrArr10 _ _

/-- After the region, and at every point of it, an operand's array holds what it held at entry: it is never written back. -/
theorem arrAt_in (c : Dev nD) (w : Fin cfg1.W) (hw : (cfg1.win w).isOut = false) (n : Nat) :
    (dats (Name := Name) (U := U) W f8 bnd 0 c).arrAt w n = arrIn W f8 c w :=
  Pipeline.Dat.arrAt_in _ w hw n

/-- Every array is held at the full share. -/
theorem share_full (c : Dev nD) (w : Fin cfg1.W) : (dats (Name := Name) (U := U) W f8 bnd 0 c).share w = fullShare :=
  (dats W f8 bnd 0 c).share_full (fun _ => rfl) w

/-! ## The arrays, as the proof data holds them and as the program's line does -/

/-- The ten operands on core `c`, each whole at `W`. -/
def headIns (c : Dev nD) : sProp 𝕄 :=
  iprop((((c.tc : Thread nD τ).loc main_v4) ↦{fullShare} W main_v4)
    ∗ (((c.tc : Thread nD τ).loc main_arg2) ↦{fullShare} W main_arg2)
    ∗ (((c.tc : Thread nD τ).loc main_arg3) ↦{fullShare} W main_arg3)
    ∗ (((c.tc : Thread nD τ).loc main_arg4) ↦{fullShare} W main_arg4)
    ∗ (((c.tc : Thread nD τ).loc main_arg5) ↦{fullShare} W main_arg5)
    ∗ (((c.tc : Thread nD τ).loc main_v5) ↦{fullShare} W main_v5)
    ∗ (((c.tc : Thread nD τ).loc main_arg7) ↦{fullShare} W main_arg7)
    ∗ (((c.tc : Thread nD τ).loc main_v6) ↦{fullShare} W main_v6)
    ∗ (((c.tc : Thread nD τ).loc main_arg9) ↦{fullShare} W main_arg9)
    ∗ (((c.tc : Thread nD τ).loc main_v7) ↦{fullShare} W main_v7))

/-- The core owing nothing, its recorded waits at levels at most `bnd`. -/
def owesB (c : Dev nD) : sProp 𝕄 :=
  iprop(∃ Ws, ⌜(sc (F := F)).WBelow (c.tc : Thread nD τ) Ws bnd⌝ ∗ owes (c.tc : Thread nD τ) (0 : CellTallies nD τ sig (HIx 1)) Ws)

theorem arrays_entry (c : Dev nD) :
    iprop(headIns (Name := Name) (U := U) W c ∗ (((c.tc : Thread nD τ).loc main_v8) ↦{fullShare} f8))
      ⊢ (dats (Name := Name) (U := U) W f8 bnd 0 c).arrays ((dats (Name := Name) (U := U) W f8 bnd 0 c).arrAt · 0) := by
  rw [Pipeline.arrays_eq cfgs (dats W f8 bnd) 0 c launch1.arr_whole (share_full W f8 bnd c), bigSep_W1]
  unfold headIns
  iintro ⟨⟨H0, H1, H2, H3, H4, H5, H6, H7, H8, H9⟩, H10⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem arrays_exit (c : Dev nD) :
    (dats (Name := Name) (U := U) W f8 bnd 0 c).arrays ((dats (Name := Name) (U := U) W f8 bnd 0 c).arrAt · cfg1.N)
      ⊢ iprop(headIns (Name := Name) (U := U) W c ∗ (((c.tc : Thread nD τ).loc main_v8) ↦{fullShare} headVal W)) := by
  rw [Pipeline.arrays_eq cfgs (dats W f8 bnd) 0 c launch1.arr_whole (share_full W f8 bnd c), bigSep_W1]
  rw [arrAt_in W f8 bnd c 0 rfl, arrAt_in W f8 bnd c 1 rfl, arrAt_in W f8 bnd c 2 rfl, arrAt_in W f8 bnd c 3 rfl, arrAt_in W f8 bnd c 4 rfl, arrAt_in W f8 bnd c 5 rfl, arrAt_in W f8 bnd c 6 rfl, arrAt_in W f8 bnd c 7 rfl, arrAt_in W f8 bnd c 8 rfl, arrAt_in W f8 bnd c 9 rfl, arrAt_out]
  unfold headIns
  iintro ⟨H0, H1, H2, H3, H4, H5, H6, H7, H8, H9, H10⟩
  isplitr [H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iexact H10

/-! ## The body obligation -/

set_option maxHeartbeats 1000000 in
/-- At the region's one point: the eleven current staging buffers sorted out, the body's triple, its post
    put back. -/
theorem body_obligation (c : Dev nD) :
    BodyObligation (dats (Name := Name) (U := U) W f8 bnd 0 c) (defs₀ (F := F)) 𝒱₀ none Set.univ := fun t => by
  obtain rfl := fin_N1 t
  rw [bigSep_W1, bigSep_W1]
  simp only [owns_whole_eq]
  rw [show (dats (Name := Name) (U := U) W f8 bnd 0 c).Φ t1_0.castSucc = Pipeline.scopedRest spec1 c from rfl,
    show (dats (Name := Name) (U := U) W f8 bnd 0 c).Φ t1_0.succ = Pipeline.scopedRest spec1 c from rfl]
  unfold Pipeline.Dat.owesAt Pipeline.owesWithin
  rw [show (dats (Name := Name) (U := U) W f8 bnd 0 c).owed t1_0.castSucc = 0 from rfl, show (dats (Name := Name) (U := U) W f8 bnd 0 c).owed t1_0.succ = 0 from rfl]
  iintro ⟨HΦ, ⟨%Ws, %hWs, HO⟩, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩, ⟨%d6, %g6, %e6, H6⟩, ⟨%d7, %g7, %e7, H7⟩, ⟨%d8, %g8, %e8, H8⟩, ⟨%d9, %g9, %e9, H9⟩, ⟨%d10, %g10, %e10, H10⟩⟩
  rw [before_in0] at e0; subst e0
  rw [before_in1] at e1; subst e1
  rw [before_in2] at e2; subst e2
  rw [before_in3] at e3; subst e3
  rw [before_in4] at e4; subst e4
  rw [before_in5] at e5; subst e5
  rw [before_in6] at e6; subst e6
  rw [before_in7] at e7; subst e7
  rw [before_in8] at e8; subst e8
  rw [before_in9] at e9; subst e9
  iapply (kernelRun c (W main_v4) (W main_arg2) (W main_arg3) (W main_arg4) (W main_arg5) (W main_v5) (W main_arg7) (W main_v6) (W main_arg9) (W main_v7) g10)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [HΦ]; · iexact HΦ
  isplitl [HO]
  · iexists Ws; isplitr; · ipureintro; exact hWs
    iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  isplitl [H6]; · iexists _; isplitr; swap; (· iexact H6); ipureintro; rfl
  isplitl [H7]; · iexists _; isplitr; swap; (· iexact H7); ipureintro; rfl
  isplitl [H8]; · iexists _; isplitr; swap; (· iexact H8); ipureintro; rfl
  isplitl [H9]; · iexists _; isplitr; swap; (· iexact H9); ipureintro; rfl
  iexists _; isplitr; swap; (· iexact H10); ipureintro; rfl

/-! ## The region -/

variable (L : GSem nD τ sig → Finset (HIx 1)) (lv : GSem nD τ sig → HIx 1 → ℕ)

set_option backward.isDefEq.respectTransparency.types false in
/-- The region as the library's launch composes it: the decided layout, no semaphore of the body's own, the body
    obligation; entered from the eleven arrays and the core owing nothing, left with the result at the term. -/
def reg : Pipeline.RegionSeg (pcfgs (F := F)) adm (dats (Name := Name) (U := U) W f8 bnd) none defs₀ 𝒱₀ L lv 0 where
  win := launch1.win.to₀
  block_pos := launch1.block_pos
  stage_whole := launch1.stage_whole
  K := PEmpty
  osem := fun k => k.elim
  ho := Pipeline.OwnSemFacts.none _
  hbody c := (body_obligation W f8 bnd c).loose
  hwaits := Pipeline.hwaits_of_owed_zero _ _ _ _ L lv 0 fun _ _ => rfl
  pre c := iprop(headIns W c ∗ (((c.tc : Thread nD τ).loc main_v8) ↦{fullShare} f8) ∗ owesB bnd c)
  post c := iprop(headIns W c ∗ (((c.tc : Thread nD τ).loc main_v8) ↦{fullShare} headVal W) ∗ owesB bnd c)
  X _ := iprop(emp)
  Y _ := iprop(emp)
  Z _ := iprop(emp)
  hentry c := by
    unfold owesB
    iintro ⟨⟨Hins, H8, ⟨%Ws, %hWs, HO⟩⟩, -, -⟩
    imodintro
    isplitl [Hins H8]
    · iapply (arrays_entry W f8 bnd c)
      isplitl [Hins] <;> iassumption
    isplitr; · unfold Pipeline.prefHeld; rw [show (Finset.univ : Finset (Fin 0)) = ∅ from rfl, BI.bigSep_empty]; iempintro
    isplitl [HO]
    · unfold Pipeline.Dat.owesAt Pipeline.owesWithin
      iexists Ws; isplitr; · ipureintro; exact fun p hp => Or.inl (hWs p hp)
      iexact HO
    isplitl <;> iempintro
  hin c := by
    show iprop(_ ∗ _ ∗ Pipeline.scopedRest spec1 c) ⊢ Pipeline.scopedRest spec1 c
    iintro ⟨-, -, Hr⟩
    iexact Hr
  hout c := by
    rw [Pipeline.ownSems0_none]
    show Pipeline.scopedRest spec1 c ⊢ iprop(emp ∗ emp ∗ Pipeline.scopedRest spec1 c)
    iintro Hr
    isplitr; · iempintro
    isplitr; · iempintro
    iexact Hr
  hexit c := by
    unfold owesB
    iintro ⟨Ha, ⟨%Ws, %hWs, HO⟩, -, -⟩
    imodintro
    ihave H := (arrays_exit W f8 bnd c) $$ Ha
    icases H with ⟨Hins, H8⟩
    isplitl [Hins]; · iexact Hins
    isplitl [H8]; · iexact H8
    iexists Ws; isplitr
    · ipureintro
      intro p hp
      rcases hWs hp with h | ⟨w, s, rfl⟩
      · exact h
      · exact Nat.zero_le _
    iexact HO

end Cert.Proof.HeadKernelIdeal

end
-- ==== Proof.KElem.lean ====
/-
  The launch element of the ghost state: the handshakes' rounds, the rounds of the TensorCore region's staging
  cells with the tokens of its transfers, and the unit of the tiles' counters. From it each device's TensorCore is
  dealt the ghost state of its region's cells; the kernels' proofs consume nothing of it.
-/
import proofs.«203920_g2267742732911_cont_8to1_1065_18_alg».proof.Proof.KPay
import proofs.«203920_g2267742732911_cont_8to1_1065_18_alg».proof.Proof.Gen.KernelIdeal.Launch
import proofs.«203920_g2267742732911_cont_8to1_1065_18_alg».proof.Proof.HeadData

noncomputable section

namespace Cert.KernelIdeal.Elem

open Cert.KernelIdeal Cert.KernelIdeal.Gen Cert.KernelIdeal.Setup Cert.KernelIdeal.Pay

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-- Distinct staging cells stay distinct when every configuration is read as one with no prefetched table, pinned at its
    one admissible contents: that reading gives the configuration back. -/
theorem inj_pin {Q : Type} {Λ : Labels} {Val : EltTy → Type} (cs : Q → Pipeline.Cfg sig Λ)
    (h : Function.Injective (Pipeline.cellOf (nD := nD) (τ := τ) cs)) :
    Function.Injective (Pipeline.cellOf (nD := nD) (τ := τ)
      (Pipeline.pin (fun p => (cs p).toPCfg (Val := Val)) fun p => (cs p).toPCfg_adm)) := h

theorem phinj : Function.Injective (Pipeline.cellOf (nD := nD) (τ := τ) (Pipeline.pin (pcfgs (F := F)) Cert.Proof.HeadKernelIdeal.adm)) :=
  inj_pin cfgs cellOf_inj

/-- The launch element. -/
def u₀ : UU := (initOf (K (F := F)).hsCells (K (F := F)).hsToks,
  (initOf (Pipeline.cells (nD := nD) (τ := τ) (Pipeline.pin (pcfgs (F := F)) Cert.Proof.HeadKernelIdeal.adm) phinj) (Pipeline.launchToks (nD := nD) (τ := τ) (Pipeline.pin (pcfgs (F := F)) Cert.Proof.HeadKernelIdeal.adm) phinj), 1))

/-- What a device's TensorCore starts from beyond the launch's deal: its region's cells' ghost state and tokens. -/
def G (d : Dev nD) : sProp 𝕄 := iprop(Pipeline.cellsGhost (Pipeline.pin (pcfgs (F := F)) Cert.Proof.HeadKernelIdeal.adm) ER 0 d ∗ Pipeline.toksInit (Pipeline.pin (pcfgs (F := F)) Cert.Proof.HeadKernelIdeal.adm) ER 0 d)

omit [FloatOps F] in
theorem bigSep_emp' {I : Type} (s : Finset I) : (bigSep s fun _ => iprop(emp)) = (iprop(emp) : sProp 𝕄) := bigSep_emp_const s

omit [FloatOps F] in
theorem bigSep_fin1 (Φ : Fin 1 → sProp 𝕄) : bigSep Finset.univ Φ = Φ 0 := by
  rw [show (Finset.univ : Finset (Fin 1)) = {0} by decide, bigSep_singleton]

theorem hu₀ (fl : (d : Dev nD) → Buf (Elt F) (labLoc d)) (fd : (d : Dev nD) → Buf (Elt F) (degLoc d))
    (fb : (d : Dev nD) → Buf (Elt F) (batLoc d)) (fc : (d : Dev nD) → Buf (Elt F) (cntLoc d)) :
    (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P fl fd fb fc).x q thr) := by
  unfold u₀ G ER
  iintro Hu
  ihave H := (ownU_pair _ _) $$ Hu
  icases H with ⟨HH, HR⟩
  ihave HR' := (own_pair_emb (embR (A := UH) (B := UR × Counters)) _ _) $$ HR
  icases HR' with ⟨HP, -⟩
  have hfund := Pipeline.fund_ghost (nD := nD) (τ := τ) (Ix := HIx 1) (Val := Elt F) (Name := ℕ) (U := UU) (Lvl := ℕ) (Pipeline.pin (pcfgs (F := F)) Cert.Proof.HeadKernelIdeal.adm)
    ((Emb.inl : Emb UR (UR × Counters)).trans (embR (A := UH) (B := UR × Counters))) phinj
  imod hfund $$ HP with ⟨Hg, Ht⟩
  imodintro
  isplitl [HH]; · iexact HH
  isplitl [Hg Ht]
  · rw [bigSep_sep']
    isplitl [Hg]
    · iapply (Entails.of_eq (bigSep_congr fun d _ => bigSep_fin1 (fun p : Fin 1 => Pipeline.cellsGhost (Pipeline.pin (pcfgs (F := F)) Cert.Proof.HeadKernelIdeal.adm) ((Emb.inl : Emb UR (UR × Counters)).trans (embR (A := UH) (B := UR × Counters))) p d))) $$ Hg
    · iapply (Entails.of_eq (bigSep_congr fun d _ => bigSep_fin1 (fun p : Fin 1 => Pipeline.toksInit (Pipeline.pin (pcfgs (F := F)) Cert.Proof.HeadKernelIdeal.adm) ((Emb.inl : Emb UR (UR × Counters)).trans (embR (A := UH) (B := UR × Counters))) p d))) $$ Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.KernelIdeal.Elem

end
-- ==== Proof.KMain.lean ====
/-
  @main on the TensorCore: four host operations cut the two columns out of the node array, the SparseCore call
  fills the count array, three host operations reshape the bias vectors, and the TensorCore region computes the
  result from the counts and the tables.
-/
import proofs.«203920_g2267742732911_cont_8to1_1065_18_alg».proof.Proof.KPay
import proofs.«203920_g2267742732911_cont_8to1_1065_18_alg».proof.Proof.Gen.KernelIdeal.Launch
import proofs.«203920_g2267742732911_cont_8to1_1065_18_alg».proof.Proof.KDeal
import proofs.«203920_g2267742732911_cont_8to1_1065_18_alg».proof.Proof.KElem

noncomputable section

namespace Cert.KernelIdeal.Main

open Cert.KernelIdeal Cert.KernelIdeal.Gen Cert.KernelIdeal.Setup Cert.KernelIdeal.Pay

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Cert.KernelIdeal.Part Cert.KernelIdeal.Deal Cert.KernelIdeal.Elem
open Idealize.ShloMosaic.StableHlo (seq after)

variable [FloatOps F]

/-! ## The host operations -/

abbrev op1 : HloOp τ sig (Elt F) := StableHlo.unary main_arg0 main_v0 ((extractStridedSlice S32768x1 ![0, 0] · slices_S32768x2_S32768x1_0_0) : (⟨S32768x2, .i32⟩ : BufTy).Contents (Elt F) → (⟨S32768x1, .i32⟩ : BufTy).Contents (Elt F))
abbrev op2 : HloOp τ sig (Elt F) := StableHlo.reshape main_v0 main_v1 rfl shapeCasts_S32768x1_S32768
abbrev op3 : HloOp τ sig (Elt F) := StableHlo.unary main_arg0 main_v2 ((extractStridedSlice S32768x1 ![0, 1] · slices_S32768x2_S32768x1_0_1) : (⟨S32768x2, .i32⟩ : BufTy).Contents (Elt F) → (⟨S32768x1, .i32⟩ : BufTy).Contents (Elt F))
abbrev op4 : HloOp τ sig (Elt F) := StableHlo.reshape main_v2 main_v3 rfl shapeCasts_S32768x1_S32768
abbrev op5 : HloOp τ sig (Elt F) := StableHlo.reshape main_arg6 main_v5 rfl shapeCasts_S128_S1x128
abbrev op6 : HloOp τ sig (Elt F) := StableHlo.reshape main_arg8 main_v6 rfl shapeCasts_S128_S1x128
abbrev op7 : HloOp τ sig (Elt F) := StableHlo.reshape main_arg10 main_v7 rfl shapeCasts_S18_S1x18
abbrev ops1 : List (HloOp τ sig (Elt F)) := [op1, op2, op3, op4]
abbrev ops2 : List (HloOp τ sig (Elt F)) := [op5, op6, op7]

theorem main_eq (d : Dev nD) : main (F := F) d
    = (seq (ops1 (F := F)) >>= fun _ => (sc (F := F)).run d 0 >>= fun _ => seq (ops2 (F := F)) >>= fun _ =>
        Prog.lift (.customCall (SparseCore.inner (Pipeline.entry 0)) ()) >>= fun _ => pure ⟨⟩) := rfl

/-! ## The TensorCore's arrays -/

/-- The arrays of @main, none scoped. -/
abbrev SA : Finset (DevRef τ sig) := (Finset.univ.filter fun b : Ref sig .tc => ¬ b.isScoped).map ⟨Proc.devRef (sig := sig) (.tc : Proc τ), Proc.devRef_injective _⟩

/-! ## Contents along @main -/

section Main

variable (m : (ℓ : Loc nD τ sig) → Buf (Elt F) ℓ) (ρ : Dev nD → PrngReg)

abbrev lab' : DevRef τ sig := Proc.devRef .tc (main_v1 : Ref sig .tc)
abbrev deg' : DevRef τ sig := Proc.devRef .tc (main_v3 : Ref sig .tc)
abbrev bat' : DevRef τ sig := Proc.devRef .tc (main_arg1 : Ref sig .tc)
abbrev cnt' : DevRef τ sig := Proc.devRef .tc (main_v4 : Ref sig .tc)
abbrev out' : DevRef τ sig := Proc.devRef .tc (main_v8 : Ref sig .tc)

/-- The arrays at the launch, after the first four host operations, with the count array at `g`, after the three
    reshapes, and with the result written. -/
@[reducible] def V0 (d : Dev nD) : Valuation τ sig (Elt F) := StableHlo.launchContents m d
@[reducible] def V1 (d : Dev nD) : Valuation τ sig (Elt F) := after (ops1 (F := F)) (V0 m d)
@[reducible] def fl (d : Dev nD) : Buf (Elt F) (labLoc d) := V1 m d lab'
@[reducible] def fd (d : Dev nD) : Buf (Elt F) (degLoc d) := V1 m d deg'
@[reducible] def fb (d : Dev nD) : Buf (Elt F) (batLoc d) := V1 m d bat'
@[reducible] def fc (d : Dev nD) : Buf (Elt F) (cntLoc d) := V1 m d cnt'
@[reducible] def V1' (d : Dev nD) (g : Buf (Elt F) (cntLoc d)) : Valuation τ sig (Elt F) := Function.update (V1 m d) cnt' g
@[reducible] def V2 (d : Dev nD) (g : Buf (Elt F) (cntLoc d)) : Valuation τ sig (Elt F) := after (ops2 (F := F)) (V1' m d g)

omit [FloatOps F] in
theorem unscoped_held (d : Dev nD) :
    (unscopedBufs d (fun b => m ((SparseCore.T (τ := τ) d).loc b)) : sProp 𝕄) = held (T d) SA (V0 m d) := by
  unfold unscopedBufs held SA
  rw [BI.bigSep_map]; rfl

theorem hS1 : ∀ op ∈ (ops1 (F := F)), op.bufs ⊆ SA := by
  intro op hop
  simp only [ops1, List.mem_cons, List.mem_nil_iff, or_false] at hop
  rcases hop with rfl | rfl | rfl | rfl
  · exact (show ({Proc.devRef .tc (main_arg0 : Ref sig .tc), Proc.devRef .tc (main_v0 : Ref sig .tc)} : Finset (DevRef τ sig)) ⊆ SA by decide)
  · exact (show ({Proc.devRef .tc (main_v0 : Ref sig .tc), Proc.devRef .tc (main_v1 : Ref sig .tc)} : Finset (DevRef τ sig)) ⊆ SA by decide)
  · exact (show ({Proc.devRef .tc (main_arg0 : Ref sig .tc), Proc.devRef .tc (main_v2 : Ref sig .tc)} : Finset (DevRef τ sig)) ⊆ SA by decide)
  · exact (show ({Proc.devRef .tc (main_v2 : Ref sig .tc), Proc.devRef .tc (main_v3 : Ref sig .tc)} : Finset (DevRef τ sig)) ⊆ SA by decide)
theorem hS2 : ∀ op ∈ (ops2 (F := F)), op.bufs ⊆ SA := by
  intro op hop
  simp only [ops2, List.mem_cons, List.mem_nil_iff, or_false] at hop
  rcases hop with rfl | rfl | rfl
  · exact (show ({Proc.devRef .tc (main_arg6 : Ref sig .tc), Proc.devRef .tc (main_v5 : Ref sig .tc)} : Finset (DevRef τ sig)) ⊆ SA by decide)
  · exact (show ({Proc.devRef .tc (main_arg8 : Ref sig .tc), Proc.devRef .tc (main_v6 : Ref sig .tc)} : Finset (DevRef τ sig)) ⊆ SA by decide)
  · exact (show ({Proc.devRef .tc (main_arg10 : Ref sig .tc), Proc.devRef .tc (main_v7 : Ref sig .tc)} : Finset (DevRef τ sig)) ⊆ SA by decide)
theorem hf1 : ∀ op ∈ (ops1 (F := F)), op.fresh = ∅ := by
  intro op hop
  simp only [ops1, List.mem_cons, List.mem_nil_iff, or_false] at hop
  rcases hop with rfl | rfl | rfl | rfl <;> rfl
theorem hf2 : ∀ op ∈ (ops2 (F := F)), op.fresh = ∅ := by
  intro op hop
  simp only [ops2, List.mem_cons, List.mem_nil_iff, or_false] at hop
  rcases hop with rfl | rfl | rfl <;> rfl

/-- The SparseCore call's four operands. -/
abbrev T4 : Finset (DevRef τ sig) := {lab', deg', bat', cnt'}
theorem hT4 : (T4 : Finset (DevRef τ sig)) ⊆ SA := by decide

omit [FloatOps F] in
theorem held_T4 (d : Dev nD) (W : Valuation τ sig (Elt F)) :
    (held (T d) T4 W : sProp 𝕄) = iprop((labLoc d ↦{fullShare} W lab') ∗ (degLoc d ↦{fullShare} W deg') ∗ (batLoc d ↦{fullShare} W bat') ∗ (cntLoc d ↦{fullShare} W cnt')) := by
  unfold held T4
  rw [SparseCore.bigSep_insert' (by decide), SparseCore.bigSep_insert' (by decide), SparseCore.bigSep_insert' (by decide), bigSep_singleton]

omit [FloatOps F] in
theorem not_T4_ne {b : DevRef τ sig} (hb : b ∈ (SA \ T4 : Finset (DevRef τ sig))) : b ≠ cnt' := by
  intro e; subst e
  exact (Finset.mem_sdiff.mp hb).2 (by decide)

theorem held_T4_upd (d : Dev nD) (g : Buf (Elt F) (cntLoc d)) :
    (held (T d) T4 (V1' m d g) : sProp 𝕄)
      = iprop((labLoc d ↦{fullShare} fl m d) ∗ (degLoc d ↦{fullShare} fd m d) ∗ (batLoc d ↦{fullShare} fb m d) ∗ (cntLoc d ↦{fullShare} g)) := by
  rw [held_T4, show V1' m d g lab' = fl m d from Function.update_of_ne (show lab' ≠ cnt' by decide) _ _,
    show V1' m d g deg' = fd m d from Function.update_of_ne (show deg' ≠ cnt' by decide) _ _,
    show V1' m d g bat' = fb m d from Function.update_of_ne (show bat' ≠ cnt' by decide) _ _,
    show V1' m d g cnt' = g from Function.update_self _ _ _]

theorem held_rest_upd (d : Dev nD) (g : Buf (Elt F) (cntLoc d)) :
    (held (T d) (SA \ T4) (V1' m d g) : sProp 𝕄) = held (T d) (SA \ T4) (V1 m d) :=
  StableHlo.held_congr (T d) fun b hb => Function.update_of_ne (not_T4_ne hb) _ _

/-! ## The TensorCore region's arrays -/

/-- The region's ten operands, in the order of its windows, and its result. -/
abbrev T11 : Finset (DevRef τ sig) := {(Proc.devRef .tc (main_v4 : Ref sig .tc) : DevRef τ sig), (Proc.devRef .tc (main_arg2 : Ref sig .tc) : DevRef τ sig), (Proc.devRef .tc (main_arg3 : Ref sig .tc) : DevRef τ sig), (Proc.devRef .tc (main_arg4 : Ref sig .tc) : DevRef τ sig), (Proc.devRef .tc (main_arg5 : Ref sig .tc) : DevRef τ sig), (Proc.devRef .tc (main_v5 : Ref sig .tc) : DevRef τ sig), (Proc.devRef .tc (main_arg7 : Ref sig .tc) : DevRef τ sig), (Proc.devRef .tc (main_v6 : Ref sig .tc) : DevRef τ sig), (Proc.devRef .tc (main_arg9 : Ref sig .tc) : DevRef τ sig), (Proc.devRef .tc (main_v7 : Ref sig .tc) : DevRef τ sig), out'}
theorem hT11 : (T11 : Finset (DevRef τ sig)) ⊆ SA := by decide

/-- A valuation, as contents of the TensorCore's references on device `d`. -/
@[reducible] def Wof (d : Dev nD) (W : Valuation τ sig (Elt F)) : (b : Ref sig .tc) → Buf (Elt F) ((SparseCore.T (τ := τ) d).loc b) := fun b => W (Proc.devRef .tc b)

/-- The region's result from its operands: the body's arithmetic as one term. -/
def headVal (d : Dev nD) (W : (b : Ref sig .tc) → Buf (Elt F) ((SparseCore.T (τ := τ) d).loc b)) : Buf (Elt F) ((SparseCore.T (τ := τ) d).loc main_v8) :=
  k1_pay1 (W main_v4) (W main_arg3) (W main_arg4) (W main_arg2) (W main_arg5) (W main_v5) (W main_arg7) (W main_v6) (W main_arg9) (W main_v7)

/-- The ten operands held whole. -/
def headIns (d : Dev nD) (W : (b : Ref sig .tc) → Buf (Elt F) ((SparseCore.T (τ := τ) d).loc b)) : sProp 𝕄 :=
  iprop(((SparseCore.T (τ := τ) d).loc main_v4 ↦{fullShare} W main_v4) ∗ ((SparseCore.T (τ := τ) d).loc main_arg2 ↦{fullShare} W main_arg2) ∗ ((SparseCore.T (τ := τ) d).loc main_arg3 ↦{fullShare} W main_arg3) ∗ ((SparseCore.T (τ := τ) d).loc main_arg4 ↦{fullShare} W main_arg4) ∗ ((SparseCore.T (τ := τ) d).loc main_arg5 ↦{fullShare} W main_arg5) ∗ ((SparseCore.T (τ := τ) d).loc main_v5 ↦{fullShare} W main_v5) ∗ ((SparseCore.T (τ := τ) d).loc main_arg7 ↦{fullShare} W main_arg7) ∗ ((SparseCore.T (τ := τ) d).loc main_v6 ↦{fullShare} W main_v6) ∗ ((SparseCore.T (τ := τ) d).loc main_arg9 ↦{fullShare} W main_arg9) ∗ ((SparseCore.T (τ := τ) d).loc main_v7 ↦{fullShare} W main_v7))

omit [FloatOps F] in
theorem held_T11 (d : Dev nD) (W : Valuation τ sig (Elt F)) :
    (held (T d) T11 W : sProp 𝕄) = iprop(((SparseCore.T (τ := τ) d).loc main_v4 ↦{fullShare} W (Proc.devRef .tc (main_v4 : Ref sig .tc) : DevRef τ sig)) ∗ ((SparseCore.T (τ := τ) d).loc main_arg2 ↦{fullShare} W (Proc.devRef .tc (main_arg2 : Ref sig .tc) : DevRef τ sig)) ∗ ((SparseCore.T (τ := τ) d).loc main_arg3 ↦{fullShare} W (Proc.devRef .tc (main_arg3 : Ref sig .tc) : DevRef τ sig)) ∗ ((SparseCore.T (τ := τ) d).loc main_arg4 ↦{fullShare} W (Proc.devRef .tc (main_arg4 : Ref sig .tc) : DevRef τ sig)) ∗ ((SparseCore.T (τ := τ) d).loc main_arg5 ↦{fullShare} W (Proc.devRef .tc (main_arg5 : Ref sig .tc) : DevRef τ sig)) ∗ ((SparseCore.T (τ := τ) d).loc main_v5 ↦{fullShare} W (Proc.devRef .tc (main_v5 : Ref sig .tc) : DevRef τ sig)) ∗ ((SparseCore.T (τ := τ) d).loc main_arg7 ↦{fullShare} W (Proc.devRef .tc (main_arg7 : Ref sig .tc) : DevRef τ sig)) ∗ ((SparseCore.T (τ := τ) d).loc main_v6 ↦{fullShare} W (Proc.devRef .tc (main_v6 : Ref sig .tc) : DevRef τ sig)) ∗ ((SparseCore.T (τ := τ) d).loc main_arg9 ↦{fullShare} W (Proc.devRef .tc (main_arg9 : Ref sig .tc) : DevRef τ sig)) ∗ ((SparseCore.T (τ := τ) d).loc main_v7 ↦{fullShare} W (Proc.devRef .tc (main_v7 : Ref sig .tc) : DevRef τ sig)) ∗ ((SparseCore.T (τ := τ) d).loc main_v8 ↦{fullShare} W out')) := by
  unfold held T11
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The arrays at the end: the result written. -/
@[reducible] def V3 (d : Dev nD) (g : Buf (Elt F) (cntLoc d)) : Valuation τ sig (Elt F) :=
  Function.update (V2 m d g) out' (headVal d (Wof d (V2 m d g)))

omit [FloatOps F] in
theorem not_T11_ne {b : DevRef τ sig} (hb : b ∈ (SA \ T11 : Finset (DevRef τ sig))) : b ≠ out' := by
  intro e; subst e
  exact (Finset.mem_sdiff.mp hb).2 (by decide)

theorem held_T11_upd (d : Dev nD) (g : Buf (Elt F) (cntLoc d)) :
    (held (T d) T11 (V3 m d g) : sProp 𝕄)
      = iprop(((SparseCore.T (τ := τ) d).loc main_v4 ↦{fullShare} V2 m d g (Proc.devRef .tc (main_v4 : Ref sig .tc) : DevRef τ sig)) ∗ ((SparseCore.T (τ := τ) d).loc main_arg2 ↦{fullShare} V2 m d g (Proc.devRef .tc (main_arg2 : Ref sig .tc) : DevRef τ sig)) ∗ ((SparseCore.T (τ := τ) d).loc main_arg3 ↦{fullShare} V2 m d g (Proc.devRef .tc (main_arg3 : Ref sig .tc) : DevRef τ sig)) ∗ ((SparseCore.T (τ := τ) d).loc main_arg4 ↦{fullShare} V2 m d g (Proc.devRef .tc (main_arg4 : Ref sig .tc) : DevRef τ sig)) ∗ ((SparseCore.T (τ := τ) d).loc main_arg5 ↦{fullShare} V2 m d g (Proc.devRef .tc (main_arg5 : Ref sig .tc) : DevRef τ sig)) ∗ ((SparseCore.T (τ := τ) d).loc main_v5 ↦{fullShare} V2 m d g (Proc.devRef .tc (main_v5 : Ref sig .tc) : DevRef τ sig)) ∗ ((SparseCore.T (τ := τ) d).loc main_arg7 ↦{fullShare} V2 m d g (Proc.devRef .tc (main_arg7 : Ref sig .tc) : DevRef τ sig)) ∗ ((SparseCore.T (τ := τ) d).loc main_v6 ↦{fullShare} V2 m d g (Proc.devRef .tc (main_v6 : Ref sig .tc) : DevRef τ sig)) ∗ ((SparseCore.T (τ := τ) d).loc main_arg9 ↦{fullShare} V2 m d g (Proc.devRef .tc (main_arg9 : Ref sig .tc) : DevRef τ sig)) ∗ ((SparseCore.T (τ := τ) d).loc main_v7 ↦{fullShare} V2 m d g (Proc.devRef .tc (main_v7 : Ref sig .tc) : DevRef τ sig)) ∗ ((SparseCore.T (τ := τ) d).loc main_v8 ↦{fullShare} headVal d (Wof d (V2 m d g)))) := by
  rw [held_T11, show V3 m d g (Proc.devRef .tc (main_v4 : Ref sig .tc) : DevRef τ sig) = V2 m d g (Proc.devRef .tc (main_v4 : Ref sig .tc) : DevRef τ sig) from Function.update_of_ne (by decide) _ _,
    show V3 m d g (Proc.devRef .tc (main_arg2 : Ref sig .tc) : DevRef τ sig) = V2 m d g (Proc.devRef .tc (main_arg2 : Ref sig .tc) : DevRef τ sig) from Function.update_of_ne (by decide) _ _,
    show V3 m d g (Proc.devRef .tc (main_arg3 : Ref sig .tc) : DevRef τ sig) = V2 m d g (Proc.devRef .tc (main_arg3 : Ref sig .tc) : DevRef τ sig) from Function.update_of_ne (by decide) _ _,
    show V3 m d g (Proc.devRef .tc (main_arg4 : Ref sig .tc) : DevRef τ sig) = V2 m d g (Proc.devRef .tc (main_arg4 : Ref sig .tc) : DevRef τ sig) from Function.update_of_ne (by decide) _ _,
    show V3 m d g (Proc.devRef .tc (main_arg5 : Ref sig .tc) : DevRef τ sig) = V2 m d g (Proc.devRef .tc (main_arg5 : Ref sig .tc) : DevRef τ sig) from Function.update_of_ne (by decide) _ _,
    show V3 m d g (Proc.devRef .tc (main_v5 : Ref sig .tc) : DevRef τ sig) = V2 m d g (Proc.devRef .tc (main_v5 : Ref sig .tc) : DevRef τ sig) from Function.update_of_ne (by decide) _ _,
    show V3 m d g (Proc.devRef .tc (main_arg7 : Ref sig .tc) : DevRef τ sig) = V2 m d g (Proc.devRef .tc (main_arg7 : Ref sig .tc) : DevRef τ sig) from Function.update_of_ne (by decide) _ _,
    show V3 m d g (Proc.devRef .tc (main_v6 : Ref sig .tc) : DevRef τ sig) = V2 m d g (Proc.devRef .tc (main_v6 : Ref sig .tc) : DevRef τ sig) from Function.update_of_ne (by decide) _ _,
    show V3 m d g (Proc.devRef .tc (main_arg9 : Ref sig .tc) : DevRef τ sig) = V2 m d g (Proc.devRef .tc (main_arg9 : Ref sig .tc) : DevRef τ sig) from Function.update_of_ne (by decide) _ _,
    show V3 m d g (Proc.devRef .tc (main_v7 : Ref sig .tc) : DevRef τ sig) = V2 m d g (Proc.devRef .tc (main_v7 : Ref sig .tc) : DevRef τ sig) from Function.update_of_ne (by decide) _ _,
    show V3 m d g out' = headVal d (Wof d (V2 m d g)) from Function.update_self _ _ _]

theorem held_rest11_upd (d : Dev nD) (g : Buf (Elt F) (cntLoc d)) :
    (held (T d) (SA \ T11) (V3 m d g) : sProp 𝕄) = held (T d) (SA \ T11) (V2 m d g) :=
  StableHlo.held_congr (T d) fun b hb => Function.update_of_ne (not_T11_ne hb) _ _

/-- What @main leaves: the count array's rows were the tiles' tables, and every array is at the final contents. -/
def FIN (d : Dev nD) : sProp 𝕄 := iprop(∃ g, ⌜CntOK (fl m) (fd m) (fb m) d g⌝ ∗ held (T d) SA (V3 m d g))

/-- The TensorCore region's triple, as @main's proof consumes it. -/
def HeadSpec : Prop :=
  ∀ (d : Dev nD) (b : ℕ) (W : (b : Ref sig .tc) → Buf (Elt F) ((SparseCore.T (τ := τ) d).loc b)),
    iprop(boundary (SparseCore.T d) ∗ levAts (K (F := F)).L (K (F := F)).lev
        ∗ Pipeline.cellsGhost (Pipeline.pin (pcfgs (F := F)) Cert.Proof.HeadKernelIdeal.adm) (ER (F := F)) 0 d ∗ Pipeline.toksInit (Pipeline.pin (pcfgs (F := F)) Cert.Proof.HeadKernelIdeal.adm) (ER (F := F)) 0 d
        ∗ (∃ Ws, ⌜(K (F := F)).WBelow (SparseCore.T d) Ws b⌝ ∗ owes (SparseCore.T d) 0 Ws)
        ∗ headIns (F := F) d W ∗ ∃ f, (SparseCore.T (τ := τ) d).loc main_v8 ↦{fullShare} f)
      ⊢ wp frame (wpE ((K (F := F)).defs (D (F := F))) 𝒱 (SparseCore.T d) none) Set.univ
          (Prog.lift (.customCall (SparseCore.inner (Pipeline.entry 0)) ()))
          fun _ => iprop(boundary (SparseCore.T d) ∗ (∃ Ws, ⌜(K (F := F)).WBelow (SparseCore.T d) Ws b⌝ ∗ owes (SparseCore.T d) 0 Ws)
            ∗ headIns (F := F) d W ∗ (SparseCore.T (τ := τ) d).loc main_v8 ↦{fullShare} headVal d W)

theorem hmain (hhead : HeadSpec (F := F)) (κ : GSem nD τ sig → ℕ) (d : Dev nD) :
    iprop((K (F := F)).ctx EH (P (fl m) (fd m) (fb m) (fc m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [unscoped_held, main_eq]
  iintro ⟨#Hctx, Hst, ⟨Hb, Hheld, -, -⟩, Hg, Ht⟩
  iapply (StableHlo.wp_seq 𝒱 none Set.univ d SA _ (ops1 (F := F)) hS1 hf1 (V0 m d)) $$ [Hb Hheld]
  · isplitl [Hb] <;> iassumption
  iintro ⟨Hb, Hheld⟩
  ihave Hh := (Entails.of_eq (StableHlo.held_sub_split (T d) hT4 (V1 m d))) $$ Hheld
  icases Hh with ⟨H4, Hrest⟩
  ihave H4' := (Entails.of_eq (held_T4 (F := F) d (V1 m d))) $$ H4
  rw [wp_bind]
  iapply ((K (F := F)).wp_run (D (F := F)) 𝒱 (EH := EH) (P := P (fl m) (fd m) (fb m) (fc m)) κ d 0) $$ [Hst H4' Hg Ht Hb Hrest]
  isplitr; · iexact Hctx
  isplitl [Hst]; · iexact Hst
  isplitl [H4']
  · rw [st_eq]; iexact H4'
  iintro ⟨Hst, Hdn⟩
  ihave Hdn' := (dn_join (fl m) (fd m) (fb m) (fc m) d) $$ Hdn
  icases Hdn' with ⟨Hl, Hd, Hbt, %g, %hg, Hc⟩
  ihave H4 := (Entails.of_eq (held_T4_upd m d g).symm) $$ [Hl Hd Hbt Hc]
  · isplitl [Hl]; · iexact Hl
    isplitl [Hd]; · iexact Hd
    isplitl [Hbt]; · iexact Hbt
    iexact Hc
  ihave Hrest' := (Entails.of_eq (held_rest_upd m d g).symm) $$ Hrest
  ihave Hall := (Entails.of_eq (StableHlo.held_sub_split (T d) hT4 (V1' m d g)).symm) $$ [H4 Hrest']
  · isplitl [H4] <;> iassumption
  iapply (StableHlo.wp_seq 𝒱 none Set.univ d SA _ (ops2 (F := F)) hS2 hf2 (V1' m d g)) $$ [Hb Hall]
  · isplitl [Hb] <;> iassumption
  iintro ⟨Hb, Hheld⟩
  ihave Hh := (Entails.of_eq (StableHlo.held_sub_split (T d) hT11 (V2 m d g))) $$ Hheld
  icases Hh with ⟨H11, Hrest⟩
  ihave H11' := (Entails.of_eq (held_T11 (F := F) d (V2 m d g))) $$ H11
  icases H11' with ⟨h1, h2, h3, h4, h5, h6, h7, h8, h9, h10, h11⟩
  ihave Hlev := ((K (F := F)).ctx_levAts κ) $$ Hctx
  unfold SparseCore.Cfg.tcSt
  rw [(K (F := F)).Otc_end d (show 1 ≤ ((0 : Fin 1).val + 1) from Nat.le_refl _), (K (F := F)).Otc_end d (Nat.le_refl 1)]
  icases Hst with ⟨⟨%Ws, %hWs, HO⟩, Hat, #Hrd, #Hrs, Htoks⟩
  rw [wp_bind]
  ihave Hwp := (hhead d (8 * ((0 : Fin 1).val + 1)) (Wof d (V2 m d g))) $$ [Hb Hlev Hg Ht HO h1 h2 h3 h4 h5 h6 h7 h8 h9 h10 h11]
  · isplitl [Hb]; · iexact Hb
    isplitl [Hlev]; · iexact Hlev
    isplitl [Hg]; · iexact Hg
    isplitl [Ht]; · iexact Ht
    isplitl [HO]
    · iexists Ws; isplitr
      · ipureintro; exact hWs
      · iexact HO
    isplitl [h1 h2 h3 h4 h5 h6 h7 h8 h9 h10]
    · unfold headIns
      isplitl [h1]; · iexact h1
      isplitl [h2]; · iexact h2
      isplitl [h3]; · iexact h3
      isplitl [h4]; · iexact h4
      isplitl [h5]; · iexact h5
      isplitl [h6]; · iexact h6
      isplitl [h7]; · iexact h7
      isplitl [h8]; · iexact h8
      isplitl [h9]; · iexact h9
      iexact h10
    iexists _; iexact h11
  iapply (wp_wand_r frame _ Set.univ) $$ [Hwp Hat Htoks Hrest]
  isplitl [Hwp]; · iexact Hwp
  iintro %_
  iintro ⟨Hb, ⟨%Ws', %hWs', HO⟩, Hins, Hout⟩
  rw [Prog.pure_eq_ret, wp_ret]; imodintro
  isplitl [HO Hat Htoks]
  · isplitl [HO]
    · iexists Ws'; isplitr
      · ipureintro; exact hWs'
      · iexact HO
    isplitl [Hat]; · iexact Hat
    isplitr; · iexact Hrd
    isplitr; · iexact Hrs
    iexact Htoks
  unfold FIN
  iexists g; isplitr
  · ipureintro; exact hg
  rw [StableHlo.held_sub_split (T d) hT11 (V3 m d g), held_T11_upd, held_rest11_upd]
  isplitl [Hins Hout]
  · unfold headIns
    icases Hins with ⟨h1, h2, h3, h4, h5, h6, h7, h8, h9, h10⟩
    isplitl [h1]; · iexact h1
    isplitl [h2]; · iexact h2
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    iexact Hout
  · iexact Hrest

/-! ## Reading the final memory -/

omit [FloatOps F] in
/-- Arrays held whole are what the memory holds. -/
theorem held_agree (c : Thread nD τ) (S : Finset (DevRef τ sig)) (W : Valuation τ sig (Elt F)) (s' : Phys nD τ sig (Elt F)) :
    iprop((held c S W : sProp 𝕄) ∗ SI s') ⊢ (⌜∀ b ∈ S, s'.mem.mem (c.1, b) = W b⌝ : sProp 𝕄) := by
  classical
  induction S using Finset.induction_on with
  | empty => iintro -; ipureintro; intro b hb; exact absurd hb (Finset.notMem_empty b)
  | insert b S hb ih =>
    unfold held at ih ⊢
    rw [SparseCore.bigSep_insert' hb]
    iintro ⟨⟨Hx, HS⟩, HSI⟩
    ihave H := (persistent_entails_right (SI_pointsTo_agree (st := s') (ℓ := (c.1, b)) (I := Finset.univ) (q := fullShare) (f := W b))) $$ [HSI Hx]
    · isplitl [HSI] <;> iassumption
    icases H with ⟨%h1, HSI, -⟩
    ihave H2 := ih $$ [HS HSI]
    · isplitl [HS] <;> iassumption
    icases H2 with %h2
    ipureintro
    intro b' hb'
    rcases Finset.mem_insert.mp hb' with rfl | hb'
    · exact funext fun i => h1 i (Finset.mem_univ i)
    · exact h2 b' hb'

/-- What the final memory of device `d` satisfies. -/
def fq (d : Dev nD) (s' : Phys nD τ sig (Elt F)) : Prop :=
  ∃ g, CntOK (fl m) (fd m) (fb m) d g ∧ ∀ b ∈ (SA : Finset (DevRef τ sig)), s'.mem.mem (d, b) = V3 m d g b

theorem hfin (d : Dev nD) (s' : Phys nD τ sig (Elt F)) : iprop(FIN m d ∗ SI s') ⊢ (⌜fq m d s'⌝ : sProp 𝕄) := by
  unfold FIN
  iintro ⟨⟨%g, %hg, Hh⟩, HSI⟩
  ihave H := (held_agree (T d) SA (V3 m d g) s') $$ [Hh HSI]
  · isplitl [Hh] <;> iassumption
  icases H with %h
  ipureintro; exact ⟨g, hg, h⟩

/-- The run's post: on every device the count array's rows were the tiles' tables and every array of @main is at its
    final contents. -/
def QC : PUnit × MemSt nD τ sig (Elt F) → Prop := fun r => ∀ c : Dev nD,
  ∃ g, CntOK (fl m) (fd m) (fb m) c g ∧ ∀ b ∈ (SA : Finset (DevRef τ sig)), r.2.mem (c, b) = V3 m c g b

end Main

end Cert.KernelIdeal.Main

end
-- ==== Proof.TileBody.lean ====
/-
  One tile's task, once, at a symbolic tile and for any float instance.

  A tile (vector subcore s of SparseCore c, number w = 16 c + s) owns four scratches in its own memory: three
  1024-word index scratches and one 32 x 128 table. Its task: (1) zero the table, a row per trip, each row in eight
  runs of sixteen words; (2) fetch its 1024-entry slice (offset 1024 w) of the label, degree and batch arrays, each
  by one local copy on a semaphore of its own that is waited for at once; (3) for each of 64 groups of sixteen
  consecutive entries, add a one into the table at (batch, label clipped to [0, 101]) and at (batch + 16, degree
  clipped to [0, 10]), the sixteen lanes in ascending order; (4) copy the table to row w of the count array, again
  one local copy waited for at once.

  What is proved: started with its slices of the three index arrays, its row of the count array, its own scratches
  and semaphores, and with every batch word of its slice at most 15, the task runs to its end without a stuck step,
  gives the slices back unchanged, and leaves in its row of the count array exactly the table that the definition
  `Hist.tileTab` computes from the three slices (the all-zero table with the 64 groups' scatters applied in
  order). The two loops go by invariants: "rows below k of the table are zero" for the zeroing loop, "the table is
  the one after 4 k groups, the index scratches hold the slices" for the scatter loop. Every index pair a scatter
  uses is in range because a batch word is at most 15 (so at most 31 after the shift by 16) and a clipped label or
  degree is at most 101 or 10.
-/
import proofs.«203920_g2267742732911_cont_8to1_1065_18_alg».proof.Proof.KSetup
import proofs.«203920_g2267742732911_cont_8to1_1065_18_alg».proof.Proof.TileSpec
import Idealize.ShloMosaic.Lib.SparseCore.Ops
import Idealize.ShloMosaic.Lib.Writes
import Idealize.ShloMosaic.Lib.WordArith

noncomputable section

namespace Cert.KernelIdeal.Tile

open Cert.KernelIdeal Cert.KernelIdeal.Gen Cert.KernelIdeal.Setup Cert.KernelIdeal.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-! ## The four arrays and the four scratches, as the tile's memrefs address them -/

theorem set_degSl : (degSl L).view.set = slSet L := rfl
theorem set_batSl : (batSl L).view.set = slSet L := rfl

theorem pts_labSl (f : Buf (Elt F) (labLoc d)) :
    ((labSl L).view.loc (V d (cV L) (jV L)) ↦[(labSl L).view.set]{fullShare} f : sProp 𝕄) = labSlPts d L f := rfl
theorem pts_degSl (f : Buf (Elt F) (degLoc d)) :
    ((degSl L).view.loc (V d (cV L) (jV L)) ↦[(degSl L).view.set]{fullShare} f : sProp 𝕄) = degSlPts d L f := rfl
theorem pts_batSl (f : Buf (Elt F) (batLoc d)) :
    ((batSl L).view.loc (V d (cV L) (jV L)) ↦[(batSl L).view.set]{fullShare} f : sProp 𝕄) = batSlPts d L f := rfl
theorem pts_cntRow (f : Buf (Elt F) (cntLoc d)) :
    ((cntRow L).view.loc (V d (cV L) (jV L)) ↦[(cntRow L).view.set]{fullShare} f : sProp 𝕄) = cntRowPts d L f := rfl

theorem pts_sLab (f : Buf (Elt F) ((V d (cV L) (jV L)).loc cc0_scratch0)) :
    ((sLab).view.loc (V d (cV L) (jV L)) ↦{fullShare} f : sProp 𝕄) = (V d (cV L) (jV L)).loc cc0_scratch0 ↦{fullShare} f := rfl
theorem pts_sDeg (f : Buf (Elt F) ((V d (cV L) (jV L)).loc cc0_scratch1)) :
    ((sDeg).view.loc (V d (cV L) (jV L)) ↦{fullShare} f : sProp 𝕄) = (V d (cV L) (jV L)).loc cc0_scratch1 ↦{fullShare} f := rfl
theorem pts_sBat (f : Buf (Elt F) ((V d (cV L) (jV L)).loc cc0_scratch2)) :
    ((sBat).view.loc (V d (cV L) (jV L)) ↦{fullShare} f : sProp 𝕄) = (V d (cV L) (jV L)).loc cc0_scratch2 ↦{fullShare} f := rfl
theorem pts_sTab (f : Buf (Elt F) ((V d (cV L) (jV L)).loc cc0_scratch3)) :
    ((sTab).view.loc (V d (cV L) (jV L)) ↦{fullShare} f : sProp 𝕄) = (V d (cV L) (jV L)).loc cc0_scratch3 ↦{fullShare} f := rfl

/-! ## The tile's four copy semaphores and four scratches among what it owns -/

abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)
abbrev cell3 (d : Dev nD) (c : Fin τ.nSC) (i : Fin τ.nSub) : GSem nD τ sig := (V d c i, .dma cc0_scoped3.sem)

theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0
          ∗ semVal (cell3 d (cV L) (jV L)) 0
          ∗ bigSep (((((ownCells (V d (cV L) (jV L))).erase (cell0 d (cV L) (jV L))).erase (cell1 d (cV L) (jV L))).erase
              (cell2 d (cV L) (jV L))).erase (cell3 d (cV L) (jV L))) fun g => semVal g 0) := by
  unfold SparseCore.Cfg.ownSems0
  rw [SparseCore.bigSep_erase' ((mem_ownCells (g := cell0 d (cV L) (jV L))).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc0_scoped2.sem : SemLoc sig).isScoped .scVector = true; decide⟩⟩⟩),
    SparseCore.bigSep_erase' (Finset.mem_erase.mpr ⟨by simp [cell2, cell3]; decide, Finset.mem_erase.mpr ⟨by simp [cell1, cell3]; decide,
      Finset.mem_erase.mpr ⟨by simp [cell0, cell3]; decide,
      (mem_ownCells (g := cell3 d (cV L) (jV L))).mpr ⟨rfl, by show (SemLoc.dma cc0_scoped3.sem : SemLoc sig).isScoped .scVector = true; decide⟩⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

variable [FloatOps F]

/-- The zero word of the table. -/
abbrev zeroF : Elt F .f32 := Scalar.ofBits .f32 0x00000000#32

/-- The eight stores of one trip of the zeroing loop, newest first: row k in eight runs of sixteen. -/
abbrev zeroPieces (k : Fin k0_t1_loop.trips) : List (View.Piece (Elt F) S32x128 .f32) :=
  [⟨Rect.unit (s := S32x128) (k0_off8 k) S1x16.size (k0_off8_inb k), shapeCast S1x16 (k0_pay1 (F := F)) shapeCasts_S16_S1x16⟩,
   ⟨Rect.unit (s := S32x128) (k0_off7 k) S1x16.size (k0_off7_inb k), shapeCast S1x16 (k0_pay1 (F := F)) shapeCasts_S16_S1x16⟩,
   ⟨Rect.unit (s := S32x128) (k0_off6 k) S1x16.size (k0_off6_inb k), shapeCast S1x16 (k0_pay1 (F := F)) shapeCasts_S16_S1x16⟩,
   ⟨Rect.unit (s := S32x128) (k0_off5 k) S1x16.size (k0_off5_inb k), shapeCast S1x16 (k0_pay1 (F := F)) shapeCasts_S16_S1x16⟩,
   ⟨Rect.unit (s := S32x128) (k0_off4 k) S1x16.size (k0_off4_inb k), shapeCast S1x16 (k0_pay1 (F := F)) shapeCasts_S16_S1x16⟩,
   ⟨Rect.unit (s := S32x128) (k0_off3 k) S1x16.size (k0_off3_inb k), shapeCast S1x16 (k0_pay1 (F := F)) shapeCasts_S16_S1x16⟩,
   ⟨Rect.unit (s := S32x128) (k0_off2 k) S1x16.size (k0_off2_inb k), shapeCast S1x16 (k0_pay1 (F := F)) shapeCasts_S16_S1x16⟩,
   ⟨Rect.unit (s := S32x128) (k0_off1 k) S1x16.size (k0_off1_inb k), shapeCast S1x16 (k0_pay1 (F := F)) shapeCasts_S16_S1x16⟩]

/-- Every element of row k lies in one of the trip's eight runs. -/
theorem zeroPieces_cover (k : Fin k0_t1_loop.trips) (y : S32x128.Idx) (hyk : (y 0).val = k.val) :
    ∃ p ∈ zeroPieces (F := F) k, y ∈ p.1.set := by
  have hy1 : (y 1).val < 128 := (y 1).isLt
  simp only [zeroPieces, List.mem_cons, List.not_mem_nil, or_false, exists_eq_or_imp, exists_eq_left, Rect.mem_set_unit,
    k0_off1_eq, k0_off2_eq, k0_off3_eq, k0_off4_eq, k0_off5_eq, k0_off6_eq, k0_off7_eq, k0_off8_eq, Fin.forall_fin_two,
    Matrix.cons_val_zero, Matrix.cons_val_one]
  omega

/-- Every store of the trip writes zeros. -/
theorem zeroPieces_zero (k : Fin k0_t1_loop.trips) :
    ∀ p ∈ zeroPieces (F := F) k, ∀ x : p.1.shape.Idx, p.2 x = (fun _ : S32x128.Idx => zeroF (F := F)) (p.1.emb x) := by
  intro p hp x
  simp only [zeroPieces, List.mem_cons, List.not_mem_nil, or_false] at hp
  rcases hp with rfl | rfl | rfl | rfl | rfl | rfl | rfl | rfl <;> rfl

/-- One trip of the zeroing loop: rows below k zero before, rows below k + 1 zero after. -/
theorem zero_step (v : View sig .scVector .vmem S32x128 .f32) (g : v.ty.Contents (Elt F)) (k : Fin k0_t1_loop.trips)
    (hg : ∀ y : S32x128.Idx, (y 0).val < k.val → v.read (Elt F) g y = zeroF (F := F)) (y : S32x128.Idx) (hy : (y 0).val < k.val + 1) :
    v.read (Elt F) (v.writes (Elt F) g (zeroPieces (F := F) k)) y = zeroF (F := F) := by
  by_cases hc : ∃ p ∈ zeroPieces (F := F) k, y ∈ p.1.set
  · exact View.read_writes_apply_of_pieces v g (fun _ => zeroF (F := F)) _ (zeroPieces_zero k) y hc
  · rw [View.read_writes_apply_of_forall_not_mem v g y _ fun p hp hm => hc ⟨p, hp, hm⟩]
    refine hg y ?_
    by_contra hlt
    exact hc (zeroPieces_cover k y (by omega))

/-- Before trip k of the zeroing loop: rows below k of the table scratch are zero. -/
def inv1 (k : Nat) (_ : Unit) : sProp 𝕄 :=
  iprop(∃ g : Buf (Elt F) ((V d (cV L) (jV L)).loc cc0_scratch3),
    ⌜∀ y : S32x128.Idx, (y 0).val < k → (sTab).view.read (Elt F) g y = zeroF (F := F)⌝
      ∗ ((sTab).view.loc (V d (cV L) (jV L)) ↦{fullShare} g))

theorem region1 (k : Fin k0_t1_loop.trips) (acc : Unit) :
    inv1 (F := F) d L k acc ⊢ wp frame (wpE (defs₀ (F := F)) 𝒱₀ (V d (cV L) (jV L)) none) Set.univ
      (k0_t1_body L labV (Memref.isWhole_whole _) degV (Memref.isWhole_whole _) batV (Memref.isWhole_whole _) cntV (Memref.isWhole_whole _)
            sLab (Memref.isWhole_whole _) sDeg (Memref.isWhole_whole _) sBat (Memref.isWhole_whole _) sTab (Memref.isWhole_whole _)
            cc0_scoped0 cc0_scoped1 cc0_scoped2 cc0_scoped3 k acc) (inv1 (F := F) d L (k.val + 1)) := by
  unfold inv1 k0_t1_body
  iintro ⟨%g, %hg, Ht⟩
  sl_exec
  sl_step
  iexists _
  isplitr
  · ipureintro; exact zero_step (sTab).view g k hg
  · iexact Ht

/-! ## The indices a trip computes are in range, and what it loads are the groups' lanes -/

/-- A word clipped to [0, c] (c below 2^31) is at most c as an unsigned number. -/
theorem clip_le (c : BitVec 32) (hc : c.toNat < 2 ^ 31) (x : BitVec 32) :
    (IntOp.minsi c (IntOp.maxsi 0#32 x)).toNat ≤ c.toNat := by
  have h1 : (IntOp.maxsi 0#32 x).toNat < 2 ^ 31 := by
    have h := WordArith.two_mul_toNat_maxsi_zero_lt x
    simp only [Scalar.maxsi] at h
    omega
  rw [WordArith.toNat_minsi_of_lt _ _ hc h1]
  exact Nat.min_le_left _ _

theorem clip101_le (v : Vec F S16 .i32) (x : S16.Idx) : (k0_pay5 (F := F) v x).toNat ≤ 101 :=
  clip_le 101#32 (by decide) (v x)

theorem clip10_le (v : Vec F S16 .i32) (x : S16.Idx) : (k0_pay6 (F := F) v x).toNat ≤ 10 :=
  clip_le 10#32 (by decide) (v x)

/-- A batch row (at most 15) with a clipped label column is inside the 32 x 128 table. -/
theorem chk_odd (row col : IVec S16 32) (hr : ∀ x, (row x).toNat ≤ 15) (hc : ∀ x, (col x).toNat ≤ 101) :
    ∀ (a : Fin 2) (x : S16.Idx), ((![row, col] : Fin 2 → IVec S16 32) a x).toNat < S32x128.size a := by
  intro a x
  fin_cases a
  · show (row x).toNat < 32
    have := hr x; omega
  · show (col x).toNat < 128
    have := hc x; omega

/-- A batch row shifted by sixteen with a clipped degree column is inside the table. -/
theorem chk_even (brow col : IVec S16 32) (hr : ∀ x, (brow x).toNat ≤ 15) (hc : ∀ x, (col x).toNat ≤ 10) :
    ∀ (a : Fin 2) (x : S16.Idx), ((![k0_pay7 (F := F) brow, col] : Fin 2 → IVec S16 32) a x).toNat < S32x128.size a := by
  intro a x
  fin_cases a
  · show (k0_pay7 (F := F) brow x).toNat < 32
    have e : k0_pay7 (F := F) brow x = brow x + 16#32 := rfl
    have := hr x
    rw [e, BitVec.toNat_add]
    simp only [BitVec.toNat_ofNat]
    omega
  · show (col x).toNat < 128
    have := hc x; omega

/-- Sixteen consecutive entries from 16 q of a 1024-vector are its group q. -/
theorem lanes_core (v : Vec F S1024 .i32) (off : Fin 1 → Nat) (inb : ∀ a, off a + S16.size a ≤ S1024.size a) (q : Nat)
    (hoff : off 0 = 16 * q) :
    (fun x : S16.Idx => v ((Rect.unit (s := S1024) off S16.size inb).toLoadRect.idx x)) = lanes (F := F) v q := by
  funext x
  unfold lanes
  congr 1
  funext a
  obtain rfl : a = 0 := Subsingleton.elim _ _
  apply Fin.ext
  show off 0 + 1 * (x 0).val = (16 * q + (x 0).val) % 1024
  have h0 : off 0 + 16 ≤ 1024 := inb 0
  have hx : (x 0).val < 16 := (x 0).isLt
  omega

/-! The eight side conditions of a trip, each from the fact that the batch words loaded are at most 15. -/
theorem chk1' (row : IVec S16 32) (v : Vec F S16 .i32) (hr : ∀ x, (row x).toNat ≤ 15) : k0_chk1 row (k0_pay5 (F := F) v) :=
  chk_odd row _ hr (clip101_le (F := F) v)
theorem chk3' (row : IVec S16 32) (v : Vec F S16 .i32) (hr : ∀ x, (row x).toNat ≤ 15) : k0_chk3 row (k0_pay8 (F := F) v) :=
  chk_odd row _ hr (clip101_le (F := F) v)
theorem chk5' (row : IVec S16 32) (v : Vec F S16 .i32) (hr : ∀ x, (row x).toNat ≤ 15) : k0_chk5 row (k0_pay12 (F := F) v) :=
  chk_odd row _ hr (clip101_le (F := F) v)
theorem chk7' (row : IVec S16 32) (v : Vec F S16 .i32) (hr : ∀ x, (row x).toNat ≤ 15) : k0_chk7 row (k0_pay15 (F := F) v) :=
  chk_odd row _ hr (clip101_le (F := F) v)
theorem chk2' (brow : IVec S16 32) (v : Vec F S16 .i32) (hr : ∀ x, (brow x).toNat ≤ 15) :
    k0_chk2 (k0_pay6 (F := F) v) (k0_pay7 (F := F) brow) :=
  chk_even (F := F) brow _ hr (clip10_le (F := F) v)
theorem chk4' (brow : IVec S16 32) (v : Vec F S16 .i32) (hr : ∀ x, (brow x).toNat ≤ 15) :
    k0_chk4 (minsi (k0_pay10) (k0_pay9 (F := F) v)) (k0_pay11 (F := F) brow) :=
  chk_even (F := F) brow _ hr (clip10_le (F := F) v)
theorem chk6' (brow : IVec S16 32) (v : Vec F S16 .i32) (hr : ∀ x, (brow x).toNat ≤ 15) :
    k0_chk6 (k0_pay13 (F := F) v) (k0_pay14 (F := F) brow) :=
  chk_even (F := F) brow _ hr (clip10_le (F := F) v)
theorem chk8' (brow : IVec S16 32) (v : Vec F S16 .i32) (hr : ∀ x, (brow x).toNat ≤ 15) :
    k0_chk8 (k0_pay3 (F := F) v 10#32 k0_pay16) (k0_pay4 (F := F) brow) :=
  chk_even (F := F) brow _ hr (clip10_le (F := F) v)

/-! ## The accumulate-scatter through the table scratch, as a step on its contents -/

theorem wp_scat {α : Type} (row col : IVec S16 32)
    (h : ∀ a x, ((![row, col] : Fin 2 → IVec S16 32) a x).toNat < S32x128.size a)
    (hs : ((sTab).access (.whole S32x128)).Stores Finset.univ)
    (k : PUnit → Prog (TpuEff nD τ sig (Elt F) Λ₀ (V d (cV L) (jV L)).2) α) (Q : α → sProp 𝕄)
    (f : Buf (Elt F) ((V d (cV L) (jV L)).loc cc0_scratch3)) :
    ((sTab).view.loc (V d (cV L) (jV L)) ↦{fullShare} f : sProp 𝕄)
      ⊢ iprop((((sTab).view.loc (V d (cV L) (jV L)) ↦{fullShare} scat (F := F) f row col)
          -∗ wp frame (wpE (defs₀ (F := F)) 𝒱₀ (V d (cV L) (jV L)) none) Set.univ (k ⟨⟩) Q)
        -∗ wp frame (wpE (defs₀ (F := F)) 𝒱₀ (V d (cV L) (jV L)) none) Set.univ
            (SparseCore.vectorStoreIdx (sTab) ![row, col] (k0_pay2 (F := F)) (fun _ => 1#1) true h hs >>= k) Q) := by
  have e := SparseCore.wp_vectorStoreIdx (defs := defs₀ (F := F)) 𝒱₀ (V d (cV L) (jV L)) none Set.univ (base := sTab)
    (idxs := ![row, col]) (v := k0_pay2 (F := F)) (mask := fun _ => 1#1) (add := true) (h := h) (hs := hs) (k := k) (f := f) (Q := Q)
  have hset : ((sTab).access (Rect.whole S32x128)).set = Finset.univ := Memref.set_access_whole (cc0_scratch3 : Ref sig .scVector)
  have hread : ∀ g, ((sTab).access (Rect.whole S32x128)).read (Elt F) g = g := Memref.read_access_whole (Elt F) (cc0_scratch3 : Ref sig .scVector)
  have hwrite : ∀ g w, ((sTab).access (Rect.whole S32x128)).write (Elt F) g w Finset.univ = w :=
    Memref.write_access_whole_univ (Elt F) (cc0_scratch3 : Ref sig .scVector)
  rw [hset, hread, hwrite, scat_eq] at e
  exact e

/-- Sixteen words loaded from offset `off` of the label, degree and batch scratch. -/
abbrev ldL (off : Fin 1 → Nat) (inb : ∀ a, off a + S16.size a ≤ S1024.size a)
    (f : (sLab : Memref sig .scVector .vmem S1024 .i32).view.ty.Contents (Elt F)) : Vec F S16 .i32 :=
  View.readAt (Elt F) (sLab).view (Rect.unit (s := S1024) off S16.size inb).toLoadRect f
abbrev ldD (off : Fin 1 → Nat) (inb : ∀ a, off a + S16.size a ≤ S1024.size a)
    (f : (sDeg : Memref sig .scVector .vmem S1024 .i32).view.ty.Contents (Elt F)) : Vec F S16 .i32 :=
  View.readAt (Elt F) (sDeg).view (Rect.unit (s := S1024) off S16.size inb).toLoadRect f
abbrev ldB (off : Fin 1 → Nat) (inb : ∀ a, off a + S16.size a ≤ S1024.size a)
    (f : (sBat : Memref sig .scVector .vmem S1024 .i32).view.ty.Contents (Elt F)) : Vec F S16 .i32 :=
  View.readAt (Elt F) (sBat).view (Rect.unit (s := S1024) off S16.size inb).toLoadRect f

theorem bat_load_le (bv : Buf (Elt F) ((V d (cV L) (jV L)).loc cc0_scratch2)) (hbv : ∀ j, (bv j).toNat ≤ 15)
    (off : Fin 1 → Nat) (inb : ∀ a, off a + S16.size a ≤ S1024.size a) (x : S16.Idx) :
    ((sBat).view.readAt (Elt F) (Rect.unit (s := S1024) off S16.size inb).toLoadRect bv x).toNat ≤ 15 := hbv _

/-- What one trip of the scatter loop leaves in the table, spelt over the vectors the trip loads. -/
theorem trip_tab (lv : Buf (Elt F) ((V d (cV L) (jV L)).loc cc0_scratch0)) (dv : Buf (Elt F) ((V d (cV L) (jV L)).loc cc0_scratch1))
    (bv : Buf (Elt F) ((V d (cV L) (jV L)).loc cc0_scratch2)) (k : Fin k0_t2_loop.trips) :
    tabAfter (F := F) lv dv bv (4 * (k.val + 1))
      = scat (scat (scat (scat (scat (scat (scat (scat (tabAfter (F := F) lv dv bv (4 * k.val))
          (ldB (k0_off10 k) (k0_off10_inb k) bv) (k0_pay5 (F := F) (ldL (k0_off10 k) (k0_off10_inb k) lv)))
          (k0_pay7 (F := F) (ldB (k0_off10 k) (k0_off10_inb k) bv)) (k0_pay6 (F := F) (ldD (k0_off10 k) (k0_off10_inb k) dv)))
          (ldB (k0_off11 k) (k0_off11_inb k) bv) (k0_pay5 (F := F) (ldL (k0_off11 k) (k0_off11_inb k) lv)))
          (k0_pay7 (F := F) (ldB (k0_off11 k) (k0_off11_inb k) bv)) (k0_pay6 (F := F) (ldD (k0_off11 k) (k0_off11_inb k) dv)))
          (ldB (k0_off12 k) (k0_off12_inb k) bv) (k0_pay5 (F := F) (ldL (k0_off12 k) (k0_off12_inb k) lv)))
          (k0_pay7 (F := F) (ldB (k0_off12 k) (k0_off12_inb k) bv)) (k0_pay6 (F := F) (ldD (k0_off12 k) (k0_off12_inb k) dv)))
          (ldB (k0_off13 k) (k0_off13_inb k) bv) (k0_pay5 (F := F) (ldL (k0_off13 k) (k0_off13_inb k) lv)))
          (k0_pay7 (F := F) (ldB (k0_off13 k) (k0_off13_inb k) bv)) (k0_pay6 (F := F) (ldD (k0_off13 k) (k0_off13_inb k) dv)) := by
  have hk : k.val < 16 := lt_of_lt_of_le k.isLt k0_t2_abs.2.1
  have h10 : k0_off10 k 0 = 16 * (4 * k.val) := by rw [k0_off10_eq]; simp; omega
  have h11 : k0_off11 k 0 = 16 * (4 * k.val + 1) := by rw [k0_off11_eq]; simp; omega
  have h12 : k0_off12 k 0 = 16 * (4 * k.val + 1 + 1) := by rw [k0_off12_eq]; simp; omega
  have h13 : k0_off13 k 0 = 16 * (4 * k.val + 1 + 1 + 1) := by rw [k0_off13_eq]; simp; omega
  have eB0 : ldB (k0_off10 k) (k0_off10_inb k) bv = lanes (F := F) bv (4 * k.val) := lanes_core bv _ _ _ h10
  have eL0 : ldL (k0_off10 k) (k0_off10_inb k) lv = lanes (F := F) lv (4 * k.val) := lanes_core lv _ _ _ h10
  have eD0 : ldD (k0_off10 k) (k0_off10_inb k) dv = lanes (F := F) dv (4 * k.val) := lanes_core dv _ _ _ h10
  have eB1 : ldB (k0_off11 k) (k0_off11_inb k) bv = lanes (F := F) bv (4 * k.val + 1) := lanes_core bv _ _ _ h11
  have eL1 : ldL (k0_off11 k) (k0_off11_inb k) lv = lanes (F := F) lv (4 * k.val + 1) := lanes_core lv _ _ _ h11
  have eD1 : ldD (k0_off11 k) (k0_off11_inb k) dv = lanes (F := F) dv (4 * k.val + 1) := lanes_core dv _ _ _ h11
  have eB2 : ldB (k0_off12 k) (k0_off12_inb k) bv = lanes (F := F) bv (4 * k.val + 1 + 1) := lanes_core bv _ _ _ h12
  have eL2 : ldL (k0_off12 k) (k0_off12_inb k) lv = lanes (F := F) lv (4 * k.val + 1 + 1) := lanes_core lv _ _ _ h12
  have eD2 : ldD (k0_off12 k) (k0_off12_inb k) dv = lanes (F := F) dv (4 * k.val + 1 + 1) := lanes_core dv _ _ _ h12
  have eB3 : ldB (k0_off13 k) (k0_off13_inb k) bv = lanes (F := F) bv (4 * k.val + 1 + 1 + 1) := lanes_core bv _ _ _ h13
  have eL3 : ldL (k0_off13 k) (k0_off13_inb k) lv = lanes (F := F) lv (4 * k.val + 1 + 1 + 1) := lanes_core lv _ _ _ h13
  have eD3 : ldD (k0_off13 k) (k0_off13_inb k) dv = lanes (F := F) dv (4 * k.val + 1 + 1 + 1) := lanes_core dv _ _ _ h13
  rw [eB0, eL0, eD0, eB1, eL1, eD1, eB2, eL2, eD2, eB3, eL3, eD3,
    show 4 * (k.val + 1) = 4 * k.val + 1 + 1 + 1 + 1 from by omega, tabAfter_succ, tabAfter_succ, tabAfter_succ, tabAfter_succ]
  rfl

/-- Before trip k of the scatter loop: the three index scratches hold the tile's slices, the table
    scratch the table after the first 4 k groups. -/
def inv2 (lv : Buf (Elt F) ((V d (cV L) (jV L)).loc cc0_scratch0)) (dv : Buf (Elt F) ((V d (cV L) (jV L)).loc cc0_scratch1))
    (bv : Buf (Elt F) ((V d (cV L) (jV L)).loc cc0_scratch2)) (k : Nat) (_ : Unit) : sProp 𝕄 :=
  iprop(((sLab).view.loc (V d (cV L) (jV L)) ↦{fullShare} lv) ∗ ((sDeg).view.loc (V d (cV L) (jV L)) ↦{fullShare} dv)
    ∗ ((sBat).view.loc (V d (cV L) (jV L)) ↦{fullShare} bv)
    ∗ ((sTab).view.loc (V d (cV L) (jV L)) ↦{fullShare} tabAfter (F := F) lv dv bv (4 * k)))

set_option sl_exec.dischHeartbeats 400000 in
set_option maxHeartbeats 4000000 in
theorem region2 (lv : Buf (Elt F) ((V d (cV L) (jV L)).loc cc0_scratch0)) (dv : Buf (Elt F) ((V d (cV L) (jV L)).loc cc0_scratch1))
    (bv : Buf (Elt F) ((V d (cV L) (jV L)).loc cc0_scratch2)) (hbv : ∀ j, (bv j).toNat ≤ 15) (k : Fin k0_t2_loop.trips) (acc : Unit) :
    inv2 (F := F) d L lv dv bv k acc ⊢ wp frame (wpE (defs₀ (F := F)) 𝒱₀ (V d (cV L) (jV L)) none) Set.univ
      (k0_t2_body L labV (Memref.isWhole_whole _) degV (Memref.isWhole_whole _) batV (Memref.isWhole_whole _) cntV (Memref.isWhole_whole _)
            sLab (Memref.isWhole_whole _) sDeg (Memref.isWhole_whole _) sBat (Memref.isWhole_whole _) sTab (Memref.isWhole_whole _)
            cc0_scoped0 cc0_scoped1 cc0_scoped2 cc0_scoped3 k acc) (inv2 (F := F) d L lv dv bv (k.val + 1)) := by
  unfold k0_t2_body
  rw [k0_part1_eq_skeleton, k0_part2_eq_skeleton]
  unfold inv2
  iintro ⟨Hl, Hd, Hb, Ht⟩
  sl_exec (disch := first
    | (guard_target = k0_chk1 _ _; exact chk1' _ _ (bat_load_le d L bv hbv _ _))
    | (guard_target = k0_chk2 _ _; exact chk2' _ _ (bat_load_le d L bv hbv _ _))
    | (guard_target = k0_chk3 _ _; exact chk3' _ _ (bat_load_le d L bv hbv _ _))
    | (guard_target = k0_chk4 _ _; exact chk4' _ _ (bat_load_le d L bv hbv _ _))
    | (guard_target = k0_chk5 _ _; exact chk5' _ _ (bat_load_le d L bv hbv _ _))
    | (guard_target = k0_chk6 _ _; exact chk6' _ _ (bat_load_le d L bv hbv _ _))
    | (guard_target = k0_chk7 _ _; exact chk7' _ _ (bat_load_le d L bv hbv _ _))
    | (guard_target = k0_chk8 _ _; exact chk8' _ _ (bat_load_le d L bv hbv _ _)))
  iapply (wp_scat d L _ _ _ _ _ _ _) $$ Ht; iintro Ht
  sl_exec (disch := first
    | (guard_target = k0_chk1 _ _; exact chk1' _ _ (bat_load_le d L bv hbv _ _))
    | (guard_target = k0_chk2 _ _; exact chk2' _ _ (bat_load_le d L bv hbv _ _))
    | (guard_target = k0_chk3 _ _; exact chk3' _ _ (bat_load_le d L bv hbv _ _))
    | (guard_target = k0_chk4 _ _; exact chk4' _ _ (bat_load_le d L bv hbv _ _))
    | (guard_target = k0_chk5 _ _; exact chk5' _ _ (bat_load_le d L bv hbv _ _))
    | (guard_target = k0_chk6 _ _; exact chk6' _ _ (bat_load_le d L bv hbv _ _))
    | (guard_target = k0_chk7 _ _; exact chk7' _ _ (bat_load_le d L bv hbv _ _))
    | (guard_target = k0_chk8 _ _; exact chk8' _ _ (bat_load_le d L bv hbv _ _)))
  iapply (wp_scat d L _ _ _ _ _ _ _) $$ Ht; iintro Ht
  sl_exec (disch := first
    | (guard_target = k0_chk1 _ _; exact chk1' _ _ (bat_load_le d L bv hbv _ _))
    | (guard_target = k0_chk2 _ _; exact chk2' _ _ (bat_load_le d L bv hbv _ _))
    | (guard_target = k0_chk3 _ _; exact chk3' _ _ (bat_load_le d L bv hbv _ _))
    | (guard_target = k0_chk4 _ _; exact chk4' _ _ (bat_load_le d L bv hbv _ _))
    | (guard_target = k0_chk5 _ _; exact chk5' _ _ (bat_load_le d L bv hbv _ _))
    | (guard_target = k0_chk6 _ _; exact chk6' _ _ (bat_load_le d L bv hbv _ _))
    | (guard_target = k0_chk7 _ _; exact chk7' _ _ (bat_load_le d L bv hbv _ _))
    | (guard_target = k0_chk8 _ _; exact chk8' _ _ (bat_load_le d L bv hbv _ _)))
  iapply (wp_scat d L _ _ _ _ _ _ _) $$ Ht; iintro Ht
  sl_exec (disch := first
    | (guard_target = k0_chk1 _ _; exact chk1' _ _ (bat_load_le d L bv hbv _ _))
    | (guard_target = k0_chk2 _ _; exact chk2' _ _ (bat_load_le d L bv hbv _ _))
    | (guard_target = k0_chk3 _ _; exact chk3' _ _ (bat_load_le d L bv hbv _ _))
    | (guard_target = k0_chk4 _ _; exact chk4' _ _ (bat_load_le d L bv hbv _ _))
    | (guard_target = k0_chk5 _ _; exact chk5' _ _ (bat_load_le d L bv hbv _ _))
    | (guard_target = k0_chk6 _ _; exact chk6' _ _ (bat_load_le d L bv hbv _ _))
    | (guard_target = k0_chk7 _ _; exact chk7' _ _ (bat_load_le d L bv hbv _ _))
    | (guard_target = k0_chk8 _ _; exact chk8' _ _ (bat_load_le d L bv hbv _ _)))
  iapply (wp_scat d L _ _ _ _ _ _ _) $$ Ht; iintro Ht
  sl_exec (disch := first
    | (guard_target = k0_chk1 _ _; exact chk1' _ _ (bat_load_le d L bv hbv _ _))
    | (guard_target = k0_chk2 _ _; exact chk2' _ _ (bat_load_le d L bv hbv _ _))
    | (guard_target = k0_chk3 _ _; exact chk3' _ _ (bat_load_le d L bv hbv _ _))
    | (guard_target = k0_chk4 _ _; exact chk4' _ _ (bat_load_le d L bv hbv _ _))
    | (guard_target = k0_chk5 _ _; exact chk5' _ _ (bat_load_le d L bv hbv _ _))
    | (guard_target = k0_chk6 _ _; exact chk6' _ _ (bat_load_le d L bv hbv _ _))
    | (guard_target = k0_chk7 _ _; exact chk7' _ _ (bat_load_le d L bv hbv _ _))
    | (guard_target = k0_chk8 _ _; exact chk8' _ _ (bat_load_le d L bv hbv _ _)))
  iapply (wp_scat d L _ _ _ _ _ _ _) $$ Ht; iintro Ht
  sl_exec (disch := first
    | (guard_target = k0_chk1 _ _; exact chk1' _ _ (bat_load_le d L bv hbv _ _))
    | (guard_target = k0_chk2 _ _; exact chk2' _ _ (bat_load_le d L bv hbv _ _))
    | (guard_target = k0_chk3 _ _; exact chk3' _ _ (bat_load_le d L bv hbv _ _))
    | (guard_target = k0_chk4 _ _; exact chk4' _ _ (bat_load_le d L bv hbv _ _))
    | (guard_target = k0_chk5 _ _; exact chk5' _ _ (bat_load_le d L bv hbv _ _))
    | (guard_target = k0_chk6 _ _; exact chk6' _ _ (bat_load_le d L bv hbv _ _))
    | (guard_target = k0_chk7 _ _; exact chk7' _ _ (bat_load_le d L bv hbv _ _))
    | (guard_target = k0_chk8 _ _; exact chk8' _ _ (bat_load_le d L bv hbv _ _)))
  iapply (wp_scat d L _ _ _ _ _ _ _) $$ Ht; iintro Ht
  sl_exec (disch := first
    | (guard_target = k0_chk1 _ _; exact chk1' _ _ (bat_load_le d L bv hbv _ _))
    | (guard_target = k0_chk2 _ _; exact chk2' _ _ (bat_load_le d L bv hbv _ _))
    | (guard_target = k0_chk3 _ _; exact chk3' _ _ (bat_load_le d L bv hbv _ _))
    | (guard_target = k0_chk4 _ _; exact chk4' _ _ (bat_load_le d L bv hbv _ _))
    | (guard_target = k0_chk5 _ _; exact chk5' _ _ (bat_load_le d L bv hbv _ _))
    | (guard_target = k0_chk6 _ _; exact chk6' _ _ (bat_load_le d L bv hbv _ _))
    | (guard_target = k0_chk7 _ _; exact chk7' _ _ (bat_load_le d L bv hbv _ _))
    | (guard_target = k0_chk8 _ _; exact chk8' _ _ (bat_load_le d L bv hbv _ _)))
  iapply (wp_scat d L _ _ _ _ _ _ _) $$ Ht; iintro Ht
  sl_exec (disch := first
    | (guard_target = k0_chk1 _ _; exact chk1' _ _ (bat_load_le d L bv hbv _ _))
    | (guard_target = k0_chk2 _ _; exact chk2' _ _ (bat_load_le d L bv hbv _ _))
    | (guard_target = k0_chk3 _ _; exact chk3' _ _ (bat_load_le d L bv hbv _ _))
    | (guard_target = k0_chk4 _ _; exact chk4' _ _ (bat_load_le d L bv hbv _ _))
    | (guard_target = k0_chk5 _ _; exact chk5' _ _ (bat_load_le d L bv hbv _ _))
    | (guard_target = k0_chk6 _ _; exact chk6' _ _ (bat_load_le d L bv hbv _ _))
    | (guard_target = k0_chk7 _ _; exact chk7' _ _ (bat_load_le d L bv hbv _ _))
    | (guard_target = k0_chk8 _ _; exact chk8' _ _ (bat_load_le d L bv hbv _ _)))
  iapply (wp_scat d L _ _ _ _ _ _ _) $$ Ht; iintro Ht
  sl_exec (disch := first
    | (guard_target = k0_chk1 _ _; exact chk1' _ _ (bat_load_le d L bv hbv _ _))
    | (guard_target = k0_chk2 _ _; exact chk2' _ _ (bat_load_le d L bv hbv _ _))
    | (guard_target = k0_chk3 _ _; exact chk3' _ _ (bat_load_le d L bv hbv _ _))
    | (guard_target = k0_chk4 _ _; exact chk4' _ _ (bat_load_le d L bv hbv _ _))
    | (guard_target = k0_chk5 _ _; exact chk5' _ _ (bat_load_le d L bv hbv _ _))
    | (guard_target = k0_chk6 _ _; exact chk6' _ _ (bat_load_le d L bv hbv _ _))
    | (guard_target = k0_chk7 _ _; exact chk7' _ _ (bat_load_le d L bv hbv _ _))
    | (guard_target = k0_chk8 _ _; exact chk8' _ _ (bat_load_le d L bv hbv _ _)))
  sl_step
  isplitl [Hl]; · iexact Hl
  isplitl [Hd]; · iexact Hd
  isplitl [Hb]; · iexact Hb
  rw [trip_tab d L lv dv bv k]
  iexact Ht

/-! ## The tile's body -/

theorem trips1 : k0_t1_loop.trips = 32 := by decide
theorem trips2 : k0_t2_loop.trips = 16 := by decide

set_option maxHeartbeats 4000000 in
/-- The task on vector subcore (L 0, L 1) of device d: the table zeroed, the three slices fetched, the 64 groups
    scattered, the table written out to the tile's row of the count array. -/
theorem tile_body (hF : (K (F := F)).Facts)
    (fl : Buf (Elt F) (labLoc d)) (fd : Buf (Elt F) (degLoc d)) (fb : Buf (Elt F) (batLoc d)) (fc : Buf (Elt F) (cntLoc d))
    (hpre : ∀ j : S1024.Idx, ((batSl L).view.read (Elt F) fb j).toNat ≤ 15)
    (O : CellTallies nD τ sig (HIx 1)) (W : Waits sig (HIx 1)) (hO : ∀ g, O g none = 0) :
    iprop(levAts (K (F := F)).L (K (F := F)).lev ∗ emp
        ∗ (labSlPts d L fl ∗ degSlPts d L fd ∗ batSlPts d L fb ∗ cntRowPts d L fc)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_hist_body L labV (Memref.isWhole_whole _) degV (Memref.isWhole_whole _) batV (Memref.isWhole_whole _) cntV (Memref.isWhole_whole _)
            sLab (Memref.isWhole_whole _) sDeg (Memref.isWhole_whole _) sBat (Memref.isWhole_whole _) sTab (Memref.isWhole_whole _)
            cc0_scoped0 cc0_scoped1 cc0_scoped2 cc0_scoped3)
          fun _ => iprop((labSlPts d L fl ∗ degSlPts d L fd ∗ batSlPts d L fb
              ∗ ∃ f, cntRowPts d L f ∗ ⌜∀ y : S32x128.Idx, (cntRow L).view.read (Elt F) f y
                  = tileTab (F := F) ((labSl L).view.read (Elt F) fl) ((degSl L).view.read (Elt F) fd)
                      ((batSl L).view.read (Elt F) fb) y⌝)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__sc_hist_body_eq_skeleton]; unfold cc0__sc_hist_body_skel
  rw [(K (F := F)).scopedBufs_V hF d (cV L) (jV L), SparseCore.Cfg.scopedSems0_V (Val := Elt F) d (cV L) (jV L), ownSems0_V, ownBufs_V]
  iintro ⟨#Hlv, -, ⟨Hl, Hd, Hb, Hc⟩, ⟨⟨%s0, Hs0⟩, ⟨%s1, Hs1⟩, ⟨%s2, Hs2⟩, ⟨%s3, Hs3⟩, Hbufs⟩, ⟨Hsem0, Hsem1, Hsem2, Hsem3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hl' := (Entails.of_eq (pts_labSl (F := F) d L _).symm) $$ Hl
  ihave Hd' := (Entails.of_eq (pts_degSl (F := F) d L _).symm) $$ Hd
  ihave Hb' := (Entails.of_eq (pts_batSl (F := F) d L _).symm) $$ Hb
  ihave Hc' := (Entails.of_eq (pts_cntRow (F := F) d L _).symm) $$ Hc
  ihave Hs0' := (Entails.of_eq (pts_sLab (F := F) d L _).symm) $$ Hs0
  ihave Hs1' := (Entails.of_eq (pts_sDeg (F := F) d L _).symm) $$ Hs1
  ihave Hs2' := (Entails.of_eq (pts_sBat (F := F) d L _).symm) $$ Hs2
  ihave Hs3' := (Entails.of_eq (pts_sTab (F := F) d L _).symm) $$ Hs3
  -- the zeroing loop
  sl_for (inv1 (F := F) d L) $$ [Hs3']
  case region => exact region1 (F := F) d L
  · unfold inv1
    iexists s3; isplitr
    · ipureintro; intro y hy; exact absurd hy (Nat.not_lt_zero _)
    · iexact Hs3'
  iintro %_ HI
  unfold inv1
  icases HI with ⟨%g, %hg, Ht⟩
  rw [show Scf.trips k0_t1_loop.lb k0_t1_loop.ub k0_t1_loop.st = 32 from trips1] at hg
  have hg0 : g = tabAfter (F := F) ((labSl L).view.read (Elt F) fl) ((degSl L).view.read (Elt F) fd) ((batSl L).view.read (Elt F) fb) (4 * 0) :=
    funext fun y => hg y (y 0).isLt
  -- the three fetches
  sl_exec
  -- the scatter loop
  sl_for (inv2 (F := F) d L ((labSl L).view.read (Elt F) fl) ((degSl L).view.read (Elt F) fd) ((batSl L).view.read (Elt F) fb)) $$ [Hs0' Hs1' Hs2' Ht]
  case region => exact region2 (F := F) d L _ _ _ hpre
  · unfold inv2
    isplitl [Hs0']
    · iapply (Entails.of_eq (congrArg (fun f => ((sLab).view.loc (V d (cV L) (jV L)) ↦{fullShare} f : sProp 𝕄))
        (View.write_whole_univ (cc0_scratch0 : Ref sig .scVector) s0 _)))
      iexact Hs0'
    isplitl [Hs1']
    · iapply (Entails.of_eq (congrArg (fun f => ((sDeg).view.loc (V d (cV L) (jV L)) ↦{fullShare} f : sProp 𝕄))
        (View.write_whole_univ (cc0_scratch1 : Ref sig .scVector) s1 _)))
      iexact Hs1'
    isplitl [Hs2']
    · iapply (Entails.of_eq (congrArg (fun f => ((sBat).view.loc (V d (cV L) (jV L)) ↦{fullShare} f : sProp 𝕄))
        (View.write_whole_univ (cc0_scratch2 : Ref sig .scVector) s2 _)))
      iexact Hs2'
    rw [← hg0]
    iexact Ht
  iintro %_ HI
  unfold inv2
  icases HI with ⟨Hs0', Hs1', Hs2', Ht⟩
  rw [show Scf.trips k0_t2_loop.lb k0_t2_loop.ub k0_t2_loop.st = 16 from trips2]
  -- the write-out
  sl_exec
  sl_step
  isplitl [Hl' Hd' Hb' Hc']
  · isplitl [Hl']; · iapply (Entails.of_eq (pts_labSl (F := F) d L _)); iexact Hl'
    isplitl [Hd']; · iapply (Entails.of_eq (pts_degSl (F := F) d L _)); iexact Hd'
    isplitl [Hb']; · iapply (Entails.of_eq (pts_batSl (F := F) d L _)); iexact Hb'
    iexists _; isplitl [Hc']
    · iapply (Entails.of_eq (pts_cntRow (F := F) d L _)); iexact Hc'
    · ipureintro; intro y
      have hy : (Rect.whole S32x128).emb y = y := Rect.emb_whole_apply S32x128 y
      conv_lhs => rw [← hy]
      exact View.read_writes_cons_emb (cntRow L).view fc (Rect.whole S32x128) _ [] y
  isplitl [Hs0' Hs1' Hs2' Ht Hbufs]
  · isplitl [Hs0']; · iexists _; iexact Hs0'
    isplitl [Hs1']; · iexists _; iexact Hs1'
    isplitl [Hs2']; · iexists _; iexact Hs2'
    isplitl [Ht]; · iexists _; iexact Ht
    iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact .inl hp

end Cert.KernelIdeal.Tile

end
-- ==== Proof.KTile.lean ====
/-
  The count kernel's body as the launch theorem's obligation for one tile: the body lemma at the tile's grid
  coordinates, what the tile is handed and hands back spelt as the call's payloads.
-/
import proofs.«203920_g2267742732911_cont_8to1_1065_18_alg».proof.Proof.KPay
import proofs.«203920_g2267742732911_cont_8to1_1065_18_alg».proof.Proof.Gen.KernelIdeal.Launch
import proofs.«203920_g2267742732911_cont_8to1_1065_18_alg».proof.Proof.TileBody

noncomputable section

namespace Cert.KernelIdeal.TileObl

open Cert.KernelIdeal Cert.KernelIdeal.Gen Cert.KernelIdeal.Setup Cert.KernelIdeal.Pay

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Cert.KernelIdeal.Hist Cert.KernelIdeal.Tile

variable [FloatOps F]
variable (fl : (d : Dev nD) → Buf (Elt F) (labLoc d)) (fd : (d : Dev nD) → Buf (Elt F) (degLoc d))
  (fb : (d : Dev nD) → Buf (Elt F) (batLoc d)) (fc : (d : Dev nD) → Buf (Elt F) (cntLoc d))

/-- Every segment id, read unsigned, is below sixteen. -/
def PreOK : Prop := ∀ (d : Dev nD) (j : S32768.Idx), (fb d j).toNat ≤ 15

theorem defs₀_vector (c : Fin τ.nSC) (s : Fin τ.nSub) :
    defs₀ (F := F) (.scVector c s) 0 ()
      = SparseCore.onTile hcore0 hsub0 (fun c s => cc0__sc_hist_body (coordsV c s)
          labV (Memref.isWhole_whole _) degV (Memref.isWhole_whole _) batV (Memref.isWhole_whole _) cntV (Memref.isWhole_whole _)
          sLab (Memref.isWhole_whole _) sDeg (Memref.isWhole_whole _) sBat (Memref.isWhole_whole _) sTab (Memref.isWhole_whole _)
          cc0_scoped0 cc0_scoped1 cc0_scoped2 cc0_scoped3) ⟨⟩ c s := rfl

omit [FloatOps F] in
theorem obl_post {thr : Thread nD τ} {A A' B C : sProp 𝕄} {O : CellTallies nD τ sig (HIx 1)} {W : Waits sig (HIx 1)} {q : Fin 1} (hA : A ⊢ A') :
    iprop(A ∗ B ∗ C ∗ ∃ W', ⌜∀ p ∈ W', p ∈ W ∨ p.2 = none⌝ ∗ owes thr O W')
      ⊢ iprop(A' ∗ B ∗ C ∗ ∃ W', ⌜∀ p ∈ W', p ∈ W ∨ p.2 = none ∨ p.2 = some q⌝ ∗ owes thr O W') := by
  iintro ⟨HA, HB, HC, %W', %hW', HO⟩
  isplitl [HA]; · iapply hA; iexact HA
  isplitl [HB]; · iexact HB
  isplitl [HC]; · iexact HC
  iexists W'; isplitr
  · ipureintro; exact fun p hp => (hW' p hp).imp_right Or.inl
  · iexact HO

/-- What the body lemma leaves of the four arrays is what the tile hands back. -/
theorem td_of_body (d : Dev nD) (L : grid0.Coords) :
    iprop(labSlPts d L (fl d) ∗ degSlPts d L (fd d) ∗ batSlPts d L (fb d)
        ∗ ∃ f, cntRowPts d L f ∗ ⌜∀ y : S32x128.Idx, (cntRow L).view.read (Elt F) f y
            = tileTab (F := F) ((labSl L).view.read (Elt F) (fl d)) ((degSl L).view.read (Elt F) (fd d)) ((batSl L).view.read (Elt F) (fb d)) y⌝)
      ⊢ (tdT fl fd fb d L : sProp 𝕄) := by
  unfold tdT
  iintro ⟨Hl, Hd, Hb, %f, Hc, %hf⟩
  isplitl [Hl]; · iexact Hl
  isplitl [Hd]; · iexact Hd
  isplitl [Hb]; · iexact Hb
  iexists f
  isplitr
  · ipureintro; exact hf
  · iexact Hc

theorem tileObl (hF : (K (F := F)).Facts) (hpre : PreOK fb) : (K (F := F)).TileObl (D (F := F)) 𝒱 (P fl fd fb fc) v₀ 0 := by
  intro d c i O W hO _ _
  simp only [show (P fl fd fb fc).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (fl d) (fd d) (fb d) (fc d) (fun j => hpre d _) O W hO).trans
    (wp_mono frame _ _ fun _ => obl_post (td_of_body fl fd fb d _))

end Cert.KernelIdeal.TileObl

end
-- ==== Proof.KValue.lean ====
/-
  What the arrays hold along @main, read off the host operations: the arguments are never written; the label and
  degree vectors are the two columns of the node array; the three bias rows are the bias vectors; the result is the
  TensorCore body's term of the count array and the tables.
-/
import proofs.«203920_g2267742732911_cont_8to1_1065_18_alg».proof.Proof.KPay
import proofs.«203920_g2267742732911_cont_8to1_1065_18_alg».proof.Proof.Gen.KernelIdeal.Launch
import proofs.«203920_g2267742732911_cont_8to1_1065_18_alg».proof.Proof.KMain
import Idealize.ShloMosaic.Lib.ValueIdx
import Idealize.ShloMosaic.Lib.Pipeline.Value

noncomputable section

namespace Cert.KernelIdeal.Value

open Cert.KernelIdeal Cert.KernelIdeal.Gen Cert.KernelIdeal.Setup Cert.KernelIdeal.Pay

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Cert.KernelIdeal.Part Cert.KernelIdeal.Deal Cert.KernelIdeal.Elem Cert.KernelIdeal.Main
open Idealize.ShloMosaic.StableHlo (seq after)
open Idealize.ShloMosaic.ValueIdx

variable [FloatOps F]
variable (m : (ℓ : Loc nD τ sig) → Buf (Elt F) ℓ)

/-- The references the two stretches of host operations write. -/
abbrev W1 : List (Ref sig .tc) := [main_v0, main_v1, main_v2, main_v3]
abbrev W2 : List (Ref sig .tc) := [main_v5, main_v6, main_v7]

theorem hW1 : (ops1 (F := F)).Forall fun op => op.writes ⊆ ((W1.map (Proc.devRef (τ := τ) .tc)).toFinset) :=
  ⟨(show ({Proc.devRef .tc (main_v0 : Ref sig .tc)} : Finset (DevRef τ sig)) ⊆ _ by decide),
   (show ({Proc.devRef .tc (main_v1 : Ref sig .tc)} : Finset (DevRef τ sig)) ⊆ _ by decide),
   (show ({Proc.devRef .tc (main_v2 : Ref sig .tc)} : Finset (DevRef τ sig)) ⊆ _ by decide),
   (show ({Proc.devRef .tc (main_v3 : Ref sig .tc)} : Finset (DevRef τ sig)) ⊆ _ by decide)⟩
theorem hW2 : (ops2 (F := F)).Forall fun op => op.writes ⊆ ((W2.map (Proc.devRef (τ := τ) .tc)).toFinset) :=
  ⟨(show ({Proc.devRef .tc (main_v5 : Ref sig .tc)} : Finset (DevRef τ sig)) ⊆ _ by decide),
   (show ({Proc.devRef .tc (main_v6 : Ref sig .tc)} : Finset (DevRef τ sig)) ⊆ _ by decide),
   (show ({Proc.devRef .tc (main_v7 : Ref sig .tc)} : Finset (DevRef τ sig)) ⊆ _ by decide)⟩

/-- A reference no host operation writes, other than the count array, keeps its launch contents up to the region. -/
theorem V2_kept (d : Dev nD) (g : Buf (Elt F) (cntLoc d)) (r : Ref sig .tc) (h1 : r ∉ W1) (h2 : r ∉ W2) (h4 : r ≠ main_v4) :
    V2 m d g (Proc.devRef .tc r) = m (d, Proc.devRef .tc r) := by
  show after (ops2 (F := F)) (V1' m d g) (Proc.devRef .tc r) = _
  rw [StableHlo.after_of_writes_sub (ops2 (F := F)) (V1' m d g) hW2 h2]
  show Function.update (V1 m d) cnt' g (Proc.devRef .tc r) = _
  rw [Function.update_of_ne (StableHlo.devRef_ne_of_ne h4)]
  show after (ops1 (F := F)) (V0 m d) (Proc.devRef .tc r) = _
  rw [StableHlo.after_of_writes_sub (ops1 (F := F)) (V0 m d) hW1 h1]

theorem V2_cnt (d : Dev nD) (g : Buf (Elt F) (cntLoc d)) : V2 m d g cnt' = g := by
  show after (ops2 (F := F)) (V1' m d g) (Proc.devRef .tc main_v4) = _
  rw [StableHlo.after_of_writes_sub (ops2 (F := F)) (V1' m d g) hW2 (by decide)]
  exact Function.update_self _ _ _

theorem V3_kept (d : Dev nD) (g : Buf (Elt F) (cntLoc d)) (r : Ref sig .tc) (h1 : r ∉ W1) (h2 : r ∉ W2) (h4 : r ≠ main_v4) (h8 : r ≠ main_v8) :
    V3 m d g (Proc.devRef .tc r) = m (d, Proc.devRef .tc r) := by
  show Function.update (V2 m d g) out' _ (Proc.devRef .tc r) = _
  rw [Function.update_of_ne (StableHlo.devRef_ne_of_ne h8)]
  exact V2_kept m d g r h1 h2 h4

theorem V3_out (d : Dev nD) (g : Buf (Elt F) (cntLoc d)) : V3 m d g out' = headVal d (Wof d (V2 m d g)) :=
  Function.update_self _ _ _

/-- The three bias rows. -/
theorem V2_v5 (d : Dev nD) (g : Buf (Elt F) (cntLoc d)) :
    V2 m d g (Proc.devRef .tc main_v5) = shapeCast S1x128 (m (d, Proc.devRef .tc main_arg6)) shapeCasts_S128_S1x128 := by
  show after (ops2 (F := F)) (V1' m d g) (Proc.devRef .tc main_v5) = _
  after_results
  rfl

theorem V2_v6 (d : Dev nD) (g : Buf (Elt F) (cntLoc d)) :
    V2 m d g (Proc.devRef .tc main_v6) = shapeCast S1x128 (m (d, Proc.devRef .tc main_arg8)) shapeCasts_S128_S1x128 := by
  show after (ops2 (F := F)) (V1' m d g) (Proc.devRef .tc main_v6) = _
  after_results
  rfl
theorem V2_v7 (d : Dev nD) (g : Buf (Elt F) (cntLoc d)) :
    V2 m d g (Proc.devRef .tc main_v7) = shapeCast S1x18 (m (d, Proc.devRef .tc main_arg10)) shapeCasts_S18_S1x18 := by
  show after (ops2 (F := F)) (V1' m d g) (Proc.devRef .tc main_v7) = _
  after_results
  rfl

/-- The region's result, over the launch memory and the count array. -/
theorem headVal_eq (d : Dev nD) (g : Buf (Elt F) (cntLoc d)) :
    headVal d (Wof d (V2 m d g))
      = k1_pay1 g (m (d, Proc.devRef .tc main_arg3)) (m (d, Proc.devRef .tc main_arg4)) (m (d, Proc.devRef .tc main_arg2)) (m (d, Proc.devRef .tc main_arg5))
          (shapeCast S1x128 (m (d, Proc.devRef .tc main_arg6)) shapeCasts_S128_S1x128) (m (d, Proc.devRef .tc main_arg7))
          (shapeCast S1x128 (m (d, Proc.devRef .tc main_arg8)) shapeCasts_S128_S1x128) (m (d, Proc.devRef .tc main_arg9))
          (shapeCast S1x18 (m (d, Proc.devRef .tc main_arg10)) shapeCasts_S18_S1x18) := by
  unfold headVal Wof
  rw [show V2 m d g (Proc.devRef .tc main_v4) = g from V2_cnt m d g,
    V2_kept m d g main_arg3 (by decide) (by decide) (by decide), V2_kept m d g main_arg4 (by decide) (by decide) (by decide),
    V2_kept m d g main_arg2 (by decide) (by decide) (by decide), V2_kept m d g main_arg5 (by decide) (by decide) (by decide),
    V2_kept m d g main_arg7 (by decide) (by decide) (by decide), V2_kept m d g main_arg9 (by decide) (by decide) (by decide),
    V2_v5, V2_v6, V2_v7]

/-! ## The label, degree and segment-id vectors -/

theorem fl_eq (d : Dev nD) :
    fl m d = shapeCast S32768 (extractStridedSlice S32768x1 ![0, 0] (m (d, Proc.devRef .tc main_arg0)) slices_S32768x2_S32768x1_0_0) shapeCasts_S32768x1_S32768 := by
  show after (ops1 (F := F)) (V0 m d) (Proc.devRef .tc main_v1) = _
  after_results
  rfl
theorem fd_eq (d : Dev nD) :
    fd m d = shapeCast S32768 (extractStridedSlice S32768x1 ![0, 1] (m (d, Proc.devRef .tc main_arg0)) slices_S32768x2_S32768x1_0_1) shapeCasts_S32768x1_S32768 := by
  show after (ops1 (F := F)) (V0 m d) (Proc.devRef .tc main_v3) = _
  after_results
  rfl
theorem fb_eq (d : Dev nD) : fb m d = m (d, Proc.devRef .tc main_arg1) :=
  StableHlo.after_of_writes_sub (ops1 (F := F)) (V0 m d) hW1 (by decide)

/-- Entry `n` of the label vector is entry `(n, 0)` of the node array; of the degree vector, entry `(n, 1)`. -/
theorem col_apply {α : Type} (x : S32768x2.Idx → α) (k : Fin 2) (hs : S32768x2.Slices ![0, k.val] S32768x1) (n : Fin 32768) :
    shapeCast S32768 (extractStridedSlice S32768x1 ![0, k.val] x hs) shapeCasts_S32768x1_S32768 (ix1 n) = x (ix2 n k) := by
  rw [shapeCast_apply _ _ (ix1 n) (ix2 n (0 : Fin 1)) (by rw [Shape.rowMajor_val_two, Shape.rowMajor_val_one]; simp)]
  exact extractStridedSlice_apply _ _ _ (ix2 n (0 : Fin 1)) (ix2 n k) (fun a => by
    match a with
    | ⟨0, _⟩ => simp
    | ⟨1, _⟩ => simp)

/-! ## A tile's slices and row, in coordinates -/

/-- The number of tile `L`'s slice and row. -/
def wOf (L : grid0.Coords) : Fin 32 :=
  ⟨16 * (L 0).val + (L 1).val, by
    have h0 : (L 0).val < 2 := (L 0).isLt
    have h1 : (L 1).val < 16 := (L 1).isLt
    omega⟩

theorem sl_lt (L : grid0.Coords) (n : S1024.Idx) : 1024 * (wOf L).val + (n 0).val < 32768 := by
  have h0 : (wOf L).val < 32 := (wOf L).isLt
  have h1 : (n 0).val < 1024 := (n 0).isLt
  omega

theorem read_labSl (d : Dev nD) (L : grid0.Coords) (f : Buf (Elt F) (labLoc d)) (n : S1024.Idx) :
    (labSl L).view.read (Elt F) f n = f (ix1 ⟨1024 * (wOf L).val + (n 0).val, sl_lt L n⟩) := by
  rw [View.read_apply]
  show f ((slRect L).emb n) = _
  congr 1
  funext a
  match a with
  | ⟨0, _⟩ =>
    refine Fin.ext ?_
    rw [Rect.emb_apply]
    show k0_off9 L 0 + 1 * (n 0).val = 1024 * (16 * (L 0).val + (L 1).val) + (n 0).val
    rw [k0_off9_eq]
    show 16384 * (L 0).val + 1024 * (L 1).val + 1 * (n 0).val = 1024 * (16 * (L 0).val + (L 1).val) + (n 0).val
    omega

theorem read_degSl (d : Dev nD) (L : grid0.Coords) (f : Buf (Elt F) (degLoc d)) (n : S1024.Idx) :
    (degSl L).view.read (Elt F) f n = f (ix1 ⟨1024 * (wOf L).val + (n 0).val, sl_lt L n⟩) := by
  rw [View.read_apply]
  show f ((slRect L).emb n) = _
  congr 1
  funext a
  match a with
  | ⟨0, _⟩ =>
    refine Fin.ext ?_
    rw [Rect.emb_apply]
    show k0_off9 L 0 + 1 * (n 0).val = 1024 * (16 * (L 0).val + (L 1).val) + (n 0).val
    rw [k0_off9_eq]
    show 16384 * (L 0).val + 1024 * (L 1).val + 1 * (n 0).val = 1024 * (16 * (L 0).val + (L 1).val) + (n 0).val
    omega

theorem read_batSl (d : Dev nD) (L : grid0.Coords) (f : Buf (Elt F) (batLoc d)) (n : S1024.Idx) :
    (batSl L).view.read (Elt F) f n = f (ix1 ⟨1024 * (wOf L).val + (n 0).val, sl_lt L n⟩) := by
  rw [View.read_apply]
  show f ((slRect L).emb n) = _
  congr 1
  funext a
  match a with
  | ⟨0, _⟩ =>
    refine Fin.ext ?_
    rw [Rect.emb_apply]
    show k0_off9 L 0 + 1 * (n 0).val = 1024 * (16 * (L 0).val + (L 1).val) + (n 0).val
    rw [k0_off9_eq]
    show 16384 * (L 0).val + 1024 * (L 1).val + 1 * (n 0).val = 1024 * (16 * (L 0).val + (L 1).val) + (n 0).val
    omega

theorem read_cntRow (d : Dev nD) (L : grid0.Coords) (g : Buf (Elt F) (cntLoc d)) (y : S32x128.Idx) :
    (cntRow L).view.read (Elt F) g y = g (ix3 (wOf L) (y 0) (y 1)) := by
  rw [View.read_apply]
  show g ((rowRect L).emb (Shape.reshapeEquiv squeezes_S1x32x128_S32x128.numel_eq y)) = _
  rw [Shape.reshapeEquiv_eq_of_rowMajor squeezes_S1x32x128_S32x128.numel_eq (x := y) (y := ix3 (0 : Fin 1) (y 0) (y 1))
    (by rw [Shape.rowMajor_val_three, Shape.rowMajor_val_two]; simp)]
  congr 1
  funext a
  match a with
  | ⟨0, _⟩ =>
    refine Fin.ext ?_
    rw [Rect.emb_apply]
    show k0_off14 L 0 + 1 * 0 = 16 * (L 0).val + (L 1).val
    rw [k0_off14_eq]
    show 16 * (L 0).val + (L 1).val + 1 * 0 = 16 * (L 0).val + (L 1).val
    omega
  | ⟨1, _⟩ =>
    refine Fin.ext ?_
    rw [Rect.emb_apply]
    show k0_off14 L 1 + 1 * (y 0).val = (y 0).val
    rw [k0_off14_eq]
    show 0 + 1 * (y 0).val = (y 0).val
    omega
  | ⟨2, _⟩ =>
    refine Fin.ext ?_
    rw [Rect.emb_apply]
    show k0_off14 L 2 + 1 * (y 1).val = (y 1).val
    rw [k0_off14_eq]
    show 0 + 1 * (y 1).val = (y 1).val
    omega

end Cert.KernelIdeal.Value

end
-- ==== Proof.KRun.lean ====
/-
  The kernel program's run: every weakly fair execution of the device's threads terminates without a fault, with
  every argument array unchanged and the result array at the TensorCore body's term of a count array whose rows are the
  tiles' tables. The launch theorem for SparseCore programs, at the count kernel's body, the identity split, the launch
  element, and @main's proof.
-/
import proofs.«203920_g2267742732911_cont_8to1_1065_18_alg».proof.Proof.KPay
import proofs.«203920_g2267742732911_cont_8to1_1065_18_alg».proof.Proof.Gen.KernelIdeal.Launch
import proofs.«203920_g2267742732911_cont_8to1_1065_18_alg».proof.Proof.KMain
import proofs.«203920_g2267742732911_cont_8to1_1065_18_alg».proof.Proof.KTile
import proofs.«203920_g2267742732911_cont_8to1_1065_18_alg».proof.Proof.KValue

noncomputable section

namespace Cert.KernelIdeal.Run

open Cert.KernelIdeal Cert.KernelIdeal.Gen Cert.KernelIdeal.Setup Cert.KernelIdeal.Pay

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Cert.KernelIdeal.Part Cert.KernelIdeal.Deal Cert.KernelIdeal.Elem Cert.KernelIdeal.Main Cert.KernelIdeal.TileObl Cert.KernelIdeal.Value

variable [FloatOps F]
variable (m : (ℓ : Loc nD τ sig) → Buf (Elt F) ℓ) (ρ : Dev nD → PrngReg)

theorem run_main [∀ e, Nonempty (Elt F e)] (hhead : HeadSpec (F := F)) (hpre : PreOK (fb m)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (fl m) (fd m) (fb m) (fc m)) facts v₀
    (fun q hq => match q with | 0 => nomatch hq)
    (fun q _ => match q with | 0 => tileObl (fl m) (fd m) (fb m) (fc m) facts hpre)
    (fun q _ => match q with | 0 => SparseCore.Cfg.VecSplit.of_plain (vecSplit (fl m) (fd m) (fb m) (fc m)))
    m ρ main (G (F := F)) (FIN m) (u₀ (F := F)) (sep_elim_left.trans (hu₀ (fl m) (fd m) (fb m) (fc m))) (hmain m ρ hhead) (fq m) (hfin m) (QC m)
    (fun _ h c => h c)

/-- Segment ids below sixteen in the launch memory are segment ids below sixteen at the call. -/
theorem preOK_of_batch (h : ∀ (d : Dev nD) (j : S32768.Idx), (m (d, Proc.devRef .tc main_arg1) j).toNat ≤ 15) : PreOK (fb m) := by
  intro d j
  rw [fb_eq]
  exact h d j

/-- The run leaves every argument array as it found it. -/
theorem args_of_QC (r : PUnit × MemSt nD τ sig (Elt F)) (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10) := by
  obtain ⟨g, _, hall⟩ := h c
  exact ⟨(hall (Proc.devRef .tc main_arg0) (by decide)).trans (V3_kept m c g main_arg0 (by decide) (by decide) (by decide) (by decide)),
    (hall (Proc.devRef .tc main_arg1) (by decide)).trans (V3_kept m c g main_arg1 (by decide) (by decide) (by decide) (by decide)),
    (hall (Proc.devRef .tc main_arg2) (by decide)).trans (V3_kept m c g main_arg2 (by decide) (by decide) (by decide) (by decide)),
    (hall (Proc.devRef .tc main_arg3) (by decide)).trans (V3_kept m c g main_arg3 (by decide) (by decide) (by decide) (by decide)),
    (hall (Proc.devRef .tc main_arg4) (by decide)).trans (V3_kept m c g main_arg4 (by decide) (by decide) (by decide) (by decide)),
    (hall (Proc.devRef .tc main_arg5) (by decide)).trans (V3_kept m c g main_arg5 (by decide) (by decide) (by decide) (by decide)),
    (hall (Proc.devRef .tc main_arg6) (by decide)).trans (V3_kept m c g main_arg6 (by decide) (by decide) (by decide) (by decide)),
    (hall (Proc.devRef .tc main_arg7) (by decide)).trans (V3_kept m c g main_arg7 (by decide) (by decide) (by decide) (by decide)),
    (hall (Proc.devRef .tc main_arg8) (by decide)).trans (V3_kept m c g main_arg8 (by decide) (by decide) (by decide) (by decide)),
    (hall (Proc.devRef .tc main_arg9) (by decide)).trans (V3_kept m c g main_arg9 (by decide) (by decide) (by decide) (by decide)),
    (hall (Proc.devRef .tc main_arg10) (by decide)).trans (V3_kept m c g main_arg10 (by decide) (by decide) (by decide) (by decide))⟩

/-- The run leaves the result array at the body's term of some count array whose rows are the tiles' tables. -/
theorem out_of_QC (r : PUnit × MemSt nD τ sig (Elt F)) (h : QC m r) (c : Dev nD) :
    ∃ g, CntOK (fl m) (fd m) (fb m) c g ∧ r.2.mem ((c.tc : Thread nD τ).loc main_v8) = headVal c (Wof c (V2 m c g)) := by
  obtain ⟨g, hg, hall⟩ := h c
  exact ⟨g, hg, (hall (Proc.devRef .tc main_v8) (by decide)).trans (V3_out m c g)⟩

end Cert.KernelIdeal.Run

end
-- ==== Proof.BKSetup.lean ====
/-
  The kernel program as the launch theorem for SparseCore programs sees it, and the pieces of memory its threads
  exchange. Thirty-two tiles (two SparseCores of sixteen) each own one 1024-entry slice of the three index arrays
  (labels, degrees, segment ids) and one 32 x 128 row of the count array; slice and row number w = 16 c + s for
  tile s of SparseCore c. The resource algebra has three parts: the launch handshakes' rounds, the rounds of the
  TensorCore region's staging cells, and the counters of the tiles' own local copies.
-/
import proofs.«203920_g2267742732911_cont_8to1_1065_18_alg».proof.Kernel
import Idealize.ShloMosaic.Lib.SparseCore.Launch
import Idealize.ShloMosaic.Lib.StableHlo.Run
import Idealize.ShloMosaic.Lib.Pipeline.Kit
import Idealize.ShloMosaic.Lib.Tactic
import proofs.«203920_g2267742732911_cont_8to1_1065_18_alg».proof.Proof.Gen.Kernel
import proofs.«203920_g2267742732911_cont_8to1_1065_18_alg».proof.Proof.Gen.Kernel.Skeleton

noncomputable section

namespace Cert.Kernel.Setup

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UR : Type := URounds (GSem nD τ sig) Unit
abbrev UU : Type := UH × (UR × Counters)

local notation "𝕄" => MT nD τ sig (HIx 1) (Elt F) ℕ UU ℕ

/-- The handshakes' rounds: the left factor. -/
abbrev EH : Emb UH (MT nD τ sig (HIx 1) (Elt F) ℕ UU ℕ) := embL
/-- The staging cells' rounds: the left factor of the right factor. -/
def ER : Emb UR (MT nD τ sig (HIx 1) (Elt F) ℕ UU ℕ) := (Emb.inl : Emb UR (UR × Counters)).trans embR

instance ER_landsIn : (ER : Emb UR 𝕄).LandsIn (upEmb : UEmb _ 𝕄) := by unfold ER embR; infer_instance

/-! ## Arrays, as the TensorCore and as a tile name them -/

abbrev labLoc (d : Dev nD) : Loc nD τ sig := (SparseCore.T d).loc main_v1
abbrev degLoc (d : Dev nD) : Loc nD τ sig := (SparseCore.T d).loc main_v3
abbrev batLoc (d : Dev nD) : Loc nD τ sig := (SparseCore.T d).loc main_arg1
abbrev cntLoc (d : Dev nD) : Loc nD τ sig := (SparseCore.T d).loc main_v4

abbrev labV : Memref sig .scVector .hbm S32768 .i32 := Memref.whole main_v1_scv
abbrev degV : Memref sig .scVector .hbm S32768 .i32 := Memref.whole main_v3_scv
abbrev batV : Memref sig .scVector .hbm S32768 .i32 := Memref.whole main_arg1_scv
abbrev cntV : Memref sig .scVector .hbm S32x32x128 .f32 := Memref.whole main_v4_scv
abbrev sLab : Memref sig .scVector .vmem S1024 .i32 := Memref.whole cc0_scratch0
abbrev sDeg : Memref sig .scVector .vmem S1024 .i32 := Memref.whole cc0_scratch1
abbrev sBat : Memref sig .scVector .vmem S1024 .i32 := Memref.whole cc0_scratch2
abbrev sTab : Memref sig .scVector .vmem S32x128 .f32 := Memref.whole cc0_scratch3

/-- The tile of grid coordinates `L`. -/
abbrev cV (L : grid0.Coords) : Fin τ.nSC := (L 0).castLE hcore0
abbrev jV (L : grid0.Coords) : Fin τ.nSub := (L 1).castLE hsub0

/-- Slice `16 c + s` of a 32768-entry index array, as the body slices it. -/
abbrev slRect (L : grid0.Coords) : Rect S32768 := Rect.unit (s := S32768) (k0_off9 L) S1024.size (k0_off9_inb L)
abbrev labSl (L : grid0.Coords) : Memref sig .scVector .hbm S1024 .i32 := (labV).slice (slRect L) (fun _ => rfl)
abbrev degSl (L : grid0.Coords) : Memref sig .scVector .hbm S1024 .i32 := (degV).slice (slRect L) (fun _ => rfl)
abbrev batSl (L : grid0.Coords) : Memref sig .scVector .hbm S1024 .i32 := (batV).slice (slRect L) (fun _ => rfl)
/-- Row `16 c + s` of the count array, as the body slices and squeezes it. -/
abbrev rowRect (L : grid0.Coords) : Rect S32x32x128 := Rect.unit (s := S32x32x128) (k0_off14 L) S1x32x128.size (k0_off14_inb L)
abbrev cntRow (L : grid0.Coords) : Memref sig .scVector .hbm S32x128 .f32 := ((cntV).slice (rowRect L) (fun _ => rfl)).squeeze S32x128 squeezes_S1x32x128_S32x128

/-- The elements of a slice, and of a row. -/
abbrev slSet (L : grid0.Coords) : Finset S32768.Idx := (labSl L).view.set
abbrev rowSet (L : grid0.Coords) : Finset S32x32x128.Idx := (cntRow L).view.set

variable (m : (ℓ : Loc nD τ sig) → Buf (Elt F) ℓ)

/-- One tile's share of the four arrays: its slice of each index array at the contents `fl fd fb`, its row of the
    count array at `fc`. -/
abbrev labSlPts (d : Dev nD) (L : grid0.Coords) (f : Buf (Elt F) (labLoc d)) : sProp 𝕄 := labLoc d ↦[slSet L]{fullShare} f
abbrev degSlPts (d : Dev nD) (L : grid0.Coords) (f : Buf (Elt F) (degLoc d)) : sProp 𝕄 := degLoc d ↦[slSet L]{fullShare} f
abbrev batSlPts (d : Dev nD) (L : grid0.Coords) (f : Buf (Elt F) (batLoc d)) : sProp 𝕄 := batLoc d ↦[slSet L]{fullShare} f
abbrev cntRowPts (d : Dev nD) (L : grid0.Coords) (f : Buf (Elt F) (cntLoc d)) : sProp 𝕄 := cntLoc d ↦[rowSet L]{fullShare} f

end Cert.Kernel.Setup

end
-- ==== Proof.BTileSpec.lean ====
import proofs.«203920_g2267742732911_cont_8to1_1065_18_alg».proof.Kernel
import proofs.«203920_g2267742732911_cont_8to1_1065_18_alg».proof.Proof.Gen.Kernel
import proofs.«203920_g2267742732911_cont_8to1_1065_18_alg».proof.Proof.Gen.Kernel.Skeleton

/-! # One tile's table, as a pure function of the three 1024-entry slices it reads

A tile starts from the all-zero 32 x 128 table and then, for each of its 64 groups of sixteen
consecutive entries (ascending), adds a one at (batch, clipped label) and a one at
(batch + 16, clipped degree) for each of the sixteen lanes, lanes ascending. -/

noncomputable section

namespace Cert.Kernel.Hist

open Idealize.ShloMosaic Cert.Kernel Cert.Kernel.Gen

variable {F : FTy → Type} [FloatOps F]

/-- Lanes 16q .. 16q+15 of a 1024-vector (the index is taken mod 1024 so that the definition is
    total; for q < 64 nothing wraps). -/
def lanes (v : Vec F S1024 .i32) (q : Nat) : IVec S16 32 :=
  fun x => v (Shape.ofLane (d := ![1024]) ⟨(16 * q + (x 0).val) % 1024, Nat.mod_lt _ (by decide)⟩)

/-- Sixteen ones accumulated at (row k, col k), lanes ascending; the table is left unchanged if
    some index is out of range. -/
def scat (tab : Vec F S32x128 .f32) (row col : IVec S16 32) : Vec F S32x128 .f32 :=
  if h : ∀ (a : Fin S32x128.rank) (x : S16.Idx),
      ((![row, col] : Fin 2 → IVec S16 32) a x).toNat < S32x128.size a
  then storeIdx tab ![row, col] (k0_pay2 (F := F)) (fun _ => 1#1) true h else tab

/-- Group q: labels clipped to [0, 101], degrees clipped to [0, 10], the degree rows shifted by 16. -/
def group (tab : Vec F S32x128 .f32) (lab deg bat : Vec F S1024 .i32) (q : Nat) : Vec F S32x128 .f32 :=
  scat (scat tab (lanes (F := F) bat q) (k0_pay5 (F := F) (lanes (F := F) lab q)))
    (k0_pay7 (F := F) (lanes (F := F) bat q)) (k0_pay6 (F := F) (lanes (F := F) deg q))

/-- The table after the first q groups. -/
def tabAfter (lab deg bat : Vec F S1024 .i32) : Nat → Vec F S32x128 .f32
  | 0 => fun _ => Scalar.ofBits .f32 0x00000000#32
  | q + 1 => group (tabAfter lab deg bat q) lab deg bat q

/-- The table a tile copies out: all 64 groups done. -/
def tileTab (lab deg bat : Vec F S1024 .i32) : Vec F S32x128 .f32 := tabAfter lab deg bat 64

theorem scat_eq (tab : Vec F S32x128 .f32) (row col : IVec S16 32)
    (h : ∀ (a : Fin S32x128.rank) (x : S16.Idx),
      ((![row, col] : Fin 2 → IVec S16 32) a x).toNat < S32x128.size a) :
    storeIdx tab ![row, col] (k0_pay2 (F := F)) (fun _ => 1#1) true h = scat tab row col := by
  unfold scat; rw [dif_pos h]

theorem tabAfter_succ (lab deg bat : Vec F S1024 .i32) (q : Nat) :
    tabAfter lab deg bat (q + 1) = group (tabAfter lab deg bat q) lab deg bat q := rfl

end Cert.Kernel.Hist

end
-- ==== Proof.BKPay.lean ====
/-
  The payloads of the launch handshakes for the count kernel, and its operand split. A SparseCore is handed the
  shares of its sixteen tiles side by side; a tile is handed its slice of the three index arrays and its row of the
  count array, and hands back the slices unchanged and the row holding its table.
-/
import proofs.«203920_g2267742732911_cont_8to1_1065_18_alg».proof.Proof.BKSetup
import proofs.«203920_g2267742732911_cont_8to1_1065_18_alg».proof.Proof.BTileSpec

noncomputable section

namespace Cert.Kernel.Pay

open Cert.Kernel Cert.Kernel.Gen Cert.Kernel.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- Grid coordinates from a SparseCore's and a tile's number. -/
def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

theorem nCore_le (q : Fin 1) : (K (F := F)).nCore q ≤ grid0.bound 0 := by
  match q with | 0 => exact Nat.le_refl _
theorem nSub_le (q : Fin 1) : (K (F := F)).nSub q ≤ grid0.bound 1 := by
  match q with | 0 => exact Nat.le_refl _

/-- The tile that runs task i of SparseCore c of the call's grid. -/
abbrev Lof {q : Fin 1} (c : Fin ((K (F := F)).nCore q)) (i : Fin ((K (F := F)).nSub q)) : grid0.Coords :=
  coordsV ⟨c.val, Nat.lt_of_lt_of_le c.isLt (nCore_le q)⟩ ⟨i.val, Nat.lt_of_lt_of_le i.isLt (nSub_le q)⟩

variable [FloatOps F]

/-- A buffer of the count array holds, on the row of tile `L`, the table of the tile's slices. -/
def RowOK (d : Dev nD) (L : grid0.Coords) (fl : Buf (Elt F) (labLoc d)) (fd : Buf (Elt F) (degLoc d)) (fb : Buf (Elt F) (batLoc d))
    (f : Buf (Elt F) (cntLoc d)) : Prop :=
  ∀ y : S32x128.Idx, (cntRow L).view.read (Elt F) f y
    = Hist.tileTab (F := F) ((labSl L).view.read (Elt F) fl) ((degSl L).view.read (Elt F) fd) ((batSl L).view.read (Elt F) fb) y

section P

variable (fl : (d : Dev nD) → Buf (Elt F) (labLoc d)) (fd : (d : Dev nD) → Buf (Elt F) (degLoc d))
  (fb : (d : Dev nD) → Buf (Elt F) (batLoc d)) (fc : (d : Dev nD) → Buf (Elt F) (cntLoc d))

/-- What a tile is handed, and what it hands back. -/
def goT (d : Dev nD) (L : grid0.Coords) : sProp 𝕄 :=
  iprop(labSlPts d L (fl d) ∗ degSlPts d L (fd d) ∗ batSlPts d L (fb d) ∗ cntRowPts d L (fc d))
def tdT (d : Dev nD) (L : grid0.Coords) : sProp 𝕄 :=
  iprop(labSlPts d L (fl d) ∗ degSlPts d L (fd d) ∗ batSlPts d L (fb d) ∗ ∃ f, ⌜RowOK d L (fl d) (fd d) (fb d) f⌝ ∗ cntRowPts d L f)

instance goT_storable (d : Dev nD) (L : grid0.Coords) : BI.Storable (upEmb : UEmb _ 𝕄) (goT fl fd fb fc d L) := by
  unfold goT; infer_instance
instance tdT_storable (d : Dev nD) (L : grid0.Coords) : BI.Storable (upEmb : UEmb _ 𝕄) (tdT fl fd fb d L) := by
  unfold tdT; infer_instance

/-- The call's payloads: a SparseCore's are its tiles'. -/
def P : (K (F := F)).Pay (nD := nD) (Val := Elt F) (Name := ℕ) (U := UU) where
  st := fun q d c => bigSep Finset.univ fun i : Fin ((K (F := F)).nSub q) => goT fl fd fb fc d (Lof c i)
  dn := fun q d c => bigSep Finset.univ fun i : Fin ((K (F := F)).nSub q) => tdT fl fd fb d (Lof c i)
  go := fun _ d c i => goT fl fd fb fc d (Lof c i)
  td := fun _ d c i => tdT fl fd fb d (Lof c i)
  x := fun _ _ => iprop(emp)

instance P_storable : (P (F := F) fl fd fb fc).IsStorable where
  st _ d c := by unfold P; infer_instance
  dn _ d c := by unfold P; infer_instance
  go _ _ _ _ := by unfold P; infer_instance
  td _ _ _ _ := by unfold P; infer_instance

/-- The split of a SparseCore's operands among its tiles is the identity. -/
theorem vecSplit : (K (F := F)).VecSplit' (P fl fd fb fc) 0 := by
  intro d c
  show (bigSep Finset.univ fun i : Fin ((K (F := F)).nSub 0) => goT fl fd fb fc d (Lof c i)) ⊢ |={Set.univ}=> iprop(
      (bigSep Finset.univ fun i : Fin ((K (F := F)).nSub 0) => goT fl fd fb fc d (Lof c i))
      ∗ ((bigSep Finset.univ fun i : Fin ((K (F := F)).nSub 0) => tdT fl fd fb d (Lof c i))
          -∗ (bigSep Finset.univ fun i : Fin ((K (F := F)).nSub 0) => tdT fl fd fb d (Lof c i))))
  iintro H; imodintro
  isplitl [H]; · iexact H
  iintro H; iexact H

end P

end Cert.Kernel.Pay

end
-- ==== Proof.BKPart.lean ====
/-
  The thirty-two tiles' slices partition a 32768-entry index array, and their rows partition the count array:
  slice (c, s) is the interval [16384 c + 1024 s, 16384 c + 1024 s + 1024), row (c, s) the indices whose first
  coordinate is 16 c + s. Hence an array held whole is its slices (rows) held side by side, and back.
-/
import proofs.«203920_g2267742732911_cont_8to1_1065_18_alg».proof.Proof.BKPay
import proofs.«203920_g2267742732911_cont_8to1_1065_18_alg».proof.Proof.Gen.Kernel.Launch

noncomputable section

namespace Cert.Kernel.Part

open Cert.Kernel Cert.Kernel.Gen Cert.Kernel.Setup Cert.Kernel.Pay

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## Membership -/

theorem mem_slSet (L : grid0.Coords) (j : S32768.Idx) :
    j ∈ slSet L ↔ 16384 * (L 0).val + 1024 * (L 1).val ≤ (j 0).val ∧ (j 0).val < 16384 * (L 0).val + 1024 * (L 1).val + 1024 := by
  show j ∈ ((View.whole (main_v1_scv : Ref sig .scVector)).slice (slRect L)).set ↔ _
  rw [View.set_slice_whole, Rect.mem_set_unit]
  constructor
  · intro h
    have h0 := h 0
    rw [k0_off9_eq] at h0
    exact ⟨h0.1, h0.2⟩
  · intro h a
    rw [k0_off9_eq]
    obtain ⟨a, ha⟩ := a
    have ha0 : a = 0 := by change a < 1 at ha; omega
    subst ha0
    exact ⟨h.1, h.2⟩

theorem mem_rowSet (L : grid0.Coords) (j : S32x32x128.Idx) :
    j ∈ rowSet L ↔ (j 0).val = 16 * (L 0).val + (L 1).val := by
  show j ∈ (((cntV : Memref sig .scVector .hbm S32x32x128 .f32).view.slice (rowRect L)).reshape S32x128 squeezes_S1x32x128_S32x128.numel_eq).set ↔ _
  rw [View.set_reshape]
  show j ∈ ((View.whole (main_v4_scv : Ref sig .scVector)).slice (rowRect L)).set ↔ _
  rw [View.set_slice_whole, Rect.mem_set_unit]
  constructor
  · intro h
    have h0 := h 0
    rw [k0_off14_eq] at h0
    have : (S1x32x128.size 0) = 1 := rfl
    simp only [Matrix.cons_val_zero] at h0
    omega
  · intro h a
    rw [k0_off14_eq]
    have hb := (j a).isLt
    match a with
    | 0 => simp only [Matrix.cons_val_zero]; exact ⟨by omega, by show (j 0).val < _ + 1; omega⟩
    | 1 => exact ⟨Nat.zero_le _, by show (j 1).val < 0 + 32; have : (j 1).val < 32 := (j 1).isLt; omega⟩
    | 2 => exact ⟨Nat.zero_le _, by show (j 2).val < 0 + 128; have : (j 2).val < 128 := (j 2).isLt; omega⟩

/-! ## The tiles, as pairs -/

abbrev Tile : Type := Fin ((K (F := F)).nCore 0) × Fin ((K (F := F)).nSub 0)
abbrev LofP (p : Tile (F := F)) : grid0.Coords := Lof (F := F) p.1 p.2

theorem Lof_zero (p : Tile (F := F)) : ((LofP p) 0).val = p.1.val := rfl
theorem Lof_one (p : Tile (F := F)) : ((LofP p) 1).val = p.2.val := rfl

theorem tile_ne {p p' : Tile (F := F)} (h : p ≠ p') : p.1.val ≠ p'.1.val ∨ p.2.val ≠ p'.2.val := by
  by_contra hc
  rw [not_or, not_not, not_not] at hc
  exact h (Prod.ext (Fin.ext hc.1) (Fin.ext hc.2))

theorem slices_disjoint : ∀ p ∈ (Finset.univ : Finset (Tile (F := F))), ∀ p' ∈ (Finset.univ : Finset (Tile (F := F))), p ≠ p' →
    Disjoint (slSet (LofP p)) (slSet (LofP p')) := by
  intro p _ p' _ h
  rw [Finset.disjoint_left]
  intro j hj hj'
  rw [mem_slSet, Lof_zero, Lof_one] at hj hj'
  have h1 : p.1.val < 2 := p.1.isLt
  have h2 : p.2.val < 16 := p.2.isLt
  have h1' : p'.1.val < 2 := p'.1.isLt
  have h2' : p'.2.val < 16 := p'.2.isLt
  rcases tile_ne h with hne | hne <;> omega

theorem slices_cover : (Finset.univ : Finset (Tile (F := F))).biUnion (fun p => slSet (LofP p)) = Finset.univ := by
  ext j
  simp only [Finset.mem_biUnion, Finset.mem_univ, true_and, iff_true]
  have hj : (j 0).val < 32768 := (j 0).isLt
  refine ⟨(⟨(j 0).val / 16384, by show _ < 2; omega⟩, ⟨((j 0).val % 16384) / 1024, by show _ < 16; omega⟩), ?_⟩
  rw [mem_slSet, Lof_zero, Lof_one]
  show 16384 * ((j 0).val / 16384) + 1024 * (((j 0).val % 16384) / 1024) ≤ (j 0).val
    ∧ (j 0).val < 16384 * ((j 0).val / 16384) + 1024 * (((j 0).val % 16384) / 1024) + 1024
  omega

theorem rows_disjoint : ∀ p ∈ (Finset.univ : Finset (Tile (F := F))), ∀ p' ∈ (Finset.univ : Finset (Tile (F := F))), p ≠ p' →
    Disjoint (rowSet (LofP p)) (rowSet (LofP p')) := by
  intro p _ p' _ h
  rw [Finset.disjoint_left]
  intro j hj hj'
  rw [mem_rowSet, Lof_zero, Lof_one] at hj hj'
  have h2 : p.2.val < 16 := p.2.isLt
  have h2' : p'.2.val < 16 := p'.2.isLt
  rcases tile_ne h with hne | hne <;> omega

theorem rows_cover : (Finset.univ : Finset (Tile (F := F))).biUnion (fun p => rowSet (LofP p)) = Finset.univ := by
  ext j
  simp only [Finset.mem_biUnion, Finset.mem_univ, true_and, iff_true]
  have hj : (j 0).val < 32 := (j 0).isLt
  refine ⟨(⟨(j 0).val / 16, by show _ < 2; omega⟩, ⟨(j 0).val % 16, by show _ < 16; omega⟩), ?_⟩
  rw [mem_rowSet, Lof_zero, Lof_one]
  show (j 0).val = 16 * ((j 0).val / 16) + (j 0).val % 16
  omega

/-! ## An array whole is its tiles' pieces side by side -/

theorem lab_pieces (d : Dev nD) (f : Buf (Elt F) (labLoc d)) :
    (labLoc d ↦{fullShare} f : sProp 𝕄) = bigSep Finset.univ fun p : Tile (F := F) => labLoc d ↦[slSet (LofP p)]{fullShare} f := by
  rw [← pointsTo_biUnion Finset.univ (ℓ := labLoc d) (fun p : Tile (F := F) => slSet (LofP p)) slices_disjoint, slices_cover]; try rfl
theorem deg_pieces (d : Dev nD) (f : Buf (Elt F) (degLoc d)) :
    (degLoc d ↦{fullShare} f : sProp 𝕄) = bigSep Finset.univ fun p : Tile (F := F) => degLoc d ↦[slSet (LofP p)]{fullShare} f := by
  rw [← pointsTo_biUnion Finset.univ (ℓ := degLoc d) (fun p : Tile (F := F) => slSet (LofP p)) slices_disjoint, slices_cover]; try rfl
theorem bat_pieces (d : Dev nD) (f : Buf (Elt F) (batLoc d)) :
    (batLoc d ↦{fullShare} f : sProp 𝕄) = bigSep Finset.univ fun p : Tile (F := F) => batLoc d ↦[slSet (LofP p)]{fullShare} f := by
  rw [← pointsTo_biUnion Finset.univ (ℓ := batLoc d) (fun p : Tile (F := F) => slSet (LofP p)) slices_disjoint, slices_cover]; try rfl
theorem cnt_pieces (d : Dev nD) (f : Buf (Elt F) (cntLoc d)) :
    (cntLoc d ↦{fullShare} f : sProp 𝕄) = bigSep Finset.univ fun p : Tile (F := F) => cntLoc d ↦[rowSet (LofP p)]{fullShare} f := by
  rw [← pointsTo_biUnion Finset.univ (ℓ := cntLoc d) (fun p : Tile (F := F) => rowSet (LofP p)) rows_disjoint, rows_cover]; try rfl

end Cert.Kernel.Part

end
-- ==== Proof.BKDeal.lean ====
/-
  Dealing the four arrays to the two SparseCores and taking them back. What the call hands out is the arrays whole,
  cut into the thirty-two tiles' pieces; what comes back is the three index arrays whole and unchanged and the count
  array whole at SOME contents whose every row is its tile's table.
-/
import proofs.«203920_g2267742732911_cont_8to1_1065_18_alg».proof.Proof.BKPay
import proofs.«203920_g2267742732911_cont_8to1_1065_18_alg».proof.Proof.Gen.Kernel.Launch
import proofs.«203920_g2267742732911_cont_8to1_1065_18_alg».proof.Proof.BKPart

noncomputable section

namespace Cert.Kernel.Deal

open Cert.Kernel Cert.Kernel.Gen Cert.Kernel.Setup Cert.Kernel.Pay

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Cert.Kernel.Part

variable [FloatOps F]
variable (fl : (d : Dev nD) → Buf (Elt F) (labLoc d)) (fd : (d : Dev nD) → Buf (Elt F) (degLoc d))
  (fb : (d : Dev nD) → Buf (Elt F) (batLoc d)) (fc : (d : Dev nD) → Buf (Elt F) (cntLoc d))

/-- Every row of the count array is its tile's table. -/
def CntOK (d : Dev nD) (g : Buf (Elt F) (cntLoc d)) : Prop :=
  ∀ p : Tile (F := F), RowOK d (LofP p) (fl d) (fd d) (fb d) g

theorem st_eq (d : Dev nD) :
    (bigSep Finset.univ fun c : Fin ((K (F := F)).nCore 0) => (P fl fd fb fc).st 0 d c)
      = iprop((labLoc d ↦{fullShare} fl d) ∗ (degLoc d ↦{fullShare} fd d) ∗ (batLoc d ↦{fullShare} fb d) ∗ (cntLoc d ↦{fullShare} fc d)) := by
  rw [lab_pieces, deg_pieces, bat_pieces, cnt_pieces, ← bigSep_sep', ← bigSep_sep', ← bigSep_sep', bigSep_univ_prod]
  rfl

theorem emb_mem_rowSet (L : grid0.Coords) (y : S32x128.Idx) : (cntRow L).view.emb y ∈ rowSet L :=
  Finset.mem_map_of_mem _ (Finset.mem_univ y)

theorem dn_join (d : Dev nD) :
    (bigSep Finset.univ fun c : Fin ((K (F := F)).nCore 0) => (P fl fd fb fc).dn 0 d c)
      ⊢ iprop((labLoc d ↦{fullShare} fl d) ∗ (degLoc d ↦{fullShare} fd d) ∗ (batLoc d ↦{fullShare} fb d)
          ∗ ∃ g, ⌜CntOK fl fd fb d g⌝ ∗ (cntLoc d ↦{fullShare} g)) := by
  have e : (bigSep Finset.univ fun c : Fin ((K (F := F)).nCore 0) => (P fl fd fb fc).dn 0 d c)
      = bigSep (Finset.univ : Finset (Tile (F := F))) fun p => tdT fl fd fb d (LofP p) := by
    rw [bigSep_univ_prod]; rfl
  have hj : ∀ fs : Tile (F := F) → Buf (Elt F) (cntLoc d),
      (bigSep (Finset.univ : Finset (Tile (F := F))) (fun p => cntLoc d ↦[rowSet (LofP p)]{fullShare} fs p) : sProp 𝕄)
        ⊢ iprop(∃ g, ⌜∀ p ∈ (Finset.univ : Finset (Tile (F := F))), ∀ i ∈ rowSet (LofP p), g i = fs p i⌝ ∗ cntLoc d ↦{fullShare} g) := by
    intro fs
    have h := pointsTo_biUnion_join (Ix := HIx 1) (Name := ℕ) (U := UU) (Lvl := ℕ) (q := fullShare) (ℓ := cntLoc d) (Finset.univ : Finset (Tile (F := F))) (fun p => rowSet (LofP p)) fs (fc d) rows_disjoint
    rw [rows_cover] at h
    exact h
  rw [e]
  unfold tdT
  rw [bigSep_sep', bigSep_sep', bigSep_sep', ← lab_pieces, ← deg_pieces, ← bat_pieces]
  iintro ⟨Hl, Hd, Hb, Hc⟩
  isplitl [Hl]; · iexact Hl
  isplitl [Hd]; · iexact Hd
  isplitl [Hb]; · iexact Hb
  ihave Hc1 := (bigSep_exists_pi Finset.univ (fun (p : Tile (F := F)) (f : Buf (Elt F) (cntLoc d)) =>
      iprop(⌜RowOK d (LofP p) (fl d) (fd d) (fb d) f⌝ ∗ cntRowPts d (LofP p) f))) $$ Hc
  icases Hc1 with ⟨%fs, Hc⟩
  ihave Hc2 := (bigSep_pure_sep Finset.univ (fun p : Tile (F := F) => RowOK d (LofP p) (fl d) (fd d) (fb d) (fs p))
      (fun p => cntRowPts d (LofP p) (fs p))) $$ Hc
  icases Hc2 with ⟨%hok, Hc⟩
  ihave Hc3 := (hj fs) $$ Hc
  icases Hc3 with ⟨%g, %hg, Hg⟩
  iexists g
  isplitr
  · ipureintro
    intro p y
    rw [View.read_congr_at y (hg p (Finset.mem_univ p) _ (emb_mem_rowSet (LofP p) y))]
    exact hok p (Finset.mem_univ p) y
  · iexact Hg

end Cert.Kernel.Deal

end
-- ==== Proof.BHeadBody.lean ====
import proofs.«203920_g2267742732911_cont_8to1_1065_18_alg».proof.Proof.Gen.Kernel.Skeleton
import Idealize.ShloMosaic.Lib.Tactic
import Idealize.ShloMosaic.Lib.Pipeline.Kit
import Idealize.ShloMosaic.Lib.SparseCore.Cells

/-!
  The dense head of the kernel, as a triple about its body alone.

  The body reads ten operands, each staged whole in a buffer of its own, forms one pure term of
  what it read — the per-tile count tables summed over the tiles, the two embedding products,
  the projection of the graph features, and the two-layer perceptron on their concatenation —
  and writes that term over the whole of the eleventh buffer. Nothing else is touched. So from
  the eleven buffers held whole, the ten operands at contents of any choosing and the result's
  at anything, the body runs to its return with the ten as they were and the eleventh at the term.
-/

noncomputable section

namespace Cert.Proof.HeadKernel

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Name : Type} [DecidableEq Name] {U : Type} [URA U]

local notation "𝕄" => MT nD τ sig (SparseCore.Cfg.HIx 1) (Elt F) Name U ℕ

/-- The contents type of memref `M`'s buffer on core `c`, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A load through a whole staging buffer at its full extent reads the buffer's contents. -/
theorem rd0 (f : (cc1_stg0_0 : Ref sig .tc).ty.Contents (Elt F)) :
    View.readAt (Elt F) (View.whole cc1_stg0_0) (Rect.unit (s := S32x32x128) ![0, 0, 0] ![32, 32, 128] inb_S32x32x128_S32x32x128_0_0_0).toLoadRect f = f :=
  Memref.readAt_unit_zero (Elt F) cc1_stg0_0 (by decide) _ f
theorem rd1 (f : (cc1_stg1_0 : Ref sig .tc).ty.Contents (Elt F)) :
    View.readAt (Elt F) (View.whole cc1_stg1_0) (Rect.unit (s := S16x102) ![0, 0] ![16, 102] inb_S16x102_S16x102_0_0).toLoadRect f = f :=
  Memref.readAt_unit_zero (Elt F) cc1_stg1_0 (by decide) _ f
theorem rd2 (f : (cc1_stg2_0 : Ref sig .tc).ty.Contents (Elt F)) :
    View.readAt (Elt F) (View.whole cc1_stg2_0) (Rect.unit (s := S102x128) ![0, 0] ![102, 128] inb_S102x128_S102x128_0_0).toLoadRect f = f :=
  Memref.readAt_unit_zero (Elt F) cc1_stg2_0 (by decide) _ f
theorem rd3 (f : (cc1_stg3_0 : Ref sig .tc).ty.Contents (Elt F)) :
    View.readAt (Elt F) (View.whole cc1_stg3_0) (Rect.unit (s := S11x128) ![0, 0] ![11, 128] inb_S11x128_S11x128_0_0).toLoadRect f = f :=
  Memref.readAt_unit_zero (Elt F) cc1_stg3_0 (by decide) _ f
theorem rd4 (f : (cc1_stg4_0 : Ref sig .tc).ty.Contents (Elt F)) :
    View.readAt (Elt F) (View.whole cc1_stg4_0) (Rect.unit (s := S102x128) ![0, 0] ![102, 128] inb_S102x128_S102x128_0_0).toLoadRect f = f :=
  Memref.readAt_unit_zero (Elt F) cc1_stg4_0 (by decide) _ f
theorem rd5 (f : (cc1_stg5_0 : Ref sig .tc).ty.Contents (Elt F)) :
    View.readAt (Elt F) (View.whole cc1_stg5_0) (Rect.unit (s := S1x128) ![0, 0] ![1, 128] inb_S1x128_S1x128_0_0).toLoadRect f = f :=
  Memref.readAt_unit_zero (Elt F) cc1_stg5_0 (by decide) _ f
theorem rd6 (f : (cc1_stg6_0 : Ref sig .tc).ty.Contents (Elt F)) :
    View.readAt (Elt F) (View.whole cc1_stg6_0) (Rect.unit (s := S256x128) ![0, 0] ![256, 128] inb_S256x128_S256x128_0_0).toLoadRect f = f :=
  Memref.readAt_unit_zero (Elt F) cc1_stg6_0 (by decide) _ f
theorem rd7 (f : (cc1_stg7_0 : Ref sig .tc).ty.Contents (Elt F)) :
    View.readAt (Elt F) (View.whole cc1_stg7_0) (Rect.unit (s := S1x128) ![0, 0] ![1, 128] inb_S1x128_S1x128_0_0).toLoadRect f = f :=
  Memref.readAt_unit_zero (Elt F) cc1_stg7_0 (by decide) _ f
theorem rd8 (f : (cc1_stg8_0 : Ref sig .tc).ty.Contents (Elt F)) :
    View.readAt (Elt F) (View.whole cc1_stg8_0) (Rect.unit (s := S128x18) ![0, 0] ![128, 18] inb_S128x18_S128x18_0_0).toLoadRect f = f :=
  Memref.readAt_unit_zero (Elt F) cc1_stg8_0 (by decide) _ f
theorem rd9 (f : (cc1_stg9_0 : Ref sig .tc).ty.Contents (Elt F)) :
    View.readAt (Elt F) (View.whole cc1_stg9_0) (Rect.unit (s := S1x18) ![0, 0] ![1, 18] inb_S1x18_S1x18_0_0).toLoadRect f = f :=
  Memref.readAt_unit_zero (Elt F) cc1_stg9_0 (by decide) _ f

/-- An unmasked store through a whole staging buffer at its full extent replaces the buffer's contents. -/
theorem wr10 (f w : (cc1_stg10_0 : Ref sig .tc).ty.Contents (Elt F)) :
    View.write (Elt F) ((View.whole cc1_stg10_0).slice (Rect.unit (s := S16x18) ![0, 0] ![16, 18] inb_S16x18_S16x18_0_0)) f w Finset.univ = w :=
  Memref.write_access_unit_zero_univ (Elt F) cc1_stg10_0 (by decide) _ f w

set_option maxHeartbeats 2000000 in
/-- The body's triple on the eleven staging buffers: the ten operands' come back as they were, the
    result's holds the body's one pure term of what the ten held. -/
theorem kernelRun (c : Dev nD)
    (f0 : Bf (F := F) c (Memref.whole cc1_stg0_0)) (f1 : Bf (F := F) c (Memref.whole cc1_stg1_0)) (f2 : Bf (F := F) c (Memref.whole cc1_stg2_0)) (f3 : Bf (F := F) c (Memref.whole cc1_stg3_0)) (f4 : Bf (F := F) c (Memref.whole cc1_stg4_0)) (f5 : Bf (F := F) c (Memref.whole cc1_stg5_0)) (f6 : Bf (F := F) c (Memref.whole cc1_stg6_0)) (f7 : Bf (F := F) c (Memref.whole cc1_stg7_0)) (f8 : Bf (F := F) c (Memref.whole cc1_stg8_0)) (f9 : Bf (F := F) c (Memref.whole cc1_stg9_0)) (f10 : Bf (F := F) c (Memref.whole cc1_stg10_0)) (Q : PUnit → sProp 𝕄) :
    iprop(pt c (Memref.whole cc1_stg0_0) f0 ∗ pt c (Memref.whole cc1_stg1_0) f1 ∗ pt c (Memref.whole cc1_stg2_0) f2 ∗ pt c (Memref.whole cc1_stg3_0) f3 ∗ pt c (Memref.whole cc1_stg4_0) f4 ∗ pt c (Memref.whole cc1_stg5_0) f5 ∗ pt c (Memref.whole cc1_stg6_0) f6 ∗ pt c (Memref.whole cc1_stg7_0) f7 ∗ pt c (Memref.whole cc1_stg8_0) f8 ∗ pt c (Memref.whole cc1_stg9_0) f9 ∗ pt c (Memref.whole cc1_stg10_0) f10
        ∗ (iprop(pt c (Memref.whole cc1_stg0_0) f0 ∗ pt c (Memref.whole cc1_stg1_0) f1 ∗ pt c (Memref.whole cc1_stg2_0) f2 ∗ pt c (Memref.whole cc1_stg3_0) f3 ∗ pt c (Memref.whole cc1_stg4_0) f4 ∗ pt c (Memref.whole cc1_stg5_0) f5 ∗ pt c (Memref.whole cc1_stg6_0) f6 ∗ pt c (Memref.whole cc1_stg7_0) f7 ∗ pt c (Memref.whole cc1_stg8_0) f8 ∗ pt c (Memref.whole cc1_stg9_0) f9 ∗ pt c (Memref.whole cc1_stg10_0) (k1_pay1 f0 f2 f3 f1 f4 f5 f6 f7 f8 f9)) -∗ Q ⟨⟩))
      ⊢ wp frame (wpE (defs₀ (F := F)) Variants.none c none) Set.univ
          (cc1__tc_head_body (Memref.whole cc1_stg0_0) (hstage1_0 0) (Memref.whole cc1_stg1_0) (hstage1_1 0) (Memref.whole cc1_stg2_0) (hstage1_2 0) (Memref.whole cc1_stg3_0) (hstage1_3 0) (Memref.whole cc1_stg4_0) (hstage1_4 0) (Memref.whole cc1_stg5_0) (hstage1_5 0) (Memref.whole cc1_stg6_0) (hstage1_6 0) (Memref.whole cc1_stg7_0) (hstage1_7 0) (Memref.whole cc1_stg8_0) (hstage1_8 0) (Memref.whole cc1_stg9_0) (hstage1_9 0) (Memref.whole cc1_stg10_0) (hstage1_10 0)) Q := by
  iintro ⟨H0, H1, H2, H3, H4, H5, H6, H7, H8, H9, H10, Hk⟩
  simp only [cc1__tc_head_body_eq_skeleton]
  unfold cc1__tc_head_body_skel
  simp only [k1_part1_eq_skeleton]
  unfold k1_part1_skel
  sl_exec
  sl_step
  simp only [View.writes_singleton, rd0, rd1, rd2, rd3, rd4, rd5, rd6, rd7, rd8, rd9, wr10]
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.Proof.HeadKernel

end
-- ==== Proof.BHeadData.lean ====
import proofs.«203920_g2267742732911_cont_8to1_1065_18_alg».proof.Proof.BHeadBody
import proofs.«203920_g2267742732911_cont_8to1_1065_18_alg».proof.Proof.Gen.Kernel.Launch
import proofs.«203920_g2267742732911_cont_8to1_1065_18_alg».proof.Proof.Gen.Kernel.Points
import Idealize.ShloMosaic.Lib.Pipeline.Regions
import Idealize.ShloMosaic.Lib.SparseCore.Threads

/-!
  The dense head of the kernel, as a line of the TensorCore's program.

  The line is one kernel region: a pipeline with no grid over eleven windows, each a whole array
  staged once. Ten are operands — the per-tile count tables the SparseCores left, the four
  embedding and weight tables, the graph features, the three bias rows — fetched before the
  body's one point; the eleventh is the result, written back after it. The region's proof data
  says just that: every operand's staging buffer holds the operand when the body runs and is
  left as found, the result's is left at the body's one pure term of the ten operands, nothing
  is owed, and the only waits recorded are the pipeline's own on its staging semaphores.
  From the TensorCore holding the eleven arrays whole, the region boundary and the staging
  cells' launch ghost state, the line runs to the same arrays with the result at that term.
-/

noncomputable section

namespace Cert.Proof.HeadKernel

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]
variable {Name : Type} [DecidableEq Name] {U : Type} [URA U]

local notation "𝕄" => MT nD τ sig (HIx 1) (Elt F) Name U ℕ

/-- The body makes no call of its own. -/
abbrev 𝒱₀ : Variants := Variants.none
/-- No prefetched table. -/
abbrev adm : (p : Fin 1) → (pcfgs (F := F) p).Adm := fun p => (cfgs p).toPCfg_adm

/-- Contents for each of the TensorCore's buffers. -/
abbrev HVal (F : FTy → Type) : Type := (b : Ref sig .tc) → b.ty.Contents (Elt F)

variable (W : HVal F) (f8 : (main_v8 : Ref sig .tc).ty.Contents (Elt F)) (bnd : ℕ)

/-- What the region leaves in the result: the body's term of the ten operands. -/
def headVal : (main_v8 : Ref sig .tc).ty.Contents (Elt F) :=
  (k1_pay1 (W main_v4) (W main_arg3) (W main_arg4) (W main_arg2) (W main_arg5) (W main_v5) (W main_arg7) (W main_v6) (W main_arg9) (W main_v7) : FVec F S16x18 .f32)

/-! ## The proof data -/

/-- Each window's array at the region's entry: the operands at `W`, the result at `f8`. -/
def arrIn (c : Dev nD) : (w : Fin cfg1.W) → Buf (Elt F) ((cfg1.win w).arr.view.loc (c.tc : Thread nD τ))
  | 0 => W main_v4
  | 1 => W main_arg2
  | 2 => W main_arg3
  | 3 => W main_arg4
  | 4 => W main_arg5
  | 5 => W main_v5
  | 6 => W main_arg7
  | 7 => W main_v6
  | 8 => W main_arg9
  | 9 => W main_v7
  | 10 => f8
  | ⟨_ + 11, h⟩ => absurd h (Nat.not_lt.2 (Nat.le_add_left _ _))

/-- Each window's staging buffer after the body: an operand's as fetched, the result's at the term. -/
def stgAfter : (w : Fin cfg1.W) → (cfg1.win w).block.Idx → Elt F (cfg1.win w).elt
  | 0 => W main_v4
  | 1 => W main_arg2
  | 2 => W main_arg3
  | 3 => W main_arg4
  | 4 => W main_arg5
  | 5 => W main_v5
  | 6 => W main_arg7
  | 7 => W main_v6
  | 8 => W main_arg9
  | 9 => W main_v7
  | 10 => headVal W
  | ⟨_ + 11, h⟩ => absurd h (Nat.not_lt.2 (Nat.le_add_left _ _))

/-- The proof data on core `c`: between the region's ends the body keeps nothing but the scoped buffers
    no window stages; nothing is owed; the recorded waits stay at levels at most `bnd`. -/
def dats (_ : Fin 1) (c : Dev nD) : Dat τ (Elt F) (HIx 1) Name U ℕ cfg1 c where
  A := arrIn W f8 c
  after w _ := stgAfter W w
  Φ _ := Pipeline.scopedRest spec1 c
  q _ := fullShare
  owed _ := 0
  recorded _ := {p | (sc (F := F)).lev ((c.tc : Thread nD τ), p.1) p.2 ≤ bnd}

/-! ## What the body finds, and what the region leaves -/

/-- Reading a whole array through its one block gives the array. -/
theorem rdArr0 (f : (main_v4 : Ref sig .tc).ty.Contents (Elt F)) : ((cfg1.win 0).blk t1_0).view.read (Elt F) f = f :=
  Memref.read_access_unit_zero (Elt F) main_v4 (by decide) _ f
theorem rdArr1 (f : (main_arg2 : Ref sig .tc).ty.Contents (Elt F)) : ((cfg1.win 1).blk t1_0).view.read (Elt F) f = f :=
  Memref.read_access_unit_zero (Elt F) main_arg2 (by decide) _ f
theorem rdArr2 (f : (main_arg3 : Ref sig .tc).ty.Contents (Elt F)) : ((cfg1.win 2).blk t1_0).view.read (Elt F) f = f :=
  Memref.read_access_unit_zero (Elt F) main_arg3 (by decide) _ f
theorem rdArr3 (f : (main_arg4 : Ref sig .tc).ty.Contents (Elt F)) : ((cfg1.win 3).blk t1_0).view.read (Elt F) f = f :=
  Memref.read_access_unit_zero (Elt F) main_arg4 (by decide) _ f
theorem rdArr4 (f : (main_arg5 : Ref sig .tc).ty.Contents (Elt F)) : ((cfg1.win 4).blk t1_0).view.read (Elt F) f = f :=
  Memref.read_access_unit_zero (Elt F) main_arg5 (by decide) _ f
theorem rdArr5 (f : (main_v5 : Ref sig .tc).ty.Contents (Elt F)) : ((cfg1.win 5).blk t1_0).view.read (Elt F) f = f :=
  Memref.read_access_unit_zero (Elt F) main_v5 (by decide) _ f
theorem rdArr6 (f : (main_arg7 : Ref sig .tc).ty.Contents (Elt F)) : ((cfg1.win 6).blk t1_0).view.read (Elt F) f = f :=
  Memref.read_access_unit_zero (Elt F) main_arg7 (by decide) _ f
theorem rdArr7 (f : (main_v6 : Ref sig .tc).ty.Contents (Elt F)) : ((cfg1.win 7).blk t1_0).view.read (Elt F) f = f :=
  Memref.read_access_unit_zero (Elt F) main_v6 (by decide) _ f
theorem rdArr8 (f : (main_arg9 : Ref sig .tc).ty.Contents (Elt F)) : ((cfg1.win 8).blk t1_0).view.read (Elt F) f = f :=
  Memref.read_access_unit_zero (Elt F) main_arg9 (by decide) _ f
theorem rdArr9 (f : (main_v7 : Ref sig .tc).ty.Contents (Elt F)) : ((cfg1.win 9).blk t1_0).view.read (Elt F) f = f :=
  Memref.read_access_unit_zero (Elt F) main_v7 (by decide) _ f

/-- An operand's staging buffer holds the operand when the body runs. -/
theorem before_in0 (c : Dev nD) (d : (cfg1.win 0).block.Idx → Elt F (cfg1.win 0).elt) :
    (dats (Name := Name) (U := U) W f8 bnd 0 c).before 0 t1_0 d = W main_v4 := by
  unfold Dat.before; rw [if_pos (fetch1_0 _)]
  exact rdArr0 (W main_v4)
theorem before_in1 (c : Dev nD) (d : (cfg1.win 1).block.Idx → Elt F (cfg1.win 1).elt) :
    (dats (Name := Name) (U := U) W f8 bnd 0 c).before 1 t1_0 d = W main_arg2 := by
  unfold Dat.before; rw [if_pos (fetch1_1 _)]
  exact rdArr1 (W main_arg2)
theorem before_in2 (c : Dev nD) (d : (cfg1.win 2).block.Idx → Elt F (cfg1.win 2).elt) :
    (dats (Name := Name) (U := U) W f8 bnd 0 c).before 2 t1_0 d = W main_arg3 := by
  unfold Dat.before; rw [if_pos (fetch1_2 _)]
  exact rdArr2 (W main_arg3)
theorem before_in3 (c : Dev nD) (d : (cfg1.win 3).block.Idx → Elt F (cfg1.win 3).elt) :
    (dats (Name := Name) (U := U) W f8 bnd 0 c).before 3 t1_0 d = W main_arg4 := by
  unfold Dat.before; rw [if_pos (fetch1_3 _)]
  exact rdArr3 (W main_arg4)
theorem before_in4 (c : Dev nD) (d : (cfg1.win 4).block.Idx → Elt F (cfg1.win 4).elt) :
    (dats (Name := Name) (U := U) W f8 bnd 0 c).before 4 t1_0 d = W main_arg5 := by
  unfold Dat.before; rw [if_pos (fetch1_4 _)]
  exact rdArr4 (W main_arg5)
theorem before_in5 (c : Dev nD) (d : (cfg1.win 5).block.Idx → Elt F (cfg1.win 5).elt) :
    (dats (Name := Name) (U := U) W f8 bnd 0 c).before 5 t1_0 d = W main_v5 := by
  unfold Dat.before; rw [if_pos (fetch1_5 _)]
  exact rdArr5 (W main_v5)
theorem before_in6 (c : Dev nD) (d : (cfg1.win 6).block.Idx → Elt F (cfg1.win 6).elt) :
    (dats (Name := Name) (U := U) W f8 bnd 0 c).before 6 t1_0 d = W main_arg7 := by
  unfold Dat.before; rw [if_pos (fetch1_6 _)]
  exact rdArr6 (W main_arg7)
theorem before_in7 (c : Dev nD) (d : (cfg1.win 7).block.Idx → Elt F (cfg1.win 7).elt) :
    (dats (Name := Name) (U := U) W f8 bnd 0 c).before 7 t1_0 d = W main_v6 := by
  unfold Dat.before; rw [if_pos (fetch1_7 _)]
  exact rdArr7 (W main_v6)
theorem before_in8 (c : Dev nD) (d : (cfg1.win 8).block.Idx → Elt F (cfg1.win 8).elt) :
    (dats (Name := Name) (U := U) W f8 bnd 0 c).before 8 t1_0 d = W main_arg9 := by
  unfold Dat.before; rw [if_pos (fetch1_8 _)]
  exact rdArr8 (W main_arg9)
theorem before_in9 (c : Dev nD) (d : (cfg1.win 9).block.Idx → Elt F (cfg1.win 9).elt) :
    (dats (Name := Name) (U := U) W f8 bnd 0 c).before 9 t1_0 d = W main_v7 := by
  unfold Dat.before; rw [if_pos (fetch1_9 _)]
  exact rdArr9 (W main_v7)

/-- Writing a whole array back through its one block replaces the array. -/
theorem wrArr10 (f w : (main_v8 : Ref sig .tc).ty.Contents (Elt F)) : ((cfg1.win 10).blk t1_0).view.write (Elt F) f w Finset.univ = w :=
  Memref.write_access_unit_zero_univ (Elt F) main_v8 (by decide) _ f w

/-- After the region the result's array holds the body's term of the operands. -/
theorem arrAt_out (c : Dev nD) : (dats (Name := Name) (U := U) W f8 bnd 0 c).arrAt 10 cfg1.N = headVal W := by
  show (dats (Name := Name) (U := U) W f8 bnd 0 c).arrAt 10 (t1_0.val + 1) = _
  rw [Pipeline.Dat.arrAt_succ, if_pos (flush1_10 _)]
  exact wrArr10 _ _

/-- After the region, and at every point of it, an operand's array holds what it held at entry: it is never written back. -/
theorem arrAt_in (c : Dev nD) (w : Fin cfg1.W) (hw : (cfg1.win w).isOut = false) (n : Nat) :
    (dats (Name := Name) (U := U) W f8 bnd 0 c).arrAt w n = arrIn W f8 c w :=
  Pipeline.Dat.arrAt_in _ w hw n

/-- Every array is held at the full share. -/
theorem share_full (c : Dev nD) (w : Fin cfg1.W) : (dats (Name := Name) (U := U) W f8 bnd 0 c).share w = fullShare :=
  (dats W f8 bnd 0 c).share_full (fun _ => rfl) w

/-! ## The arrays, as the proof data holds them and as the program's line does -/

/-- The ten operands on core `c`, each whole at `W`. -/
def headIns (c : Dev nD) : sProp 𝕄 :=
  iprop((((c.tc : Thread nD τ).loc main_v4) ↦{fullShare} W main_v4)
    ∗ (((c.tc : Thread nD τ).loc main_arg2) ↦{fullShare} W main_arg2)
    ∗ (((c.tc : Thread nD τ).loc main_arg3) ↦{fullShare} W main_arg3)
    ∗ (((c.tc : Thread nD τ).loc main_arg4) ↦{fullShare} W main_arg4)
    ∗ (((c.tc : Thread nD τ).loc main_arg5) ↦{fullShare} W main_arg5)
    ∗ (((c.tc : Thread nD τ).loc main_v5) ↦{fullShare} W main_v5)
    ∗ (((c.tc : Thread nD τ).loc main_arg7) ↦{fullShare} W main_arg7)
    ∗ (((c.tc : Thread nD τ).loc main_v6) ↦{fullShare} W main_v6)
    ∗ (((c.tc : Thread nD τ).loc main_arg9) ↦{fullShare} W main_arg9)
    ∗ (((c.tc : Thread nD τ).loc main_v7) ↦{fullShare} W main_v7))

/-- The core owing nothing, its recorded waits at levels at most `bnd`. -/
def owesB (c : Dev nD) : sProp 𝕄 :=
  iprop(∃ Ws, ⌜(sc (F := F)).WBelow (c.tc : Thread nD τ) Ws bnd⌝ ∗ owes (c.tc : Thread nD τ) (0 : CellTallies nD τ sig (HIx 1)) Ws)

theorem arrays_entry (c : Dev nD) :
    iprop(headIns (Name := Name) (U := U) W c ∗ (((c.tc : Thread nD τ).loc main_v8) ↦{fullShare} f8))
      ⊢ (dats (Name := Name) (U := U) W f8 bnd 0 c).arrays ((dats (Name := Name) (U := U) W f8 bnd 0 c).arrAt · 0) := by
  rw [Pipeline.arrays_eq cfgs (dats W f8 bnd) 0 c launch1.arr_whole (share_full W f8 bnd c), bigSep_W1]
  unfold headIns
  iintro ⟨⟨H0, H1, H2, H3, H4, H5, H6, H7, H8, H9⟩, H10⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem arrays_exit (c : Dev nD) :
    (dats (Name := Name) (U := U) W f8 bnd 0 c).arrays ((dats (Name := Name) (U := U) W f8 bnd 0 c).arrAt · cfg1.N)
      ⊢ iprop(headIns (Name := Name) (U := U) W c ∗ (((c.tc : Thread nD τ).loc main_v8) ↦{fullShare} headVal W)) := by
  rw [Pipeline.arrays_eq cfgs (dats W f8 bnd) 0 c launch1.arr_whole (share_full W f8 bnd c), bigSep_W1]
  rw [arrAt_in W f8 bnd c 0 rfl, arrAt_in W f8 bnd c 1 rfl, arrAt_in W f8 bnd c 2 rfl, arrAt_in W f8 bnd c 3 rfl, arrAt_in W f8 bnd c 4 rfl, arrAt_in W f8 bnd c 5 rfl, arrAt_in W f8 bnd c 6 rfl, arrAt_in W f8 bnd c 7 rfl, arrAt_in W f8 bnd c 8 rfl, arrAt_in W f8 bnd c 9 rfl, arrAt_out]
  unfold headIns
  iintro ⟨H0, H1, H2, H3, H4, H5, H6, H7, H8, H9, H10⟩
  isplitr [H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iexact H10

/-! ## The body obligation -/

set_option maxHeartbeats 1000000 in
/-- At the region's one point: the eleven current staging buffers sorted out, the body's triple, its post
    put back. -/
theorem body_obligation (c : Dev nD) :
    BodyObligation (dats (Name := Name) (U := U) W f8 bnd 0 c) (defs₀ (F := F)) 𝒱₀ none Set.univ := fun t => by
  obtain rfl := fin_N1 t
  rw [bigSep_W1, bigSep_W1]
  simp only [owns_whole_eq]
  rw [show (dats (Name := Name) (U := U) W f8 bnd 0 c).Φ t1_0.castSucc = Pipeline.scopedRest spec1 c from rfl,
    show (dats (Name := Name) (U := U) W f8 bnd 0 c).Φ t1_0.succ = Pipeline.scopedRest spec1 c from rfl]
  unfold Pipeline.Dat.owesAt Pipeline.owesWithin
  rw [show (dats (Name := Name) (U := U) W f8 bnd 0 c).owed t1_0.castSucc = 0 from rfl, show (dats (Name := Name) (U := U) W f8 bnd 0 c).owed t1_0.succ = 0 from rfl]
  iintro ⟨HΦ, ⟨%Ws, %hWs, HO⟩, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩, ⟨%d6, %g6, %e6, H6⟩, ⟨%d7, %g7, %e7, H7⟩, ⟨%d8, %g8, %e8, H8⟩, ⟨%d9, %g9, %e9, H9⟩, ⟨%d10, %g10, %e10, H10⟩⟩
  rw [before_in0] at e0; subst e0
  rw [before_in1] at e1; subst e1
  rw [before_in2] at e2; subst e2
  rw [before_in3] at e3; subst e3
  rw [before_in4] at e4; subst e4
  rw [before_in5] at e5; subst e5
  rw [before_in6] at e6; subst e6
  rw [before_in7] at e7; subst e7
  rw [before_in8] at e8; subst e8
  rw [before_in9] at e9; subst e9
  iapply (kernelRun c (W main_v4) (W main_arg2) (W main_arg3) (W main_arg4) (W main_arg5) (W main_v5) (W main_arg7) (W main_v6) (W main_arg9) (W main_v7) g10)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [HΦ]; · iexact HΦ
  isplitl [HO]
  · iexists Ws; isplitr; · ipureintro; exact hWs
    iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  isplitl [H6]; · iexists _; isplitr; swap; (· iexact H6); ipureintro; rfl
  isplitl [H7]; · iexists _; isplitr; swap; (· iexact H7); ipureintro; rfl
  isplitl [H8]; · iexists _; isplitr; swap; (· iexact H8); ipureintro; rfl
  isplitl [H9]; · iexists _; isplitr; swap; (· iexact H9); ipureintro; rfl
  iexists _; isplitr; swap; (· iexact H10); ipureintro; rfl

/-! ## The region -/

variable (L : GSem nD τ sig → Finset (HIx 1)) (lv : GSem nD τ sig → HIx 1 → ℕ)

set_option backward.isDefEq.respectTransparency.types false in
/-- The region as the library's launch composes it: the decided layout, no semaphore of the body's own, the body
    obligation; entered from the eleven arrays and the core owing nothing, left with the result at the term. -/
def reg : Pipeline.RegionSeg (pcfgs (F := F)) adm (dats (Name := Name) (U := U) W f8 bnd) none defs₀ 𝒱₀ L lv 0 where
  win := launch1.win.to₀
  block_pos := launch1.block_pos
  stage_whole := launch1.stage_whole
  K := PEmpty
  osem := fun k => k.elim
  ho := Pipeline.OwnSemFacts.none _
  hbody c := (body_obligation W f8 bnd c).loose
  hwaits := Pipeline.hwaits_of_owed_zero _ _ _ _ L lv 0 fun _ _ => rfl
  pre c := iprop(headIns W c ∗ (((c.tc : Thread nD τ).loc main_v8) ↦{fullShare} f8) ∗ owesB bnd c)
  post c := iprop(headIns W c ∗ (((c.tc : Thread nD τ).loc main_v8) ↦{fullShare} headVal W) ∗ owesB bnd c)
  X _ := iprop(emp)
  Y _ := iprop(emp)
  Z _ := iprop(emp)
  hentry c := by
    unfold owesB
    iintro ⟨⟨Hins, H8, ⟨%Ws, %hWs, HO⟩⟩, -, -⟩
    imodintro
    isplitl [Hins H8]
    · iapply (arrays_entry W f8 bnd c)
      isplitl [Hins] <;> iassumption
    isplitr; · unfold Pipeline.prefHeld; rw [show (Finset.univ : Finset (Fin 0)) = ∅ from rfl, BI.bigSep_empty]; iempintro
    isplitl [HO]
    · unfold Pipeline.Dat.owesAt Pipeline.owesWithin
      iexists Ws; isplitr; · ipureintro; exact fun p hp => Or.inl (hWs p hp)
      iexact HO
    isplitl <;> iempintro
  hin c := by
    show iprop(_ ∗ _ ∗ Pipeline.scopedRest spec1 c) ⊢ Pipeline.scopedRest spec1 c
    iintro ⟨-, -, Hr⟩
    iexact Hr
  hout c := by
    rw [Pipeline.ownSems0_none]
    show Pipeline.scopedRest spec1 c ⊢ iprop(emp ∗ emp ∗ Pipeline.scopedRest spec1 c)
    iintro Hr
    isplitr; · iempintro
    isplitr; · iempintro
    iexact Hr
  hexit c := by
    unfold owesB
    iintro ⟨Ha, ⟨%Ws, %hWs, HO⟩, -, -⟩
    imodintro
    ihave H := (arrays_exit W f8 bnd c) $$ Ha
    icases H with ⟨Hins, H8⟩
    isplitl [Hins]; · iexact Hins
    isplitl [H8]; · iexact H8
    iexists Ws; isplitr
    · ipureintro
      intro p hp
      rcases hWs hp with h | ⟨w, s, rfl⟩
      · exact h
      · exact Nat.zero_le _
    iexact HO

end Cert.Proof.HeadKernel

end
-- ==== Proof.BKElem.lean ====
/-
  The launch element of the ghost state: the handshakes' rounds, the rounds of the TensorCore region's staging
  cells with the tokens of its transfers, and the unit of the tiles' counters. From it each device's TensorCore is
  dealt the ghost state of its region's cells; the kernels' proofs consume nothing of it.
-/
import proofs.«203920_g2267742732911_cont_8to1_1065_18_alg».proof.Proof.BKPay
import proofs.«203920_g2267742732911_cont_8to1_1065_18_alg».proof.Proof.Gen.Kernel.Launch
import proofs.«203920_g2267742732911_cont_8to1_1065_18_alg».proof.Proof.BHeadData

noncomputable section

namespace Cert.Kernel.Elem

open Cert.Kernel Cert.Kernel.Gen Cert.Kernel.Setup Cert.Kernel.Pay

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-- Distinct staging cells stay distinct when every configuration is read as one with no prefetched table, pinned at its
    one admissible contents: that reading gives the configuration back. -/
theorem inj_pin {Q : Type} {Λ : Labels} {Val : EltTy → Type} (cs : Q → Pipeline.Cfg sig Λ)
    (h : Function.Injective (Pipeline.cellOf (nD := nD) (τ := τ) cs)) :
    Function.Injective (Pipeline.cellOf (nD := nD) (τ := τ)
      (Pipeline.pin (fun p => (cs p).toPCfg (Val := Val)) fun p => (cs p).toPCfg_adm)) := h

theorem phinj : Function.Injective (Pipeline.cellOf (nD := nD) (τ := τ) (Pipeline.pin (pcfgs (F := F)) Cert.Proof.HeadKernel.adm)) :=
  inj_pin cfgs cellOf_inj

/-- The launch element. -/
def u₀ : UU := (initOf (K (F := F)).hsCells (K (F := F)).hsToks,
  (initOf (Pipeline.cells (nD := nD) (τ := τ) (Pipeline.pin (pcfgs (F := F)) Cert.Proof.HeadKernel.adm) phinj) (Pipeline.launchToks (nD := nD) (τ := τ) (Pipeline.pin (pcfgs (F := F)) Cert.Proof.HeadKernel.adm) phinj), 1))

/-- What a device's TensorCore starts from beyond the launch's deal: its region's cells' ghost state and tokens. -/
def G (d : Dev nD) : sProp 𝕄 := iprop(Pipeline.cellsGhost (Pipeline.pin (pcfgs (F := F)) Cert.Proof.HeadKernel.adm) ER 0 d ∗ Pipeline.toksInit (Pipeline.pin (pcfgs (F := F)) Cert.Proof.HeadKernel.adm) ER 0 d)

omit [FloatOps F] in
theorem bigSep_emp' {I : Type} (s : Finset I) : (bigSep s fun _ => iprop(emp)) = (iprop(emp) : sProp 𝕄) := bigSep_emp_const s

omit [FloatOps F] in
theorem bigSep_fin1 (Φ : Fin 1 → sProp 𝕄) : bigSep Finset.univ Φ = Φ 0 := by
  rw [show (Finset.univ : Finset (Fin 1)) = {0} by decide, bigSep_singleton]

theorem hu₀ (fl : (d : Dev nD) → Buf (Elt F) (labLoc d)) (fd : (d : Dev nD) → Buf (Elt F) (degLoc d))
    (fb : (d : Dev nD) → Buf (Elt F) (batLoc d)) (fc : (d : Dev nD) → Buf (Elt F) (cntLoc d)) :
    (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P fl fd fb fc).x q thr) := by
  unfold u₀ G ER
  iintro Hu
  ihave H := (ownU_pair _ _) $$ Hu
  icases H with ⟨HH, HR⟩
  ihave HR' := (own_pair_emb (embR (A := UH) (B := UR × Counters)) _ _) $$ HR
  icases HR' with ⟨HP, -⟩
  have hfund := Pipeline.fund_ghost (nD := nD) (τ := τ) (Ix := HIx 1) (Val := Elt F) (Name := ℕ) (U := UU) (Lvl := ℕ) (Pipeline.pin (pcfgs (F := F)) Cert.Proof.HeadKernel.adm)
    ((Emb.inl : Emb UR (UR × Counters)).trans (embR (A := UH) (B := UR × Counters))) phinj
  imod hfund $$ HP with ⟨Hg, Ht⟩
  imodintro
  isplitl [HH]; · iexact HH
  isplitl [Hg Ht]
  · rw [bigSep_sep']
    isplitl [Hg]
    · iapply (Entails.of_eq (bigSep_congr fun d _ => bigSep_fin1 (fun p : Fin 1 => Pipeline.cellsGhost (Pipeline.pin (pcfgs (F := F)) Cert.Proof.HeadKernel.adm) ((Emb.inl : Emb UR (UR × Counters)).trans (embR (A := UH) (B := UR × Counters))) p d))) $$ Hg
    · iapply (Entails.of_eq (bigSep_congr fun d _ => bigSep_fin1 (fun p : Fin 1 => Pipeline.toksInit (Pipeline.pin (pcfgs (F := F)) Cert.Proof.HeadKernel.adm) ((Emb.inl : Emb UR (UR × Counters)).trans (embR (A := UH) (B := UR × Counters))) p d))) $$ Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Kernel.Elem

end
-- ==== Proof.BKMain.lean ====
/-
  @main on the TensorCore: four host operations cut the two columns out of the node array, the SparseCore call
  fills the count array, three host operations reshape the bias vectors, and the TensorCore region computes the
  result from the counts and the tables.
-/
import proofs.«203920_g2267742732911_cont_8to1_1065_18_alg».proof.Proof.BKPay
import proofs.«203920_g2267742732911_cont_8to1_1065_18_alg».proof.Proof.Gen.Kernel.Launch
import proofs.«203920_g2267742732911_cont_8to1_1065_18_alg».proof.Proof.BKDeal
import proofs.«203920_g2267742732911_cont_8to1_1065_18_alg».proof.Proof.BKElem

noncomputable section

namespace Cert.Kernel.Main

open Cert.Kernel Cert.Kernel.Gen Cert.Kernel.Setup Cert.Kernel.Pay

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Cert.Kernel.Part Cert.Kernel.Deal Cert.Kernel.Elem
open Idealize.ShloMosaic.StableHlo (seq after)

variable [FloatOps F]

/-! ## The host operations -/

abbrev op1 : HloOp τ sig (Elt F) := StableHlo.unary main_arg0 main_v0 ((extractStridedSlice S32768x1 ![0, 0] · slices_S32768x2_S32768x1_0_0) : (⟨S32768x2, .i32⟩ : BufTy).Contents (Elt F) → (⟨S32768x1, .i32⟩ : BufTy).Contents (Elt F))
abbrev op2 : HloOp τ sig (Elt F) := StableHlo.reshape main_v0 main_v1 rfl shapeCasts_S32768x1_S32768
abbrev op3 : HloOp τ sig (Elt F) := StableHlo.unary main_arg0 main_v2 ((extractStridedSlice S32768x1 ![0, 1] · slices_S32768x2_S32768x1_0_1) : (⟨S32768x2, .i32⟩ : BufTy).Contents (Elt F) → (⟨S32768x1, .i32⟩ : BufTy).Contents (Elt F))
abbrev op4 : HloOp τ sig (Elt F) := StableHlo.reshape main_v2 main_v3 rfl shapeCasts_S32768x1_S32768
abbrev op5 : HloOp τ sig (Elt F) := StableHlo.reshape main_arg6 main_v5 rfl shapeCasts_S128_S1x128
abbrev op6 : HloOp τ sig (Elt F) := StableHlo.reshape main_arg8 main_v6 rfl shapeCasts_S128_S1x128
abbrev op7 : HloOp τ sig (Elt F) := StableHlo.reshape main_arg10 main_v7 rfl shapeCasts_S18_S1x18
abbrev ops1 : List (HloOp τ sig (Elt F)) := [op1, op2, op3, op4]
abbrev ops2 : List (HloOp τ sig (Elt F)) := [op5, op6, op7]

theorem main_eq (d : Dev nD) : main (F := F) d
    = (seq (ops1 (F := F)) >>= fun _ => (sc (F := F)).run d 0 >>= fun _ => seq (ops2 (F := F)) >>= fun _ =>
        Prog.lift (.customCall (SparseCore.inner (Pipeline.entry 0)) ()) >>= fun _ => pure ⟨⟩) := rfl

/-! ## The TensorCore's arrays -/

/-- The arrays of @main, none scoped. -/
abbrev SA : Finset (DevRef τ sig) := (Finset.univ.filter fun b : Ref sig .tc => ¬ b.isScoped).map ⟨Proc.devRef (sig := sig) (.tc : Proc τ), Proc.devRef_injective _⟩

/-! ## Contents along @main -/

section Main

variable (m : (ℓ : Loc nD τ sig) → Buf (Elt F) ℓ) (ρ : Dev nD → PrngReg)

abbrev lab' : DevRef τ sig := Proc.devRef .tc (main_v1 : Ref sig .tc)
abbrev deg' : DevRef τ sig := Proc.devRef .tc (main_v3 : Ref sig .tc)
abbrev bat' : DevRef τ sig := Proc.devRef .tc (main_arg1 : Ref sig .tc)
abbrev cnt' : DevRef τ sig := Proc.devRef .tc (main_v4 : Ref sig .tc)
abbrev out' : DevRef τ sig := Proc.devRef .tc (main_v8 : Ref sig .tc)

/-- The arrays at the launch, after the first four host operations, with the count array at `g`, after the three
    reshapes, and with the result written. -/
@[reducible] def V0 (d : Dev nD) : Valuation τ sig (Elt F) := StableHlo.launchContents m d
@[reducible] def V1 (d : Dev nD) : Valuation τ sig (Elt F) := after (ops1 (F := F)) (V0 m d)
@[reducible] def fl (d : Dev nD) : Buf (Elt F) (labLoc d) := V1 m d lab'
@[reducible] def fd (d : Dev nD) : Buf (Elt F) (degLoc d) := V1 m d deg'
@[reducible] def fb (d : Dev nD) : Buf (Elt F) (batLoc d) := V1 m d bat'
@[reducible] def fc (d : Dev nD) : Buf (Elt F) (cntLoc d) := V1 m d cnt'
@[reducible] def V1' (d : Dev nD) (g : Buf (Elt F) (cntLoc d)) : Valuation τ sig (Elt F) := Function.update (V1 m d) cnt' g
@[reducible] def V2 (d : Dev nD) (g : Buf (Elt F) (cntLoc d)) : Valuation τ sig (Elt F) := after (ops2 (F := F)) (V1' m d g)

omit [FloatOps F] in
theorem unscoped_held (d : Dev nD) :
    (unscopedBufs d (fun b => m ((SparseCore.T (τ := τ) d).loc b)) : sProp 𝕄) = held (T d) SA (V0 m d) := by
  unfold unscopedBufs held SA
  rw [BI.bigSep_map]; rfl

theorem hS1 : ∀ op ∈ (ops1 (F := F)), op.bufs ⊆ SA := by
  intro op hop
  simp only [ops1, List.mem_cons, List.mem_nil_iff, or_false] at hop
  rcases hop with rfl | rfl | rfl | rfl
  · exact (show ({Proc.devRef .tc (main_arg0 : Ref sig .tc), Proc.devRef .tc (main_v0 : Ref sig .tc)} : Finset (DevRef τ sig)) ⊆ SA by decide)
  · exact (show ({Proc.devRef .tc (main_v0 : Ref sig .tc), Proc.devRef .tc (main_v1 : Ref sig .tc)} : Finset (DevRef τ sig)) ⊆ SA by decide)
  · exact (show ({Proc.devRef .tc (main_arg0 : Ref sig .tc), Proc.devRef .tc (main_v2 : Ref sig .tc)} : Finset (DevRef τ sig)) ⊆ SA by decide)
  · exact (show ({Proc.devRef .tc (main_v2 : Ref sig .tc), Proc.devRef .tc (main_v3 : Ref sig .tc)} : Finset (DevRef τ sig)) ⊆ SA by decide)
theorem hS2 : ∀ op ∈ (ops2 (F := F)), op.bufs ⊆ SA := by
  intro op hop
  simp only [ops2, List.mem_cons, List.mem_nil_iff, or_false] at hop
  rcases hop with rfl | rfl | rfl
  · exact (show ({Proc.devRef .tc (main_arg6 : Ref sig .tc), Proc.devRef .tc (main_v5 : Ref sig .tc)} : Finset (DevRef τ sig)) ⊆ SA by decide)
  · exact (show ({Proc.devRef .tc (main_arg8 : Ref sig .tc), Proc.devRef .tc (main_v6 : Ref sig .tc)} : Finset (DevRef τ sig)) ⊆ SA by decide)
  · exact (show ({Proc.devRef .tc (main_arg10 : Ref sig .tc), Proc.devRef .tc (main_v7 : Ref sig .tc)} : Finset (DevRef τ sig)) ⊆ SA by decide)
theorem hf1 : ∀ op ∈ (ops1 (F := F)), op.fresh = ∅ := by
  intro op hop
  simp only [ops1, List.mem_cons, List.mem_nil_iff, or_false] at hop
  rcases hop with rfl | rfl | rfl | rfl <;> rfl
theorem hf2 : ∀ op ∈ (ops2 (F := F)), op.fresh = ∅ := by
  intro op hop
  simp only [ops2, List.mem_cons, List.mem_nil_iff, or_false] at hop
  rcases hop with rfl | rfl | rfl <;> rfl

/-- The SparseCore call's four operands. -/
abbrev T4 : Finset (DevRef τ sig) := {lab', deg', bat', cnt'}
theorem hT4 : (T4 : Finset (DevRef τ sig)) ⊆ SA := by decide

omit [FloatOps F] in
theorem held_T4 (d : Dev nD) (W : Valuation τ sig (Elt F)) :
    (held (T d) T4 W : sProp 𝕄) = iprop((labLoc d ↦{fullShare} W lab') ∗ (degLoc d ↦{fullShare} W deg') ∗ (batLoc d ↦{fullShare} W bat') ∗ (cntLoc d ↦{fullShare} W cnt')) := by
  unfold held T4
  rw [SparseCore.bigSep_insert' (by decide), SparseCore.bigSep_insert' (by decide), SparseCore.bigSep_insert' (by decide), bigSep_singleton]

omit [FloatOps F] in
theorem not_T4_ne {b : DevRef τ sig} (hb : b ∈ (SA \ T4 : Finset (DevRef τ sig))) : b ≠ cnt' := by
  intro e; subst e
  exact (Finset.mem_sdiff.mp hb).2 (by decide)

theorem held_T4_upd (d : Dev nD) (g : Buf (Elt F) (cntLoc d)) :
    (held (T d) T4 (V1' m d g) : sProp 𝕄)
      = iprop((labLoc d ↦{fullShare} fl m d) ∗ (degLoc d ↦{fullShare} fd m d) ∗ (batLoc d ↦{fullShare} fb m d) ∗ (cntLoc d ↦{fullShare} g)) := by
  rw [held_T4, show V1' m d g lab' = fl m d from Function.update_of_ne (show lab' ≠ cnt' by decide) _ _,
    show V1' m d g deg' = fd m d from Function.update_of_ne (show deg' ≠ cnt' by decide) _ _,
    show V1' m d g bat' = fb m d from Function.update_of_ne (show bat' ≠ cnt' by decide) _ _,
    show V1' m d g cnt' = g from Function.update_self _ _ _]

theorem held_rest_upd (d : Dev nD) (g : Buf (Elt F) (cntLoc d)) :
    (held (T d) (SA \ T4) (V1' m d g) : sProp 𝕄) = held (T d) (SA \ T4) (V1 m d) :=
  StableHlo.held_congr (T d) fun b hb => Function.update_of_ne (not_T4_ne hb) _ _

/-! ## The TensorCore region's arrays -/

/-- The region's ten operands, in the order of its windows, and its result. -/
abbrev T11 : Finset (DevRef τ sig) := {(Proc.devRef .tc (main_v4 : Ref sig .tc) : DevRef τ sig), (Proc.devRef .tc (main_arg2 : Ref sig .tc) : DevRef τ sig), (Proc.devRef .tc (main_arg3 : Ref sig .tc) : DevRef τ sig), (Proc.devRef .tc (main_arg4 : Ref sig .tc) : DevRef τ sig), (Proc.devRef .tc (main_arg5 : Ref sig .tc) : DevRef τ sig), (Proc.devRef .tc (main_v5 : Ref sig .tc) : DevRef τ sig), (Proc.devRef .tc (main_arg7 : Ref sig .tc) : DevRef τ sig), (Proc.devRef .tc (main_v6 : Ref sig .tc) : DevRef τ sig), (Proc.devRef .tc (main_arg9 : Ref sig .tc) : DevRef τ sig), (Proc.devRef .tc (main_v7 : Ref sig .tc) : DevRef τ sig), out'}
theorem hT11 : (T11 : Finset (DevRef τ sig)) ⊆ SA := by decide

/-- A valuation, as contents of the TensorCore's references on device `d`. -/
@[reducible] def Wof (d : Dev nD) (W : Valuation τ sig (Elt F)) : (b : Ref sig .tc) → Buf (Elt F) ((SparseCore.T (τ := τ) d).loc b) := fun b => W (Proc.devRef .tc b)

/-- The region's result from its operands: the body's arithmetic as one term. -/
def headVal (d : Dev nD) (W : (b : Ref sig .tc) → Buf (Elt F) ((SparseCore.T (τ := τ) d).loc b)) : Buf (Elt F) ((SparseCore.T (τ := τ) d).loc main_v8) :=
  k1_pay1 (W main_v4) (W main_arg3) (W main_arg4) (W main_arg2) (W main_arg5) (W main_v5) (W main_arg7) (W main_v6) (W main_arg9) (W main_v7)

/-- The ten operands held whole. -/
def headIns (d : Dev nD) (W : (b : Ref sig .tc) → Buf (Elt F) ((SparseCore.T (τ := τ) d).loc b)) : sProp 𝕄 :=
  iprop(((SparseCore.T (τ := τ) d).loc main_v4 ↦{fullShare} W main_v4) ∗ ((SparseCore.T (τ := τ) d).loc main_arg2 ↦{fullShare} W main_arg2) ∗ ((SparseCore.T (τ := τ) d).loc main_arg3 ↦{fullShare} W main_arg3) ∗ ((SparseCore.T (τ := τ) d).loc main_arg4 ↦{fullShare} W main_arg4) ∗ ((SparseCore.T (τ := τ) d).loc main_arg5 ↦{fullShare} W main_arg5) ∗ ((SparseCore.T (τ := τ) d).loc main_v5 ↦{fullShare} W main_v5) ∗ ((SparseCore.T (τ := τ) d).loc main_arg7 ↦{fullShare} W main_arg7) ∗ ((SparseCore.T (τ := τ) d).loc main_v6 ↦{fullShare} W main_v6) ∗ ((SparseCore.T (τ := τ) d).loc main_arg9 ↦{fullShare} W main_arg9) ∗ ((SparseCore.T (τ := τ) d).loc main_v7 ↦{fullShare} W main_v7))

omit [FloatOps F] in
theorem held_T11 (d : Dev nD) (W : Valuation τ sig (Elt F)) :
    (held (T d) T11 W : sProp 𝕄) = iprop(((SparseCore.T (τ := τ) d).loc main_v4 ↦{fullShare} W (Proc.devRef .tc (main_v4 : Ref sig .tc) : DevRef τ sig)) ∗ ((SparseCore.T (τ := τ) d).loc main_arg2 ↦{fullShare} W (Proc.devRef .tc (main_arg2 : Ref sig .tc) : DevRef τ sig)) ∗ ((SparseCore.T (τ := τ) d).loc main_arg3 ↦{fullShare} W (Proc.devRef .tc (main_arg3 : Ref sig .tc) : DevRef τ sig)) ∗ ((SparseCore.T (τ := τ) d).loc main_arg4 ↦{fullShare} W (Proc.devRef .tc (main_arg4 : Ref sig .tc) : DevRef τ sig)) ∗ ((SparseCore.T (τ := τ) d).loc main_arg5 ↦{fullShare} W (Proc.devRef .tc (main_arg5 : Ref sig .tc) : DevRef τ sig)) ∗ ((SparseCore.T (τ := τ) d).loc main_v5 ↦{fullShare} W (Proc.devRef .tc (main_v5 : Ref sig .tc) : DevRef τ sig)) ∗ ((SparseCore.T (τ := τ) d).loc main_arg7 ↦{fullShare} W (Proc.devRef .tc (main_arg7 : Ref sig .tc) : DevRef τ sig)) ∗ ((SparseCore.T (τ := τ) d).loc main_v6 ↦{fullShare} W (Proc.devRef .tc (main_v6 : Ref sig .tc) : DevRef τ sig)) ∗ ((SparseCore.T (τ := τ) d).loc main_arg9 ↦{fullShare} W (Proc.devRef .tc (main_arg9 : Ref sig .tc) : DevRef τ sig)) ∗ ((SparseCore.T (τ := τ) d).loc main_v7 ↦{fullShare} W (Proc.devRef .tc (main_v7 : Ref sig .tc) : DevRef τ sig)) ∗ ((SparseCore.T (τ := τ) d).loc main_v8 ↦{fullShare} W out')) := by
  unfold held T11
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The arrays at the end: the result written. -/
@[reducible] def V3 (d : Dev nD) (g : Buf (Elt F) (cntLoc d)) : Valuation τ sig (Elt F) :=
  Function.update (V2 m d g) out' (headVal d (Wof d (V2 m d g)))

omit [FloatOps F] in
theorem not_T11_ne {b : DevRef τ sig} (hb : b ∈ (SA \ T11 : Finset (DevRef τ sig))) : b ≠ out' := by
  intro e; subst e
  exact (Finset.mem_sdiff.mp hb).2 (by decide)

theorem held_T11_upd (d : Dev nD) (g : Buf (Elt F) (cntLoc d)) :
    (held (T d) T11 (V3 m d g) : sProp 𝕄)
      = iprop(((SparseCore.T (τ := τ) d).loc main_v4 ↦{fullShare} V2 m d g (Proc.devRef .tc (main_v4 : Ref sig .tc) : DevRef τ sig)) ∗ ((SparseCore.T (τ := τ) d).loc main_arg2 ↦{fullShare} V2 m d g (Proc.devRef .tc (main_arg2 : Ref sig .tc) : DevRef τ sig)) ∗ ((SparseCore.T (τ := τ) d).loc main_arg3 ↦{fullShare} V2 m d g (Proc.devRef .tc (main_arg3 : Ref sig .tc) : DevRef τ sig)) ∗ ((SparseCore.T (τ := τ) d).loc main_arg4 ↦{fullShare} V2 m d g (Proc.devRef .tc (main_arg4 : Ref sig .tc) : DevRef τ sig)) ∗ ((SparseCore.T (τ := τ) d).loc main_arg5 ↦{fullShare} V2 m d g (Proc.devRef .tc (main_arg5 : Ref sig .tc) : DevRef τ sig)) ∗ ((SparseCore.T (τ := τ) d).loc main_v5 ↦{fullShare} V2 m d g (Proc.devRef .tc (main_v5 : Ref sig .tc) : DevRef τ sig)) ∗ ((SparseCore.T (τ := τ) d).loc main_arg7 ↦{fullShare} V2 m d g (Proc.devRef .tc (main_arg7 : Ref sig .tc) : DevRef τ sig)) ∗ ((SparseCore.T (τ := τ) d).loc main_v6 ↦{fullShare} V2 m d g (Proc.devRef .tc (main_v6 : Ref sig .tc) : DevRef τ sig)) ∗ ((SparseCore.T (τ := τ) d).loc main_arg9 ↦{fullShare} V2 m d g (Proc.devRef .tc (main_arg9 : Ref sig .tc) : DevRef τ sig)) ∗ ((SparseCore.T (τ := τ) d).loc main_v7 ↦{fullShare} V2 m d g (Proc.devRef .tc (main_v7 : Ref sig .tc) : DevRef τ sig)) ∗ ((SparseCore.T (τ := τ) d).loc main_v8 ↦{fullShare} headVal d (Wof d (V2 m d g)))) := by
  rw [held_T11, show V3 m d g (Proc.devRef .tc (main_v4 : Ref sig .tc) : DevRef τ sig) = V2 m d g (Proc.devRef .tc (main_v4 : Ref sig .tc) : DevRef τ sig) from Function.update_of_ne (by decide) _ _,
    show V3 m d g (Proc.devRef .tc (main_arg2 : Ref sig .tc) : DevRef τ sig) = V2 m d g (Proc.devRef .tc (main_arg2 : Ref sig .tc) : DevRef τ sig) from Function.update_of_ne (by decide) _ _,
    show V3 m d g (Proc.devRef .tc (main_arg3 : Ref sig .tc) : DevRef τ sig) = V2 m d g (Proc.devRef .tc (main_arg3 : Ref sig .tc) : DevRef τ sig) from Function.update_of_ne (by decide) _ _,
    show V3 m d g (Proc.devRef .tc (main_arg4 : Ref sig .tc) : DevRef τ sig) = V2 m d g (Proc.devRef .tc (main_arg4 : Ref sig .tc) : DevRef τ sig) from Function.update_of_ne (by decide) _ _,
    show V3 m d g (Proc.devRef .tc (main_arg5 : Ref sig .tc) : DevRef τ sig) = V2 m d g (Proc.devRef .tc (main_arg5 : Ref sig .tc) : DevRef τ sig) from Function.update_of_ne (by decide) _ _,
    show V3 m d g (Proc.devRef .tc (main_v5 : Ref sig .tc) : DevRef τ sig) = V2 m d g (Proc.devRef .tc (main_v5 : Ref sig .tc) : DevRef τ sig) from Function.update_of_ne (by decide) _ _,
    show V3 m d g (Proc.devRef .tc (main_arg7 : Ref sig .tc) : DevRef τ sig) = V2 m d g (Proc.devRef .tc (main_arg7 : Ref sig .tc) : DevRef τ sig) from Function.update_of_ne (by decide) _ _,
    show V3 m d g (Proc.devRef .tc (main_v6 : Ref sig .tc) : DevRef τ sig) = V2 m d g (Proc.devRef .tc (main_v6 : Ref sig .tc) : DevRef τ sig) from Function.update_of_ne (by decide) _ _,
    show V3 m d g (Proc.devRef .tc (main_arg9 : Ref sig .tc) : DevRef τ sig) = V2 m d g (Proc.devRef .tc (main_arg9 : Ref sig .tc) : DevRef τ sig) from Function.update_of_ne (by decide) _ _,
    show V3 m d g (Proc.devRef .tc (main_v7 : Ref sig .tc) : DevRef τ sig) = V2 m d g (Proc.devRef .tc (main_v7 : Ref sig .tc) : DevRef τ sig) from Function.update_of_ne (by decide) _ _,
    show V3 m d g out' = headVal d (Wof d (V2 m d g)) from Function.update_self _ _ _]

theorem held_rest11_upd (d : Dev nD) (g : Buf (Elt F) (cntLoc d)) :
    (held (T d) (SA \ T11) (V3 m d g) : sProp 𝕄) = held (T d) (SA \ T11) (V2 m d g) :=
  StableHlo.held_congr (T d) fun b hb => Function.update_of_ne (not_T11_ne hb) _ _

/-- What @main leaves: the count array's rows were the tiles' tables, and every array is at the final contents. -/
def FIN (d : Dev nD) : sProp 𝕄 := iprop(∃ g, ⌜CntOK (fl m) (fd m) (fb m) d g⌝ ∗ held (T d) SA (V3 m d g))

/-- The TensorCore region's triple, as @main's proof consumes it. -/
def HeadSpec : Prop :=
  ∀ (d : Dev nD) (b : ℕ) (W : (b : Ref sig .tc) → Buf (Elt F) ((SparseCore.T (τ := τ) d).loc b)),
    iprop(boundary (SparseCore.T d) ∗ levAts (K (F := F)).L (K (F := F)).lev
        ∗ Pipeline.cellsGhost (Pipeline.pin (pcfgs (F := F)) Cert.Proof.HeadKernel.adm) (ER (F := F)) 0 d ∗ Pipeline.toksInit (Pipeline.pin (pcfgs (F := F)) Cert.Proof.HeadKernel.adm) (ER (F := F)) 0 d
        ∗ (∃ Ws, ⌜(K (F := F)).WBelow (SparseCore.T d) Ws b⌝ ∗ owes (SparseCore.T d) 0 Ws)
        ∗ headIns (F := F) d W ∗ ∃ f, (SparseCore.T (τ := τ) d).loc main_v8 ↦{fullShare} f)
      ⊢ wp frame (wpE ((K (F := F)).defs (D (F := F))) 𝒱 (SparseCore.T d) none) Set.univ
          (Prog.lift (.customCall (SparseCore.inner (Pipeline.entry 0)) ()))
          fun _ => iprop(boundary (SparseCore.T d) ∗ (∃ Ws, ⌜(K (F := F)).WBelow (SparseCore.T d) Ws b⌝ ∗ owes (SparseCore.T d) 0 Ws)
            ∗ headIns (F := F) d W ∗ (SparseCore.T (τ := τ) d).loc main_v8 ↦{fullShare} headVal d W)

theorem hmain (hhead : HeadSpec (F := F)) (κ : GSem nD τ sig → ℕ) (d : Dev nD) :
    iprop((K (F := F)).ctx EH (P (fl m) (fd m) (fb m) (fc m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [unscoped_held, main_eq]
  iintro ⟨#Hctx, Hst, ⟨Hb, Hheld, -, -⟩, Hg, Ht⟩
  iapply (StableHlo.wp_seq 𝒱 none Set.univ d SA _ (ops1 (F := F)) hS1 hf1 (V0 m d)) $$ [Hb Hheld]
  · isplitl [Hb] <;> iassumption
  iintro ⟨Hb, Hheld⟩
  ihave Hh := (Entails.of_eq (StableHlo.held_sub_split (T d) hT4 (V1 m d))) $$ Hheld
  icases Hh with ⟨H4, Hrest⟩
  ihave H4' := (Entails.of_eq (held_T4 (F := F) d (V1 m d))) $$ H4
  rw [wp_bind]
  iapply ((K (F := F)).wp_run (D (F := F)) 𝒱 (EH := EH) (P := P (fl m) (fd m) (fb m) (fc m)) κ d 0) $$ [Hst H4' Hg Ht Hb Hrest]
  isplitr; · iexact Hctx
  isplitl [Hst]; · iexact Hst
  isplitl [H4']
  · rw [st_eq]; iexact H4'
  iintro ⟨Hst, Hdn⟩
  ihave Hdn' := (dn_join (fl m) (fd m) (fb m) (fc m) d) $$ Hdn
  icases Hdn' with ⟨Hl, Hd, Hbt, %g, %hg, Hc⟩
  ihave H4 := (Entails.of_eq (held_T4_upd m d g).symm) $$ [Hl Hd Hbt Hc]
  · isplitl [Hl]; · iexact Hl
    isplitl [Hd]; · iexact Hd
    isplitl [Hbt]; · iexact Hbt
    iexact Hc
  ihave Hrest' := (Entails.of_eq (held_rest_upd m d g).symm) $$ Hrest
  ihave Hall := (Entails.of_eq (StableHlo.held_sub_split (T d) hT4 (V1' m d g)).symm) $$ [H4 Hrest']
  · isplitl [H4] <;> iassumption
  iapply (StableHlo.wp_seq 𝒱 none Set.univ d SA _ (ops2 (F := F)) hS2 hf2 (V1' m d g)) $$ [Hb Hall]
  · isplitl [Hb] <;> iassumption
  iintro ⟨Hb, Hheld⟩
  ihave Hh := (Entails.of_eq (StableHlo.held_sub_split (T d) hT11 (V2 m d g))) $$ Hheld
  icases Hh with ⟨H11, Hrest⟩
  ihave H11' := (Entails.of_eq (held_T11 (F := F) d (V2 m d g))) $$ H11
  icases H11' with ⟨h1, h2, h3, h4, h5, h6, h7, h8, h9, h10, h11⟩
  ihave Hlev := ((K (F := F)).ctx_levAts κ) $$ Hctx
  unfold SparseCore.Cfg.tcSt
  rw [(K (F := F)).Otc_end d (show 1 ≤ ((0 : Fin 1).val + 1) from Nat.le_refl _), (K (F := F)).Otc_end d (Nat.le_refl 1)]
  icases Hst with ⟨⟨%Ws, %hWs, HO⟩, Hat, #Hrd, #Hrs, Htoks⟩
  rw [wp_bind]
  ihave Hwp := (hhead d (8 * ((0 : Fin 1).val + 1)) (Wof d (V2 m d g))) $$ [Hb Hlev Hg Ht HO h1 h2 h3 h4 h5 h6 h7 h8 h9 h10 h11]
  · isplitl [Hb]; · iexact Hb
    isplitl [Hlev]; · iexact Hlev
    isplitl [Hg]; · iexact Hg
    isplitl [Ht]; · iexact Ht
    isplitl [HO]
    · iexists Ws; isplitr
      · ipureintro; exact hWs
      · iexact HO
    isplitl [h1 h2 h3 h4 h5 h6 h7 h8 h9 h10]
    · unfold headIns
      isplitl [h1]; · iexact h1
      isplitl [h2]; · iexact h2
      isplitl [h3]; · iexact h3
      isplitl [h4]; · iexact h4
      isplitl [h5]; · iexact h5
      isplitl [h6]; · iexact h6
      isplitl [h7]; · iexact h7
      isplitl [h8]; · iexact h8
      isplitl [h9]; · iexact h9
      iexact h10
    iexists _; iexact h11
  iapply (wp_wand_r frame _ Set.univ) $$ [Hwp Hat Htoks Hrest]
  isplitl [Hwp]; · iexact Hwp
  iintro %_
  iintro ⟨Hb, ⟨%Ws', %hWs', HO⟩, Hins, Hout⟩
  rw [Prog.pure_eq_ret, wp_ret]; imodintro
  isplitl [HO Hat Htoks]
  · isplitl [HO]
    · iexists Ws'; isplitr
      · ipureintro; exact hWs'
      · iexact HO
    isplitl [Hat]; · iexact Hat
    isplitr; · iexact Hrd
    isplitr; · iexact Hrs
    iexact Htoks
  unfold FIN
  iexists g; isplitr
  · ipureintro; exact hg
  rw [StableHlo.held_sub_split (T d) hT11 (V3 m d g), held_T11_upd, held_rest11_upd]
  isplitl [Hins Hout]
  · unfold headIns
    icases Hins with ⟨h1, h2, h3, h4, h5, h6, h7, h8, h9, h10⟩
    isplitl [h1]; · iexact h1
    isplitl [h2]; · iexact h2
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    iexact Hout
  · iexact Hrest

/-! ## Reading the final memory -/

omit [FloatOps F] in
/-- Arrays held whole are what the memory holds. -/
theorem held_agree (c : Thread nD τ) (S : Finset (DevRef τ sig)) (W : Valuation τ sig (Elt F)) (s' : Phys nD τ sig (Elt F)) :
    iprop((held c S W : sProp 𝕄) ∗ SI s') ⊢ (⌜∀ b ∈ S, s'.mem.mem (c.1, b) = W b⌝ : sProp 𝕄) := by
  classical
  induction S using Finset.induction_on with
  | empty => iintro -; ipureintro; intro b hb; exact absurd hb (Finset.notMem_empty b)
  | insert b S hb ih =>
    unfold held at ih ⊢
    rw [SparseCore.bigSep_insert' hb]
    iintro ⟨⟨Hx, HS⟩, HSI⟩
    ihave H := (persistent_entails_right (SI_pointsTo_agree (st := s') (ℓ := (c.1, b)) (I := Finset.univ) (q := fullShare) (f := W b))) $$ [HSI Hx]
    · isplitl [HSI] <;> iassumption
    icases H with ⟨%h1, HSI, -⟩
    ihave H2 := ih $$ [HS HSI]
    · isplitl [HS] <;> iassumption
    icases H2 with %h2
    ipureintro
    intro b' hb'
    rcases Finset.mem_insert.mp hb' with rfl | hb'
    · exact funext fun i => h1 i (Finset.mem_univ i)
    · exact h2 b' hb'

/-- What the final memory of device `d` satisfies. -/
def fq (d : Dev nD) (s' : Phys nD τ sig (Elt F)) : Prop :=
  ∃ g, CntOK (fl m) (fd m) (fb m) d g ∧ ∀ b ∈ (SA : Finset (DevRef τ sig)), s'.mem.mem (d, b) = V3 m d g b

theorem hfin (d : Dev nD) (s' : Phys nD τ sig (Elt F)) : iprop(FIN m d ∗ SI s') ⊢ (⌜fq m d s'⌝ : sProp 𝕄) := by
  unfold FIN
  iintro ⟨⟨%g, %hg, Hh⟩, HSI⟩
  ihave H := (held_agree (T d) SA (V3 m d g) s') $$ [Hh HSI]
  · isplitl [Hh] <;> iassumption
  icases H with %h
  ipureintro; exact ⟨g, hg, h⟩

/-- The run's post: on every device the count array's rows were the tiles' tables and every array of @main is at its
    final contents. -/
def QC : PUnit × MemSt nD τ sig (Elt F) → Prop := fun r => ∀ c : Dev nD,
  ∃ g, CntOK (fl m) (fd m) (fb m) c g ∧ ∀ b ∈ (SA : Finset (DevRef τ sig)), r.2.mem (c, b) = V3 m c g b

end Main

end Cert.Kernel.Main

end
-- ==== Proof.BTileBody.lean ====
/-
  One tile's task, once, at a symbolic tile and for any float instance.

  A tile (vector subcore s of SparseCore c, number w = 16 c + s) owns four scratches in its own memory: three
  1024-word index scratches and one 32 x 128 table. Its task: (1) zero the table, a row per trip, each row in eight
  runs of sixteen words; (2) fetch its 1024-entry slice (offset 1024 w) of the label, degree and batch arrays, each
  by one local copy on a semaphore of its own that is waited for at once; (3) for each of 64 groups of sixteen
  consecutive entries, add a one into the table at (batch, label clipped to [0, 101]) and at (batch + 16, degree
  clipped to [0, 10]), the sixteen lanes in ascending order; (4) copy the table to row w of the count array, again
  one local copy waited for at once.

  What is proved: started with its slices of the three index arrays, its row of the count array, its own scratches
  and semaphores, and with every batch word of its slice at most 15, the task runs to its end without a stuck step,
  gives the slices back unchanged, and leaves in its row of the count array exactly the table that the definition
  `Hist.tileTab` computes from the three slices (the all-zero table with the 64 groups' scatters applied in
  order). The two loops go by invariants: "rows below k of the table are zero" for the zeroing loop, "the table is
  the one after 4 k groups, the index scratches hold the slices" for the scatter loop. Every index pair a scatter
  uses is in range because a batch word is at most 15 (so at most 31 after the shift by 16) and a clipped label or
  degree is at most 101 or 10.
-/
import proofs.«203920_g2267742732911_cont_8to1_1065_18_alg».proof.Proof.BKSetup
import proofs.«203920_g2267742732911_cont_8to1_1065_18_alg».proof.Proof.BTileSpec
import Idealize.ShloMosaic.Lib.SparseCore.Ops
import Idealize.ShloMosaic.Lib.Writes
import Idealize.ShloMosaic.Lib.WordArith

noncomputable section

namespace Cert.Kernel.Tile

open Cert.Kernel Cert.Kernel.Gen Cert.Kernel.Setup Cert.Kernel.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-! ## The four arrays and the four scratches, as the tile's memrefs address them -/

theorem set_degSl : (degSl L).view.set = slSet L := rfl
theorem set_batSl : (batSl L).view.set = slSet L := rfl

theorem pts_labSl (f : Buf (Elt F) (labLoc d)) :
    ((labSl L).view.loc (V d (cV L) (jV L)) ↦[(labSl L).view.set]{fullShare} f : sProp 𝕄) = labSlPts d L f := rfl
theorem pts_degSl (f : Buf (Elt F) (degLoc d)) :
    ((degSl L).view.loc (V d (cV L) (jV L)) ↦[(degSl L).view.set]{fullShare} f : sProp 𝕄) = degSlPts d L f := rfl
theorem pts_batSl (f : Buf (Elt F) (batLoc d)) :
    ((batSl L).view.loc (V d (cV L) (jV L)) ↦[(batSl L).view.set]{fullShare} f : sProp 𝕄) = batSlPts d L f := rfl
theorem pts_cntRow (f : Buf (Elt F) (cntLoc d)) :
    ((cntRow L).view.loc (V d (cV L) (jV L)) ↦[(cntRow L).view.set]{fullShare} f : sProp 𝕄) = cntRowPts d L f := rfl

theorem pts_sLab (f : Buf (Elt F) ((V d (cV L) (jV L)).loc cc0_scratch0)) :
    ((sLab).view.loc (V d (cV L) (jV L)) ↦{fullShare} f : sProp 𝕄) = (V d (cV L) (jV L)).loc cc0_scratch0 ↦{fullShare} f := rfl
theorem pts_sDeg (f : Buf (Elt F) ((V d (cV L) (jV L)).loc cc0_scratch1)) :
    ((sDeg).view.loc (V d (cV L) (jV L)) ↦{fullShare} f : sProp 𝕄) = (V d (cV L) (jV L)).loc cc0_scratch1 ↦{fullShare} f := rfl
theorem pts_sBat (f : Buf (Elt F) ((V d (cV L) (jV L)).loc cc0_scratch2)) :
    ((sBat).view.loc (V d (cV L) (jV L)) ↦{fullShare} f : sProp 𝕄) = (V d (cV L) (jV L)).loc cc0_scratch2 ↦{fullShare} f := rfl
theorem pts_sTab (f : Buf (Elt F) ((V d (cV L) (jV L)).loc cc0_scratch3)) :
    ((sTab).view.loc (V d (cV L) (jV L)) ↦{fullShare} f : sProp 𝕄) = (V d (cV L) (jV L)).loc cc0_scratch3 ↦{fullShare} f := rfl

/-! ## The tile's four copy semaphores and four scratches among what it owns -/

abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)
abbrev cell3 (d : Dev nD) (c : Fin τ.nSC) (i : Fin τ.nSub) : GSem nD τ sig := (V d c i, .dma cc0_scoped3.sem)

theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0
          ∗ semVal (cell3 d (cV L) (jV L)) 0
          ∗ bigSep (((((ownCells (V d (cV L) (jV L))).erase (cell0 d (cV L) (jV L))).erase (cell1 d (cV L) (jV L))).erase
              (cell2 d (cV L) (jV L))).erase (cell3 d (cV L) (jV L))) fun g => semVal g 0) := by
  unfold SparseCore.Cfg.ownSems0
  rw [SparseCore.bigSep_erase' ((mem_ownCells (g := cell0 d (cV L) (jV L))).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc0_scoped2.sem : SemLoc sig).isScoped .scVector = true; decide⟩⟩⟩),
    SparseCore.bigSep_erase' (Finset.mem_erase.mpr ⟨by simp [cell2, cell3]; decide, Finset.mem_erase.mpr ⟨by simp [cell1, cell3]; decide,
      Finset.mem_erase.mpr ⟨by simp [cell0, cell3]; decide,
      (mem_ownCells (g := cell3 d (cV L) (jV L))).mpr ⟨rfl, by show (SemLoc.dma cc0_scoped3.sem : SemLoc sig).isScoped .scVector = true; decide⟩⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

variable [FloatOps F]

/-- The zero word of the table. -/
abbrev zeroF : Elt F .f32 := Scalar.ofBits .f32 0x00000000#32

/-- The eight stores of one trip of the zeroing loop, newest first: row k in eight runs of sixteen. -/
abbrev zeroPieces (k : Fin k0_t1_loop.trips) : List (View.Piece (Elt F) S32x128 .f32) :=
  [⟨Rect.unit (s := S32x128) (k0_off8 k) S1x16.size (k0_off8_inb k), shapeCast S1x16 (k0_pay1 (F := F)) shapeCasts_S16_S1x16⟩,
   ⟨Rect.unit (s := S32x128) (k0_off7 k) S1x16.size (k0_off7_inb k), shapeCast S1x16 (k0_pay1 (F := F)) shapeCasts_S16_S1x16⟩,
   ⟨Rect.unit (s := S32x128) (k0_off6 k) S1x16.size (k0_off6_inb k), shapeCast S1x16 (k0_pay1 (F := F)) shapeCasts_S16_S1x16⟩,
   ⟨Rect.unit (s := S32x128) (k0_off5 k) S1x16.size (k0_off5_inb k), shapeCast S1x16 (k0_pay1 (F := F)) shapeCasts_S16_S1x16⟩,
   ⟨Rect.unit (s := S32x128) (k0_off4 k) S1x16.size (k0_off4_inb k), shapeCast S1x16 (k0_pay1 (F := F)) shapeCasts_S16_S1x16⟩,
   ⟨Rect.unit (s := S32x128) (k0_off3 k) S1x16.size (k0_off3_inb k), shapeCast S1x16 (k0_pay1 (F := F)) shapeCasts_S16_S1x16⟩,
   ⟨Rect.unit (s := S32x128) (k0_off2 k) S1x16.size (k0_off2_inb k), shapeCast S1x16 (k0_pay1 (F := F)) shapeCasts_S16_S1x16⟩,
   ⟨Rect.unit (s := S32x128) (k0_off1 k) S1x16.size (k0_off1_inb k), shapeCast S1x16 (k0_pay1 (F := F)) shapeCasts_S16_S1x16⟩]

/-- Every element of row k lies in one of the trip's eight runs. -/
theorem zeroPieces_cover (k : Fin k0_t1_loop.trips) (y : S32x128.Idx) (hyk : (y 0).val = k.val) :
    ∃ p ∈ zeroPieces (F := F) k, y ∈ p.1.set := by
  have hy1 : (y 1).val < 128 := (y 1).isLt
  simp only [zeroPieces, List.mem_cons, List.not_mem_nil, or_false, exists_eq_or_imp, exists_eq_left, Rect.mem_set_unit,
    k0_off1_eq, k0_off2_eq, k0_off3_eq, k0_off4_eq, k0_off5_eq, k0_off6_eq, k0_off7_eq, k0_off8_eq, Fin.forall_fin_two,
    Matrix.cons_val_zero, Matrix.cons_val_one]
  omega

/-- Every store of the trip writes zeros. -/
theorem zeroPieces_zero (k : Fin k0_t1_loop.trips) :
    ∀ p ∈ zeroPieces (F := F) k, ∀ x : p.1.shape.Idx, p.2 x = (fun _ : S32x128.Idx => zeroF (F := F)) (p.1.emb x) := by
  intro p hp x
  simp only [zeroPieces, List.mem_cons, List.not_mem_nil, or_false] at hp
  rcases hp with rfl | rfl | rfl | rfl | rfl | rfl | rfl | rfl <;> rfl

/-- One trip of the zeroing loop: rows below k zero before, rows below k + 1 zero after. -/
theorem zero_step (v : View sig .scVector .vmem S32x128 .f32) (g : v.ty.Contents (Elt F)) (k : Fin k0_t1_loop.trips)
    (hg : ∀ y : S32x128.Idx, (y 0).val < k.val → v.read (Elt F) g y = zeroF (F := F)) (y : S32x128.Idx) (hy : (y 0).val < k.val + 1) :
    v.read (Elt F) (v.writes (Elt F) g (zeroPieces (F := F) k)) y = zeroF (F := F) := by
  by_cases hc : ∃ p ∈ zeroPieces (F := F) k, y ∈ p.1.set
  · exact View.read_writes_apply_of_pieces v g (fun _ => zeroF (F := F)) _ (zeroPieces_zero k) y hc
  · rw [View.read_writes_apply_of_forall_not_mem v g y _ fun p hp hm => hc ⟨p, hp, hm⟩]
    refine hg y ?_
    by_contra hlt
    exact hc (zeroPieces_cover k y (by omega))

/-- Before trip k of the zeroing loop: rows below k of the table scratch are zero. -/
def inv1 (k : Nat) (_ : Unit) : sProp 𝕄 :=
  iprop(∃ g : Buf (Elt F) ((V d (cV L) (jV L)).loc cc0_scratch3),
    ⌜∀ y : S32x128.Idx, (y 0).val < k → (sTab).view.read (Elt F) g y = zeroF (F := F)⌝
      ∗ ((sTab).view.loc (V d (cV L) (jV L)) ↦{fullShare} g))

theorem region1 (k : Fin k0_t1_loop.trips) (acc : Unit) :
    inv1 (F := F) d L k acc ⊢ wp frame (wpE (defs₀ (F := F)) 𝒱₀ (V d (cV L) (jV L)) none) Set.univ
      (k0_t1_body L labV (Memref.isWhole_whole _) degV (Memref.isWhole_whole _) batV (Memref.isWhole_whole _) cntV (Memref.isWhole_whole _)
            sLab (Memref.isWhole_whole _) sDeg (Memref.isWhole_whole _) sBat (Memref.isWhole_whole _) sTab (Memref.isWhole_whole _)
            cc0_scoped0 cc0_scoped1 cc0_scoped2 cc0_scoped3 k acc) (inv1 (F := F) d L (k.val + 1)) := by
  unfold inv1 k0_t1_body
  iintro ⟨%g, %hg, Ht⟩
  sl_exec
  sl_step
  iexists _
  isplitr
  · ipureintro; exact zero_step (sTab).view g k hg
  · iexact Ht

/-! ## The indices a trip computes are in range, and what it loads are the groups' lanes -/

/-- A word clipped to [0, c] (c below 2^31) is at most c as an unsigned number. -/
theorem clip_le (c : BitVec 32) (hc : c.toNat < 2 ^ 31) (x : BitVec 32) :
    (IntOp.minsi c (IntOp.maxsi 0#32 x)).toNat ≤ c.toNat := by
  have h1 : (IntOp.maxsi 0#32 x).toNat < 2 ^ 31 := by
    have h := WordArith.two_mul_toNat_maxsi_zero_lt x
    simp only [Scalar.maxsi] at h
    omega
  rw [WordArith.toNat_minsi_of_lt _ _ hc h1]
  exact Nat.min_le_left _ _

theorem clip101_le (v : Vec F S16 .i32) (x : S16.Idx) : (k0_pay5 (F := F) v x).toNat ≤ 101 :=
  clip_le 101#32 (by decide) (v x)

theorem clip10_le (v : Vec F S16 .i32) (x : S16.Idx) : (k0_pay6 (F := F) v x).toNat ≤ 10 :=
  clip_le 10#32 (by decide) (v x)

/-- A batch row (at most 15) with a clipped label column is inside the 32 x 128 table. -/
theorem chk_odd (row col : IVec S16 32) (hr : ∀ x, (row x).toNat ≤ 15) (hc : ∀ x, (col x).toNat ≤ 101) :
    ∀ (a : Fin 2) (x : S16.Idx), ((![row, col] : Fin 2 → IVec S16 32) a x).toNat < S32x128.size a := by
  intro a x
  fin_cases a
  · show (row x).toNat < 32
    have := hr x; omega
  · show (col x).toNat < 128
    have := hc x; omega

/-- A batch row shifted by sixteen with a clipped degree column is inside the table. -/
theorem chk_even (brow col : IVec S16 32) (hr : ∀ x, (brow x).toNat ≤ 15) (hc : ∀ x, (col x).toNat ≤ 10) :
    ∀ (a : Fin 2) (x : S16.Idx), ((![k0_pay7 (F := F) brow, col] : Fin 2 → IVec S16 32) a x).toNat < S32x128.size a := by
  intro a x
  fin_cases a
  · show (k0_pay7 (F := F) brow x).toNat < 32
    have e : k0_pay7 (F := F) brow x = brow x + 16#32 := rfl
    have := hr x
    rw [e, BitVec.toNat_add]
    simp only [BitVec.toNat_ofNat]
    omega
  · show (col x).toNat < 128
    have := hc x; omega

/-- Sixteen consecutive entries from 16 q of a 1024-vector are its group q. -/
theorem lanes_core (v : Vec F S1024 .i32) (off : Fin 1 → Nat) (inb : ∀ a, off a + S16.size a ≤ S1024.size a) (q : Nat)
    (hoff : off 0 = 16 * q) :
    (fun x : S16.Idx => v ((Rect.unit (s := S1024) off S16.size inb).toLoadRect.idx x)) = lanes (F := F) v q := by
  funext x
  unfold lanes
  congr 1
  funext a
  obtain rfl : a = 0 := Subsingleton.elim _ _
  apply Fin.ext
  show off 0 + 1 * (x 0).val = (16 * q + (x 0).val) % 1024
  have h0 : off 0 + 16 ≤ 1024 := inb 0
  have hx : (x 0).val < 16 := (x 0).isLt
  omega

/-! The eight side conditions of a trip, each from the fact that the batch words loaded are at most 15. -/
theorem chk1' (row : IVec S16 32) (v : Vec F S16 .i32) (hr : ∀ x, (row x).toNat ≤ 15) : k0_chk1 row (k0_pay5 (F := F) v) :=
  chk_odd row _ hr (clip101_le (F := F) v)
theorem chk3' (row : IVec S16 32) (v : Vec F S16 .i32) (hr : ∀ x, (row x).toNat ≤ 15) : k0_chk3 row (k0_pay8 (F := F) v) :=
  chk_odd row _ hr (clip101_le (F := F) v)
theorem chk5' (row : IVec S16 32) (v : Vec F S16 .i32) (hr : ∀ x, (row x).toNat ≤ 15) : k0_chk5 row (k0_pay12 (F := F) v) :=
  chk_odd row _ hr (clip101_le (F := F) v)
theorem chk7' (row : IVec S16 32) (v : Vec F S16 .i32) (hr : ∀ x, (row x).toNat ≤ 15) : k0_chk7 row (k0_pay15 (F := F) v) :=
  chk_odd row _ hr (clip101_le (F := F) v)
theorem chk2' (brow : IVec S16 32) (v : Vec F S16 .i32) (hr : ∀ x, (brow x).toNat ≤ 15) :
    k0_chk2 (k0_pay6 (F := F) v) (k0_pay7 (F := F) brow) :=
  chk_even (F := F) brow _ hr (clip10_le (F := F) v)
theorem chk4' (brow : IVec S16 32) (v : Vec F S16 .i32) (hr : ∀ x, (brow x).toNat ≤ 15) :
    k0_chk4 (minsi (k0_pay10) (k0_pay9 (F := F) v)) (k0_pay11 (F := F) brow) :=
  chk_even (F := F) brow _ hr (clip10_le (F := F) v)
theorem chk6' (brow : IVec S16 32) (v : Vec F S16 .i32) (hr : ∀ x, (brow x).toNat ≤ 15) :
    k0_chk6 (k0_pay13 (F := F) v) (k0_pay14 (F := F) brow) :=
  chk_even (F := F) brow _ hr (clip10_le (F := F) v)
theorem chk8' (brow : IVec S16 32) (v : Vec F S16 .i32) (hr : ∀ x, (brow x).toNat ≤ 15) :
    k0_chk8 (k0_pay3 (F := F) v 10#32 k0_pay16) (k0_pay4 (F := F) brow) :=
  chk_even (F := F) brow _ hr (clip10_le (F := F) v)

/-! ## The accumulate-scatter through the table scratch, as a step on its contents -/

theorem wp_scat {α : Type} (row col : IVec S16 32)
    (h : ∀ a x, ((![row, col] : Fin 2 → IVec S16 32) a x).toNat < S32x128.size a)
    (hs : ((sTab).access (.whole S32x128)).Stores Finset.univ)
    (k : PUnit → Prog (TpuEff nD τ sig (Elt F) Λ₀ (V d (cV L) (jV L)).2) α) (Q : α → sProp 𝕄)
    (f : Buf (Elt F) ((V d (cV L) (jV L)).loc cc0_scratch3)) :
    ((sTab).view.loc (V d (cV L) (jV L)) ↦{fullShare} f : sProp 𝕄)
      ⊢ iprop((((sTab).view.loc (V d (cV L) (jV L)) ↦{fullShare} scat (F := F) f row col)
          -∗ wp frame (wpE (defs₀ (F := F)) 𝒱₀ (V d (cV L) (jV L)) none) Set.univ (k ⟨⟩) Q)
        -∗ wp frame (wpE (defs₀ (F := F)) 𝒱₀ (V d (cV L) (jV L)) none) Set.univ
            (SparseCore.vectorStoreIdx (sTab) ![row, col] (k0_pay2 (F := F)) (fun _ => 1#1) true h hs >>= k) Q) := by
  have e := SparseCore.wp_vectorStoreIdx (defs := defs₀ (F := F)) 𝒱₀ (V d (cV L) (jV L)) none Set.univ (base := sTab)
    (idxs := ![row, col]) (v := k0_pay2 (F := F)) (mask := fun _ => 1#1) (add := true) (h := h) (hs := hs) (k := k) (f := f) (Q := Q)
  have hset : ((sTab).access (Rect.whole S32x128)).set = Finset.univ := Memref.set_access_whole (cc0_scratch3 : Ref sig .scVector)
  have hread : ∀ g, ((sTab).access (Rect.whole S32x128)).read (Elt F) g = g := Memref.read_access_whole (Elt F) (cc0_scratch3 : Ref sig .scVector)
  have hwrite : ∀ g w, ((sTab).access (Rect.whole S32x128)).write (Elt F) g w Finset.univ = w :=
    Memref.write_access_whole_univ (Elt F) (cc0_scratch3 : Ref sig .scVector)
  rw [hset, hread, hwrite, scat_eq] at e
  exact e

/-- Sixteen words loaded from offset `off` of the label, degree and batch scratch. -/
abbrev ldL (off : Fin 1 → Nat) (inb : ∀ a, off a + S16.size a ≤ S1024.size a)
    (f : (sLab : Memref sig .scVector .vmem S1024 .i32).view.ty.Contents (Elt F)) : Vec F S16 .i32 :=
  View.readAt (Elt F) (sLab).view (Rect.unit (s := S1024) off S16.size inb).toLoadRect f
abbrev ldD (off : Fin 1 → Nat) (inb : ∀ a, off a + S16.size a ≤ S1024.size a)
    (f : (sDeg : Memref sig .scVector .vmem S1024 .i32).view.ty.Contents (Elt F)) : Vec F S16 .i32 :=
  View.readAt (Elt F) (sDeg).view (Rect.unit (s := S1024) off S16.size inb).toLoadRect f
abbrev ldB (off : Fin 1 → Nat) (inb : ∀ a, off a + S16.size a ≤ S1024.size a)
    (f : (sBat : Memref sig .scVector .vmem S1024 .i32).view.ty.Contents (Elt F)) : Vec F S16 .i32 :=
  View.readAt (Elt F) (sBat).view (Rect.unit (s := S1024) off S16.size inb).toLoadRect f

theorem bat_load_le (bv : Buf (Elt F) ((V d (cV L) (jV L)).loc cc0_scratch2)) (hbv : ∀ j, (bv j).toNat ≤ 15)
    (off : Fin 1 → Nat) (inb : ∀ a, off a + S16.size a ≤ S1024.size a) (x : S16.Idx) :
    ((sBat).view.readAt (Elt F) (Rect.unit (s := S1024) off S16.size inb).toLoadRect bv x).toNat ≤ 15 := hbv _

/-- What one trip of the scatter loop leaves in the table, spelt over the vectors the trip loads. -/
theorem trip_tab (lv : Buf (Elt F) ((V d (cV L) (jV L)).loc cc0_scratch0)) (dv : Buf (Elt F) ((V d (cV L) (jV L)).loc cc0_scratch1))
    (bv : Buf (Elt F) ((V d (cV L) (jV L)).loc cc0_scratch2)) (k : Fin k0_t2_loop.trips) :
    tabAfter (F := F) lv dv bv (4 * (k.val + 1))
      = scat (scat (scat (scat (scat (scat (scat (scat (tabAfter (F := F) lv dv bv (4 * k.val))
          (ldB (k0_off10 k) (k0_off10_inb k) bv) (k0_pay5 (F := F) (ldL (k0_off10 k) (k0_off10_inb k) lv)))
          (k0_pay7 (F := F) (ldB (k0_off10 k) (k0_off10_inb k) bv)) (k0_pay6 (F := F) (ldD (k0_off10 k) (k0_off10_inb k) dv)))
          (ldB (k0_off11 k) (k0_off11_inb k) bv) (k0_pay5 (F := F) (ldL (k0_off11 k) (k0_off11_inb k) lv)))
          (k0_pay7 (F := F) (ldB (k0_off11 k) (k0_off11_inb k) bv)) (k0_pay6 (F := F) (ldD (k0_off11 k) (k0_off11_inb k) dv)))
          (ldB (k0_off12 k) (k0_off12_inb k) bv) (k0_pay5 (F := F) (ldL (k0_off12 k) (k0_off12_inb k) lv)))
          (k0_pay7 (F := F) (ldB (k0_off12 k) (k0_off12_inb k) bv)) (k0_pay6 (F := F) (ldD (k0_off12 k) (k0_off12_inb k) dv)))
          (ldB (k0_off13 k) (k0_off13_inb k) bv) (k0_pay5 (F := F) (ldL (k0_off13 k) (k0_off13_inb k) lv)))
          (k0_pay7 (F := F) (ldB (k0_off13 k) (k0_off13_inb k) bv)) (k0_pay6 (F := F) (ldD (k0_off13 k) (k0_off13_inb k) dv)) := by
  have hk : k.val < 16 := lt_of_lt_of_le k.isLt k0_t2_abs.2.1
  have h10 : k0_off10 k 0 = 16 * (4 * k.val) := by rw [k0_off10_eq]; simp; omega
  have h11 : k0_off11 k 0 = 16 * (4 * k.val + 1) := by rw [k0_off11_eq]; simp; omega
  have h12 : k0_off12 k 0 = 16 * (4 * k.val + 1 + 1) := by rw [k0_off12_eq]; simp; omega
  have h13 : k0_off13 k 0 = 16 * (4 * k.val + 1 + 1 + 1) := by rw [k0_off13_eq]; simp; omega
  have eB0 : ldB (k0_off10 k) (k0_off10_inb k) bv = lanes (F := F) bv (4 * k.val) := lanes_core bv _ _ _ h10
  have eL0 : ldL (k0_off10 k) (k0_off10_inb k) lv = lanes (F := F) lv (4 * k.val) := lanes_core lv _ _ _ h10
  have eD0 : ldD (k0_off10 k) (k0_off10_inb k) dv = lanes (F := F) dv (4 * k.val) := lanes_core dv _ _ _ h10
  have eB1 : ldB (k0_off11 k) (k0_off11_inb k) bv = lanes (F := F) bv (4 * k.val + 1) := lanes_core bv _ _ _ h11
  have eL1 : ldL (k0_off11 k) (k0_off11_inb k) lv = lanes (F := F) lv (4 * k.val + 1) := lanes_core lv _ _ _ h11
  have eD1 : ldD (k0_off11 k) (k0_off11_inb k) dv = lanes (F := F) dv (4 * k.val + 1) := lanes_core dv _ _ _ h11
  have eB2 : ldB (k0_off12 k) (k0_off12_inb k) bv = lanes (F := F) bv (4 * k.val + 1 + 1) := lanes_core bv _ _ _ h12
  have eL2 : ldL (k0_off12 k) (k0_off12_inb k) lv = lanes (F := F) lv (4 * k.val + 1 + 1) := lanes_core lv _ _ _ h12
  have eD2 : ldD (k0_off12 k) (k0_off12_inb k) dv = lanes (F := F) dv (4 * k.val + 1 + 1) := lanes_core dv _ _ _ h12
  have eB3 : ldB (k0_off13 k) (k0_off13_inb k) bv = lanes (F := F) bv (4 * k.val + 1 + 1 + 1) := lanes_core bv _ _ _ h13
  have eL3 : ldL (k0_off13 k) (k0_off13_inb k) lv = lanes (F := F) lv (4 * k.val + 1 + 1 + 1) := lanes_core lv _ _ _ h13
  have eD3 : ldD (k0_off13 k) (k0_off13_inb k) dv = lanes (F := F) dv (4 * k.val + 1 + 1 + 1) := lanes_core dv _ _ _ h13
  rw [eB0, eL0, eD0, eB1, eL1, eD1, eB2, eL2, eD2, eB3, eL3, eD3,
    show 4 * (k.val + 1) = 4 * k.val + 1 + 1 + 1 + 1 from by omega, tabAfter_succ, tabAfter_succ, tabAfter_succ, tabAfter_succ]
  rfl

/-- Before trip k of the scatter loop: the three index scratches hold the tile's slices, the table
    scratch the table after the first 4 k groups. -/
def inv2 (lv : Buf (Elt F) ((V d (cV L) (jV L)).loc cc0_scratch0)) (dv : Buf (Elt F) ((V d (cV L) (jV L)).loc cc0_scratch1))
    (bv : Buf (Elt F) ((V d (cV L) (jV L)).loc cc0_scratch2)) (k : Nat) (_ : Unit) : sProp 𝕄 :=
  iprop(((sLab).view.loc (V d (cV L) (jV L)) ↦{fullShare} lv) ∗ ((sDeg).view.loc (V d (cV L) (jV L)) ↦{fullShare} dv)
    ∗ ((sBat).view.loc (V d (cV L) (jV L)) ↦{fullShare} bv)
    ∗ ((sTab).view.loc (V d (cV L) (jV L)) ↦{fullShare} tabAfter (F := F) lv dv bv (4 * k)))

set_option sl_exec.dischHeartbeats 400000 in
set_option maxHeartbeats 4000000 in
theorem region2 (lv : Buf (Elt F) ((V d (cV L) (jV L)).loc cc0_scratch0)) (dv : Buf (Elt F) ((V d (cV L) (jV L)).loc cc0_scratch1))
    (bv : Buf (Elt F) ((V d (cV L) (jV L)).loc cc0_scratch2)) (hbv : ∀ j, (bv j).toNat ≤ 15) (k : Fin k0_t2_loop.trips) (acc : Unit) :
    inv2 (F := F) d L lv dv bv k acc ⊢ wp frame (wpE (defs₀ (F := F)) 𝒱₀ (V d (cV L) (jV L)) none) Set.univ
      (k0_t2_body L labV (Memref.isWhole_whole _) degV (Memref.isWhole_whole _) batV (Memref.isWhole_whole _) cntV (Memref.isWhole_whole _)
            sLab (Memref.isWhole_whole _) sDeg (Memref.isWhole_whole _) sBat (Memref.isWhole_whole _) sTab (Memref.isWhole_whole _)
            cc0_scoped0 cc0_scoped1 cc0_scoped2 cc0_scoped3 k acc) (inv2 (F := F) d L lv dv bv (k.val + 1)) := by
  unfold k0_t2_body
  rw [k0_part1_eq_skeleton, k0_part2_eq_skeleton]
  unfold inv2
  iintro ⟨Hl, Hd, Hb, Ht⟩
  sl_exec (disch := first
    | (guard_target = k0_chk1 _ _; exact chk1' _ _ (bat_load_le d L bv hbv _ _))
    | (guard_target = k0_chk2 _ _; exact chk2' _ _ (bat_load_le d L bv hbv _ _))
    | (guard_target = k0_chk3 _ _; exact chk3' _ _ (bat_load_le d L bv hbv _ _))
    | (guard_target = k0_chk4 _ _; exact chk4' _ _ (bat_load_le d L bv hbv _ _))
    | (guard_target = k0_chk5 _ _; exact chk5' _ _ (bat_load_le d L bv hbv _ _))
    | (guard_target = k0_chk6 _ _; exact chk6' _ _ (bat_load_le d L bv hbv _ _))
    | (guard_target = k0_chk7 _ _; exact chk7' _ _ (bat_load_le d L bv hbv _ _))
    | (guard_target = k0_chk8 _ _; exact chk8' _ _ (bat_load_le d L bv hbv _ _)))
  iapply (wp_scat d L _ _ _ _ _ _ _) $$ Ht; iintro Ht
  sl_exec (disch := first
    | (guard_target = k0_chk1 _ _; exact chk1' _ _ (bat_load_le d L bv hbv _ _))
    | (guard_target = k0_chk2 _ _; exact chk2' _ _ (bat_load_le d L bv hbv _ _))
    | (guard_target = k0_chk3 _ _; exact chk3' _ _ (bat_load_le d L bv hbv _ _))
    | (guard_target = k0_chk4 _ _; exact chk4' _ _ (bat_load_le d L bv hbv _ _))
    | (guard_target = k0_chk5 _ _; exact chk5' _ _ (bat_load_le d L bv hbv _ _))
    | (guard_target = k0_chk6 _ _; exact chk6' _ _ (bat_load_le d L bv hbv _ _))
    | (guard_target = k0_chk7 _ _; exact chk7' _ _ (bat_load_le d L bv hbv _ _))
    | (guard_target = k0_chk8 _ _; exact chk8' _ _ (bat_load_le d L bv hbv _ _)))
  iapply (wp_scat d L _ _ _ _ _ _ _) $$ Ht; iintro Ht
  sl_exec (disch := first
    | (guard_target = k0_chk1 _ _; exact chk1' _ _ (bat_load_le d L bv hbv _ _))
    | (guard_target = k0_chk2 _ _; exact chk2' _ _ (bat_load_le d L bv hbv _ _))
    | (guard_target = k0_chk3 _ _; exact chk3' _ _ (bat_load_le d L bv hbv _ _))
    | (guard_target = k0_chk4 _ _; exact chk4' _ _ (bat_load_le d L bv hbv _ _))
    | (guard_target = k0_chk5 _ _; exact chk5' _ _ (bat_load_le d L bv hbv _ _))
    | (guard_target = k0_chk6 _ _; exact chk6' _ _ (bat_load_le d L bv hbv _ _))
    | (guard_target = k0_chk7 _ _; exact chk7' _ _ (bat_load_le d L bv hbv _ _))
    | (guard_target = k0_chk8 _ _; exact chk8' _ _ (bat_load_le d L bv hbv _ _)))
  iapply (wp_scat d L _ _ _ _ _ _ _) $$ Ht; iintro Ht
  sl_exec (disch := first
    | (guard_target = k0_chk1 _ _; exact chk1' _ _ (bat_load_le d L bv hbv _ _))
    | (guard_target = k0_chk2 _ _; exact chk2' _ _ (bat_load_le d L bv hbv _ _))
    | (guard_target = k0_chk3 _ _; exact chk3' _ _ (bat_load_le d L bv hbv _ _))
    | (guard_target = k0_chk4 _ _; exact chk4' _ _ (bat_load_le d L bv hbv _ _))
    | (guard_target = k0_chk5 _ _; exact chk5' _ _ (bat_load_le d L bv hbv _ _))
    | (guard_target = k0_chk6 _ _; exact chk6' _ _ (bat_load_le d L bv hbv _ _))
    | (guard_target = k0_chk7 _ _; exact chk7' _ _ (bat_load_le d L bv hbv _ _))
    | (guard_target = k0_chk8 _ _; exact chk8' _ _ (bat_load_le d L bv hbv _ _)))
  iapply (wp_scat d L _ _ _ _ _ _ _) $$ Ht; iintro Ht
  sl_exec (disch := first
    | (guard_target = k0_chk1 _ _; exact chk1' _ _ (bat_load_le d L bv hbv _ _))
    | (guard_target = k0_chk2 _ _; exact chk2' _ _ (bat_load_le d L bv hbv _ _))
    | (guard_target = k0_chk3 _ _; exact chk3' _ _ (bat_load_le d L bv hbv _ _))
    | (guard_target = k0_chk4 _ _; exact chk4' _ _ (bat_load_le d L bv hbv _ _))
    | (guard_target = k0_chk5 _ _; exact chk5' _ _ (bat_load_le d L bv hbv _ _))
    | (guard_target = k0_chk6 _ _; exact chk6' _ _ (bat_load_le d L bv hbv _ _))
    | (guard_target = k0_chk7 _ _; exact chk7' _ _ (bat_load_le d L bv hbv _ _))
    | (guard_target = k0_chk8 _ _; exact chk8' _ _ (bat_load_le d L bv hbv _ _)))
  iapply (wp_scat d L _ _ _ _ _ _ _) $$ Ht; iintro Ht
  sl_exec (disch := first
    | (guard_target = k0_chk1 _ _; exact chk1' _ _ (bat_load_le d L bv hbv _ _))
    | (guard_target = k0_chk2 _ _; exact chk2' _ _ (bat_load_le d L bv hbv _ _))
    | (guard_target = k0_chk3 _ _; exact chk3' _ _ (bat_load_le d L bv hbv _ _))
    | (guard_target = k0_chk4 _ _; exact chk4' _ _ (bat_load_le d L bv hbv _ _))
    | (guard_target = k0_chk5 _ _; exact chk5' _ _ (bat_load_le d L bv hbv _ _))
    | (guard_target = k0_chk6 _ _; exact chk6' _ _ (bat_load_le d L bv hbv _ _))
    | (guard_target = k0_chk7 _ _; exact chk7' _ _ (bat_load_le d L bv hbv _ _))
    | (guard_target = k0_chk8 _ _; exact chk8' _ _ (bat_load_le d L bv hbv _ _)))
  iapply (wp_scat d L _ _ _ _ _ _ _) $$ Ht; iintro Ht
  sl_exec (disch := first
    | (guard_target = k0_chk1 _ _; exact chk1' _ _ (bat_load_le d L bv hbv _ _))
    | (guard_target = k0_chk2 _ _; exact chk2' _ _ (bat_load_le d L bv hbv _ _))
    | (guard_target = k0_chk3 _ _; exact chk3' _ _ (bat_load_le d L bv hbv _ _))
    | (guard_target = k0_chk4 _ _; exact chk4' _ _ (bat_load_le d L bv hbv _ _))
    | (guard_target = k0_chk5 _ _; exact chk5' _ _ (bat_load_le d L bv hbv _ _))
    | (guard_target = k0_chk6 _ _; exact chk6' _ _ (bat_load_le d L bv hbv _ _))
    | (guard_target = k0_chk7 _ _; exact chk7' _ _ (bat_load_le d L bv hbv _ _))
    | (guard_target = k0_chk8 _ _; exact chk8' _ _ (bat_load_le d L bv hbv _ _)))
  iapply (wp_scat d L _ _ _ _ _ _ _) $$ Ht; iintro Ht
  sl_exec (disch := first
    | (guard_target = k0_chk1 _ _; exact chk1' _ _ (bat_load_le d L bv hbv _ _))
    | (guard_target = k0_chk2 _ _; exact chk2' _ _ (bat_load_le d L bv hbv _ _))
    | (guard_target = k0_chk3 _ _; exact chk3' _ _ (bat_load_le d L bv hbv _ _))
    | (guard_target = k0_chk4 _ _; exact chk4' _ _ (bat_load_le d L bv hbv _ _))
    | (guard_target = k0_chk5 _ _; exact chk5' _ _ (bat_load_le d L bv hbv _ _))
    | (guard_target = k0_chk6 _ _; exact chk6' _ _ (bat_load_le d L bv hbv _ _))
    | (guard_target = k0_chk7 _ _; exact chk7' _ _ (bat_load_le d L bv hbv _ _))
    | (guard_target = k0_chk8 _ _; exact chk8' _ _ (bat_load_le d L bv hbv _ _)))
  iapply (wp_scat d L _ _ _ _ _ _ _) $$ Ht; iintro Ht
  sl_exec (disch := first
    | (guard_target = k0_chk1 _ _; exact chk1' _ _ (bat_load_le d L bv hbv _ _))
    | (guard_target = k0_chk2 _ _; exact chk2' _ _ (bat_load_le d L bv hbv _ _))
    | (guard_target = k0_chk3 _ _; exact chk3' _ _ (bat_load_le d L bv hbv _ _))
    | (guard_target = k0_chk4 _ _; exact chk4' _ _ (bat_load_le d L bv hbv _ _))
    | (guard_target = k0_chk5 _ _; exact chk5' _ _ (bat_load_le d L bv hbv _ _))
    | (guard_target = k0_chk6 _ _; exact chk6' _ _ (bat_load_le d L bv hbv _ _))
    | (guard_target = k0_chk7 _ _; exact chk7' _ _ (bat_load_le d L bv hbv _ _))
    | (guard_target = k0_chk8 _ _; exact chk8' _ _ (bat_load_le d L bv hbv _ _)))
  sl_step
  isplitl [Hl]; · iexact Hl
  isplitl [Hd]; · iexact Hd
  isplitl [Hb]; · iexact Hb
  rw [trip_tab d L lv dv bv k]
  iexact Ht

/-! ## The tile's body -/

theorem trips1 : k0_t1_loop.trips = 32 := by decide
theorem trips2 : k0_t2_loop.trips = 16 := by decide

set_option maxHeartbeats 4000000 in
/-- The task on vector subcore (L 0, L 1) of device d: the table zeroed, the three slices fetched, the 64 groups
    scattered, the table written out to the tile's row of the count array. -/
theorem tile_body (hF : (K (F := F)).Facts)
    (fl : Buf (Elt F) (labLoc d)) (fd : Buf (Elt F) (degLoc d)) (fb : Buf (Elt F) (batLoc d)) (fc : Buf (Elt F) (cntLoc d))
    (hpre : ∀ j : S1024.Idx, ((batSl L).view.read (Elt F) fb j).toNat ≤ 15)
    (O : CellTallies nD τ sig (HIx 1)) (W : Waits sig (HIx 1)) (hO : ∀ g, O g none = 0) :
    iprop(levAts (K (F := F)).L (K (F := F)).lev ∗ emp
        ∗ (labSlPts d L fl ∗ degSlPts d L fd ∗ batSlPts d L fb ∗ cntRowPts d L fc)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_hist_body L labV (Memref.isWhole_whole _) degV (Memref.isWhole_whole _) batV (Memref.isWhole_whole _) cntV (Memref.isWhole_whole _)
            sLab (Memref.isWhole_whole _) sDeg (Memref.isWhole_whole _) sBat (Memref.isWhole_whole _) sTab (Memref.isWhole_whole _)
            cc0_scoped0 cc0_scoped1 cc0_scoped2 cc0_scoped3)
          fun _ => iprop((labSlPts d L fl ∗ degSlPts d L fd ∗ batSlPts d L fb
              ∗ ∃ f, cntRowPts d L f ∗ ⌜∀ y : S32x128.Idx, (cntRow L).view.read (Elt F) f y
                  = tileTab (F := F) ((labSl L).view.read (Elt F) fl) ((degSl L).view.read (Elt F) fd)
                      ((batSl L).view.read (Elt F) fb) y⌝)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__sc_hist_body_eq_skeleton]; unfold cc0__sc_hist_body_skel
  rw [(K (F := F)).scopedBufs_V hF d (cV L) (jV L), SparseCore.Cfg.scopedSems0_V (Val := Elt F) d (cV L) (jV L), ownSems0_V, ownBufs_V]
  iintro ⟨#Hlv, -, ⟨Hl, Hd, Hb, Hc⟩, ⟨⟨%s0, Hs0⟩, ⟨%s1, Hs1⟩, ⟨%s2, Hs2⟩, ⟨%s3, Hs3⟩, Hbufs⟩, ⟨Hsem0, Hsem1, Hsem2, Hsem3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hl' := (Entails.of_eq (pts_labSl (F := F) d L _).symm) $$ Hl
  ihave Hd' := (Entails.of_eq (pts_degSl (F := F) d L _).symm) $$ Hd
  ihave Hb' := (Entails.of_eq (pts_batSl (F := F) d L _).symm) $$ Hb
  ihave Hc' := (Entails.of_eq (pts_cntRow (F := F) d L _).symm) $$ Hc
  ihave Hs0' := (Entails.of_eq (pts_sLab (F := F) d L _).symm) $$ Hs0
  ihave Hs1' := (Entails.of_eq (pts_sDeg (F := F) d L _).symm) $$ Hs1
  ihave Hs2' := (Entails.of_eq (pts_sBat (F := F) d L _).symm) $$ Hs2
  ihave Hs3' := (Entails.of_eq (pts_sTab (F := F) d L _).symm) $$ Hs3
  -- the zeroing loop
  sl_for (inv1 (F := F) d L) $$ [Hs3']
  case region => exact region1 (F := F) d L
  · unfold inv1
    iexists s3; isplitr
    · ipureintro; intro y hy; exact absurd hy (Nat.not_lt_zero _)
    · iexact Hs3'
  iintro %_ HI
  unfold inv1
  icases HI with ⟨%g, %hg, Ht⟩
  rw [show Scf.trips k0_t1_loop.lb k0_t1_loop.ub k0_t1_loop.st = 32 from trips1] at hg
  have hg0 : g = tabAfter (F := F) ((labSl L).view.read (Elt F) fl) ((degSl L).view.read (Elt F) fd) ((batSl L).view.read (Elt F) fb) (4 * 0) :=
    funext fun y => hg y (y 0).isLt
  -- the three fetches
  sl_exec
  -- the scatter loop
  sl_for (inv2 (F := F) d L ((labSl L).view.read (Elt F) fl) ((degSl L).view.read (Elt F) fd) ((batSl L).view.read (Elt F) fb)) $$ [Hs0' Hs1' Hs2' Ht]
  case region => exact region2 (F := F) d L _ _ _ hpre
  · unfold inv2
    isplitl [Hs0']
    · iapply (Entails.of_eq (congrArg (fun f => ((sLab).view.loc (V d (cV L) (jV L)) ↦{fullShare} f : sProp 𝕄))
        (View.write_whole_univ (cc0_scratch0 : Ref sig .scVector) s0 _)))
      iexact Hs0'
    isplitl [Hs1']
    · iapply (Entails.of_eq (congrArg (fun f => ((sDeg).view.loc (V d (cV L) (jV L)) ↦{fullShare} f : sProp 𝕄))
        (View.write_whole_univ (cc0_scratch1 : Ref sig .scVector) s1 _)))
      iexact Hs1'
    isplitl [Hs2']
    · iapply (Entails.of_eq (congrArg (fun f => ((sBat).view.loc (V d (cV L) (jV L)) ↦{fullShare} f : sProp 𝕄))
        (View.write_whole_univ (cc0_scratch2 : Ref sig .scVector) s2 _)))
      iexact Hs2'
    rw [← hg0]
    iexact Ht
  iintro %_ HI
  unfold inv2
  icases HI with ⟨Hs0', Hs1', Hs2', Ht⟩
  rw [show Scf.trips k0_t2_loop.lb k0_t2_loop.ub k0_t2_loop.st = 16 from trips2]
  -- the write-out
  sl_exec
  sl_step
  isplitl [Hl' Hd' Hb' Hc']
  · isplitl [Hl']; · iapply (Entails.of_eq (pts_labSl (F := F) d L _)); iexact Hl'
    isplitl [Hd']; · iapply (Entails.of_eq (pts_degSl (F := F) d L _)); iexact Hd'
    isplitl [Hb']; · iapply (Entails.of_eq (pts_batSl (F := F) d L _)); iexact Hb'
    iexists _; isplitl [Hc']
    · iapply (Entails.of_eq (pts_cntRow (F := F) d L _)); iexact Hc'
    · ipureintro; intro y
      have hy : (Rect.whole S32x128).emb y = y := Rect.emb_whole_apply S32x128 y
      conv_lhs => rw [← hy]
      exact View.read_writes_cons_emb (cntRow L).view fc (Rect.whole S32x128) _ [] y
  isplitl [Hs0' Hs1' Hs2' Ht Hbufs]
  · isplitl [Hs0']; · iexists _; iexact Hs0'
    isplitl [Hs1']; · iexists _; iexact Hs1'
    isplitl [Hs2']; · iexists _; iexact Hs2'
    isplitl [Ht]; · iexists _; iexact Ht
    iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact .inl hp

end Cert.Kernel.Tile

end
-- ==== Proof.BKTile.lean ====
/-
  The count kernel's body as the launch theorem's obligation for one tile: the body lemma at the tile's grid
  coordinates, what the tile is handed and hands back spelt as the call's payloads.
-/
import proofs.«203920_g2267742732911_cont_8to1_1065_18_alg».proof.Proof.BKPay
import proofs.«203920_g2267742732911_cont_8to1_1065_18_alg».proof.Proof.Gen.Kernel.Launch
import proofs.«203920_g2267742732911_cont_8to1_1065_18_alg».proof.Proof.BTileBody

noncomputable section

namespace Cert.Kernel.TileObl

open Cert.Kernel Cert.Kernel.Gen Cert.Kernel.Setup Cert.Kernel.Pay

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Cert.Kernel.Hist Cert.Kernel.Tile

variable [FloatOps F]
variable (fl : (d : Dev nD) → Buf (Elt F) (labLoc d)) (fd : (d : Dev nD) → Buf (Elt F) (degLoc d))
  (fb : (d : Dev nD) → Buf (Elt F) (batLoc d)) (fc : (d : Dev nD) → Buf (Elt F) (cntLoc d))

/-- Every segment id, read unsigned, is below sixteen. -/
def PreOK : Prop := ∀ (d : Dev nD) (j : S32768.Idx), (fb d j).toNat ≤ 15

theorem defs₀_vector (c : Fin τ.nSC) (s : Fin τ.nSub) :
    defs₀ (F := F) (.scVector c s) 0 ()
      = SparseCore.onTile hcore0 hsub0 (fun c s => cc0__sc_hist_body (coordsV c s)
          labV (Memref.isWhole_whole _) degV (Memref.isWhole_whole _) batV (Memref.isWhole_whole _) cntV (Memref.isWhole_whole _)
          sLab (Memref.isWhole_whole _) sDeg (Memref.isWhole_whole _) sBat (Memref.isWhole_whole _) sTab (Memref.isWhole_whole _)
          cc0_scoped0 cc0_scoped1 cc0_scoped2 cc0_scoped3) ⟨⟩ c s := rfl

omit [FloatOps F] in
theorem obl_post {thr : Thread nD τ} {A A' B C : sProp 𝕄} {O : CellTallies nD τ sig (HIx 1)} {W : Waits sig (HIx 1)} {q : Fin 1} (hA : A ⊢ A') :
    iprop(A ∗ B ∗ C ∗ ∃ W', ⌜∀ p ∈ W', p ∈ W ∨ p.2 = none⌝ ∗ owes thr O W')
      ⊢ iprop(A' ∗ B ∗ C ∗ ∃ W', ⌜∀ p ∈ W', p ∈ W ∨ p.2 = none ∨ p.2 = some q⌝ ∗ owes thr O W') := by
  iintro ⟨HA, HB, HC, %W', %hW', HO⟩
  isplitl [HA]; · iapply hA; iexact HA
  isplitl [HB]; · iexact HB
  isplitl [HC]; · iexact HC
  iexists W'; isplitr
  · ipureintro; exact fun p hp => (hW' p hp).imp_right Or.inl
  · iexact HO

/-- What the body lemma leaves of the four arrays is what the tile hands back. -/
theorem td_of_body (d : Dev nD) (L : grid0.Coords) :
    iprop(labSlPts d L (fl d) ∗ degSlPts d L (fd d) ∗ batSlPts d L (fb d)
        ∗ ∃ f, cntRowPts d L f ∗ ⌜∀ y : S32x128.Idx, (cntRow L).view.read (Elt F) f y
            = tileTab (F := F) ((labSl L).view.read (Elt F) (fl d)) ((degSl L).view.read (Elt F) (fd d)) ((batSl L).view.read (Elt F) (fb d)) y⌝)
      ⊢ (tdT fl fd fb d L : sProp 𝕄) := by
  unfold tdT
  iintro ⟨Hl, Hd, Hb, %f, Hc, %hf⟩
  isplitl [Hl]; · iexact Hl
  isplitl [Hd]; · iexact Hd
  isplitl [Hb]; · iexact Hb
  iexists f
  isplitr
  · ipureintro; exact hf
  · iexact Hc

theorem tileObl (hF : (K (F := F)).Facts) (hpre : PreOK fb) : (K (F := F)).TileObl (D (F := F)) 𝒱 (P fl fd fb fc) v₀ 0 := by
  intro d c i O W hO _ _
  simp only [show (P fl fd fb fc).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (fl d) (fd d) (fb d) (fc d) (fun j => hpre d _) O W hO).trans
    (wp_mono frame _ _ fun _ => obl_post (td_of_body fl fd fb d _))

end Cert.Kernel.TileObl

end
-- ==== Proof.BKValue.lean ====
/-
  What the arrays hold along @main, read off the host operations: the arguments are never written; the label and
  degree vectors are the two columns of the node array; the three bias rows are the bias vectors; the result is the
  TensorCore body's term of the count array and the tables.
-/
import proofs.«203920_g2267742732911_cont_8to1_1065_18_alg».proof.Proof.BKPay
import proofs.«203920_g2267742732911_cont_8to1_1065_18_alg».proof.Proof.Gen.Kernel.Launch
import proofs.«203920_g2267742732911_cont_8to1_1065_18_alg».proof.Proof.BKMain
import Idealize.ShloMosaic.Lib.ValueIdx
import Idealize.ShloMosaic.Lib.Pipeline.Value

noncomputable section

namespace Cert.Kernel.Value

open Cert.Kernel Cert.Kernel.Gen Cert.Kernel.Setup Cert.Kernel.Pay

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Cert.Kernel.Part Cert.Kernel.Deal Cert.Kernel.Elem Cert.Kernel.Main
open Idealize.ShloMosaic.StableHlo (seq after)
open Idealize.ShloMosaic.ValueIdx

variable [FloatOps F]
variable (m : (ℓ : Loc nD τ sig) → Buf (Elt F) ℓ)

/-- The references the two stretches of host operations write. -/
abbrev W1 : List (Ref sig .tc) := [main_v0, main_v1, main_v2, main_v3]
abbrev W2 : List (Ref sig .tc) := [main_v5, main_v6, main_v7]

theorem hW1 : (ops1 (F := F)).Forall fun op => op.writes ⊆ ((W1.map (Proc.devRef (τ := τ) .tc)).toFinset) :=
  ⟨(show ({Proc.devRef .tc (main_v0 : Ref sig .tc)} : Finset (DevRef τ sig)) ⊆ _ by decide),
   (show ({Proc.devRef .tc (main_v1 : Ref sig .tc)} : Finset (DevRef τ sig)) ⊆ _ by decide),
   (show ({Proc.devRef .tc (main_v2 : Ref sig .tc)} : Finset (DevRef τ sig)) ⊆ _ by decide),
   (show ({Proc.devRef .tc (main_v3 : Ref sig .tc)} : Finset (DevRef τ sig)) ⊆ _ by decide)⟩
theorem hW2 : (ops2 (F := F)).Forall fun op => op.writes ⊆ ((W2.map (Proc.devRef (τ := τ) .tc)).toFinset) :=
  ⟨(show ({Proc.devRef .tc (main_v5 : Ref sig .tc)} : Finset (DevRef τ sig)) ⊆ _ by decide),
   (show ({Proc.devRef .tc (main_v6 : Ref sig .tc)} : Finset (DevRef τ sig)) ⊆ _ by decide),
   (show ({Proc.devRef .tc (main_v7 : Ref sig .tc)} : Finset (DevRef τ sig)) ⊆ _ by decide)⟩

/-- A reference no host operation writes, other than the count array, keeps its launch contents up to the region. -/
theorem V2_kept (d : Dev nD) (g : Buf (Elt F) (cntLoc d)) (r : Ref sig .tc) (h1 : r ∉ W1) (h2 : r ∉ W2) (h4 : r ≠ main_v4) :
    V2 m d g (Proc.devRef .tc r) = m (d, Proc.devRef .tc r) := by
  show after (ops2 (F := F)) (V1' m d g) (Proc.devRef .tc r) = _
  rw [StableHlo.after_of_writes_sub (ops2 (F := F)) (V1' m d g) hW2 h2]
  show Function.update (V1 m d) cnt' g (Proc.devRef .tc r) = _
  rw [Function.update_of_ne (StableHlo.devRef_ne_of_ne h4)]
  show after (ops1 (F := F)) (V0 m d) (Proc.devRef .tc r) = _
  rw [StableHlo.after_of_writes_sub (ops1 (F := F)) (V0 m d) hW1 h1]

theorem V2_cnt (d : Dev nD) (g : Buf (Elt F) (cntLoc d)) : V2 m d g cnt' = g := by
  show after (ops2 (F := F)) (V1' m d g) (Proc.devRef .tc main_v4) = _
  rw [StableHlo.after_of_writes_sub (ops2 (F := F)) (V1' m d g) hW2 (by decide)]
  exact Function.update_self _ _ _

theorem V3_kept (d : Dev nD) (g : Buf (Elt F) (cntLoc d)) (r : Ref sig .tc) (h1 : r ∉ W1) (h2 : r ∉ W2) (h4 : r ≠ main_v4) (h8 : r ≠ main_v8) :
    V3 m d g (Proc.devRef .tc r) = m (d, Proc.devRef .tc r) := by
  show Function.update (V2 m d g) out' _ (Proc.devRef .tc r) = _
  rw [Function.update_of_ne (StableHlo.devRef_ne_of_ne h8)]
  exact V2_kept m d g r h1 h2 h4

theorem V3_out (d : Dev nD) (g : Buf (Elt F) (cntLoc d)) : V3 m d g out' = headVal d (Wof d (V2 m d g)) :=
  Function.update_self _ _ _

/-- The three bias rows. -/
theorem V2_v5 (d : Dev nD) (g : Buf (Elt F) (cntLoc d)) :
    V2 m d g (Proc.devRef .tc main_v5) = shapeCast S1x128 (m (d, Proc.devRef .tc main_arg6)) shapeCasts_S128_S1x128 := by
  show after (ops2 (F := F)) (V1' m d g) (Proc.devRef .tc main_v5) = _
  after_results
  rfl

theorem V2_v6 (d : Dev nD) (g : Buf (Elt F) (cntLoc d)) :
    V2 m d g (Proc.devRef .tc main_v6) = shapeCast S1x128 (m (d, Proc.devRef .tc main_arg8)) shapeCasts_S128_S1x128 := by
  show after (ops2 (F := F)) (V1' m d g) (Proc.devRef .tc main_v6) = _
  after_results
  rfl
theorem V2_v7 (d : Dev nD) (g : Buf (Elt F) (cntLoc d)) :
    V2 m d g (Proc.devRef .tc main_v7) = shapeCast S1x18 (m (d, Proc.devRef .tc main_arg10)) shapeCasts_S18_S1x18 := by
  show after (ops2 (F := F)) (V1' m d g) (Proc.devRef .tc main_v7) = _
  after_results
  rfl

/-- The region's result, over the launch memory and the count array. -/
theorem headVal_eq (d : Dev nD) (g : Buf (Elt F) (cntLoc d)) :
    headVal d (Wof d (V2 m d g))
      = k1_pay1 g (m (d, Proc.devRef .tc main_arg3)) (m (d, Proc.devRef .tc main_arg4)) (m (d, Proc.devRef .tc main_arg2)) (m (d, Proc.devRef .tc main_arg5))
          (shapeCast S1x128 (m (d, Proc.devRef .tc main_arg6)) shapeCasts_S128_S1x128) (m (d, Proc.devRef .tc main_arg7))
          (shapeCast S1x128 (m (d, Proc.devRef .tc main_arg8)) shapeCasts_S128_S1x128) (m (d, Proc.devRef .tc main_arg9))
          (shapeCast S1x18 (m (d, Proc.devRef .tc main_arg10)) shapeCasts_S18_S1x18) := by
  unfold headVal Wof
  rw [show V2 m d g (Proc.devRef .tc main_v4) = g from V2_cnt m d g,
    V2_kept m d g main_arg3 (by decide) (by decide) (by decide), V2_kept m d g main_arg4 (by decide) (by decide) (by decide),
    V2_kept m d g main_arg2 (by decide) (by decide) (by decide), V2_kept m d g main_arg5 (by decide) (by decide) (by decide),
    V2_kept m d g main_arg7 (by decide) (by decide) (by decide), V2_kept m d g main_arg9 (by decide) (by decide) (by decide),
    V2_v5, V2_v6, V2_v7]

/-! ## The label, degree and segment-id vectors -/

theorem fl_eq (d : Dev nD) :
    fl m d = shapeCast S32768 (extractStridedSlice S32768x1 ![0, 0] (m (d, Proc.devRef .tc main_arg0)) slices_S32768x2_S32768x1_0_0) shapeCasts_S32768x1_S32768 := by
  show after (ops1 (F := F)) (V0 m d) (Proc.devRef .tc main_v1) = _
  after_results
  rfl
theorem fd_eq (d : Dev nD) :
    fd m d = shapeCast S32768 (extractStridedSlice S32768x1 ![0, 1] (m (d, Proc.devRef .tc main_arg0)) slices_S32768x2_S32768x1_0_1) shapeCasts_S32768x1_S32768 := by
  show after (ops1 (F := F)) (V0 m d) (Proc.devRef .tc main_v3) = _
  after_results
  rfl
theorem fb_eq (d : Dev nD) : fb m d = m (d, Proc.devRef .tc main_arg1) :=
  StableHlo.after_of_writes_sub (ops1 (F := F)) (V0 m d) hW1 (by decide)

/-- Entry `n` of the label vector is entry `(n, 0)` of the node array; of the degree vector, entry `(n, 1)`. -/
theorem col_apply {α : Type} (x : S32768x2.Idx → α) (k : Fin 2) (hs : S32768x2.Slices ![0, k.val] S32768x1) (n : Fin 32768) :
    shapeCast S32768 (extractStridedSlice S32768x1 ![0, k.val] x hs) shapeCasts_S32768x1_S32768 (ix1 n) = x (ix2 n k) := by
  rw [shapeCast_apply _ _ (ix1 n) (ix2 n (0 : Fin 1)) (by rw [Shape.rowMajor_val_two, Shape.rowMajor_val_one]; simp)]
  exact extractStridedSlice_apply _ _ _ (ix2 n (0 : Fin 1)) (ix2 n k) (fun a => by
    match a with
    | ⟨0, _⟩ => simp
    | ⟨1, _⟩ => simp)

/-! ## A tile's slices and row, in coordinates -/

/-- The number of tile `L`'s slice and row. -/
def wOf (L : grid0.Coords) : Fin 32 :=
  ⟨16 * (L 0).val + (L 1).val, by
    have h0 : (L 0).val < 2 := (L 0).isLt
    have h1 : (L 1).val < 16 := (L 1).isLt
    omega⟩

theorem sl_lt (L : grid0.Coords) (n : S1024.Idx) : 1024 * (wOf L).val + (n 0).val < 32768 := by
  have h0 : (wOf L).val < 32 := (wOf L).isLt
  have h1 : (n 0).val < 1024 := (n 0).isLt
  omega

theorem read_labSl (d : Dev nD) (L : grid0.Coords) (f : Buf (Elt F) (labLoc d)) (n : S1024.Idx) :
    (labSl L).view.read (Elt F) f n = f (ix1 ⟨1024 * (wOf L).val + (n 0).val, sl_lt L n⟩) := by
  rw [View.read_apply]
  show f ((slRect L).emb n) = _
  congr 1
  funext a
  match a with
  | ⟨0, _⟩ =>
    refine Fin.ext ?_
    rw [Rect.emb_apply]
    show k0_off9 L 0 + 1 * (n 0).val = 1024 * (16 * (L 0).val + (L 1).val) + (n 0).val
    rw [k0_off9_eq]
    show 16384 * (L 0).val + 1024 * (L 1).val + 1 * (n 0).val = 1024 * (16 * (L 0).val + (L 1).val) + (n 0).val
    omega

theorem read_degSl (d : Dev nD) (L : grid0.Coords) (f : Buf (Elt F) (degLoc d)) (n : S1024.Idx) :
    (degSl L).view.read (Elt F) f n = f (ix1 ⟨1024 * (wOf L).val + (n 0).val, sl_lt L n⟩) := by
  rw [View.read_apply]
  show f ((slRect L).emb n) = _
  congr 1
  funext a
  match a with
  | ⟨0, _⟩ =>
    refine Fin.ext ?_
    rw [Rect.emb_apply]
    show k0_off9 L 0 + 1 * (n 0).val = 1024 * (16 * (L 0).val + (L 1).val) + (n 0).val
    rw [k0_off9_eq]
    show 16384 * (L 0).val + 1024 * (L 1).val + 1 * (n 0).val = 1024 * (16 * (L 0).val + (L 1).val) + (n 0).val
    omega

theorem read_batSl (d : Dev nD) (L : grid0.Coords) (f : Buf (Elt F) (batLoc d)) (n : S1024.Idx) :
    (batSl L).view.read (Elt F) f n = f (ix1 ⟨1024 * (wOf L).val + (n 0).val, sl_lt L n⟩) := by
  rw [View.read_apply]
  show f ((slRect L).emb n) = _
  congr 1
  funext a
  match a with
  | ⟨0, _⟩ =>
    refine Fin.ext ?_
    rw [Rect.emb_apply]
    show k0_off9 L 0 + 1 * (n 0).val = 1024 * (16 * (L 0).val + (L 1).val) + (n 0).val
    rw [k0_off9_eq]
    show 16384 * (L 0).val + 1024 * (L 1).val + 1 * (n 0).val = 1024 * (16 * (L 0).val + (L 1).val) + (n 0).val
    omega

theorem read_cntRow (d : Dev nD) (L : grid0.Coords) (g : Buf (Elt F) (cntLoc d)) (y : S32x128.Idx) :
    (cntRow L).view.read (Elt F) g y = g (ix3 (wOf L) (y 0) (y 1)) := by
  rw [View.read_apply]
  show g ((rowRect L).emb (Shape.reshapeEquiv squeezes_S1x32x128_S32x128.numel_eq y)) = _
  rw [Shape.reshapeEquiv_eq_of_rowMajor squeezes_S1x32x128_S32x128.numel_eq (x := y) (y := ix3 (0 : Fin 1) (y 0) (y 1))
    (by rw [Shape.rowMajor_val_three, Shape.rowMajor_val_two]; simp)]
  congr 1
  funext a
  match a with
  | ⟨0, _⟩ =>
    refine Fin.ext ?_
    rw [Rect.emb_apply]
    show k0_off14 L 0 + 1 * 0 = 16 * (L 0).val + (L 1).val
    rw [k0_off14_eq]
    show 16 * (L 0).val + (L 1).val + 1 * 0 = 16 * (L 0).val + (L 1).val
    omega
  | ⟨1, _⟩ =>
    refine Fin.ext ?_
    rw [Rect.emb_apply]
    show k0_off14 L 1 + 1 * (y 0).val = (y 0).val
    rw [k0_off14_eq]
    show 0 + 1 * (y 0).val = (y 0).val
    omega
  | ⟨2, _⟩ =>
    refine Fin.ext ?_
    rw [Rect.emb_apply]
    show k0_off14 L 2 + 1 * (y 1).val = (y 1).val
    rw [k0_off14_eq]
    show 0 + 1 * (y 1).val = (y 1).val
    omega

end Cert.Kernel.Value

end
-- ==== Proof.BKRun.lean ====
/-
  The kernel program's run: every weakly fair execution of the device's threads terminates without a fault, with
  every argument array unchanged and the result array at the TensorCore body's term of a count array whose rows are the
  tiles' tables. The launch theorem for SparseCore programs, at the count kernel's body, the identity split, the launch
  element, and @main's proof.
-/
import proofs.«203920_g2267742732911_cont_8to1_1065_18_alg».proof.Proof.BKPay
import proofs.«203920_g2267742732911_cont_8to1_1065_18_alg».proof.Proof.Gen.Kernel.Launch
import proofs.«203920_g2267742732911_cont_8to1_1065_18_alg».proof.Proof.BKMain
import proofs.«203920_g2267742732911_cont_8to1_1065_18_alg».proof.Proof.BKTile
import proofs.«203920_g2267742732911_cont_8to1_1065_18_alg».proof.Proof.BKValue

noncomputable section

namespace Cert.Kernel.Run

open Cert.Kernel Cert.Kernel.Gen Cert.Kernel.Setup Cert.Kernel.Pay

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Cert.Kernel.Part Cert.Kernel.Deal Cert.Kernel.Elem Cert.Kernel.Main Cert.Kernel.TileObl Cert.Kernel.Value

variable [FloatOps F]
variable (m : (ℓ : Loc nD τ sig) → Buf (Elt F) ℓ) (ρ : Dev nD → PrngReg)

theorem run_main [∀ e, Nonempty (Elt F e)] (hhead : HeadSpec (F := F)) (hpre : PreOK (fb m)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (fl m) (fd m) (fb m) (fc m)) facts v₀
    (fun q hq => match q with | 0 => nomatch hq)
    (fun q _ => match q with | 0 => tileObl (fl m) (fd m) (fb m) (fc m) facts hpre)
    (fun q _ => match q with | 0 => SparseCore.Cfg.VecSplit.of_plain (vecSplit (fl m) (fd m) (fb m) (fc m)))
    m ρ main (G (F := F)) (FIN m) (u₀ (F := F)) (sep_elim_left.trans (hu₀ (fl m) (fd m) (fb m) (fc m))) (hmain m ρ hhead) (fq m) (hfin m) (QC m)
    (fun _ h c => h c)

/-- Segment ids below sixteen in the launch memory are segment ids below sixteen at the call. -/
theorem preOK_of_batch (h : ∀ (d : Dev nD) (j : S32768.Idx), (m (d, Proc.devRef .tc main_arg1) j).toNat ≤ 15) : PreOK (fb m) := by
  intro d j
  rw [fb_eq]
  exact h d j

/-- The run leaves every argument array as it found it. -/
theorem args_of_QC (r : PUnit × MemSt nD τ sig (Elt F)) (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10) := by
  obtain ⟨g, _, hall⟩ := h c
  exact ⟨(hall (Proc.devRef .tc main_arg0) (by decide)).trans (V3_kept m c g main_arg0 (by decide) (by decide) (by decide) (by decide)),
    (hall (Proc.devRef .tc main_arg1) (by decide)).trans (V3_kept m c g main_arg1 (by decide) (by decide) (by decide) (by decide)),
    (hall (Proc.devRef .tc main_arg2) (by decide)).trans (V3_kept m c g main_arg2 (by decide) (by decide) (by decide) (by decide)),
    (hall (Proc.devRef .tc main_arg3) (by decide)).trans (V3_kept m c g main_arg3 (by decide) (by decide) (by decide) (by decide)),
    (hall (Proc.devRef .tc main_arg4) (by decide)).trans (V3_kept m c g main_arg4 (by decide) (by decide) (by decide) (by decide)),
    (hall (Proc.devRef .tc main_arg5) (by decide)).trans (V3_kept m c g main_arg5 (by decide) (by decide) (by decide) (by decide)),
    (hall (Proc.devRef .tc main_arg6) (by decide)).trans (V3_kept m c g main_arg6 (by decide) (by decide) (by decide) (by decide)),
    (hall (Proc.devRef .tc main_arg7) (by decide)).trans (V3_kept m c g main_arg7 (by decide) (by decide) (by decide) (by decide)),
    (hall (Proc.devRef .tc main_arg8) (by decide)).trans (V3_kept m c g main_arg8 (by decide) (by decide) (by decide) (by decide)),
    (hall (Proc.devRef .tc main_arg9) (by decide)).trans (V3_kept m c g main_arg9 (by decide) (by decide) (by decide) (by decide)),
    (hall (Proc.devRef .tc main_arg10) (by decide)).trans (V3_kept m c g main_arg10 (by decide) (by decide) (by decide) (by decide))⟩

/-- The run leaves the result array at the body's term of some count array whose rows are the tiles' tables. -/
theorem out_of_QC (r : PUnit × MemSt nD τ sig (Elt F)) (h : QC m r) (c : Dev nD) :
    ∃ g, CntOK (fl m) (fd m) (fb m) c g ∧ r.2.mem ((c.tc : Thread nD τ).loc main_v8) = headVal c (Wof c (V2 m c g)) := by
  obtain ⟨g, hg, hall⟩ := h c
  exact ⟨g, hg, (hall (Proc.devRef .tc main_v8) (by decide)).trans (V3_out m c g)⟩

end Cert.Kernel.Run

end
-- ==== Proof.Head.lean ====
import proofs.«203920_g2267742732911_cont_8to1_1065_18_alg».proof.Proof.HeadData

/-!
  The dense head as a line of the TensorCore's program beside the SparseCore call.

  The program's body table is the kernels' table extended twice: by the pipeline library, whose
  entry label runs the region, and by the SparseCore library, which adds the dispatch labels and
  leaves every other label's body as it was. So the region's step, proved against the pipeline
  library's table, is a step of the line under the program's own table.
-/

noncomputable section

namespace Cert.Proof.HeadKernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]
variable {Name : Type} [DecidableEq Name] {U : Type} [URA U]

local notation "𝕄" => MT nD τ sig (HIx 1) (Elt F) Name U ℕ

variable (W : HVal F) (f8 : (main_v8 : Ref sig .tc).ty.Contents (Elt F)) (bnd : ℕ)
variable (L : GSem nD τ sig → Finset (HIx 1)) (lv : GSem nD τ sig → HIx 1 → ℕ)

/-- The line under the pipeline library's table alone. -/
abbrev entryLine : Prog (TpuEff nD τ sig (Elt F) (Pipeline.Sig Λ₀ (Fin 1) fun p => (pcfgs (F := F) p).Adm) .tc) PUnit :=
  .op (.customCall (Pipeline.entry (0 : Fin 1)) ()) fun _ => .ret ⟨⟩

/-- Lifted to the program's table it is the printed line. -/
theorem lift_entryLine :
    (SparseCore.liftProg (Q := 1) (entryLine (F := F)) : Prog (TpuEff nD τ sig (Elt F) (SparseCore.Sig (Pipeline.Sig Λ₀ (Fin 1) fun p => (pcfgs (F := F) p).Adm) 1) .tc) PUnit)
      = Prog.lift (.customCall (SparseCore.inner (Pipeline.entry 0)) ()) := rfl

/-- Distinct staging cells stay distinct when every configuration is read as one with no prefetched table
    pinned at its one admissible contents: that reading gives the configuration back. -/
theorem inj_pin {P : Type} {Λ : Labels} {Val : EltTy → Type} (cs : P → Pipeline.Cfg sig Λ)
    (h : Function.Injective (Pipeline.cellOf (nD := nD) (τ := τ) cs)) :
    Function.Injective (Pipeline.cellOf (nD := nD) (τ := τ)
      (Pipeline.pin (fun p => (cs p).toPCfg (Val := Val)) fun p => (cs p).toPCfg_adm)) := h

/-- The program's staging cells are pairwise distinct, in the spelling the region's rule takes. -/
theorem phinj : Function.Injective (Pipeline.cellOf (nD := nD) (τ := τ) (Pipeline.pin (pcfgs (F := F)) adm)) :=
  inj_pin cfgs cellOf_inj

set_option backward.isDefEq.respectTransparency.types false in
/-- The line from any region record over the proof data, its two thread states named: the region's step under the
    pipeline library's table, lifted to the program's. -/
theorem wp_head_of [∀ e, Nonempty (Elt F e)] [Infinite Name]
    (EP : Emb (URounds (GSem nD τ sig) Unit) (MT nD τ sig (HIx 1) (Elt F) Name U ℕ)) [EP.LandsIn (upEmb : UEmb _ 𝕄)] (d : Dev nD)
    (R : Pipeline.RegionSeg (pcfgs (F := F)) adm (dats (Name := Name) (U := U) W f8 bnd) none defs₀ 𝒱₀ L lv 0)
    (PRE POST : sProp 𝕄) (hpre : R.pre d = PRE) (hpost : R.post d = POST) :
    iprop(boundary (d.tc : Thread nD τ) ∗ levAts L lv ∗ Pipeline.cellsGhost (Pipeline.pin (pcfgs (F := F)) adm) EP 0 d ∗ Pipeline.toksInit (Pipeline.pin (pcfgs (F := F)) adm) EP 0 d ∗ PRE)
      ⊢ wp frame (wpE ((sc (F := F)).defs (Pipeline.defs pcfgs defs₀)) 𝒱₀.lift (d.tc : Thread nD τ) none) Set.univ
          (Prog.lift (.customCall (SparseCore.inner (Pipeline.entry 0)) ()))
          fun _ => iprop(boundary (d.tc : Thread nD τ) ∗ POST) := by
  subst hpre hpost
  show _ ⊢ wp frame _ Set.univ (SparseCore.liftProg (Q := 1) (entryLine (F := F))) _
  iintro ⟨Hb, #Hlev, Hg, Ht, Hpre⟩
  iapply ((sc (F := F)).wp_liftProg (Pipeline.defs pcfgs defs₀) 𝒱₀.lift (d.tc : Thread nD τ) Set.univ none (entryLine (F := F)) _)
  iapply (Pipeline.RegionSeg.wp (pcfgs (F := F)) adm (dats (Name := Name) (U := U) W f8 bnd) none phinj EP defs₀ 𝒱₀ L lv R d none
    (fun _ h => nomatch h) (α := PUnit.{1}) (fun _ => .ret PUnit.unit) _)
  isplitr
  · iintro ⟨Hb, Hpost⟩
    rw [wp_ret]; imodintro
    isplitl [Hb] <;> iassumption
  isplitl [Hb]; · iexact Hb
  isplitl [Hpre]; · iexact Hpre
  isplitr; · iexact Hlev
  isplitl [Hg] <;> iassumption

/-- The dense head as the TensorCore runs it between the SparseCore call and the return: from the region
    boundary, the level facts, the staging cells' launch ghost state and duty tokens, the core owing nothing,
    the ten operands whole at `W` and the result's array at anything, to the boundary, the core owing nothing,
    the operands as they were and the result at the body's term of them. -/
theorem wp_head [∀ e, Nonempty (Elt F e)] [Infinite Name]
    (EP : Emb (URounds (GSem nD τ sig) Unit) (MT nD τ sig (HIx 1) (Elt F) Name U ℕ)) [EP.LandsIn (upEmb : UEmb _ 𝕄)] (d : Dev nD) :
    iprop(boundary (d.tc : Thread nD τ) ∗ levAts L lv ∗ Pipeline.cellsGhost (Pipeline.pin (pcfgs (F := F)) adm) EP 0 d ∗ Pipeline.toksInit (Pipeline.pin (pcfgs (F := F)) adm) EP 0 d
        ∗ owesB (F := F) (Name := Name) (U := U) bnd d ∗ headIns (Name := Name) (U := U) W d
        ∗ ∃ f, ((d.tc : Thread nD τ).loc main_v8) ↦{fullShare} f)
      ⊢ wp frame (wpE ((sc (F := F)).defs (Pipeline.defs pcfgs defs₀)) 𝒱₀.lift (d.tc : Thread nD τ) none) Set.univ
          (Prog.lift (.customCall (SparseCore.inner (Pipeline.entry 0)) ()))
          fun _ => iprop(boundary (d.tc : Thread nD τ) ∗ owesB (F := F) (Name := Name) (U := U) bnd d
            ∗ headIns (Name := Name) (U := U) W d ∗ ((d.tc : Thread nD τ).loc main_v8) ↦{fullShare} headVal W) := by
  iintro ⟨Hb, Hlev, Hg, Ht, HO, Hins, %f8, H8⟩
  iapply (wp_wand_r frame _ Set.univ (Q := fun _ => iprop(boundary (d.tc : Thread nD τ) ∗ iprop(headIns (Name := Name) (U := U) W d ∗ (((d.tc : Thread nD τ).loc main_v8) ↦{fullShare} headVal W) ∗ owesB (F := F) (Name := Name) (U := U) bnd d))))
  isplitl [Hb Hlev Hg Ht HO Hins H8]
  · iapply (wp_head_of W f8 bnd L lv EP d (reg W f8 bnd L lv) iprop(headIns (Name := Name) (U := U) W d ∗ (((d.tc : Thread nD τ).loc main_v8) ↦{fullShare} f8) ∗ owesB (F := F) (Name := Name) (U := U) bnd d) iprop(headIns (Name := Name) (U := U) W d ∗ (((d.tc : Thread nD τ).loc main_v8) ↦{fullShare} headVal W) ∗ owesB (F := F) (Name := Name) (U := U) bnd d) rfl rfl)
    isplitl [Hb]; · iexact Hb
    isplitl [Hlev]; · iexact Hlev
    isplitl [Hg]; · iexact Hg
    isplitl [Ht]; · iexact Ht
    isplitl [Hins]; · iexact Hins
    isplitl [H8]; · iexact H8
    iexact HO
  · iintro %_ ⟨Hb, Hins, H8, HO⟩
    isplitl [Hb]; · iexact Hb
    isplitl [HO]; · iexact HO
    isplitl [Hins] <;> iassumption

end Cert.Proof.HeadKernelIdeal

end
-- ==== Proof.BHead.lean ====
import proofs.«203920_g2267742732911_cont_8to1_1065_18_alg».proof.Proof.BHeadData

/-!
  The dense head as a line of the TensorCore's program beside the SparseCore call.

  The program's body table is the kernels' table extended twice: by the pipeline library, whose
  entry label runs the region, and by the SparseCore library, which adds the dispatch labels and
  leaves every other label's body as it was. So the region's step, proved against the pipeline
  library's table, is a step of the line under the program's own table.
-/

noncomputable section

namespace Cert.Proof.HeadKernel

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]
variable {Name : Type} [DecidableEq Name] {U : Type} [URA U]

local notation "𝕄" => MT nD τ sig (HIx 1) (Elt F) Name U ℕ

variable (W : HVal F) (f8 : (main_v8 : Ref sig .tc).ty.Contents (Elt F)) (bnd : ℕ)
variable (L : GSem nD τ sig → Finset (HIx 1)) (lv : GSem nD τ sig → HIx 1 → ℕ)

/-- The line under the pipeline library's table alone. -/
abbrev entryLine : Prog (TpuEff nD τ sig (Elt F) (Pipeline.Sig Λ₀ (Fin 1) fun p => (pcfgs (F := F) p).Adm) .tc) PUnit :=
  .op (.customCall (Pipeline.entry (0 : Fin 1)) ()) fun _ => .ret ⟨⟩

/-- Lifted to the program's table it is the printed line. -/
theorem lift_entryLine :
    (SparseCore.liftProg (Q := 1) (entryLine (F := F)) : Prog (TpuEff nD τ sig (Elt F) (SparseCore.Sig (Pipeline.Sig Λ₀ (Fin 1) fun p => (pcfgs (F := F) p).Adm) 1) .tc) PUnit)
      = Prog.lift (.customCall (SparseCore.inner (Pipeline.entry 0)) ()) := rfl

/-- Distinct staging cells stay distinct when every configuration is read as one with no prefetched table
    pinned at its one admissible contents: that reading gives the configuration back. -/
theorem inj_pin {P : Type} {Λ : Labels} {Val : EltTy → Type} (cs : P → Pipeline.Cfg sig Λ)
    (h : Function.Injective (Pipeline.cellOf (nD := nD) (τ := τ) cs)) :
    Function.Injective (Pipeline.cellOf (nD := nD) (τ := τ)
      (Pipeline.pin (fun p => (cs p).toPCfg (Val := Val)) fun p => (cs p).toPCfg_adm)) := h

/-- The program's staging cells are pairwise distinct, in the spelling the region's rule takes. -/
theorem phinj : Function.Injective (Pipeline.cellOf (nD := nD) (τ := τ) (Pipeline.pin (pcfgs (F := F)) adm)) :=
  inj_pin cfgs cellOf_inj

set_option backward.isDefEq.respectTransparency.types false in
/-- The line from any region record over the proof data, its two thread states named: the region's step under the
    pipeline library's table, lifted to the program's. -/
theorem wp_head_of [∀ e, Nonempty (Elt F e)] [Infinite Name]
    (EP : Emb (URounds (GSem nD τ sig) Unit) (MT nD τ sig (HIx 1) (Elt F) Name U ℕ)) [EP.LandsIn (upEmb : UEmb _ 𝕄)] (d : Dev nD)
    (R : Pipeline.RegionSeg (pcfgs (F := F)) adm (dats (Name := Name) (U := U) W f8 bnd) none defs₀ 𝒱₀ L lv 0)
    (PRE POST : sProp 𝕄) (hpre : R.pre d = PRE) (hpost : R.post d = POST) :
    iprop(boundary (d.tc : Thread nD τ) ∗ levAts L lv ∗ Pipeline.cellsGhost (Pipeline.pin (pcfgs (F := F)) adm) EP 0 d ∗ Pipeline.toksInit (Pipeline.pin (pcfgs (F := F)) adm) EP 0 d ∗ PRE)
      ⊢ wp frame (wpE ((sc (F := F)).defs (Pipeline.defs pcfgs defs₀)) 𝒱₀.lift (d.tc : Thread nD τ) none) Set.univ
          (Prog.lift (.customCall (SparseCore.inner (Pipeline.entry 0)) ()))
          fun _ => iprop(boundary (d.tc : Thread nD τ) ∗ POST) := by
  subst hpre hpost
  show _ ⊢ wp frame _ Set.univ (SparseCore.liftProg (Q := 1) (entryLine (F := F))) _
  iintro ⟨Hb, #Hlev, Hg, Ht, Hpre⟩
  iapply ((sc (F := F)).wp_liftProg (Pipeline.defs pcfgs defs₀) 𝒱₀.lift (d.tc : Thread nD τ) Set.univ none (entryLine (F := F)) _)
  iapply (Pipeline.RegionSeg.wp (pcfgs (F := F)) adm (dats (Name := Name) (U := U) W f8 bnd) none phinj EP defs₀ 𝒱₀ L lv R d none
    (fun _ h => nomatch h) (α := PUnit.{1}) (fun _ => .ret PUnit.unit) _)
  isplitr
  · iintro ⟨Hb, Hpost⟩
    rw [wp_ret]; imodintro
    isplitl [Hb] <;> iassumption
  isplitl [Hb]; · iexact Hb
  isplitl [Hpre]; · iexact Hpre
  isplitr; · iexact Hlev
  isplitl [Hg] <;> iassumption

/-- The dense head as the TensorCore runs it between the SparseCore call and the return: from the region
    boundary, the level facts, the staging cells' launch ghost state and duty tokens, the core owing nothing,
    the ten operands whole at `W` and the result's array at anything, to the boundary, the core owing nothing,
    the operands as they were and the result at the body's term of them. -/
theorem wp_head [∀ e, Nonempty (Elt F e)] [Infinite Name]
    (EP : Emb (URounds (GSem nD τ sig) Unit) (MT nD τ sig (HIx 1) (Elt F) Name U ℕ)) [EP.LandsIn (upEmb : UEmb _ 𝕄)] (d : Dev nD) :
    iprop(boundary (d.tc : Thread nD τ) ∗ levAts L lv ∗ Pipeline.cellsGhost (Pipeline.pin (pcfgs (F := F)) adm) EP 0 d ∗ Pipeline.toksInit (Pipeline.pin (pcfgs (F := F)) adm) EP 0 d
        ∗ owesB (F := F) (Name := Name) (U := U) bnd d ∗ headIns (Name := Name) (U := U) W d
        ∗ ∃ f, ((d.tc : Thread nD τ).loc main_v8) ↦{fullShare} f)
      ⊢ wp frame (wpE ((sc (F := F)).defs (Pipeline.defs pcfgs defs₀)) 𝒱₀.lift (d.tc : Thread nD τ) none) Set.univ
          (Prog.lift (.customCall (SparseCore.inner (Pipeline.entry 0)) ()))
          fun _ => iprop(boundary (d.tc : Thread nD τ) ∗ owesB (F := F) (Name := Name) (U := U) bnd d
            ∗ headIns (Name := Name) (U := U) W d ∗ ((d.tc : Thread nD τ).loc main_v8) ↦{fullShare} headVal W) := by
  iintro ⟨Hb, Hlev, Hg, Ht, HO, Hins, %f8, H8⟩
  iapply (wp_wand_r frame _ Set.univ (Q := fun _ => iprop(boundary (d.tc : Thread nD τ) ∗ iprop(headIns (Name := Name) (U := U) W d ∗ (((d.tc : Thread nD τ).loc main_v8) ↦{fullShare} headVal W) ∗ owesB (F := F) (Name := Name) (U := U) bnd d))))
  isplitl [Hb Hlev Hg Ht HO Hins H8]
  · iapply (wp_head_of W f8 bnd L lv EP d (reg W f8 bnd L lv) iprop(headIns (Name := Name) (U := U) W d ∗ (((d.tc : Thread nD τ).loc main_v8) ↦{fullShare} f8) ∗ owesB (F := F) (Name := Name) (U := U) bnd d) iprop(headIns (Name := Name) (U := U) W d ∗ (((d.tc : Thread nD τ).loc main_v8) ↦{fullShare} headVal W) ∗ owesB (F := F) (Name := Name) (U := U) bnd d) rfl rfl)
    isplitl [Hb]; · iexact Hb
    isplitl [Hlev]; · iexact Hlev
    isplitl [Hg]; · iexact Hg
    isplitl [Ht]; · iexact Ht
    isplitl [Hins]; · iexact Hins
    isplitl [H8]; · iexact H8
    iexact HO
  · iintro %_ ⟨Hb, Hins, H8, HO⟩
    isplitl [Hb]; · iexact Hb
    isplitl [HO]; · iexact HO
    isplitl [Hins] <;> iassumption

end Cert.Proof.HeadKernel

end
-- ==== Proof.CountScatter.lean ====
import Idealize.ShloMosaic.PureOps.Ideal

/-!
One accumulating scatter, read at the extended reals.

The scatter walks the lanes of the stored vector in ascending order and adds each lane's value onto
the table entry its index names.  Addition of extended reals is commutative and associative with
neutral element zero, so the entry at `j` afterwards is its old value plus the sum, over the lanes
whose index is `j`, of the stored values: no finiteness is needed for this.
-/

open Idealize.ShloMosaic

namespace Cert.Count

variable {s : Shape} {d : Fin 1 → Nat}

/-- One step of the walk: lane `k` adds its value at the entry it names. -/
private noncomputable def step (idxs : Fin s.rank → IVec ⟨1, d⟩ 32) (v : Vec Ideal ⟨1, d⟩ .f32)
    (h : ∀ a x, (idxs a x).toNat < s.size a) (g : Vec Ideal s .f32) (k : Fin (d 0)) : Vec Ideal s .f32 :=
  fun j => if idxAt idxs h (Shape.ofLane k) = j then g (idxAt idxs h (Shape.ofLane k)) + v (Shape.ofLane k) else g j

/-- Walking any list of lanes adds, at each entry, the values of the listed lanes that name it. -/
private theorem foldl_step (idxs : Fin s.rank → IVec ⟨1, d⟩ 32) (v : Vec Ideal ⟨1, d⟩ .f32)
    (h : ∀ a x, (idxs a x).toNat < s.size a) (L : List (Fin (d 0))) (f : Vec Ideal s .f32) (j : s.Idx) :
    L.foldl (step idxs v h) f j
      = f j + (L.map fun k => if idxAt idxs h (Shape.ofLane k) = j then v (Shape.ofLane k) else (0 : EReal)).sum := by
  induction L generalizing f with
  | nil => simp
  | cons k L ih =>
    rw [List.foldl_cons, ih, List.map_cons, List.sum_cons]
    unfold step
    by_cases hk : idxAt idxs h (Shape.ofLane k) = j
    · rw [if_pos hk, if_pos hk, hk, add_assoc]
    · rw [if_neg hk, if_neg hk, zero_add]

/-- The accumulating scatter of all lanes: the entry at `j` gains the values of the lanes whose index is `j`. -/
theorem storeIdx_add_apply (f : Vec Ideal s .f32) (idxs : Fin s.rank → IVec ⟨1, d⟩ 32) (v : Vec Ideal ⟨1, d⟩ .f32)
    (h : ∀ a x, (idxs a x).toNat < s.size a) (j : s.Idx) :
    storeIdx f idxs v (fun _ => 1#1) true h j
      = f j + ∑ k : Fin (d 0), if idxAt idxs h (Shape.ofLane k) = j then v (Shape.ofLane k) else (0 : EReal) := by
  have hstep : (fun (g : Vec Ideal s .f32) (k : Fin (d 0)) =>
      let x := Shape.ofLane k
      if (fun _ => 1#1 : IVec ⟨1, d⟩ 1) x = 1 then
        let i := idxAt idxs h x
        let y := if true then Elt.idxAdd .f32 (g i) (v x) else v x
        fun j => if (∀ a, (j a).val = (i a).val) then y else g j
      else g) = step idxs v h := by
    funext g k j
    unfold step
    have hm : ((1#1 : BitVec 1) = 1) := rfl
    simp only [hm, if_true, Elt.idxAdd_f32, Ideal.idxAddf_def]
    by_cases hk : idxAt idxs h (Shape.ofLane k) = j
    · rw [if_pos hk, if_pos (by intro a; rw [hk])]
    · rw [if_neg hk, if_neg (by
        intro hall; exact hk (funext fun a => Fin.ext (hall a).symm))]
  unfold storeIdx
  rw [hstep, foldl_step, Fin.sum_univ_def]

end Cert.Count
-- ==== Proof.CountTile.lean ====
import proofs.«203920_g2267742732911_cont_8to1_1065_18_alg».proof.Proof.TileSpec
import proofs.«203920_g2267742732911_cont_8to1_1065_18_alg».proof.Proof.CountScatter
import Idealize.ShloMosaic.Lib.ValueIdx

/-!
One tile's table at the extended reals, as two counts.

A tile walks its 1024 entries in 64 groups of sixteen.  For each entry it adds a one at
(batch, clipped label) and a one at (batch + 16, clipped degree).  Every accumulating scatter adds,
at a table position, the number of its sixteen lanes that name the position; summing over the 64
groups, the entry at (r, c) is the number of entries with batch r and clipped label c plus the
number with batch + 16 = r and clipped degree c.
-/

noncomputable section

namespace Cert.KernelIdeal.Hist

open Idealize.ShloMosaic Idealize.ShloMosaic.ValueIdx Cert.KernelIdeal Cert.KernelIdeal.Gen

/-- A label clipped to [0, 101]: the signed maximum with 0, then the signed minimum with 101. -/
def clipL (x : BitVec 32) : BitVec 32 := IntOp.minsi 101#32 (IntOp.maxsi 0#32 x)
/-- A degree clipped to [0, 10]. -/
def clipD (x : BitVec 32) : BitVec 32 := IntOp.minsi 10#32 (IntOp.maxsi 0#32 x)

/-- A word clipped (signed) to [0, c] reads, unsigned, at most c. -/
theorem clip_toNat_le (c : BitVec 32) (hc : c.toNat < 2 ^ 31) (x : BitVec 32) :
    (IntOp.minsi c (IntOp.maxsi 0#32 x)).toNat ≤ c.toNat := by
  unfold IntOp.minsi IntOp.maxsi
  have hx := x.isLt
  by_cases h1 : x.slt 0#32 = true
  · rw [if_pos h1]
    by_cases h2 : c.slt 0#32 = true
    · rw [if_pos h2]
    · rw [if_neg h2]; simp
  · rw [if_neg h1]
    by_cases h2 : c.slt x = true
    · rw [if_pos h2]
    · rw [if_neg h2]
      rw [BitVec.slt_iff_toInt_lt, BitVec.toInt_eq_toNat_cond, BitVec.toInt_eq_toNat_cond] at h1 h2
      simp only [BitVec.toNat_ofNat] at h1
      split_ifs at h1 h2 <;> omega

theorem clipL_le (x : BitVec 32) : (clipL x).toNat ≤ 101 := clip_toNat_le 101#32 (by decide) x
theorem clipD_le (x : BitVec 32) : (clipD x).toNat ≤ 10 := clip_toNat_le 10#32 (by decide) x

/-- Shifting a batch number below 16 by 16 does not wrap. -/
theorem add16_toNat (b : BitVec 32) (hb : b.toNat ≤ 15) : (IntOp.addi b 16#32).toNat = b.toNat + 16 := by
  unfold IntOp.addi
  rw [BitVec.toNat_add]
  simp only [BitVec.toNat_ofNat]
  omega

/-- The one the scatter adds is the number one. -/
theorem one_eq : (k0_pay2 (F := Ideal)) = fun _ => (1 : EReal) := by
  funext x
  show Ideal.ofBits .f32 0x3F800000#32 = 1
  simp [Ideal.ofBits, Ideal.ieee, -EReal.coe_mul]; norm_num

/-- What the zeroing loop leaves is the number zero. -/
theorem zero_eq : (Scalar.ofBits (F := Ideal) .f32 0x00000000#32) = (0 : EReal) := by
  show Ideal.ofBits .f32 0x00000000#32 = 0
  simp [Ideal.ofBits, Ideal.ieee]

/-- Lane k of a one-axis shape is the index with coordinate k. -/
theorem ofLane_eq_ix1 {n : Nat} (k : Fin n) : Shape.ofLane (d := ![n]) k = ix1 k := by
  funext a; match a with | ⟨0, _⟩ => rfl

/-- Entry n (taken mod 1024, as the groups' lanes are) of a 1024-vector. -/
def ent (v : IVec S1024 32) (n : Nat) : BitVec 32 := v (ix1 ⟨n % 1024, Nat.mod_lt _ (by decide)⟩)

theorem ent_val (v : IVec S1024 32) (n : Fin 1024) : ent v n.val = v (ix1 n) := by
  unfold ent; congr 2; exact Fin.ext (Nat.mod_eq_of_lt n.isLt)

/-- Lane k of group q is entry 16 q + k. -/
theorem lanes_apply (v : Vec Ideal S1024 .i32) (q : Nat) (k : Fin 16) :
    lanes (F := Ideal) v q (ix1 k) = ent v (16 * q + k.val) := by
  unfold lanes ent
  exact congrArg v (ofLane_eq_ix1 (n := 1024) ⟨(16 * q + k.val) % 1024, Nat.mod_lt _ (by decide)⟩)

/-- Rows below 32 and columns below 128 are positions of the table. -/
theorem inRange {row col : IVec S16 32} (hr : ∀ x, (row x).toNat < 32) (hc : ∀ x, (col x).toNat < 128) :
    ∀ (a : Fin S32x128.rank) (x : S16.Idx), ((![row, col] : Fin 2 → IVec S16 32) a x).toNat < S32x128.size a := by
  intro a x
  match a with
  | ⟨0, _⟩ => exact hr x
  | ⟨1, _⟩ => exact hc x

/-- Lane k names the position (r, c) exactly when its row reads r and its column reads c. -/
theorem idxAt_eq_iff (row col : IVec S16 32)
    (h : ∀ (a : Fin S32x128.rank) (x : S16.Idx), ((![row, col] : Fin 2 → IVec S16 32) a x).toNat < S32x128.size a)
    (k : Fin 16) (r : Fin 32) (c : Fin 128) :
    idxAt (s := S32x128) ![row, col] h (Shape.ofLane (d := ![16]) k) = ix2 r c
      ↔ (row (ix1 k)).toNat = r.val ∧ (col (ix1 k)).toNat = c.val := by
  rw [ofLane_eq_ix1]
  constructor
  · intro e
    exact ⟨congrArg Fin.val (congrFun e 0), congrArg Fin.val (congrFun e 1)⟩
  · rintro ⟨h0, h1⟩
    funext a
    match a with
    | ⟨0, _⟩ => exact Fin.ext h0
    | ⟨1, _⟩ => exact Fin.ext h1

/-- One scatter of sixteen ones: the entry at (r, c) gains the number of lanes that name (r, c). -/
theorem scat_apply (tab : Vec Ideal S32x128 .f32) (row col : IVec S16 32)
    (hr : ∀ x, (row x).toNat < 32) (hc : ∀ x, (col x).toNat < 128) (r : Fin 32) (c : Fin 128) :
    scat tab row col (ix2 r c) = tab (ix2 r c)
      + (((Finset.univ.filter fun k : Fin 16 => (row (ix1 k)).toNat = r.val ∧ (col (ix1 k)).toNat = c.val).card : ℕ) : EReal) := by
  have h := inRange hr hc
  rw [← scat_eq tab row col h, Cert.Count.storeIdx_add_apply, one_eq]
  congr 1
  rw [← Finset.sum_boole]
  exact Finset.sum_congr rfl fun k _ => if_congr (idxAt_eq_iff row col h k r c) rfl rfl

/-- Entry n counts once at (r, c) when its batch is r and its clipped label is c. -/
def cntA (lab bat : IVec S1024 32) (r : Fin 32) (c : Fin 128) (n : Nat) : ℕ :=
  if (ent bat n).toNat = r.val ∧ (clipL (ent lab n)).toNat = c.val then 1 else 0
/-- Entry n counts once at (r, c) when its batch plus 16 is r and its clipped degree is c. -/
def cntB (deg bat : IVec S1024 32) (r : Fin 32) (c : Fin 128) (n : Nat) : ℕ :=
  if (ent bat n).toNat + 16 = r.val ∧ (clipD (ent deg n)).toNat = c.val then 1 else 0

/-- After q groups the entry at (r, c) is the number of counted entries among the first 16 q. -/
theorem tabAfter_apply (lab deg bat : Vec Ideal S1024 .i32) (hb : ∀ n, (bat n).toNat ≤ 15) (q : Nat)
    (r : Fin 32) (c : Fin 128) :
    tabAfter lab deg bat q (ix2 r c)
      = ((∑ p ∈ Finset.range q, ∑ k : Fin 16,
          (cntA lab bat r c (16 * p + k.val) + cntB deg bat r c (16 * p + k.val)) : ℕ) : EReal) := by
  induction q with
  | zero => simp only [tabAfter, Finset.range_zero, Finset.sum_empty, Nat.cast_zero]; exact zero_eq
  | succ q ih =>
    have hrow : ∀ x, (lanes (F := Ideal) bat q x).toNat < 32 := fun x => by
      have := hb (Shape.ofLane (d := ![1024]) ⟨(16 * q + (x 0).val) % 1024, Nat.mod_lt _ (by decide)⟩)
      show (bat _).toNat < 32
      omega
    have hrow' : ∀ x, (k0_pay7 (F := Ideal) (lanes (F := Ideal) bat q) x).toNat < 32 := fun x => by
      have := hb (Shape.ofLane (d := ![1024]) ⟨(16 * q + (x 0).val) % 1024, Nat.mod_lt _ (by decide)⟩)
      show (IntOp.addi (bat _) 16#32).toNat < 32
      rw [add16_toNat _ this]; omega
    have hcolL : ∀ x, (k0_pay5 (F := Ideal) (lanes (F := Ideal) lab q) x).toNat < 128 := fun x => by
      have := clipL_le (lanes (F := Ideal) lab q x)
      show (clipL _).toNat < 128
      omega
    have hcolD : ∀ x, (k0_pay6 (F := Ideal) (lanes (F := Ideal) deg q) x).toNat < 128 := fun x => by
      have := clipD_le (lanes (F := Ideal) deg q x)
      show (clipD _).toNat < 128
      omega
    have hA : (Finset.univ.filter fun k : Fin 16 => (lanes (F := Ideal) bat q (ix1 k)).toNat = r.val
          ∧ (k0_pay5 (F := Ideal) (lanes (F := Ideal) lab q) (ix1 k)).toNat = c.val).card
        = ∑ k : Fin 16, cntA lab bat r c (16 * q + k.val) := by
      rw [Finset.card_filter]
      refine Finset.sum_congr rfl fun k _ => ?_
      unfold cntA
      rw [← lanes_apply, ← lanes_apply]; rfl
    have hB : (Finset.univ.filter fun k : Fin 16 => (k0_pay7 (F := Ideal) (lanes (F := Ideal) bat q) (ix1 k)).toNat = r.val
          ∧ (k0_pay6 (F := Ideal) (lanes (F := Ideal) deg q) (ix1 k)).toNat = c.val).card
        = ∑ k : Fin 16, cntB deg bat r c (16 * q + k.val) := by
      rw [Finset.card_filter]
      refine Finset.sum_congr rfl fun k _ => ?_
      unfold cntB
      rw [← lanes_apply, ← lanes_apply]
      have h16 : (k0_pay7 (F := Ideal) (lanes (F := Ideal) bat q) (ix1 k)).toNat
          = (lanes (F := Ideal) bat q (ix1 k)).toNat + 16 := by
        show (IntOp.addi (bat _) 16#32).toNat = _
        exact add16_toNat _ (hb _)
      rw [h16]; rfl
    rw [tabAfter_succ]
    unfold group
    rw [scat_apply _ _ _ hrow' hcolD, scat_apply _ _ _ hrow hcolL, ih, hA, hB, Finset.sum_range_succ,
      Finset.sum_add_distrib (s := (Finset.univ : Finset (Fin 16)))]
    push_cast
    rw [add_assoc]

/-- The sum over 64 blocks of sixteen is the sum over all 1024 entries. -/
theorem sum_blocks {M : Type*} [AddCommMonoid M] (f : ℕ → M) :
    ∑ p ∈ Finset.range 64, ∑ k : Fin 16, f (16 * p + k.val) = ∑ n : Fin 1024, f n.val := by
  have h := Equiv.sum_comp (finProdFinEquiv (m := 64) (n := 16)) (fun n : Fin (64 * 16) => f n.val)
  rw [Fintype.sum_prod_type] at h
  rw [← Fin.sum_univ_eq_sum_range (fun p => ∑ k : Fin 16, f (16 * p + k.val)) 64]
  refine Eq.trans (Finset.sum_congr rfl fun p _ => Finset.sum_congr rfl fun k _ => ?_) h
  rw [finProdFinEquiv_apply_val, Nat.add_comm]

/-- THE TILE'S TABLE: the entry at (r, c) is the number of the tile's entries with batch r and clipped
    label c, plus the number with batch + 16 = r and clipped degree c. -/
theorem tileTab_apply (lab deg bat : Vec Ideal S1024 .i32) (hb : ∀ n, (bat n).toNat ≤ 15)
    (r : Fin 32) (c : Fin 128) :
    tileTab lab deg bat (ix2 r c)
      = (((Finset.univ.filter fun n : Fin 1024 => (bat (ix1 n)).toNat = r.val ∧ (clipL (lab (ix1 n))).toNat = c.val).card
        + (Finset.univ.filter fun n : Fin 1024 => (bat (ix1 n)).toNat + 16 = r.val ∧ (clipD (deg (ix1 n))).toNat = c.val).card : ℕ) : EReal) := by
  unfold tileTab
  rw [tabAfter_apply lab deg bat hb 64 r c,
    sum_blocks (fun n => cntA lab bat r c n + cntB deg bat r c n), Finset.sum_add_distrib,
    Finset.card_filter, Finset.card_filter]
  congr 3
  · funext n; unfold cntA; rw [ent_val, ent_val]
  · funext n; unfold cntB; rw [ent_val, ent_val]

end Cert.KernelIdeal.Hist
-- ==== Proof.CountRegroup.lean ====
import Idealize.ShloMosaic.PureOps.Ideal

/-!
The regrouping law behind "histogram, then multiply by the table".

Given finitely many nodes, a label for each node, and one finite number per label, the sum over the
labels of (how many nodes carry the label) times (the label's number) is the sum over the nodes of
the number of the node's label.  In the reals this is the sum taken fibre by fibre; the extended
reals inherit it because every term is the image of a real number, and the inclusion of the reals
respects sums and products.
-/

open scoped BigOperators

namespace Cert.Count

/-- The inclusion of the reals into the extended reals respects finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Regrouping in the reals: the sum taken fibre by fibre over the labels. -/
theorem regroup_real {ι : Type*} {L : ℕ} (N : Finset ι) (ℓ : ι → Fin L) (E : Fin L → ℝ) :
    ∑ l : Fin L, ((N.filter fun n => ℓ n = l).card : ℝ) * E l = ∑ n ∈ N, E (ℓ n) := by
  classical
  rw [← Finset.sum_fiberwise N ℓ (fun n => E (ℓ n))]
  refine Finset.sum_congr rfl fun l _ => ?_
  rw [Finset.sum_congr rfl (fun n hn => by rw [(Finset.mem_filter.mp hn).2] : ∀ n ∈ N.filter (fun n => ℓ n = l), E (ℓ n) = E l),
    Finset.sum_const, nsmul_eq_mul]

/-- Regrouping in the extended reals, for a table all of whose entries are finite. -/
theorem regroup {ι : Type*} {L : ℕ} (N : Finset ι) (ℓ : ι → Fin L) (E : Fin L → EReal)
    (hE : ∀ l, E l ≠ ⊤ ∧ E l ≠ ⊥) :
    ∑ l : Fin L, (((N.filter fun n => ℓ n = l).card : ℕ) : EReal) * E l = ∑ n ∈ N, E (ℓ n) := by
  have hr : ∀ l, ((E l).toReal : EReal) = E l := fun l => EReal.coe_toReal (hE l).1 (hE l).2
  calc ∑ l : Fin L, (((N.filter fun n => ℓ n = l).card : ℕ) : EReal) * E l
      = ∑ l : Fin L, ((((N.filter fun n => ℓ n = l).card : ℝ) * (E l).toReal : ℝ) : EReal) := by
        refine Finset.sum_congr rfl fun l _ => ?_
        rw [EReal.coe_mul, hr, EReal.coe_natCast]
    _ = ((∑ l : Fin L, ((N.filter fun n => ℓ n = l).card : ℝ) * (E l).toReal : ℝ) : EReal) :=
        (coe_finset_sum _ _).symm
    _ = ((∑ n ∈ N, (E (ℓ n)).toReal : ℝ) : EReal) := by rw [regroup_real N ℓ fun l => (E l).toReal]
    _ = ∑ n ∈ N, ((E (ℓ n)).toReal : EReal) := coe_finset_sum _ _
    _ = ∑ n ∈ N, E (ℓ n) := Finset.sum_congr rfl fun n _ => hr _

end Cert.Count
-- ==== Proof.CountBridge.lean ====
import proofs.«203920_g2267742732911_cont_8to1_1065_18_alg».proof.Proof.CountTile
import proofs.«203920_g2267742732911_cont_8to1_1065_18_alg».proof.Proof.CountRegroup

/-!
From the thirty-two tiles' tables to the pooled embedding sums.

The 32768 entries are dealt to 32 tiles, 1024 consecutive entries each.  Adding the tiles' tables
gives, at (g, l) for g below 16, the number of ALL entries with batch g and clipped label l, and at
(g + 16, d) the number with batch g and clipped degree d.  Multiplying these counts by the rows of
the embedding tables and adding is, by regrouping, the sum over the entries of batch g of the
embedding rows their label and degree select: the segment sum.
-/

noncomputable section

namespace Cert.KernelIdeal.Hist

open Idealize.ShloMosaic Idealize.ShloMosaic.ValueIdx Cert.KernelIdeal Cert.KernelIdeal.Gen

theorem slice_lt (w : Fin 32) (n : Fin 1024) : 1024 * w.val + n.val < 32768 := by
  have := w.isLt; have := n.isLt; omega

/-- Entries 1024 w .. 1024 w + 1023 of a 32768-vector: what tile w copies in. -/
def slice (v : IVec S32768 32) (w : Fin 32) : IVec S1024 32 :=
  fun n => v (ix1 ⟨1024 * w.val + (n 0).val, slice_lt w (n 0)⟩)

/-- The sum over 32 slices of 1024 is the sum over all 32768 entries. -/
theorem sum_slices {M : Type*} [AddCommMonoid M] (f : Fin 32768 → M) :
    ∑ w : Fin 32, ∑ n : Fin 1024, f ⟨1024 * w.val + n.val, slice_lt w n⟩ = ∑ m : Fin 32768, f m := by
  have h := Equiv.sum_comp (finProdFinEquiv (m := 32) (n := 1024)) (fun m : Fin (32 * 1024) => f m)
  rw [Fintype.sum_prod_type] at h
  refine Eq.trans (Finset.sum_congr rfl fun w _ => Finset.sum_congr rfl fun n _ => ?_) h
  refine congrArg f (Fin.ext ?_)
  rw [finProdFinEquiv_apply_val]; exact Nat.add_comm _ _

/-- The position of a clipped label in the label table, and of a clipped degree in the degree table. -/
def labIdx (lab : IVec S32768 32) (m : Fin 32768) : Fin 102 :=
  ⟨(clipL (lab (ix1 m))).toNat, Nat.lt_succ_of_le (clipL_le _)⟩
def degIdx (deg : IVec S32768 32) (m : Fin 32768) : Fin 11 :=
  ⟨(clipD (deg (ix1 m))).toNat, Nat.lt_succ_of_le (clipD_le _)⟩

/-- Rows below 16, summed over the tiles: the number of all entries with batch g and clipped label l. -/
theorem colsum_lab (lab deg bat : IVec S32768 32) (hb : ∀ m, (bat m).toNat ≤ 15) (g : Fin 16) (l : Fin 102) :
    ∑ w : Fin 32, tileTab (F := Ideal) (slice lab w) (slice deg w) (slice bat w)
        (ix2 (⟨g.val, by omega⟩ : Fin 32) (⟨l.val, by omega⟩ : Fin 128))
      = (((Finset.univ.filter fun m : Fin 32768 => (bat (ix1 m)).toNat = g.val ∧ labIdx lab m = l).card : ℕ) : EReal) := by
  have hbw : ∀ w n, ((slice bat w) n).toNat ≤ 15 := fun w n => hb _
  rw [Finset.sum_congr rfl (fun w _ => tileTab_apply (slice lab w) (slice deg w) (slice bat w) (hbw w) _ _)]
  rw [← Nat.cast_sum]
  refine congrArg (Nat.cast : ℕ → EReal) ?_
  rw [Finset.card_filter, ← sum_slices]
  refine Finset.sum_congr rfl fun w _ => ?_
  have h0 : (Finset.univ.filter fun n : Fin 1024 => ((slice bat w) (ix1 n)).toNat + 16 = g.val
      ∧ (clipD ((slice deg w) (ix1 n))).toNat = l.val).card = 0 := by
    rw [Finset.card_eq_zero, Finset.filter_eq_empty_iff]
    intro n _ h; have := h.1; have := g.isLt; omega
  dsimp only at h0 ⊢
  rw [h0, add_zero, Finset.card_filter]
  refine Finset.sum_congr rfl fun n _ => if_congr (and_congr Iff.rfl ?_) rfl rfl
  exact (Fin.ext_iff (a := labIdx lab ⟨1024 * w.val + n.val, slice_lt w n⟩) (b := l)).symm

/-- Rows 16 and above, summed over the tiles: the number of all entries with batch g and clipped degree d. -/
theorem colsum_deg (lab deg bat : IVec S32768 32) (hb : ∀ m, (bat m).toNat ≤ 15) (g : Fin 16) (d : Fin 11) :
    ∑ w : Fin 32, tileTab (F := Ideal) (slice lab w) (slice deg w) (slice bat w)
        (ix2 (⟨g.val + 16, by omega⟩ : Fin 32) (⟨d.val, by omega⟩ : Fin 128))
      = (((Finset.univ.filter fun m : Fin 32768 => (bat (ix1 m)).toNat = g.val ∧ degIdx deg m = d).card : ℕ) : EReal) := by
  have hbw : ∀ w n, ((slice bat w) n).toNat ≤ 15 := fun w n => hb _
  rw [Finset.sum_congr rfl (fun w _ => tileTab_apply (slice lab w) (slice deg w) (slice bat w) (hbw w) _ _)]
  rw [← Nat.cast_sum]
  refine congrArg (Nat.cast : ℕ → EReal) ?_
  rw [Finset.card_filter, ← sum_slices]
  refine Finset.sum_congr rfl fun w _ => ?_
  have h0 : (Finset.univ.filter fun n : Fin 1024 => ((slice bat w) (ix1 n)).toNat = g.val + 16
      ∧ (clipL ((slice lab w) (ix1 n))).toNat = d.val).card = 0 := by
    rw [Finset.card_eq_zero, Finset.filter_eq_empty_iff]
    intro n _ h; have := h.1; have := hbw w (ix1 n); omega
  dsimp only at h0 ⊢
  rw [h0, zero_add, Finset.card_filter]
  refine Finset.sum_congr rfl fun n _ => if_congr (and_congr ?_ ?_) rfl rfl
  · exact Nat.add_right_cancel_iff
  · exact (Fin.ext_iff (a := degIdx deg ⟨1024 * w.val + n.val, slice_lt w n⟩) (b := d)).symm

/-- THE COUNTING IDENTITY.  For a batch number g and an output column: the tiles' label counts of
    batch g times the label table's column, plus their degree counts times the degree table's column,
    is the sum over the entries of batch g of the two table entries the entry's clipped label and
    clipped degree select.  The tables' entries must be finite. -/
theorem bridge_core (lab deg bat : IVec S32768 32) (hb : ∀ m, (bat m).toNat ≤ 15)
    (le : Vec Ideal S102x128 .f32) (de : Vec Ideal S11x128 .f32)
    (hle : ∀ i, le i ≠ ⊤ ∧ le i ≠ ⊥) (hde : ∀ i, de i ≠ ⊤ ∧ de i ≠ ⊥) (g : Fin 16) (c : Fin 128) :
    (∑ l : Fin 102, (∑ w : Fin 32, tileTab (F := Ideal) (slice lab w) (slice deg w) (slice bat w)
          (ix2 (⟨g.val, by omega⟩ : Fin 32) (⟨l.val, by omega⟩ : Fin 128))) * le (ix2 l c))
      + (∑ d : Fin 11, (∑ w : Fin 32, tileTab (F := Ideal) (slice lab w) (slice deg w) (slice bat w)
          (ix2 (⟨g.val + 16, by omega⟩ : Fin 32) (⟨d.val, by omega⟩ : Fin 128))) * de (ix2 d c))
      = ∑ m : Fin 32768, if (bat (ix1 m)).toNat = g.val
          then le (ix2 (labIdx lab m) c) + de (ix2 (degIdx deg m) c) else (0 : EReal) := by
  have hL : ∀ l : Fin 102, (Finset.univ.filter fun m : Fin 32768 => (bat (ix1 m)).toNat = g.val ∧ labIdx lab m = l)
      = (Finset.univ.filter fun m : Fin 32768 => (bat (ix1 m)).toNat = g.val).filter fun m => labIdx lab m = l :=
    fun l => (Finset.filter_filter _ _ _).symm
  have hD : ∀ d : Fin 11, (Finset.univ.filter fun m : Fin 32768 => (bat (ix1 m)).toNat = g.val ∧ degIdx deg m = d)
      = (Finset.univ.filter fun m : Fin 32768 => (bat (ix1 m)).toNat = g.val).filter fun m => degIdx deg m = d :=
    fun d => (Finset.filter_filter _ _ _).symm
  simp only [colsum_lab lab deg bat hb g, colsum_deg lab deg bat hb g, hL, hD]
  rw [Cert.Count.regroup _ (labIdx lab) (fun l => le (ix2 l c)) (fun l => hle _),
    Cert.Count.regroup _ (degIdx deg) (fun d => de (ix2 d c)) (fun d => hde _),
    ← Finset.sum_add_distrib, Finset.sum_filter]

end Cert.KernelIdeal.Hist
-- ==== Proof.CountHead.lean ====
import proofs.«203920_g2267742732911_cont_8to1_1065_18_alg».proof.Proof.CountBridge
import Idealize.ShloMosaic.PureOps.Ideal.Laws

/-!
The dense head's first step, read at an index.

The head adds the thirty-two tiles' tables, cuts out the label block (rows 0-15, columns 0-101) and
the degree block (rows 16-31, columns 0-10), multiplies each by its embedding table into a zero
accumulator, and adds the two products.  At the extended reals each product at (g, c) is the sum over
the contracted column of table-sum entry times embedding entry.
-/

noncomputable section

namespace Cert.KernelIdeal.Hist

open Idealize.ShloMosaic Idealize.ShloMosaic.ValueIdx Cert.KernelIdeal Cert.KernelIdeal.Gen

/-- The tiles' tables added up. -/
def tabSum (cnt : Vec Ideal S32x32x128 .f32) : FVec Ideal S32x128 .f32 :=
  multiReduction .add [0] S32x128 (shapeCast S32x32x128 cnt shapeCasts_S32x32x128_S32x32x128) 0x00000000#32
    reduces_S32x32x128_S32x128 (.inl rfl) rfl

theorem tabSum_apply (cnt : Vec Ideal S32x32x128 .f32) (r : Fin 32) (c : Fin 128) :
    tabSum cnt (ix2 r c) = ∑ w : Fin 32, cnt (ix3 w r c) := by
  unfold tabSum
  refine (Ideal.multiReduction_add_single _ 0x00000000#32 reduces_S32x32x128_S32x128 (.inl rfl) rfl (ix2 r c)).trans ?_
  refine Finset.sum_congr rfl fun w _ => ?_
  have hs : shapeCast S32x32x128 cnt shapeCasts_S32x32x128_S32x32x128 = cnt :=
    funext fun i => congrArg cnt (Shape.reshapeEquiv_self _ i)
  rw [hs]
  refine congrArg cnt (funext fun a => ?_)
  match a with
  | ⟨0, _⟩ => exact Fin.ext rfl
  | ⟨1, _⟩ => exact Fin.ext rfl
  | ⟨2, _⟩ => exact Fin.ext rfl

abbrev D1 := dot_S16x102_S102x128_S16x128_1_0_0_1_n_n
abbrev D2 := dot_S16x11_S11x128_S16x128_1_0_0_1_n_n

theorem D1_lhs (g : Fin 16) (c : Fin 128) (k : D1.contr.Idx) :
    D1.lhsIdx (ix2 g c) k = ix2 g ((contrEquiv1 D1 102 rfl rfl) k) := by
  funext a
  match a with
  | ⟨0, _⟩ => exact Fin.ext rfl
  | ⟨1, _⟩ => exact Fin.ext rfl

theorem D1_rhs (g : Fin 16) (c : Fin 128) (k : D1.contr.Idx) :
    D1.rhsIdx (ix2 g c) k = ix2 ((contrEquiv1 D1 102 rfl rfl) k) c := by
  funext a
  match a with
  | ⟨0, _⟩ => exact Fin.ext rfl
  | ⟨1, _⟩ => exact Fin.ext rfl

theorem D2_lhs (g : Fin 16) (c : Fin 128) (k : D2.contr.Idx) :
    D2.lhsIdx (ix2 g c) k = ix2 g ((contrEquiv1 D2 11 rfl rfl) k) := by
  funext a
  match a with
  | ⟨0, _⟩ => exact Fin.ext rfl
  | ⟨1, _⟩ => exact Fin.ext rfl

theorem D2_rhs (g : Fin 16) (c : Fin 128) (k : D2.contr.Idx) :
    D2.rhsIdx (ix2 g c) k = ix2 ((contrEquiv1 D2 11 rfl rfl) k) c := by
  funext a
  match a with
  | ⟨0, _⟩ => exact Fin.ext rfl
  | ⟨1, _⟩ => exact Fin.ext rfl

/-- The label block of the table sum: rows 0-15, columns 0-101. -/
theorem labBlock_apply (X : FVec Ideal S32x128 .f32) (g : Fin 16) (l : Fin 102) :
    extractStridedSlice S16x102 ![0, 0] X slices_S32x128_o0_0_S16x102 (ix2 g l)
      = X (ix2 (⟨g.val, by omega⟩ : Fin 32) (⟨l.val, by omega⟩ : Fin 128)) := by
  unfold extractStridedSlice
  refine congrArg X (funext fun a => ?_)
  match a with
  | ⟨0, _⟩ => exact Fin.ext (Nat.zero_add _)
  | ⟨1, _⟩ => exact Fin.ext (Nat.zero_add _)

/-- The degree block of the table sum: rows 16-31, columns 0-10. -/
theorem degBlock_apply (X : FVec Ideal S32x128 .f32) (g : Fin 16) (d : Fin 11) :
    extractStridedSlice S16x11 ![16, 0] X slices_S32x128_o16_0_S16x11 (ix2 g d)
      = X (ix2 (⟨g.val + 16, by omega⟩ : Fin 32) (⟨d.val, by omega⟩ : Fin 128)) := by
  unfold extractStridedSlice
  refine congrArg X (funext fun a => ?_)
  match a with
  | ⟨0, _⟩ => exact Fin.ext (Nat.add_comm _ _)
  | ⟨1, _⟩ => exact Fin.ext (Nat.zero_add _)

/-- The head's first step: label block times label table plus degree block times degree table, each
    product into a zero accumulator. -/
def khgT (cnt : Vec Ideal S32x32x128 .f32) (le : Vec Ideal S102x128 .f32) (de : Vec Ideal S11x128 .f32) :
    FVec Ideal S16x128 .f32 :=
  addf (matmul (φ₁ := .f32) (φ₂ := .f32) D1 (some .fp32) (extractStridedSlice S16x102 ![0, 0] (tabSum cnt) slices_S32x128_o0_0_S16x102) le
          (constant S16x128 .f32 0x00000000#32))
       (matmul (φ₁ := .f32) (φ₂ := .f32) D2 (some .fp32) (extractStridedSlice S16x11 ![16, 0] (tabSum cnt) slices_S32x128_o16_0_S16x11) de
          (constant S16x128 .f32 0x00000000#32))

/-- Read at (g, c): the two sums over the contracted columns. -/
theorem khgT_apply (cnt : Vec Ideal S32x32x128 .f32) (le : Vec Ideal S102x128 .f32) (de : Vec Ideal S11x128 .f32)
    (g : Fin 16) (c : Fin 128) :
    khgT cnt le de (ix2 g c)
      = (∑ l : Fin 102, (∑ w : Fin 32, cnt (ix3 w (⟨g.val, by omega⟩ : Fin 32) (⟨l.val, by omega⟩ : Fin 128))) * le (ix2 l c))
        + (∑ d : Fin 11, (∑ w : Fin 32, cnt (ix3 w (⟨g.val + 16, by omega⟩ : Fin 32) (⟨d.val, by omega⟩ : Fin 128))) * de (ix2 d c)) := by
  unfold khgT
  refine congrArg₂ (· + ·)
    ((Ideal.matmul_constant_zero_apply (φ₁ := .f32) (φ₂ := .f32) D1 (some .fp32) _ le (ix2 g c)).trans ?_)
    ((Ideal.matmul_constant_zero_apply (φ₁ := .f32) (φ₂ := .f32) D2 (some .fp32) _ de (ix2 g c)).trans ?_)
  · refine (Equiv.sum_comp (contrEquiv1 D1 102 rfl rfl).symm _).symm.trans (Finset.sum_congr rfl fun l _ => ?_)
    rw [D1_lhs, D1_rhs, Equiv.apply_symm_apply, labBlock_apply, tabSum_apply]
  · refine (Equiv.sum_comp (contrEquiv1 D2 11 rfl rfl).symm _).symm.trans (Finset.sum_congr rfl fun d _ => ?_)
    rw [D2_lhs, D2_rhs, Equiv.apply_symm_apply, degBlock_apply, tabSum_apply]

/-- THE BRIDGE at an index.  If the count array holds, for each tile, the table of the tile's slices,
    the head's first step at (g, c) is the segment sum of the selected table rows. -/
theorem khgT_eq_segment_sum (lab deg bat : IVec S32768 32) (hb : ∀ m, (bat m).toNat ≤ 15)
    (cnt : Vec Ideal S32x32x128 .f32)
    (hcnt : ∀ (w : Fin 32) (r : Fin 32) (c : Fin 128),
      cnt (ix3 w r c) = tileTab (F := Ideal) (slice lab w) (slice deg w) (slice bat w) (ix2 r c))
    (le : Vec Ideal S102x128 .f32) (de : Vec Ideal S11x128 .f32)
    (hle : ∀ i, le i ≠ ⊤ ∧ le i ≠ ⊥) (hde : ∀ i, de i ≠ ⊤ ∧ de i ≠ ⊥) (g : Fin 16) (c : Fin 128) :
    khgT cnt le de (ix2 g c)
      = ∑ m : Fin 32768, if (bat (ix1 m)).toNat = g.val
          then le (ix2 (labIdx lab m) c) + de (ix2 (degIdx deg m) c) else (0 : EReal) := by
  rw [khgT_apply]
  simp only [hcnt]
  exact bridge_core lab deg bat hb le de hle hde g c

end Cert.KernelIdeal.Hist
-- ==== Proof.RefOps.lean ====
import proofs.«203920_g2267742732911_cont_8to1_1065_18_alg».proof.Proof.Gen.ReferenceIdeal
import Idealize.ShloMosaic.Lib.StableHlo.Run

/-!
# The reference program as a line of operations

The reference's entry function is a straight line of array operations once its four calls (two
clamps of an integer vector, two row look-ups of an embedding table) are replaced by the callee's
operations on the buffers that call owns.  This module lists those 87 operations, in four
consecutive stretches, shows that the entry function is exactly that line, and reads off what the
result buffer holds at the end as one pure term of the eleven argument arrays; the argument buffers
themselves are never written.

The term is organised the way the mathematics is: the clamped label and degree columns, the two
row look-ups, their sum scattered by graph id into a 16 × 128 array (`pooled`), and the dense
head applied to that array (`tail`).
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- The two columns of the node table split off and clamped: labels to `[0, 101]`, degrees to `[0, 10]`. -/
abbrev opsA : List (HloOp τ sig (Elt F)) :=
  [ unary main_arg0 main_v0 ((extractStridedSlice S32768x1 ![0, 0] · slices_S32768x2_S32768x1_0_0) : (⟨S32768x2, .i32⟩ : BufTy).Contents (Elt F) → (⟨S32768x1, .i32⟩ : BufTy).Contents (Elt F)),
    reshape main_v0 main_v1 rfl shapeCasts_S32768x1_S32768,
    unary main_arg0 main_v2 ((extractStridedSlice S32768x1 ![0, 1] · slices_S32768x2_S32768x1_0_1) : (⟨S32768x2, .i32⟩ : BufTy).Contents (Elt F) → (⟨S32768x1, .i32⟩ : BufTy).Contents (Elt F)),
    reshape main_v2 main_v3 rfl shapeCasts_S32768x1_S32768,
    nullary main_c (constantI S_ 32 0#32),
    nullary main_c_0 (constantI S_ 32 101#32),
    TRef.unary (.of main_c) main_call0.v0 id,
    TRef.unary main_call0.v0 main_call0.v1 (broadcastInDim S32768 ![] bcast_S_S32768),
    TRef.binary main_call0.v1 (.of main_v1) main_call0.v2 maxsi,
    TRef.unary (.of main_c_0) main_call0.v3 id,
    TRef.unary main_call0.v3 main_call0.v4 (broadcastInDim S32768 ![] bcast_S_S32768),
    TRef.binary main_call0.v4 main_call0.v2 main_call0.v5 minsi,
    nullary main_c_1 (constantI S_ 32 0#32),
    nullary main_c_2 (constantI S_ 32 10#32),
    TRef.unary (.of main_c_1) main_call1.v0 id,
    TRef.unary main_call1.v0 main_call1.v1 (broadcastInDim S32768 ![] bcast_S_S32768),
    TRef.binary main_call1.v1 (.of main_v3) main_call1.v2 maxsi,
    TRef.unary (.of main_c_2) main_call1.v3 id,
    TRef.unary main_call1.v3 main_call1.v4 (broadcastInDim S32768 ![] bcast_S_S32768),
    TRef.binary main_call1.v4 main_call1.v2 main_call1.v5 minsi ]

/-- The look-up of each node's label row in the 102-row table (negative indices wrapped, out-of-range rows
    replaced by a fill value). -/
abbrev opsB : List (HloOp τ sig (Elt F)) :=
  [ TRef.nullary main_call2.c (constantI S_ 32 0#32),
    TRef.unary main_call2.c main_call2.v0 (broadcastInDim S32768 ![] bcast_S_S32768),
    TRef.binary (.of main_v4) main_call2.v0 main_call2.v1 (cmpi .slt),
    TRef.nullary main_call2.c_0 (constantI S_ 32 102#32),
    TRef.unary main_call2.c_0 main_call2.v2 (broadcastInDim S32768 ![] bcast_S_S32768),
    TRef.binary (.of main_v4) main_call2.v2 main_call2.v3 addi,
    TRef.ternary main_call2.v1 main_call2.v3 (.of main_v4) main_call2.call0.v0 select,
    TRef.unary main_call2.call0.v0 main_call2.v5 (broadcastInDim S32768x1 ![0] bcast_S32768_S32768x1_0),
    TRef.nullary main_call2.c_1 (constantI S1 32 101#32),
    TRef.nullary main_call2.c_2 (constantI S_ 32 0#32),
    TRef.unary main_call2.c_2 main_call2.v6 (broadcastInDim S32768x1 ![] bcast_S_S32768x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S32768x1 ![0, 1] bcast_S1x1_S32768x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S32768x1_S32768_d1 h_S_),
    TRef.binary (.of main_arg3) main_call2.v5 main_call2.v13 (fun x i => Host.gather gather_S102x128_S32768x1_S32768x128_1_0_n_n_0_1_1128 x i),
    TRef.unary main_call2.v12 main_call2.v14 (broadcastInDim S32768x128 ![0] bcast_S32768_S32768x128_0),
    TRef.nullary main_call2.cst (constant S_ .f32 0x7FC00000#32),
    TRef.unary main_call2.cst main_call2.v15 (broadcastInDim S32768x128 ![] bcast_S_S32768x128),
    TRef.ternary main_call2.v14 main_call2.v13 main_call2.v15 main_call2.v16 select ]

/-- The same look-up of each node's degree row in the 11-row table. -/
abbrev opsC : List (HloOp τ sig (Elt F)) :=
  [ TRef.nullary main_call3.c (constantI S_ 32 0#32),
    TRef.unary main_call3.c main_call3.v0 (broadcastInDim S32768 ![] bcast_S_S32768),
    TRef.binary (.of main_v5) main_call3.v0 main_call3.v1 (cmpi .slt),
    TRef.nullary main_call3.c_0 (constantI S_ 32 11#32),
    TRef.unary main_call3.c_0 main_call3.v2 (broadcastInDim S32768 ![] bcast_S_S32768),
    TRef.binary (.of main_v5) main_call3.v2 main_call3.v3 addi,
    TRef.ternary main_call3.v1 main_call3.v3 (.of main_v5) main_call3.call0.v0 select,
    TRef.unary main_call3.call0.v0 main_call3.v5 (broadcastInDim S32768x1 ![0] bcast_S32768_S32768x1_0),
    TRef.nullary main_call3.c_1 (constantI S1 32 10#32),
    TRef.nullary main_call3.c_2 (constantI S_ 32 0#32),
    TRef.unary main_call3.c_2 main_call3.v6 (broadcastInDim S32768x1 ![] bcast_S_S32768x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S32768x1 ![0, 1] bcast_S1x1_S32768x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S32768x1_S32768_d1 h_S_),
    TRef.binary (.of main_arg4) main_call3.v5 main_call3.v13 (fun x i => Host.gather gather_S11x128_S32768x1_S32768x128_1_0_n_n_0_1_1128 x i),
    TRef.unary main_call3.v12 main_call3.v14 (broadcastInDim S32768x128 ![0] bcast_S32768_S32768x128_0),
    TRef.nullary main_call3.cst (constant S_ .f32 0x7FC00000#32),
    TRef.unary main_call3.cst main_call3.v15 (broadcastInDim S32768x128 ![] bcast_S_S32768x128),
    TRef.ternary main_call3.v14 main_call3.v13 main_call3.v15 main_call3.v16 select ]

/-- The sum of the two rows per node, its accumulation by graph id, and the dense head. -/
abbrev opsD : List (HloOp τ sig (Elt F)) :=
  [ binary main_v6 main_v7 main_v8 (addf : (⟨S32768x128, .f32⟩ : BufTy).Contents (Elt F) → (⟨S32768x128, .f32⟩ : BufTy).Contents (Elt F) → (⟨S32768x128, .f32⟩ : BufTy).Contents (Elt F)),
    nullary main_cst (constant S_ .f32 0x00000000#32),
    unary main_cst main_v9 (broadcastInDim S16x128 ![] bcast_S_S16x128 : (⟨S_, .f32⟩ : BufTy).Contents (Elt F) → (⟨S16x128, .f32⟩ : BufTy).Contents (Elt F)),
    unary main_arg1 main_v10 (broadcastInDim S32768x1 ![0] bcast_S32768_S32768x1_0 : (⟨S32768, .i32⟩ : BufTy).Contents (Elt F) → (⟨S32768x1, .i32⟩ : BufTy).Contents (Elt F)),
    ternary main_v9 main_v10 main_v8 main_v11 ((fun x i u => Host.scatterAdd scatter_S16x128_S32768x1_S32768x128_1_0_0_1 x i u) : (⟨S16x128, .f32⟩ : BufTy).Contents (Elt F) → (⟨S32768x1, .i32⟩ : BufTy).Contents (Elt F) → (⟨S32768x128, .f32⟩ : BufTy).Contents (Elt F) → (⟨S16x128, .f32⟩ : BufTy).Contents (Elt F)),
    binary main_arg2 main_arg5 main_v12 ((fun l r => Host.dotGeneral dot_S16x102_S102x128_S16x128_1_0_0_1_n_n none l r) : (⟨S16x102, .f32⟩ : BufTy).Contents (Elt F) → (⟨S102x128, .f32⟩ : BufTy).Contents (Elt F) → (⟨S16x128, .f32⟩ : BufTy).Contents (Elt F)),
    unary main_arg6 main_v13 (broadcastInDim S1x128 ![1] bcast_S128_S1x128_1 : (⟨S128, .f32⟩ : BufTy).Contents (Elt F) → (⟨S1x128, .f32⟩ : BufTy).Contents (Elt F)),
    unary main_v13 main_v14 (broadcastInDim S16x128 ![0, 1] bcast_S1x128_S16x128_0_1 : (⟨S1x128, .f32⟩ : BufTy).Contents (Elt F) → (⟨S16x128, .f32⟩ : BufTy).Contents (Elt F)),
    binary main_v12 main_v14 main_v15 (addf : (⟨S16x128, .f32⟩ : BufTy).Contents (Elt F) → (⟨S16x128, .f32⟩ : BufTy).Contents (Elt F) → (⟨S16x128, .f32⟩ : BufTy).Contents (Elt F)),
    binary main_v11 main_v15 main_v16 ((fun a b => concatenate S16x256 1 [⟨S16x128, a⟩, ⟨S16x128, b⟩] concatenates_S16x128_S16x128_S16x256_d1) : (⟨S16x128, .f32⟩ : BufTy).Contents (Elt F) → (⟨S16x128, .f32⟩ : BufTy).Contents (Elt F) → (⟨S16x256, .f32⟩ : BufTy).Contents (Elt F)),
    binary main_v16 main_arg7 main_v17 ((fun l r => Host.dotGeneral dot_S16x256_S256x128_S16x128_1_0_0_1_n_n none l r) : (⟨S16x256, .f32⟩ : BufTy).Contents (Elt F) → (⟨S256x128, .f32⟩ : BufTy).Contents (Elt F) → (⟨S16x128, .f32⟩ : BufTy).Contents (Elt F)),
    unary main_arg8 main_v18 (broadcastInDim S1x128 ![1] bcast_S128_S1x128_1 : (⟨S128, .f32⟩ : BufTy).Contents (Elt F) → (⟨S1x128, .f32⟩ : BufTy).Contents (Elt F)),
    unary main_v18 main_v19 (broadcastInDim S16x128 ![0, 1] bcast_S1x128_S16x128_0_1 : (⟨S1x128, .f32⟩ : BufTy).Contents (Elt F) → (⟨S16x128, .f32⟩ : BufTy).Contents (Elt F)),
    binary main_v17 main_v19 main_v20 (addf : (⟨S16x128, .f32⟩ : BufTy).Contents (Elt F) → (⟨S16x128, .f32⟩ : BufTy).Contents (Elt F) → (⟨S16x128, .f32⟩ : BufTy).Contents (Elt F)),
    nullary main_cst_3 (constant S_ .f32 0x00000000#32),
    unary main_cst_3 main_v21 (broadcastInDim S16x128 ![] bcast_S_S16x128 : (⟨S_, .f32⟩ : BufTy).Contents (Elt F) → (⟨S16x128, .f32⟩ : BufTy).Contents (Elt F)),
    binary main_v20 main_v21 main_v22 (maximumf : (⟨S16x128, .f32⟩ : BufTy).Contents (Elt F) → (⟨S16x128, .f32⟩ : BufTy).Contents (Elt F) → (⟨S16x128, .f32⟩ : BufTy).Contents (Elt F)),
    binary main_v22 main_arg9 main_v23 ((fun l r => Host.dotGeneral dot_S16x128_S128x18_S16x18_1_0_0_1_n_n none l r) : (⟨S16x128, .f32⟩ : BufTy).Contents (Elt F) → (⟨S128x18, .f32⟩ : BufTy).Contents (Elt F) → (⟨S16x18, .f32⟩ : BufTy).Contents (Elt F)),
    unary main_arg10 main_v24 (broadcastInDim S1x18 ![1] bcast_S18_S1x18_1 : (⟨S18, .f32⟩ : BufTy).Contents (Elt F) → (⟨S1x18, .f32⟩ : BufTy).Contents (Elt F)),
    unary main_v24 main_v25 (broadcastInDim S16x18 ![0, 1] bcast_S1x18_S16x18_0_1 : (⟨S1x18, .f32⟩ : BufTy).Contents (Elt F) → (⟨S16x18, .f32⟩ : BufTy).Contents (Elt F)),
    binary main_v23 main_v25 main_v26 (addf : (⟨S16x18, .f32⟩ : BufTy).Contents (Elt F) → (⟨S16x18, .f32⟩ : BufTy).Contents (Elt F) → (⟨S16x18, .f32⟩ : BufTy).Contents (Elt F)) ]

/-- All 87 operations, in program order. -/
abbrev ops : List (HloOp τ sig (Elt F)) := opsA ++ (opsB ++ (opsC ++ opsD))

/-- The contents after two stretches run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 8192 in
set_option maxHeartbeats 4000000 in
/-- The entry function is that straight line: the callees' bodies unfolded at their calls, sequencing reassociated. -/
theorem main_eq (c : Dev nD) : main (F := F) c = seq ops := by
  simp only [main, fn_clip.body, fn_where.body, fn_take.body, fn_take_0.body, seq, List.cons_append, List.nil_append, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-! ## The result as one term of the arguments -/

/-- Column 0 of the node table (the raw labels) as a vector over the nodes. -/
def col0 (x : IVec S32768x2 32) : IVec S32768 32 :=
  shapeCast S32768 (extractStridedSlice S32768x1 ![0, 0] x slices_S32768x2_S32768x1_0_0) shapeCasts_S32768x1_S32768

/-- Column 1 of the node table (the raw degrees) as a vector over the nodes. -/
def col1 (x : IVec S32768x2 32) : IVec S32768 32 :=
  shapeCast S32768 (extractStridedSlice S32768x1 ![0, 1] x slices_S32768x2_S32768x1_0_1) shapeCasts_S32768x1_S32768

/-- Every entry clamped into `[lo, hi]` (signed): first raised to `lo`, then lowered to `hi`. -/
def clamp (lo hi : BitVec 32) (x : IVec S32768 32) : IVec S32768 32 :=
  minsi (broadcastInDim S32768 ![] bcast_S_S32768 (constantI S_ 32 hi))
    (maxsi (broadcastInDim S32768 ![] bcast_S_S32768 (constantI S_ 32 lo)) x)

/-- The nodes' labels, clamped into `[0, 101]`. -/
def labels (x : IVec S32768x2 32) : IVec S32768 32 := clamp 0#32 101#32 (col0 x)

/-- The nodes' degrees, clamped into `[0, 10]`. -/
def degrees (x : IVec S32768x2 32) : IVec S32768 32 := clamp 0#32 10#32 (col1 x)

/-- The row index a look-up in a table of `n` rows starts from: a negative index is wrapped by adding `n`; as a
    column of start indices. -/
def wrapIdx (n : BitVec 32) (idx : IVec S32768 32) : IVec S32768x1 32 :=
  broadcastInDim S32768x1 ![0] bcast_S32768_S32768x1_0
    (select (cmpi .slt idx (broadcastInDim S32768 ![] bcast_S_S32768 (constantI S_ 32 0#32)))
      (addi idx (broadcastInDim S32768 ![] bcast_S_S32768 (constantI S_ 32 n))) idx)

/-- Per node, whether its start index lies in `[0, hi]`. -/
def inRange (hi : BitVec 32) (i : IVec S32768x1 32) : IVec S32768 1 :=
  Host.reduce IntOp.andi
    (andi (cmpi .sge i (broadcastInDim S32768x1 ![] bcast_S_S32768x1 (constantI S_ 32 0#32)))
      (cmpi .sle i (broadcastInDim S32768x1 ![0, 1] bcast_S1x1_S32768x1_0_1
        (broadcastInDim S1x1 ![1] bcast_S1_S1x1_1 (constantI S1 32 hi)))))
    (constantI S_ 1 1#1) reducesTo_S32768x1_S32768_d1 h_S_

/-- The value a look-up answers for an out-of-range index. -/
def fill : Vec F S32768x128 .f32 :=
  broadcastInDim S32768x128 ![] bcast_S_S32768x128 (constant S_ .f32 0x7FC00000#32)

/-- Each node's row of the 102-row table: the gathered row where the index is in range, the fill value elsewhere. -/
def take102 (tbl : Vec F S102x128 .f32) (idx : IVec S32768 32) : Vec F S32768x128 .f32 :=
  select (broadcastInDim S32768x128 ![0] bcast_S32768_S32768x128_0 (inRange 101#32 (wrapIdx 102#32 idx)))
    (Host.gather gather_S102x128_S32768x1_S32768x128_1_0_n_n_0_1_1128 tbl (wrapIdx 102#32 idx)) fill

/-- Each node's row of the 11-row table, likewise. -/
def take11 (tbl : Vec F S11x128 .f32) (idx : IVec S32768 32) : Vec F S32768x128 .f32 :=
  select (broadcastInDim S32768x128 ![0] bcast_S32768_S32768x128_0 (inRange 10#32 (wrapIdx 11#32 idx)))
    (Host.gather gather_S11x128_S32768x1_S32768x128_1_0_n_n_0_1_1128 tbl (wrapIdx 11#32 idx)) fill

/-- The per-node rows `h` accumulated by graph id into a zero 16 × 128 array: the segment sum. -/
def pool (seg : Vec F S32768 .i32) (h : Vec F S32768x128 .f32) : Vec F S16x128 .f32 :=
  Host.scatterAdd scatter_S16x128_S32768x1_S32768x128_1_0_0_1
    (broadcastInDim S16x128 ![] bcast_S_S16x128 (constant S_ .f32 0x00000000#32))
    (broadcastInDim S32768x1 ![0] bcast_S32768_S32768x1_0 seg) h

/-- The pooled node embeddings: per graph, the sum over its nodes of label row plus degree row. -/
def pooled (a0 : Vec F S32768x2 .i32) (a1 : Vec F S32768 .i32) (a3 : Vec F S102x128 .f32) (a4 : Vec F S11x128 .f32) : Vec F S16x128 .f32 :=
  pool a1 (addf (take102 a3 (labels a0)) (take11 a4 (degrees a0)))

/-- A length-128 bias as a 16 × 128 array, the same row sixteen times. -/
def biasRows128 (b : Vec F S128 .f32) : Vec F S16x128 .f32 :=
  broadcastInDim S16x128 ![0, 1] bcast_S1x128_S16x128_0_1 (broadcastInDim S1x128 ![1] bcast_S128_S1x128_1 b)

/-- A length-18 bias as a 16 × 18 array. -/
def biasRows18 (b : Vec F S18 .f32) : Vec F S16x18 .f32 :=
  broadcastInDim S16x18 ![0, 1] bcast_S1x18_S16x18_0_1 (broadcastInDim S1x18 ![1] bcast_S18_S1x18_1 b)

/-- The projected graph features `g · W + b`. -/
def gproj (a2 : Vec F S16x102 .f32) (a5 : Vec F S102x128 .f32) (a6 : Vec F S128 .f32) : Vec F S16x128 .f32 :=
  addf (Host.dotGeneral dot_S16x102_S102x128_S16x128_1_0_0_1_n_n none a2 a5) (biasRows128 a6)

/-- The hidden layer: the two 128-wide blocks side by side, times `w1`, plus `b1`, negative parts cut to zero. -/
def hidden (H : Vec F S16x128 .f32) (G : Vec F S16x128 .f32) (a7 : Vec F S256x128 .f32) (a8 : Vec F S128 .f32) : Vec F S16x128 .f32 :=
  maximumf
    (addf (Host.dotGeneral dot_S16x256_S256x128_S16x128_1_0_0_1_n_n none
        (concatenate S16x256 1 [⟨S16x128, H⟩, ⟨S16x128, G⟩] concatenates_S16x128_S16x128_S16x256_d1) a7)
      (biasRows128 a8))
    (broadcastInDim S16x128 ![] bcast_S_S16x128 (constant S_ .f32 0x00000000#32))

/-- Everything after the pooling: from the pooled array `H` to the 16 × 18 logits. -/
def tail (H : Vec F S16x128 .f32) (a2 : Vec F S16x102 .f32) (a5 : Vec F S102x128 .f32) (a6 : Vec F S128 .f32) (a7 : Vec F S256x128 .f32) (a8 : Vec F S128 .f32)
    (a9 : Vec F S128x18 .f32) (a10 : Vec F S18 .f32) : Vec F S16x18 .f32 :=
  addf (Host.dotGeneral dot_S16x128_S128x18_S16x18_1_0_0_1_n_n none (hidden H (gproj a2 a5 a6) a7 a8) a9) (biasRows18 a10)

/-- The reference's result as one term of its eleven arguments. -/
def out (a0 : Vec F S32768x2 .i32) (a1 : Vec F S32768 .i32) (a2 : Vec F S16x102 .f32) (a3 : Vec F S102x128 .f32) (a4 : Vec F S11x128 .f32) (a5 : Vec F S102x128 .f32) (a6 : Vec F S128 .f32) (a7 : Vec F S256x128 .f32) (a8 : Vec F S128 .f32) (a9 : Vec F S128x18 .f32) (a10 : Vec F S18 .f32) : Vec F S16x18 .f32 :=
  tail (pooled a0 a1 a3 a4) a2 a5 a6 a7 a8 a9 a10

/-! ## What each stretch writes, and leaves alone -/

/-- An operation whose one written buffer is among a list of references writes inside that list. -/
theorem wsub {W : List (Ref sig .tc)} {op : HloOp τ sig (Elt F)} (y : Ref sig .tc)
    (h : op.writes = {Proc.devRef .tc y}) (hy : y ∈ W) :
    op.writes ⊆ (W.map (Proc.devRef (τ := τ) .tc)).toFinset := by
  rw [h, Finset.singleton_subset_iff, List.mem_toFinset]; exact List.mem_map_of_mem hy

/-- The references stretch A writes: one per operation. -/
abbrev WA : List (Ref sig .tc) := [main_v0, main_v1, main_v2, main_v3, main_c, main_c_0, main_call0_v0, main_call0_v1, main_call0_v2, main_call0_v3, main_call0_v4, main_v4, main_c_1, main_c_2, main_call1_v0, main_call1_v1, main_call1_v2, main_call1_v3, main_call1_v4, main_v5]
theorem opsA_sub : (opsA : List (HloOp τ sig (Elt F))).Forall fun op => op.bufs ⊆ tcRefs τ sig :=
  ⟨unary_bufs_sub .., reshape_bufs_sub .., unary_bufs_sub .., reshape_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub ..⟩
theorem writesA : (opsA : List (HloOp τ sig (Elt F))).Forall fun op => op.writes ⊆ (WA.map (Proc.devRef (τ := τ) .tc)).toFinset :=
  ⟨wsub main_v0 rfl (by decide),
    wsub main_v1 rfl (by decide),
    wsub main_v2 rfl (by decide),
    wsub main_v3 rfl (by decide),
    wsub main_c rfl (by decide),
    wsub main_c_0 rfl (by decide),
    wsub main_call0_v0 rfl (by decide),
    wsub main_call0_v1 rfl (by decide),
    wsub main_call0_v2 rfl (by decide),
    wsub main_call0_v3 rfl (by decide),
    wsub main_call0_v4 rfl (by decide),
    wsub main_v4 rfl (by decide),
    wsub main_c_1 rfl (by decide),
    wsub main_c_2 rfl (by decide),
    wsub main_call1_v0 rfl (by decide),
    wsub main_call1_v1 rfl (by decide),
    wsub main_call1_v2 rfl (by decide),
    wsub main_call1_v3 rfl (by decide),
    wsub main_call1_v4 rfl (by decide),
    wsub main_v5 rfl (by decide)⟩
/-- A buffer stretch A does not write keeps its contents across it. -/
theorem frameA (V : Valuation τ sig (Elt F)) (r : Ref sig .tc) (h : r ∉ WA) :
    after opsA V (Proc.devRef .tc r) = V (Proc.devRef .tc r) :=
  after_of_writes_sub opsA V writesA h

/-- The references stretch B writes: one per operation. -/
abbrev WB : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v6]
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem writesB : (opsB : List (HloOp τ sig (Elt F))).Forall fun op => op.writes ⊆ (WB.map (Proc.devRef (τ := τ) .tc)).toFinset :=
  ⟨wsub main_call2_c rfl (by decide),
    wsub main_call2_v0 rfl (by decide),
    wsub main_call2_v1 rfl (by decide),
    wsub main_call2_c_0 rfl (by decide),
    wsub main_call2_v2 rfl (by decide),
    wsub main_call2_v3 rfl (by decide),
    wsub main_call2_v4 rfl (by decide),
    wsub main_call2_v5 rfl (by decide),
    wsub main_call2_c_1 rfl (by decide),
    wsub main_call2_c_2 rfl (by decide),
    wsub main_call2_v6 rfl (by decide),
    wsub main_call2_v7 rfl (by decide),
    wsub main_call2_v8 rfl (by decide),
    wsub main_call2_v9 rfl (by decide),
    wsub main_call2_v10 rfl (by decide),
    wsub main_call2_v11 rfl (by decide),
    wsub main_call2_c_3 rfl (by decide),
    wsub main_call2_v12 rfl (by decide),
    wsub main_call2_v13 rfl (by decide),
    wsub main_call2_v14 rfl (by decide),
    wsub main_call2_cst rfl (by decide),
    wsub main_call2_v15 rfl (by decide),
    wsub main_v6 rfl (by decide)⟩
/-- A buffer stretch B does not write keeps its contents across it. -/
theorem frameB (V : Valuation τ sig (Elt F)) (r : Ref sig .tc) (h : r ∉ WB) :
    after opsB V (Proc.devRef .tc r) = V (Proc.devRef .tc r) :=
  after_of_writes_sub opsB V writesB h

/-- The references stretch C writes: one per operation. -/
abbrev WC : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v7]
theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem writesC : (opsC : List (HloOp τ sig (Elt F))).Forall fun op => op.writes ⊆ (WC.map (Proc.devRef (τ := τ) .tc)).toFinset :=
  ⟨wsub main_call3_c rfl (by decide),
    wsub main_call3_v0 rfl (by decide),
    wsub main_call3_v1 rfl (by decide),
    wsub main_call3_c_0 rfl (by decide),
    wsub main_call3_v2 rfl (by decide),
    wsub main_call3_v3 rfl (by decide),
    wsub main_call3_v4 rfl (by decide),
    wsub main_call3_v5 rfl (by decide),
    wsub main_call3_c_1 rfl (by decide),
    wsub main_call3_c_2 rfl (by decide),
    wsub main_call3_v6 rfl (by decide),
    wsub main_call3_v7 rfl (by decide),
    wsub main_call3_v8 rfl (by decide),
    wsub main_call3_v9 rfl (by decide),
    wsub main_call3_v10 rfl (by decide),
    wsub main_call3_v11 rfl (by decide),
    wsub main_call3_c_3 rfl (by decide),
    wsub main_call3_v12 rfl (by decide),
    wsub main_call3_v13 rfl (by decide),
    wsub main_call3_v14 rfl (by decide),
    wsub main_call3_cst rfl (by decide),
    wsub main_call3_v15 rfl (by decide),
    wsub main_v7 rfl (by decide)⟩
/-- A buffer stretch C does not write keeps its contents across it. -/
theorem frameC (V : Valuation τ sig (Elt F)) (r : Ref sig .tc) (h : r ∉ WC) :
    after opsC V (Proc.devRef .tc r) = V (Proc.devRef .tc r) :=
  after_of_writes_sub opsC V writesC h

/-- The references stretch D writes: one per operation. -/
abbrev WD : List (Ref sig .tc) := [main_v8, main_cst, main_v9, main_v10, main_v11, main_v12, main_v13, main_v14, main_v15, main_v16, main_v17, main_v18, main_v19, main_v20, main_cst_3, main_v21, main_v22, main_v23, main_v24, main_v25, main_v26]
theorem opsD_sub : (opsD : List (HloOp τ sig (Elt F))).Forall fun op => op.bufs ⊆ tcRefs τ sig :=
  ⟨binary_bufs_sub .., nullary_bufs_sub .., unary_bufs_sub .., unary_bufs_sub .., ternary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem writesD : (opsD : List (HloOp τ sig (Elt F))).Forall fun op => op.writes ⊆ (WD.map (Proc.devRef (τ := τ) .tc)).toFinset :=
  ⟨wsub main_v8 rfl (by decide),
    wsub main_cst rfl (by decide),
    wsub main_v9 rfl (by decide),
    wsub main_v10 rfl (by decide),
    wsub main_v11 rfl (by decide),
    wsub main_v12 rfl (by decide),
    wsub main_v13 rfl (by decide),
    wsub main_v14 rfl (by decide),
    wsub main_v15 rfl (by decide),
    wsub main_v16 rfl (by decide),
    wsub main_v17 rfl (by decide),
    wsub main_v18 rfl (by decide),
    wsub main_v19 rfl (by decide),
    wsub main_v20 rfl (by decide),
    wsub main_cst_3 rfl (by decide),
    wsub main_v21 rfl (by decide),
    wsub main_v22 rfl (by decide),
    wsub main_v23 rfl (by decide),
    wsub main_v24 rfl (by decide),
    wsub main_v25 rfl (by decide),
    wsub main_v26 rfl (by decide)⟩
/-- A buffer stretch D does not write keeps its contents across it. -/
theorem frameD (V : Valuation τ sig (Elt F)) (r : Ref sig .tc) (h : r ∉ WD) :
    after opsD V (Proc.devRef .tc r) = V (Proc.devRef .tc r) :=
  after_of_writes_sub opsD V writesD h

end Cert.ReferenceIdeal.RefRun

end
-- ==== Proof.RefIdx.lean ====
import proofs.«203920_g2267742732911_cont_8to1_1065_18_alg».proof.Proof.RefOps
import Idealize.ShloMosaic.Lib.ValueIdx
import Idealize.ShloMosaic.Lib.ReduceAll
import Idealize.ShloMosaic.Lib.Pipeline.Value
import Idealize.ShloMosaic.PureOps.Ideal.Laws

/-!
# The reference's look-ups, read at one node

A clamped index vector makes each row look-up an honest table read: the wrap of negative indices never fires,
the in-range mask is all ones, and the gather's own clamp is the identity.  So the looked-up array at node `m`,
column `c` is the table at row (the node's clamped index), column `c`.
-/

noncomputable section

namespace Cert.ReferenceIdeal.RefTail

open Cert.ReferenceIdeal Cert.ReferenceIdeal.Gen Cert.ReferenceIdeal.RefRun Idealize.ShloMosaic Idealize.ShloMosaic.ValueIdx

variable {F : FTy → Type} [FloatOps F]

/-! ## Clamped words -/

/-- A word raised to zero and then lowered to `hi`. -/
def clipW (hi w : BitVec 32) : BitVec 32 := IntOp.minsi hi (IntOp.maxsi 0#32 w)

/-- For a nonnegative bound the clamped word lies between zero and the bound, read signed. -/
theorem clipW_range (hi w : BitVec 32) (hhi : 0 ≤ hi.toInt) : 0 ≤ (clipW hi w).toInt ∧ (clipW hi w).toInt ≤ hi.toInt := by
  have h0 : (0#32 : BitVec 32).toInt = 0 := by decide
  unfold clipW IntOp.minsi IntOp.maxsi
  split_ifs with h1 h2 h3 <;> simp only [BitVec.slt_iff_toInt_lt, not_lt] at * <;> constructor <;> omega

/-- A word that is nonnegative read signed is its unsigned reading. -/
theorem toInt_eq_toNat_of_nonneg (x : BitVec 32) (h : 0 ≤ x.toInt) : x.toInt = (x.toNat : Int) := by
  rw [BitVec.toInt_eq_toNat_cond] at h ⊢
  split_ifs at h ⊢ with hc
  · rfl
  · have := x.isLt; omega

theorem clipW_toNat_le (hi w : BitVec 32) (hhi : 0 ≤ hi.toInt) : (clipW hi w).toNat ≤ hi.toNat := by
  have ⟨h1, h2⟩ := clipW_range hi w hhi
  rw [toInt_eq_toNat_of_nonneg _ h1, toInt_eq_toNat_of_nonneg _ hhi] at h2
  exact_mod_cast h2

/-! ## The clamped columns at a node -/

theorem col0_apply (x : IVec S32768x2 32) (m : Fin 32768) : col0 x (ix1 m) = x (ix2 m 0) := by
  unfold col0
  rw [shapeCast_apply _ _ (ix1 m) (ix2 m (0 : Fin 1)) (by rw [Shape.rowMajor_val_two, Shape.rowMajor_val_one]; show m.val * 1 + 0 = m.val; omega)]
  exact extractStridedSlice_apply _ _ _ _ (ix2 m 0) fun a => by
    match a with
    | ⟨0, _⟩ => show m.val = 0 + m.val; omega
    | ⟨1, _⟩ => rfl

theorem col1_apply (x : IVec S32768x2 32) (m : Fin 32768) : col1 x (ix1 m) = x (ix2 m 1) := by
  unfold col1
  rw [shapeCast_apply _ _ (ix1 m) (ix2 m (0 : Fin 1)) (by rw [Shape.rowMajor_val_two, Shape.rowMajor_val_one]; show m.val * 1 + 0 = m.val; omega)]
  exact extractStridedSlice_apply _ _ _ _ (ix2 m 1) fun a => by
    match a with
    | ⟨0, _⟩ => show m.val = 0 + m.val; omega
    | ⟨1, _⟩ => rfl

theorem labels_apply (x : IVec S32768x2 32) (m : Fin 32768) : labels x (ix1 m) = clipW 101#32 (x (ix2 m 0)) := by
  show IntOp.minsi 101#32 (IntOp.maxsi 0#32 (col0 x (ix1 m))) = _
  rw [col0_apply]; rfl

theorem degrees_apply (x : IVec S32768x2 32) (m : Fin 32768) : degrees x (ix1 m) = clipW 10#32 (x (ix2 m 1)) := by
  show IntOp.minsi 10#32 (IntOp.maxsi 0#32 (col1 x (ix1 m))) = _
  rw [col1_apply]; rfl

/-! ## The mask is all ones, the wrap never fires -/

/-- A conjunction of one-bit words that are all set, started from a set bit, is set. -/
theorem foldl_andi_one {ι : Type} (f : ι → BitVec 1) : ∀ (l : List ι) (init : BitVec 1), init = 1#1 → (∀ n ∈ l, f n = 1#1) →
    l.foldl (fun r n => IntOp.andi r (f n)) init = 1#1
  | [], _, h, _ => h
  | a :: l, init, h, hf => by
    rw [List.foldl_cons]
    exact foldl_andi_one f l _ (IntOp.andi_eq_one.2 ⟨h, hf a List.mem_cons_self⟩) fun n hn => hf n (List.mem_cons_of_mem _ hn)

/-- On nonnegative indices the wrap of negative ones does nothing: the column of start indices is the index vector. -/
theorem wrapIdx_apply (n : BitVec 32) (idx : IVec S32768 32) (hidx : ∀ k, 0 ≤ (idx k).toInt) (m : Fin 32768) (z : Fin 1) :
    wrapIdx n idx (ix2 m z) = idx (ix1 m) := by
  unfold wrapIdx
  rw [broadcastInDim_apply _ _ _ (ix2 m z) (ix1 m) (fun a => by match a with | ⟨0, _⟩ => rfl)]
  rw [select_apply]
  have hc : cmpi .slt idx (broadcastInDim S32768 ![] bcast_S_S32768 (constantI S_ 32 0#32)) (ix1 m) = 0#1 := by
    apply eq_zero_of_ne_one
    show ¬ IntOp.cmpi .slt (idx (ix1 m)) 0#32 = 1#1
    rw [IntOp.cmpi_slt]
    have := hidx (ix1 m); have h0 : (0#32 : BitVec 32).toInt = 0 := by decide
    omega
  rw [hc, select_zero]

/-- When every index lies in `[0, hi]` the in-range mask is set at every node. -/
theorem inRange_eq_one (hi n : BitVec 32) (idx : IVec S32768 32)
    (hidx : ∀ k, 0 ≤ (idx k).toInt ∧ (idx k).toInt ≤ hi.toInt) (j : S32768.Idx) :
    inRange hi (wrapIdx n idx) j = 1#1 := by
  unfold inRange
  rw [Host.reduce_eq_foldl]
  refine foldl_andi_one _ _ _ rfl fun i _ => ?_
  obtain ⟨m, z, rfl⟩ : ∃ (m : Fin 32768) (z : Fin 1), i = ix2 m z := ⟨i 0, i 1, eq_ix2 i⟩
  show IntOp.andi (IntOp.cmpi .sge (wrapIdx n idx (ix2 m z)) 0#32) (IntOp.cmpi .sle (wrapIdx n idx (ix2 m z)) hi) = 1#1
  rw [wrapIdx_apply n idx (fun k => (hidx k).1), IntOp.andi_eq_one, IntOp.cmpi_sge, IntOp.cmpi_sle]
  have h0 : (0#32 : BitVec 32).toInt = 0 := by decide
  have := hidx (ix1 m)
  constructor <;> omega

/-! ## The row gather at a node -/

section Gather
variable {α : Type}

/-- The dimension numbers of a row look-up in an `N × 128` table by a column of 32768 start indices. -/
abbrev rowDims (N : Nat)
    (wf : GatherDims.WF ⟨2, ![N, 128]⟩ ⟨2, ![32768, 1]⟩ ⟨2, ![32768, 128]⟩ [1] [0] [] [0] [] 1 ![1, 128]) :
    GatherDims ⟨2, ![N, 128]⟩ ⟨2, ![32768, 1]⟩ ⟨2, ![32768, 128]⟩ where
  offsetDims := [1]
  collapsedSliceDims := [0]
  operandBatchingDims := []
  startIndicesBatchingDims := []
  startIndexMap := [0]
  indexVectorDim := 1
  sliceSizes := ![1, 128]
  wf := wf

/-- The row gather read at node `m`, column `c`: the table at the node's start index (read signed, clamped
    into the table), column `c`. -/
theorem gather_row_apply {N : Nat} (hN : 0 < N)
    (wf : GatherDims.WF ⟨2, ![N, 128]⟩ ⟨2, ![32768, 1]⟩ ⟨2, ![32768, 128]⟩ [1] [0] [] [0] [] 1 ![1, 128])
    (x : (⟨2, ![N, 128]⟩ : Shape).Idx → α) (idx : IVec ⟨2, ![32768, 1]⟩ 32) (m : Fin 32768) (c : Fin 128) :
    Host.gather (rowDims N wf) x idx (ix2 m c)
      = x (ix2 ⟨min (idx (ix2 m 0)).toInt.toNat (N - 1), by omega⟩ c) := by
  unfold Host.gather
  congr 1
  funext a
  refine Fin.ext ?_
  show (rowDims N wf).start (ix2 m c) idx a + (rowDims N wf).batchCoord (ix2 m c) a + (rowDims N wf).offCoord (ix2 m c) a = _
  rw [GatherDims.batchCoord_eq_zero _ _ _ List.not_mem_nil]
  match a with
  | ⟨0, _⟩ =>
    show (rowDims N wf).start (ix2 m c) idx (0 : Fin 2) + 0 + (rowDims N wf).offCoord (ix2 m c) (0 : Fin 2)
      = min (idx (ix2 m 0)).toInt.toNat (N - 1)
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N wf).startIndexMap from List.mem_singleton.mpr rfl)]
    have hsi : (rowDims N wf).siIdx (ix2 m c) ⟨List.idxOf (0 : Fin 2) (rowDims N wf).startIndexMap,
        List.idxOf_lt_length_iff.2 (List.mem_singleton.mpr rfl)⟩ = ix2 m 0 := by
      funext b; refine Fin.ext ?_
      match b with
      | ⟨0, _⟩ => rfl
      | ⟨1, _⟩ => rfl
    rw [hsi]
    rfl
  | ⟨1, _⟩ =>
    show (rowDims N wf).start (ix2 m c) idx (1 : Fin 2) + 0 + (rowDims N wf).offCoord (ix2 m c) (1 : Fin 2) = c.val
    have hs : (rowDims N wf).start (ix2 m c) idx (1 : Fin 2) = 0 := by
      unfold GatherDims.start
      rw [dif_neg (by decide : (1 : Fin 2) ∉ ([0] : List (Fin 2)))]
    have ho : (rowDims N wf).offCoord (ix2 m c) (1 : Fin 2) = c.val := by
      unfold GatherDims.offCoord
      rw [dif_pos ((GatherDims.mem_sKept _ _).2 ⟨(by decide : (1 : Fin 2) ∉ ([0] : List (Fin 2))), List.not_mem_nil⟩)]
      rfl
    rw [hs, ho]
    omega

end Gather

/-! ## The look-ups at a node -/

theorem take102_apply (tbl : Vec F S102x128 .f32) (idx : IVec S32768 32)
    (hidx : ∀ k, 0 ≤ (idx k).toInt ∧ (idx k).toInt ≤ 101) (m : Fin 32768) (c : Fin 128) (h : (idx (ix1 m)).toNat < 102) :
    take102 tbl idx (ix2 m c) = tbl (ix2 ⟨(idx (ix1 m)).toNat, h⟩ c) := by
  have h101 : (101#32 : BitVec 32).toInt = 101 := by decide
  unfold take102
  rw [select_apply]
  have hm : broadcastInDim S32768x128 ![0] bcast_S32768_S32768x128_0 (inRange 101#32 (wrapIdx 102#32 idx)) (ix2 m c) = 1#1 :=
    inRange_eq_one 101#32 102#32 idx (fun k => by rw [h101]; exact hidx k) _
  rw [hm, select_one]
  rw [show gather_S102x128_S32768x1_S32768x128_1_0_n_n_0_1_1128
      = rowDims 102 gather_S102x128_S32768x1_S32768x128_1_0_n_n_0_1_1128_wf from rfl,
    gather_row_apply (by decide)]
  refine congrArg (fun r : Fin 102 => tbl (ix2 r c)) (Fin.ext ?_)
  show min (wrapIdx 102#32 idx (ix2 m 0)).toInt.toNat (102 - 1) = (idx (ix1 m)).toNat
  rw [wrapIdx_apply 102#32 idx (fun k => (hidx k).1)]
  have := hidx (ix1 m); have := toInt_eq_toNat_of_nonneg _ this.1
  omega

theorem take11_apply (tbl : Vec F S11x128 .f32) (idx : IVec S32768 32)
    (hidx : ∀ k, 0 ≤ (idx k).toInt ∧ (idx k).toInt ≤ 10) (m : Fin 32768) (c : Fin 128) (h : (idx (ix1 m)).toNat < 11) :
    take11 tbl idx (ix2 m c) = tbl (ix2 ⟨(idx (ix1 m)).toNat, h⟩ c) := by
  have h10 : (10#32 : BitVec 32).toInt = 10 := by decide
  unfold take11
  rw [select_apply]
  have hm : broadcastInDim S32768x128 ![0] bcast_S32768_S32768x128_0 (inRange 10#32 (wrapIdx 11#32 idx)) (ix2 m c) = 1#1 :=
    inRange_eq_one 10#32 11#32 idx (fun k => by rw [h10]; exact hidx k) _
  rw [hm, select_one]
  rw [show gather_S11x128_S32768x1_S32768x128_1_0_n_n_0_1_1128
      = rowDims 11 gather_S11x128_S32768x1_S32768x128_1_0_n_n_0_1_1128_wf from rfl,
    gather_row_apply (by decide)]
  refine congrArg (fun r : Fin 11 => tbl (ix2 r c)) (Fin.ext ?_)
  show min (wrapIdx 11#32 idx (ix2 m 0)).toInt.toNat (11 - 1) = (idx (ix1 m)).toNat
  rw [wrapIdx_apply 11#32 idx (fun k => (hidx k).1)]
  have := hidx (ix1 m); have := toInt_eq_toNat_of_nonneg _ this.1
  omega

end Cert.ReferenceIdeal.RefTail

end
-- ==== Proof.RefPool.lean ====
import proofs.«203920_g2267742732911_cont_8to1_1065_18_alg».proof.Proof.RefIdx

/-!
# The pooled embeddings, read at one graph and one column

The accumulating scatter adds node `m`'s row to the row of the 16 × 128 array that the node's graph id names,
and drops it when the id names no row.  Read at graph `g`, column `c`, the pooled array is therefore the sum,
over the nodes whose id is `g`, of the node's label row plus its degree row at column `c`.
-/

noncomputable section

open scoped BigOperators

namespace Cert.ReferenceIdeal.RefTail

open Cert.ReferenceIdeal Cert.ReferenceIdeal.Gen Cert.ReferenceIdeal.RefRun Idealize.ShloMosaic Idealize.ShloMosaic.ValueIdx

/-! ## Where a node's row lands -/

/-- The scatter's dimension numbers, spelt out: rows of the updates go to rows of the operand, the row chosen by
    the one scatter index. -/
abbrev segDims : ScatterDims S16x128 S32768x1 S32768x128 where
  updateWindowDims := [1]
  insertedWindowDims := [0]
  scatterDimsToOperandDims := [0]
  indexVectorDim := 1
  wf := scatter_S16x128_S32768x1_S32768x128_1_0_0_1_wf

theorem segDims_eq : scatter_S16x128_S32768x1_S32768x128_1_0_0_1 = segDims := rfl

/-- Update element (node `m`, column `c'`) lands on operand element (graph `g`, column `c`) exactly when the
    node's index, read signed, is `g` and the columns agree. -/
theorem resultIdx_seg (idx : IVec S32768x1 32) (m : Fin 32768) (c' : Fin 128) (g : Fin 16) (c : Fin 128) :
    segDims.resultIdx? (ix2 m c') idx = some (ix2 g c) ↔ (idx (ix2 m 0)).toInt = (g.val : Int) ∧ c' = c := by
  have hs0 : segDims.start (ix2 m c') idx (0 : Fin 2) = (idx (ix2 m 0)).toInt := by
    unfold ScatterDims.start
    rw [dif_pos (show (0 : Fin 2) ∈ segDims.scatterDimsToOperandDims from List.mem_singleton.mpr rfl)]
    have hsi : segDims.siIdx (ix2 m c') ⟨List.idxOf (0 : Fin 2) segDims.scatterDimsToOperandDims,
        List.idxOf_lt_length_iff.2 (List.mem_singleton.mpr rfl)⟩ = ix2 m 0 := by
      funext b; refine Fin.ext ?_
      match b with
      | ⟨0, _⟩ => rfl
      | ⟨1, _⟩ => rfl
    rw [hsi]
  have hw0 : segDims.window (ix2 m c') (0 : Fin 2) = 0 := by
    unfold ScatterDims.window
    rw [dif_neg (by decide)]
  have hs1 : segDims.start (ix2 m c') idx (1 : Fin 2) = 0 := by
    unfold ScatterDims.start
    rw [dif_neg (by decide)]
  have hw1 : segDims.window (ix2 m c') (1 : Fin 2) = c'.val := by
    unfold ScatterDims.window
    rw [dif_pos (by decide)]
    rfl
  have hc' : c'.val < 128 := c'.isLt
  have hg : g.val < 16 := g.isLt
  have hall : (∀ a : Fin 2, 0 ≤ segDims.start (ix2 m c') idx a + (segDims.window (ix2 m c') a : Int)
        ∧ segDims.start (ix2 m c') idx a + (segDims.window (ix2 m c') a : Int) < ((S16x128.size a : Nat) : Int))
      ↔ (0 ≤ (idx (ix2 m 0)).toInt ∧ (idx (ix2 m 0)).toInt < 16) := by
    rw [Fin.forall_fin_two, hs0, hw0, hs1, hw1]
    show (0 ≤ (idx (ix2 m 0)).toInt + ((0 : Nat) : Int) ∧ (idx (ix2 m 0)).toInt + ((0 : Nat) : Int) < ((16 : Nat) : Int))
      ∧ (0 ≤ (0 : Int) + (c'.val : Int) ∧ (0 : Int) + (c'.val : Int) < ((128 : Nat) : Int)) ↔ _
    constructor
    · rintro ⟨⟨h1, h2⟩, -⟩; constructor <;> omega
    · rintro ⟨h1, h2⟩; exact ⟨⟨by omega, by omega⟩, by omega, by omega⟩
  unfold ScatterDims.resultIdx?
  by_cases h : ∀ a : Fin 2, 0 ≤ segDims.start (ix2 m c') idx a + (segDims.window (ix2 m c') a : Int)
        ∧ segDims.start (ix2 m c') idx a + (segDims.window (ix2 m c') a : Int) < ((S16x128.size a : Nat) : Int)
  · rw [dif_pos h, Option.some.injEq]
    have hr := hall.1 h
    constructor
    · intro e
      have e0 : (segDims.start (ix2 m c') idx (0 : Fin 2) + (segDims.window (ix2 m c') (0 : Fin 2) : Int)).toNat = g.val :=
        congrArg (fun f : S16x128.Idx => (f (0 : Fin 2)).val) e
      have e1 : (segDims.start (ix2 m c') idx (1 : Fin 2) + (segDims.window (ix2 m c') (1 : Fin 2) : Int)).toNat = c.val :=
        congrArg (fun f : S16x128.Idx => (f (1 : Fin 2)).val) e
      rw [hs0, hw0] at e0
      rw [hs1, hw1] at e1
      exact ⟨by omega, Fin.ext (by omega)⟩
    · rintro ⟨e0, rfl⟩
      funext a
      refine Fin.ext ?_
      match a with
      | ⟨0, _⟩ =>
        show (segDims.start (ix2 m c') idx (0 : Fin 2) + (segDims.window (ix2 m c') (0 : Fin 2) : Int)).toNat = g.val
        rw [hs0, hw0]; omega
      | ⟨1, _⟩ =>
        show (segDims.start (ix2 m c') idx (1 : Fin 2) + (segDims.window (ix2 m c') (1 : Fin 2) : Int)).toNat = c'.val
        rw [hs1, hw1]; omega
  · rw [dif_neg h]
    constructor
    · intro e; exact absurd e (by simp)
    · rintro ⟨e0, -⟩
      exact absurd (hall.2 ⟨by omega, by omega⟩) h

/-! ## The segment sum at an element -/

/-- The segment sum read at graph `g`, column `c`: the rows of the nodes whose id, read signed, is `g`, summed
    at column `c` (the initial zero gone). -/
theorem pool_apply (seg : Vec Ideal S32768 .i32) (h : Vec Ideal S32768x128 .f32) (g : Fin 16) (c : Fin 128) :
    RefRun.pool seg h (ix2 g c) = ∑ m : Fin 32768, if (seg (ix1 m)).toInt = (g.val : Int) then h (ix2 m c) else 0 := by
  unfold RefRun.pool Host.scatterAdd
  rw [Ideal.hostScatterAdd_def, segDims_eq]
  unfold Ideal.hostScatterAdd
  have hz : broadcastInDim S16x128 ![] bcast_S_S16x128 (constant (F := Ideal) S_ .f32 0x00000000#32) (ix2 g c) = 0 :=
    Ideal.ofBits_zero_f32
  rw [hz, zero_add, Finset.sum_filter, sum_idx2]
  refine Finset.sum_congr rfl fun m _ => ?_
  have key : ∀ c' : Fin 128,
      segDims.resultIdx? (ix2 m c') (broadcastInDim S32768x1 ![0] bcast_S32768_S32768x1_0 seg) = some (ix2 g c)
        ↔ (seg (ix1 m)).toInt = (g.val : Int) ∧ c' = c := fun c' => by
    have hb : broadcastInDim S32768x1 ![0] bcast_S32768_S32768x1_0 seg (ix2 m (0 : Fin 1)) = seg (ix1 m) :=
      broadcastInDim_apply _ _ _ (ix2 m 0) (ix1 m) (fun a => by match a with | ⟨0, _⟩ => rfl)
    rw [← hb]
    exact resultIdx_seg _ m c' g c
  by_cases hg : (seg (ix1 m)).toInt = (g.val : Int)
  · rw [if_pos hg, Finset.sum_eq_single c]
    · rw [if_pos ((key c).2 ⟨hg, rfl⟩)]
    · intro b _ hb
      rw [if_neg (fun e => hb ((key b).1 e).2)]
    · intro hc
      exact absurd (Finset.mem_univ c) hc
  · rw [if_neg hg]
    exact Finset.sum_eq_zero fun b _ => if_neg (fun e => hg ((key b).1 e).1)

/-! ## The pooled embeddings at an element -/

/-- Node `m`'s label row: its raw label clamped into `[0, 101]`. -/
def labelIx (a0 : Vec Ideal S32768x2 .i32) (m : Fin 32768) : Fin 102 :=
  ⟨(IntOp.minsi 101#32 (IntOp.maxsi 0#32 (a0 (ix2 m 0)))).toNat, by
    have h := clipW_toNat_le 101#32 (a0 (ix2 m 0)) (by decide)
    have h101 : (101#32 : BitVec 32).toNat = 101 := by decide
    unfold clipW at h; omega⟩

/-- Node `m`'s degree row: its raw degree clamped into `[0, 10]`. -/
def degreeIx (a0 : Vec Ideal S32768x2 .i32) (m : Fin 32768) : Fin 11 :=
  ⟨(IntOp.minsi 10#32 (IntOp.maxsi 0#32 (a0 (ix2 m 1)))).toNat, by
    have h := clipW_toNat_le 10#32 (a0 (ix2 m 1)) (by decide)
    have h10 : (10#32 : BitVec 32).toNat = 10 := by decide
    unfold clipW at h; omega⟩

theorem labelIx_val (a0 : Vec Ideal S32768x2 .i32) (m : Fin 32768) :
    (labelIx a0 m).val = (IntOp.minsi 101#32 (IntOp.maxsi 0#32 (a0 (ix2 m 0)))).toNat := rfl
theorem degreeIx_val (a0 : Vec Ideal S32768x2 .i32) (m : Fin 32768) :
    (degreeIx a0 m).val = (IntOp.minsi 10#32 (IntOp.maxsi 0#32 (a0 (ix2 m 1)))).toNat := rfl

theorem labels_range (a0 : IVec S32768x2 32) (k : S32768.Idx) : 0 ≤ (labels a0 k).toInt ∧ (labels a0 k).toInt ≤ 101 := by
  obtain ⟨m, rfl⟩ : ∃ m : Fin 32768, k = ix1 m := ⟨k 0, eq_ix1 k⟩
  rw [labels_apply]
  have h := clipW_range 101#32 (a0 (ix2 m 0)) (by decide)
  have h101 : (101#32 : BitVec 32).toInt = 101 := by decide
  rw [h101] at h; exact h

theorem degrees_range (a0 : IVec S32768x2 32) (k : S32768.Idx) : 0 ≤ (degrees a0 k).toInt ∧ (degrees a0 k).toInt ≤ 10 := by
  obtain ⟨m, rfl⟩ : ∃ m : Fin 32768, k = ix1 m := ⟨k 0, eq_ix1 k⟩
  rw [degrees_apply]
  have h := clipW_range 10#32 (a0 (ix2 m 1)) (by decide)
  have h10 : (10#32 : BitVec 32).toInt = 10 := by decide
  rw [h10] at h; exact h

/-- A word's signed reading is a graph number below 16 exactly when its unsigned reading is. -/
theorem toInt_eq_iff_toNat_eq (x : BitVec 32) (g : Fin 16) : x.toInt = (g.val : Int) ↔ x.toNat = g.val := by
  have hg := g.isLt
  have hx := x.isLt
  rw [BitVec.toInt_eq_toNat_cond]
  split_ifs with hc <;> constructor <;> intro h <;> omega

/-- THE POOLED EMBEDDINGS AT AN ELEMENT: for graph `g` and column `c`, the sum over the nodes whose graph id
    is `g` of the label table at (the node's clamped label, `c`) plus the degree table at (the node's clamped
    degree, `c`).  No condition on the inputs is needed: the clamps keep the look-ups inside their tables,
    and a node whose id names no graph is dropped by the scatter as it is by the condition here. -/
theorem pooled_apply (a0 : Vec Ideal S32768x2 .i32) (a1 : Vec Ideal S32768 .i32) (a3 : Vec Ideal S102x128 .f32)
    (a4 : Vec Ideal S11x128 .f32) (g : Fin 16) (c : Fin 128) :
    pooled a0 a1 a3 a4 (ix2 g c)
      = ∑ m : Fin 32768, if (a1 (ix1 m)).toNat = g.val then a3 (ix2 (labelIx a0 m) c) + a4 (ix2 (degreeIx a0 m) c) else 0 := by
  unfold pooled
  rw [pool_apply]
  refine Finset.sum_congr rfl fun m _ => ?_
  by_cases hg : (a1 (ix1 m)).toNat = g.val
  · have hl : (labels a0 (ix1 m)).toNat < 102 := by rw [labels_apply]; exact (labelIx a0 m).isLt
    have hd : (degrees a0 (ix1 m)).toNat < 11 := by rw [degrees_apply]; exact (degreeIx a0 m).isLt
    have el : (⟨(labels a0 (ix1 m)).toNat, hl⟩ : Fin 102) = labelIx a0 m :=
      Fin.ext (by show (labels a0 (ix1 m)).toNat = (labelIx a0 m).val; rw [labels_apply]; rfl)
    have ed : (⟨(degrees a0 (ix1 m)).toNat, hd⟩ : Fin 11) = degreeIx a0 m :=
      Fin.ext (by show (degrees a0 (ix1 m)).toNat = (degreeIx a0 m).val; rw [degrees_apply]; rfl)
    rw [if_pos hg, if_pos ((toInt_eq_iff_toNat_eq _ g).2 hg), addf_apply,
      take102_apply a3 (labels a0) (labels_range a0) m c hl, take11_apply a4 (degrees a0) (degrees_range a0) m c hd, el, ed]
  · rw [if_neg hg, if_neg (fun e => hg ((toInt_eq_iff_toNat_eq _ g).1 e))]

end Cert.ReferenceIdeal.RefTail

end
-- ==== Proof.RefKTail.lean ====
import proofs.«203920_g2267742732911_cont_8to1_1065_18_alg».proof.Proof.RefOps
import proofs.«203920_g2267742732911_cont_8to1_1065_18_alg».proof.Proof.Gen.KernelIdeal.Skeleton
import Idealize.ShloMosaic.Lib.ValueIdx
import Idealize.ShloMosaic.Lib.Pipeline.Value
import Idealize.ShloMosaic.PureOps.Ideal.Laws

/-!
# The dense head: the kernel's and the reference's are one function

The TensorCore kernel's arithmetic, once its pooled counts have been multiplied into the two embedding
tables (`khg`), is the same dense head the reference applies to its pooled embeddings: a matrix product
into a zero accumulator is the plain contraction, a bias reshaped to one row and repeated down the rows is
the bias broadcast along the columns, and the remaining operations (sum, side-by-side placement, maximum
with zero) are literally the same.
-/

noncomputable section

namespace Cert.ReferenceIdeal.RefTail

open Idealize.ShloMosaic Idealize.ShloMosaic.ValueIdx

/-! ## The kernel's arithmetic, split at the pooled embeddings -/

section Kernel
open Cert.KernelIdeal Cert.KernelIdeal.Gen
variable {F : FTy → Type} [FloatOps F]

/-- The kernel's pooled embeddings: the 32 per-tile count tables summed, the label block times the label
    table plus the degree block times the degree table. -/
def khg (cnt : Vec F S32x32x128 .f32) (le : Vec F S102x128 .f32) (de : Vec F S11x128 .f32) : FVec F S16x128 .f32 :=
  addf
    (matmul dot_S16x102_S102x128_S16x128_1_0_0_1_n_n (some .fp32)
      (extractStridedSlice S16x102 ![0, 0] (multiReduction .add [0] S32x128 (shapeCast S32x32x128 cnt shapeCasts_S32x32x128_S32x32x128) 0x00000000#32 reduces_S32x32x128_S32x128 (.inl rfl) rfl) slices_S32x128_o0_0_S16x102) le (constant S16x128 .f32 0x00000000#32))
    (matmul dot_S16x11_S11x128_S16x128_1_0_0_1_n_n (some .fp32)
      (extractStridedSlice S16x11 ![16, 0] (multiReduction .add [0] S32x128 (shapeCast S32x32x128 cnt shapeCasts_S32x32x128_S32x32x128) 0x00000000#32 reduces_S32x32x128_S32x128 (.inl rfl) rfl) slices_S32x128_o16_0_S16x11) de (constant S16x128 .f32 0x00000000#32))

/-- The kernel's dense head, from pooled embeddings `H` to the logits. -/
def ktail (H : FVec F S16x128 .f32) (gf : Vec F S16x102 .f32) (gw : Vec F S102x128 .f32) (gb : Vec F S1x128 .f32)
    (w1 : Vec F S256x128 .f32) (b1 : Vec F S1x128 .f32) (w2 : Vec F S128x18 .f32) (b2 : Vec F S1x18 .f32) : FVec F S16x18 .f32 :=
  addf
    (matmul dot_S16x128_S128x18_S16x18_1_0_0_1_n_n (some .fp32)
      (maximumf
        (addf
          (matmul dot_S16x256_S256x128_S16x128_1_0_0_1_n_n (some .fp32)
            (concatenate S16x256 1
              [⟨S16x128, H⟩,
               ⟨S16x128, addf (matmul dot_S16x102_S102x128_S16x128_1_0_0_1_n_n (some .fp32) gf gw (constant S16x128 .f32 0x00000000#32))
                  (broadcastTo S16x128 (shapeCast S1x128 gb shapeCasts_S1x128_S1x128) broadcasts_S1x128_S16x128)⟩]
              concatenates_S16x128_S16x128_S16x256_d1)
            w1 (constant S16x128 .f32 0x00000000#32))
          (broadcastTo S16x128 (shapeCast S1x128 b1 shapeCasts_S1x128_S1x128) broadcasts_S1x128_S16x128))
        (broadcast S16x128 (Scalar.ofBits .f32 0x00000000#32)))
      w2 (constant S16x18 .f32 0x00000000#32))
    (broadcastTo S16x18 (shapeCast S1x18 b2 shapeCasts_S1x18_S1x18) broadcasts_S1x18_S16x18)

/-- The kernel's whole arithmetic is its head applied to its pooled embeddings: by unfolding. -/
theorem k1_pay1_eq (cnt : Vec F S32x32x128 .f32) (le : Vec F S102x128 .f32) (de : Vec F S11x128 .f32) (gf : Vec F S16x102 .f32)
    (gw : Vec F S102x128 .f32) (gb : Vec F S1x128 .f32) (w1 : Vec F S256x128 .f32) (b1 : Vec F S1x128 .f32)
    (w2 : Vec F S128x18 .f32) (b2 : Vec F S1x18 .f32) :
    k1_pay1 cnt le de gf gw gb w1 b1 w2 b2 = ktail (khg cnt le de) gf gw gb w1 b1 w2 b2 := rfl

end Kernel

/-! ## The two heads agree at the ideal values -/

section AtIdeal
open Cert.ReferenceIdeal.RefRun

/-- A matrix product into the zero accumulator is the plain contraction: both are the sum of products over the
    contracted axis. -/
theorem matmul_zero_eq_dotGeneral {sl sr so : Shape} (d : DotDims sl sr so) (p p' : Option ContractPrecision)
    (l : FVec Ideal sl .f32) (r : FVec Ideal sr .f32) :
    matmul d p l r (constant (F := Ideal) so .f32 0x00000000#32) = Host.dotGeneral d p' l r :=
  funext fun j => by
    show FloatOps.matmul d p l r (constant (F := Ideal) so .f32 0x00000000#32) j = FloatOps.dotGeneral d p' .single l r j
    rw [Ideal.matmul_constant_zero_apply, Ideal.dotGeneral_apply]

section Bias
variable {α : Type}

/-- A length-128 vector reshaped to one row and repeated down sixteen rows is the vector broadcast along the
    columns: both read entry `q` at (row, `q`). -/
theorem bias128_eq (b : Cert.ReferenceIdeal.S128.Idx → α) :
    broadcastTo Cert.KernelIdeal.S16x128
        (shapeCast Cert.KernelIdeal.S1x128 (shapeCast Cert.KernelIdeal.S1x128 b Cert.KernelIdeal.Gen.shapeCasts_S128_S1x128) Cert.KernelIdeal.Gen.shapeCasts_S1x128_S1x128)
        Cert.KernelIdeal.Gen.broadcasts_S1x128_S16x128
      = broadcastInDim Cert.ReferenceIdeal.S16x128 ![0, 1] Cert.ReferenceIdeal.Gen.bcast_S1x128_S16x128_0_1
          (broadcastInDim Cert.ReferenceIdeal.S1x128 ![1] Cert.ReferenceIdeal.Gen.bcast_S128_S1x128_1 b) := by
  funext j
  obtain ⟨p, q, rfl⟩ : ∃ (p : Fin 16) (q : Fin 128), j = ix2 p q := ⟨j 0, j 1, eq_ix2 j⟩
  rw [shapeCast_self]
  rw [broadcastTo_apply _ _ (ix2 p q) (ix2 (0 : Fin 1) q) (fun a => by match a with | ⟨0, _⟩ => rfl | ⟨1, _⟩ => rfl)]
  rw [shapeCast_apply _ _ (ix2 (0 : Fin 1) q) (ix1 q)
    (by rw [Shape.rowMajor_val_one, Shape.rowMajor_val_two]; show q.val = 0 * 128 + q.val; omega)]
  rw [broadcastInDim_apply _ _ _ (ix2 p q) (ix2 (0 : Fin 1) q) (fun a => by match a with | ⟨0, _⟩ => rfl | ⟨1, _⟩ => rfl)]
  rw [broadcastInDim_apply _ _ _ (ix2 (0 : Fin 1) q) (ix1 q) (fun a => by match a with | ⟨0, _⟩ => rfl)]

/-- The same for a length-18 vector and a 16 × 18 array. -/
theorem bias18_eq (b : Cert.ReferenceIdeal.S18.Idx → α) :
    broadcastTo Cert.KernelIdeal.S16x18
        (shapeCast Cert.KernelIdeal.S1x18 (shapeCast Cert.KernelIdeal.S1x18 b Cert.KernelIdeal.Gen.shapeCasts_S18_S1x18) Cert.KernelIdeal.Gen.shapeCasts_S1x18_S1x18)
        Cert.KernelIdeal.Gen.broadcasts_S1x18_S16x18
      = broadcastInDim Cert.ReferenceIdeal.S16x18 ![0, 1] Cert.ReferenceIdeal.Gen.bcast_S1x18_S16x18_0_1
          (broadcastInDim Cert.ReferenceIdeal.S1x18 ![1] Cert.ReferenceIdeal.Gen.bcast_S18_S1x18_1 b) := by
  funext j
  obtain ⟨p, q, rfl⟩ : ∃ (p : Fin 16) (q : Fin 18), j = ix2 p q := ⟨j 0, j 1, eq_ix2 j⟩
  rw [shapeCast_self]
  rw [broadcastTo_apply _ _ (ix2 p q) (ix2 (0 : Fin 1) q) (fun a => by match a with | ⟨0, _⟩ => rfl | ⟨1, _⟩ => rfl)]
  rw [shapeCast_apply _ _ (ix2 (0 : Fin 1) q) (ix1 q)
    (by rw [Shape.rowMajor_val_one, Shape.rowMajor_val_two]; show q.val = 0 * 18 + q.val; omega)]
  rw [broadcastInDim_apply _ _ _ (ix2 p q) (ix2 (0 : Fin 1) q) (fun a => by match a with | ⟨0, _⟩ => rfl | ⟨1, _⟩ => rfl)]
  rw [broadcastInDim_apply _ _ _ (ix2 (0 : Fin 1) q) (ix1 q) (fun a => by match a with | ⟨0, _⟩ => rfl)]

end Bias

/-- The zero array the maximum is taken against is the same on both sides. -/
theorem zero_eq :
    broadcast Cert.KernelIdeal.S16x128 (Scalar.ofBits (F := Ideal) .f32 0x00000000#32)
      = broadcastInDim Cert.ReferenceIdeal.S16x128 ![] Cert.ReferenceIdeal.Gen.bcast_S_S16x128 (constant (F := Ideal) Cert.ReferenceIdeal.S_ .f32 0x00000000#32) := by
  funext j; rfl

/-- THE HEADS AGREE: at the ideal values the kernel's arithmetic, fed the three biases reshaped to one row
    each, is the reference's dense head applied to the kernel's pooled embeddings. -/
theorem tail_eq_kernel (cnt : Vec Ideal Cert.KernelIdeal.S32x32x128 .f32) (le : Vec Ideal Cert.KernelIdeal.S102x128 .f32) (de : Vec Ideal Cert.KernelIdeal.S11x128 .f32)
    (gf : Vec Ideal Cert.KernelIdeal.S16x102 .f32) (gw : Vec Ideal Cert.KernelIdeal.S102x128 .f32) (gb : Vec Ideal Cert.KernelIdeal.S128 .f32)
    (w1 : Vec Ideal Cert.KernelIdeal.S256x128 .f32) (b1 : Vec Ideal Cert.KernelIdeal.S128 .f32) (w2 : Vec Ideal Cert.KernelIdeal.S128x18 .f32) (b2 : Vec Ideal Cert.KernelIdeal.S18 .f32) :
    Cert.KernelIdeal.Gen.k1_pay1 (F := Ideal) cnt le de gf gw (shapeCast Cert.KernelIdeal.S1x128 gb Cert.KernelIdeal.Gen.shapeCasts_S128_S1x128) w1
        (shapeCast Cert.KernelIdeal.S1x128 b1 Cert.KernelIdeal.Gen.shapeCasts_S128_S1x128) w2 (shapeCast Cert.KernelIdeal.S1x18 b2 Cert.KernelIdeal.Gen.shapeCasts_S18_S1x18)
      = tail (khg cnt le de) gf gw gb w1 b1 w2 b2 := by
  rw [k1_pay1_eq]
  unfold ktail Cert.ReferenceIdeal.RefRun.tail Cert.ReferenceIdeal.RefRun.hidden Cert.ReferenceIdeal.RefRun.gproj Cert.ReferenceIdeal.RefRun.biasRows128 Cert.ReferenceIdeal.RefRun.biasRows18
  rw [matmul_zero_eq_dotGeneral _ _ none, matmul_zero_eq_dotGeneral _ _ none, matmul_zero_eq_dotGeneral _ _ none,
    bias128_eq, bias128_eq, bias18_eq, zero_eq]

end AtIdeal

end Cert.ReferenceIdeal.RefTail

end
-- ==== Proof.CountFinal.lean ====
import proofs.«203920_g2267742732911_cont_8to1_1065_18_alg».proof.Proof.CountHead
import proofs.«203920_g2267742732911_cont_8to1_1065_18_alg».proof.Proof.RefPool
import proofs.«203920_g2267742732911_cont_8to1_1065_18_alg».proof.Proof.RefKTail

/-!
The two programs' pooled embeddings agree.

The kernel's first head step (tiles' tables summed, label and degree blocks multiplied by the embedding
tables) is, at every element, the segment sum of the embedding rows the clipped labels and degrees
select; the reference's pooled array is the same sum.  So, given that each tile's table is the table of
its slice of the node arrays, that the graph ids are at most 15 and that the tables are finite, the two
16 x 128 arrays are equal.
-/

noncomputable section

namespace Cert.KernelIdeal.Hist

open Idealize.ShloMosaic Idealize.ShloMosaic.ValueIdx Cert.KernelIdeal Cert.KernelIdeal.Gen

/-- The kernel's pooled embeddings, as the reference-side module spells them, are the term read above. -/
theorem khg_eq_khgT (cnt : Vec Ideal S32x32x128 .f32) (le : Vec Ideal S102x128 .f32) (de : Vec Ideal S11x128 .f32) :
    Cert.ReferenceIdeal.RefTail.khg (F := Ideal) cnt le de = khgT cnt le de := rfl

/-- THE BRIDGE.  lab and deg are the two columns of the node array x, as vectors over the nodes. -/
theorem khg_eq_pooled (x : Vec Ideal S32768x2 .i32) (batch lab deg : Vec Ideal S32768 .i32)
    (hlab : ∀ m : Fin 32768, lab (ix1 m) = x (ix2 m 0)) (hdeg : ∀ m : Fin 32768, deg (ix1 m) = x (ix2 m 1))
    (hb : ∀ m, (batch m).toNat ≤ 15)
    (cnt : Vec Ideal S32x32x128 .f32)
    (hcnt : ∀ (w : Fin 32) (r : Fin 32) (c : Fin 128),
      cnt (ix3 w r c) = tileTab (F := Ideal) (slice lab w) (slice deg w) (slice batch w) (ix2 r c))
    (le : Vec Ideal S102x128 .f32) (de : Vec Ideal S11x128 .f32)
    (hle : ∀ i, le i ≠ ⊤ ∧ le i ≠ ⊥) (hde : ∀ i, de i ≠ ⊤ ∧ de i ≠ ⊥) :
    Cert.ReferenceIdeal.RefTail.khg (F := Ideal) cnt le de = Cert.ReferenceIdeal.RefRun.pooled x batch le de := by
  funext j
  obtain ⟨g, c, rfl⟩ : ∃ (g : Fin 16) (c : Fin 128), j = ix2 g c := ⟨j 0, j 1, eq_ix2 j⟩
  rw [khg_eq_khgT, khgT_eq_segment_sum lab deg batch hb cnt hcnt le de hle hde g c]
  refine Eq.trans ?_ (Cert.ReferenceIdeal.RefTail.pooled_apply x batch le de g c).symm
  refine Finset.sum_congr rfl fun m _ => ?_
  have h1 : labIdx lab m = Cert.ReferenceIdeal.RefTail.labelIx x m :=
    Fin.ext (by show (clipL (lab (ix1 m))).toNat = _; rw [hlab]; rfl)
  have h2 : degIdx deg m = Cert.ReferenceIdeal.RefTail.degreeIx x m :=
    Fin.ext (by show (clipD (deg (ix1 m))).toNat = _; rw [hdeg]; rfl)
  rw [h1, h2]

end Cert.KernelIdeal.Hist
-- ==== Proof.PreFacts.lean ====
import proofs.«203920_g2267742732911_cont_8to1_1065_18_alg».proof.Pre_input_domain
import proofs.«203920_g2267742732911_cont_8to1_1065_18_alg».proof.Proof.Gen.Pre_input_domain
import Idealize.ShloMosaic.PureOps
import Idealize.ShloMosaic.Lib.ReduceAll
import Idealize.ShloMosaic.Lib.ValueIdx

/-!
What the input-domain check says of single entries.

The check is a conjunction of eleven "all entries satisfy ..." tests, one per argument array, and the
precondition says the conjunction is true.  Read back: every graph id lies between 0 and 15 as a
signed number, hence reads at most 15 unsigned; and every entry of the two embedding tables has
absolute value below plus infinity, hence is neither infinity at the extended reals.
-/

noncomputable section

namespace Cert.PreFacts

open Idealize.ShloMosaic Idealize.ShloMosaic.ValueIdx Cert.Pre_input_domain

instance : Subsingleton S_.Idx := ⟨fun a b => funext fun d => d.elim0⟩

/-- A word between 0 and 15 as a signed number reads, unsigned, at most 15. -/
theorem toNat_le_of_cmpi (b : BitVec 32) (h0 : IntOp.cmpi .sge b 0#32 = 1#1) (h1 : IntOp.cmpi .sle b 15#32 = 1#1) :
    b.toNat ≤ 15 := by
  rw [IntOp.cmpi_sge] at h0
  rw [IntOp.cmpi_sle] at h1
  have hx := b.isLt
  have e0 : (0#32 : BitVec 32).toInt = 0 := by decide
  have e15 : (15#32 : BitVec 32).toInt = 15 := by decide
  rw [e0] at h0
  rw [e15] at h1
  rw [BitVec.toInt_eq_toNat_cond] at h0 h1
  split_ifs at h0 h1 <;> omega

/-- An extended real whose absolute value is below the pattern of plus infinity is finite. -/
theorem finite_of_abs_lt (x : EReal)
    (h : Ideal.cmp .olt (max x (-x)) (Ideal.ofBits .f32 0x7F800000#32) = 1#1) : x ≠ ⊤ ∧ x ≠ ⊥ := by
  have ht : Ideal.ofBits .f32 0x7F800000#32 = ⊤ := by simp [Ideal.ofBits, Ideal.ieee]
  rw [ht] at h
  have hlt : max x (-x) < ⊤ := by
    by_contra hn
    have : Ideal.cmp .olt (max x (-x)) ⊤ = 0#1 := by
      unfold Ideal.cmp; simp only [decide_eq_false hn]; rfl
    rw [this] at h; exact absurd h (by decide)
  rw [max_lt_iff] at hlt
  refine ⟨ne_of_lt hlt.1, fun hb => ?_⟩
  rw [hb] at hlt
  exact absurd hlt.2 (by simp)

variable [Cert.Pre_input_domain.Facts]

section Decode
variable {F : FTy → Type} [FloatOps F]
variable (a0 : IVec S32768x2 32) (a1 : IVec S32768 32) (a2 : FVec F S16x102 .f32) (a3 : FVec F S102x128 .f32)
  (a4 : FVec F S11x128 .f32) (a5 : FVec F S102x128 .f32) (a6 : FVec F S128 .f32) (a7 : FVec F S256x128 .f32)
  (a8 : FVec F S128 .f32) (a9 : FVec F S128x18 .f32) (a10 : FVec F S18 .f32)

/-- The three tests this proof uses, taken out of the conjunction: the label table's, the degree
    table's and the graph ids'. -/
theorem tests (h : fn (F := F) a0 a1 a2 a3 a4 a5 a6 a7 a8 a9 a10 = fun _ => 1#1) :
    (∀ i, cmpf .olt (Host.absf a3) (broadcastInDim S102x128 ![] Facts.bcast_S_S102x128 (constant S_ .f32 0x7F800000#32)) i = 1#1)
    ∧ (∀ i, cmpf .olt (Host.absf a4) (broadcastInDim S11x128 ![] Facts.bcast_S_S11x128 (constant S_ .f32 0x7F800000#32)) i = 1#1)
    ∧ (∀ j, IntOp.cmpi .sge (a1 j) 0#32 = 1#1 ∧ IntOp.cmpi .sle (a1 j) 15#32 = 1#1) := by
  have e := congrFun h ix0
  dsimp only [fn, fn_part1, fn_part2, fn_part3] at e
  simp only [andi, IntOp.andi_eq_one] at e
  obtain ⟨⟨⟨⟨⟨⟨⟨⟨⟨⟨h2, h3⟩, h4⟩, h5⟩, h6⟩, h7⟩, h8⟩, h9⟩, h10⟩, hx⟩, hb⟩ := e
  refine ⟨fun i => Host.reduce_andi_all _ _ _ _ _ h3 i, fun i => Host.reduce_andi_all _ _ _ _ _ h4 i, fun j => ?_⟩
  have hj := Host.reduce_andi_all _ _ _ _ _ hb j
  exact IntOp.andi_eq_one.1 hj

/-- Every graph id reads, unsigned, at most 15: at any float instance, the test being on integers. -/
theorem batch_le (h : fn (F := F) a0 a1 a2 a3 a4 a5 a6 a7 a8 a9 a10 = fun _ => 1#1) :
    ∀ j : S32768.Idx, (a1 j).toNat ≤ 15 := fun j =>
  toNat_le_of_cmpi (a1 j) ((tests a0 a1 a2 a3 a4 a5 a6 a7 a8 a9 a10 h).2.2 j).1
    ((tests a0 a1 a2 a3 a4 a5 a6 a7 a8 a9 a10 h).2.2 j).2

end Decode

section AtIdeal
variable (a0 : IVec S32768x2 32) (a1 : IVec S32768 32) (a2 : FVec Ideal S16x102 .f32) (a3 : FVec Ideal S102x128 .f32)
  (a4 : FVec Ideal S11x128 .f32) (a5 : FVec Ideal S102x128 .f32) (a6 : FVec Ideal S128 .f32) (a7 : FVec Ideal S256x128 .f32)
  (a8 : FVec Ideal S128 .f32) (a9 : FVec Ideal S128x18 .f32) (a10 : FVec Ideal S18 .f32)

/-- At the extended reals every entry of the label table is finite. -/
theorem label_emb_finite (h : fn (F := Ideal) a0 a1 a2 a3 a4 a5 a6 a7 a8 a9 a10 = fun _ => 1#1) :
    ∀ i, a3 i ≠ ⊤ ∧ a3 i ≠ ⊥ := fun i =>
  finite_of_abs_lt (a3 i) ((tests a0 a1 a2 a3 a4 a5 a6 a7 a8 a9 a10 h).1 i)

/-- At the extended reals every entry of the degree table is finite. -/
theorem deg_emb_finite (h : fn (F := Ideal) a0 a1 a2 a3 a4 a5 a6 a7 a8 a9 a10 = fun _ => 1#1) :
    ∀ i, a4 i ≠ ⊤ ∧ a4 i ≠ ⊥ := fun i =>
  finite_of_abs_lt (a4 i) ((tests a0 a1 a2 a3 a4 a5 a6 a7 a8 a9 a10 h).2.1 i)

end AtIdeal

end Cert.PreFacts
-- ==== Proof.RefRun.lean ====
import proofs.«203920_g2267742732911_cont_8to1_1065_18_alg».proof.Proof.RefOps
import proofs.«203920_g2267742732911_cont_8to1_1065_18_alg».proof.Defs
import proofs.«203920_g2267742732911_cont_8to1_1065_18_alg».proof.Proof.Gen.Pre_input_domain

/-!
# The reference program's run

What the reference's result buffer holds at the end of its line of operations, as one pure term of the eleven
argument arrays, and that no argument buffer is ever written; then the statement over executions: from any
memory with zero counters every weakly fair execution of the entry function terminates in such a state.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## What each stretch computes

Each stretch's result buffer, read back operation by operation, is the corresponding term of the buffers the
stretch starts from.  The gather, the mask's reduction, the scatter, the contractions and the concatenation are
kept folded while the two sides are compared: the comparison never needs to look inside them. -/

theorem valA4 (V : Valuation τ sig (Elt F)) : after opsA V (main_v4 : DevRef τ sig) = labels (V (main_arg0 : DevRef τ sig)) := by
  after_results <;> rfl
theorem valA5 (V : Valuation τ sig (Elt F)) : after opsA V (main_v5 : DevRef τ sig) = degrees (V (main_arg0 : DevRef τ sig)) := by
  after_results <;> rfl

attribute [local irreducible] Host.reduce Host.gather in
set_option maxRecDepth 8192 in
set_option maxHeartbeats 1000000 in
theorem valB (V : Valuation τ sig (Elt F)) :
    after opsB V (main_v6 : DevRef τ sig) = take102 (V (main_arg3 : DevRef τ sig)) (V (main_v4 : DevRef τ sig)) := by
  after_results_simp
  rfl

attribute [local irreducible] Host.reduce Host.gather in
set_option maxRecDepth 8192 in
set_option maxHeartbeats 1000000 in
theorem valC (V : Valuation τ sig (Elt F)) :
    after opsC V (main_v7 : DevRef τ sig) = take11 (V (main_arg4 : DevRef τ sig)) (V (main_v5 : DevRef τ sig)) := by
  after_results_simp
  rfl

attribute [local irreducible] Host.scatterAdd concatenate in
set_option maxRecDepth 8192 in
set_option maxHeartbeats 1000000 in
theorem valD (V : Valuation τ sig (Elt F)) :
    after opsD V (main_v26 : DevRef τ sig) = tail (pool (V (main_arg1 : DevRef τ sig)) (addf (V (main_v6 : DevRef τ sig)) (V (main_v7 : DevRef τ sig))))
      (V (main_arg2 : DevRef τ sig)) (V (main_arg5 : DevRef τ sig)) (V (main_arg6 : DevRef τ sig)) (V (main_arg7 : DevRef τ sig)) (V (main_arg8 : DevRef τ sig))
      (V (main_arg9 : DevRef τ sig)) (V (main_arg10 : DevRef τ sig)) := by
  after_results_simp
  rfl

/-! ## The whole line -/

/-- The result buffer after the whole line, from any contents. -/
theorem after_out (V : Valuation τ sig (Elt F)) :
    after ops V (main_v26 : DevRef τ sig) = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  show after (opsA ++ (opsB ++ (opsC ++ opsD))) V _ = _
  rw [after_append, after_append, after_append, valD,
    frameC _ main_arg1 (by decide), frameB _ main_arg1 (by decide), frameA _ main_arg1 (by decide),
    frameC _ main_arg2 (by decide), frameB _ main_arg2 (by decide), frameA _ main_arg2 (by decide),
    frameC _ main_arg5 (by decide), frameB _ main_arg5 (by decide), frameA _ main_arg5 (by decide),
    frameC _ main_arg6 (by decide), frameB _ main_arg6 (by decide), frameA _ main_arg6 (by decide),
    frameC _ main_arg7 (by decide), frameB _ main_arg7 (by decide), frameA _ main_arg7 (by decide),
    frameC _ main_arg8 (by decide), frameB _ main_arg8 (by decide), frameA _ main_arg8 (by decide),
    frameC _ main_arg9 (by decide), frameB _ main_arg9 (by decide), frameA _ main_arg9 (by decide),
    frameC _ main_arg10 (by decide), frameB _ main_arg10 (by decide), frameA _ main_arg10 (by decide),
    frameC _ main_v6 (by decide), valB, frameA _ main_arg3 (by decide), valA4,
    valC, frameB _ main_arg4 (by decide), frameA _ main_arg4 (by decide), frameB _ main_v5 (by decide), valA5]
  rfl

/-- A buffer no stretch writes keeps its contents across the whole line. -/
theorem after_frame (V : Valuation τ sig (Elt F)) (r : Ref sig .tc) (hA : r ∉ WA) (hB : r ∉ WB) (hC : r ∉ WC) (hD : r ∉ WD) :
    after ops V (Proc.devRef .tc r) = V (Proc.devRef .tc r) := by
  show after (opsA ++ (opsB ++ (opsC ++ opsD))) V _ = _
  rw [after_append, after_append, after_append, frameD _ r hD, frameC _ r hC, frameB _ r hB, frameA _ r hA]

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp opsA_sub op h, List.forall_iff_forall_mem.mp opsB_sub op h,
      List.forall_iff_forall_mem.mp opsC_sub op h, List.forall_iff_forall_mem.mp opsD_sub op h]

/-- On every device, for any float values, from any memory with zero counters: every weakly fair execution of the
    entry function terminates with the result buffer at `out` of the arguments' launch contents, and the
    arguments unchanged. -/
theorem run (m : (ℓ : Loc nD τ sig) → Buf (Elt F) ℓ) (ρ : Dev nD → PrngReg) :
    θ_run (Cert.ReferenceIdeal.defs (F := F)) (onTc (τ := τ) (main (F := F))) ⟨m, fun _ => 0, ρ⟩ (fun r => ∀ c : Dev nD,
      r.2.mem ((c.tc : Thread nD τ).loc main_v26) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c main_v26).trans (after_out _),
      (h c main_arg0).trans (after_frame _ main_arg0 (by decide) (by decide) (by decide) (by decide)),
      (h c main_arg1).trans (after_frame _ main_arg1 (by decide) (by decide) (by decide) (by decide)),
      (h c main_arg2).trans (after_frame _ main_arg2 (by decide) (by decide) (by decide) (by decide)),
      (h c main_arg3).trans (after_frame _ main_arg3 (by decide) (by decide) (by decide) (by decide)),
      (h c main_arg4).trans (after_frame _ main_arg4 (by decide) (by decide) (by decide) (by decide)),
      (h c main_arg5).trans (after_frame _ main_arg5 (by decide) (by decide) (by decide) (by decide)),
      (h c main_arg6).trans (after_frame _ main_arg6 (by decide) (by decide) (by decide) (by decide)),
      (h c main_arg7).trans (after_frame _ main_arg7 (by decide) (by decide) (by decide) (by decide)),
      (h c main_arg8).trans (after_frame _ main_arg8 (by decide) (by decide) (by decide) (by decide)),
      (h c main_arg9).trans (after_frame _ main_arg9 (by decide) (by decide) (by decide) (by decide)),
      (h c main_arg10).trans (after_frame _ main_arg10 (by decide) (by decide) (by decide) (by decide))⟩)
    (run_seq scopedRefs_eq scopedSems_eq defs main (fun _ => ops) main_eq (fun _ => ops_sub) m ρ)

/-- The reference program runs and leaves its arguments unchanged: the run with the result dropped. -/
theorem frame : Cert.frame_ReferenceIdeal := fun m g _ =>
  (θ_run _ _ _).mono (fun _ h c => (h c).2) (run (F := Ideal) m g)

end Cert.ReferenceIdeal.RefRun

end
-- ==== Proof.RefTail.lean ====
import proofs.«203920_g2267742732911_cont_8to1_1065_18_alg».proof.Proof.RefRun
import proofs.«203920_g2267742732911_cont_8to1_1065_18_alg».proof.Proof.RefPool
import proofs.«203920_g2267742732911_cont_8to1_1065_18_alg».proof.Proof.RefKTail

/-!
# The reference's result, split at the pooled embeddings

The reference's result is its dense head applied to its pooled embeddings.  The pooled embeddings read at an
element are a sum over the nodes of a graph (`pooled_apply`), and the dense head is the very function the
TensorCore kernel applies to its own pooled embeddings (`tail_eq_kernel`); so the two programs agree as soon as
their pooled embeddings do.
-/

noncomputable section

namespace Cert.ReferenceIdeal.RefTail

open Cert.ReferenceIdeal Cert.ReferenceIdeal.RefRun Idealize.ShloMosaic

variable {F : FTy → Type} [FloatOps F]

/-- The result term is the dense head of the pooled embeddings: by definition, at every float instance. -/
theorem out_eq (a0 : Vec F S32768x2 .i32) (a1 : Vec F S32768 .i32) (a2 : Vec F S16x102 .f32) (a3 : Vec F S102x128 .f32) (a4 : Vec F S11x128 .f32) (a5 : Vec F S102x128 .f32) (a6 : Vec F S128 .f32) (a7 : Vec F S256x128 .f32) (a8 : Vec F S128 .f32) (a9 : Vec F S128x18 .f32) (a10 : Vec F S18 .f32) :
    out a0 a1 a2 a3 a4 a5 a6 a7 a8 a9 a10 = RefRun.tail (pooled a0 a1 a3 a4) a2 a5 a6 a7 a8 a9 a10 := rfl

end Cert.ReferenceIdeal.RefTail

end
-- ==== Proof.KOutVal.lean ====
import proofs.«203920_g2267742732911_cont_8to1_1065_18_alg».proof.Proof.KValue
import proofs.«203920_g2267742732911_cont_8to1_1065_18_alg».proof.Proof.CountFinal
import proofs.«203920_g2267742732911_cont_8to1_1065_18_alg».proof.Proof.PreFacts
import proofs.«203920_g2267742732911_cont_8to1_1065_18_alg».proof.Proof.RefTail

/-!
The kernel's result is the reference's.

The TensorCore body's term, applied to the count array and the argument arrays, is the reference's dense
head applied to the kernel's pooled embeddings; these equal the reference's pooled embeddings because
every row of the count array is the table of its tile's slices, the graph ids are at most 15 and the two
embedding tables are finite (both read out of the input-domain check).
-/

noncomputable section

namespace Cert.KernelIdeal.OutVal

open Cert.KernelIdeal Cert.KernelIdeal.Gen Cert.KernelIdeal.Setup Cert.KernelIdeal.Pay Cert.KernelIdeal.Part
open Cert.KernelIdeal.Deal Cert.KernelIdeal.Main Cert.KernelIdeal.Value Cert.KernelIdeal.Hist
open Idealize.ShloMosaic Idealize.ShloMosaic.ValueIdx Idealize.SL.Sem

variable [Cert.Pre_input_domain.Facts]
variable (m : (ℓ : Loc nD τ sig) → Buf (Elt Ideal) ℓ)

/-- The tile whose slice and row have number w. -/
def tileOf (w : Fin 32) : Tile (F := Ideal) :=
  (⟨w.val / 16, by show w.val / 16 < 2; have := w.isLt; omega⟩, ⟨w.val % 16, by show w.val % 16 < 16; omega⟩)

theorem wOf_tileOf (w : Fin 32) : wOf (LofP (tileOf w)) = w := by
  apply Fin.ext
  show 16 * (w.val / 16) + w.val % 16 = w.val
  omega

/-- A tile's slice of a node vector, as the view reads it, is the slice by number. -/
theorem labSl_read (d : Dev nD) (L : grid0.Coords) (f : Buf (Elt Ideal) (labLoc d)) :
    (labSl L).view.read (Elt Ideal) f = slice f (wOf L) := funext fun n => read_labSl d L f n
theorem degSl_read (d : Dev nD) (L : grid0.Coords) (f : Buf (Elt Ideal) (degLoc d)) :
    (degSl L).view.read (Elt Ideal) f = slice f (wOf L) := funext fun n => read_degSl d L f n
theorem batSl_read (d : Dev nD) (L : grid0.Coords) (f : Buf (Elt Ideal) (batLoc d)) :
    (batSl L).view.read (Elt Ideal) f = slice f (wOf L) := funext fun n => read_batSl d L f n

/-- Every row of the count array being its tile's table, the array at (w, r, c) is tile w's table at (r, c). -/
theorem cnt_apply (d : Dev nD) (g : Buf (Elt Ideal) (cntLoc d)) (hg : CntOK (fl m) (fd m) (fb m) d g)
    (w : Fin 32) (r : Fin 32) (c : Fin 128) :
    g (ix3 w r c) = tileTab (F := Ideal) (slice (fl m d) w) (slice (fd m d) w) (slice (fb m d) w) (ix2 r c) := by
  have h := hg (tileOf w) (ix2 r c)
  rw [read_cntRow, labSl_read, degSl_read, batSl_read, wOf_tileOf] at h
  exact h

/-- THE RESULT VALUE. -/
theorem kernel_out (d : Dev nD) (g : Buf (Elt Ideal) (cntLoc d))
    (hpre : Cert.Pre_input_domain.fn (F := Ideal) (m (d, Proc.devRef .tc main_arg0)) (m (d, Proc.devRef .tc main_arg1)) (m (d, Proc.devRef .tc main_arg2)) (m (d, Proc.devRef .tc main_arg3)) (m (d, Proc.devRef .tc main_arg4)) (m (d, Proc.devRef .tc main_arg5)) (m (d, Proc.devRef .tc main_arg6)) (m (d, Proc.devRef .tc main_arg7)) (m (d, Proc.devRef .tc main_arg8)) (m (d, Proc.devRef .tc main_arg9)) (m (d, Proc.devRef .tc main_arg10)) = fun _ => 1#1)
    (hg : CntOK (fl m) (fd m) (fb m) d g) :
    headVal d (Wof d (V2 m d g)) = Cert.ReferenceIdeal.RefRun.out (m (d, Proc.devRef .tc main_arg0)) (m (d, Proc.devRef .tc main_arg1)) (m (d, Proc.devRef .tc main_arg2)) (m (d, Proc.devRef .tc main_arg3)) (m (d, Proc.devRef .tc main_arg4)) (m (d, Proc.devRef .tc main_arg5)) (m (d, Proc.devRef .tc main_arg6)) (m (d, Proc.devRef .tc main_arg7)) (m (d, Proc.devRef .tc main_arg8)) (m (d, Proc.devRef .tc main_arg9)) (m (d, Proc.devRef .tc main_arg10)) := by
  have hb : ∀ j, (fb m d j).toNat ≤ 15 := by
    rw [fb_eq]; exact Cert.PreFacts.batch_le _ _ _ _ _ _ _ _ _ _ _ hpre
  have hle := Cert.PreFacts.label_emb_finite _ _ _ _ _ _ _ _ _ _ _ hpre
  have hde := Cert.PreFacts.deg_emb_finite _ _ _ _ _ _ _ _ _ _ _ hpre
  have hlab : ∀ n : Fin 32768, fl m d (ix1 n) = (m (d, Proc.devRef .tc main_arg0)) (ix2 n 0) := fun n => by
    rw [fl_eq]; exact col_apply _ 0 _ n
  have hdeg : ∀ n : Fin 32768, fd m d (ix1 n) = (m (d, Proc.devRef .tc main_arg0)) (ix2 n 1) := fun n => by
    rw [fd_eq]; exact col_apply _ 1 _ n
  have hk := khg_eq_pooled (m (d, Proc.devRef .tc main_arg0)) (fb m d) (fl m d) (fd m d) hlab hdeg hb g (cnt_apply m d g hg) (m (d, Proc.devRef .tc main_arg3)) (m (d, Proc.devRef .tc main_arg4)) hle hde
  rw [fb_eq] at hk
  rw [headVal_eq, Cert.ReferenceIdeal.RefTail.tail_eq_kernel, hk]
  rfl

end Cert.KernelIdeal.OutVal
-- ==== Proof.lean ====
/-
  The certificate's five claims. Both printed kernel programs (the word-level one and its idealization, the same text)
  run by the launch theorem for SparseCore programs: thirty-two tiles each build the table of their 1024 nodes —
  entry (b, l) the number of nodes of segment b with clipped label l, entry (b + 16, d) the number with clipped
  degree d — by accumulating scatters of ones, and write it to their row of the count array; the TensorCore region
  sums the rows, multiplies the label counts by the label table and the degree counts by the degree table, and
  runs the two dense layers. The reference pools the per-node sums of a label row and a degree row over each
  segment. Over the extended reals a count times a FINITE row is that row added count times, so the kernel's pooled
  rows are the reference's; everything after the pooling is the same function on both sides. Finiteness of the two
  tables and the range of the segment ids are what the precondition gives; the clips keep every column in range.
-/
import proofs.«203920_g2267742732911_cont_8to1_1065_18_alg».proof.Defs
import proofs.«203920_g2267742732911_cont_8to1_1065_18_alg».proof.Proof.Gen.Kernel
import proofs.«203920_g2267742732911_cont_8to1_1065_18_alg».proof.Proof.Gen.Kernel.Skeleton
import proofs.«203920_g2267742732911_cont_8to1_1065_18_alg».proof.Proof.Gen.Kernel.Launch
import proofs.«203920_g2267742732911_cont_8to1_1065_18_alg».proof.Proof.Gen.Kernel.Points
import proofs.«203920_g2267742732911_cont_8to1_1065_18_alg».proof.Proof.Gen.KernelIdeal
import proofs.«203920_g2267742732911_cont_8to1_1065_18_alg».proof.Proof.Gen.KernelIdeal.Skeleton
import proofs.«203920_g2267742732911_cont_8to1_1065_18_alg».proof.Proof.Gen.KernelIdeal.Launch
import proofs.«203920_g2267742732911_cont_8to1_1065_18_alg».proof.Proof.Gen.KernelIdeal.Points
import proofs.«203920_g2267742732911_cont_8to1_1065_18_alg».proof.Proof.Gen.ReferenceIdeal
import proofs.«203920_g2267742732911_cont_8to1_1065_18_alg».proof.Proof.Gen.Pre_input_domain
import proofs.«203920_g2267742732911_cont_8to1_1065_18_alg».proof.Proof.KRun
import proofs.«203920_g2267742732911_cont_8to1_1065_18_alg».proof.Proof.BKRun
import proofs.«203920_g2267742732911_cont_8to1_1065_18_alg».proof.Proof.Head
import proofs.«203920_g2267742732911_cont_8to1_1065_18_alg».proof.Proof.BHead
import proofs.«203920_g2267742732911_cont_8to1_1065_18_alg».proof.Proof.KOutVal
import proofs.«203920_g2267742732911_cont_8to1_1065_18_alg».proof.Proof.RefTail
import proofs.«203920_g2267742732911_cont_8to1_1065_18_alg».proof.Proof.PreFacts
import Idealize.ShloMosaic.Adequacy
import Idealize.ShloMosaic.Init

noncomputable section

namespace Cert.Proof

open Idealize.ShloMosaic Idealize.SL.Sem

/-- The TensorCore region's triple, in the form @main's proof consumes, for each of the two kernel programs. -/
theorem headSpecI : Cert.KernelIdeal.Main.HeadSpec (F := Ideal) := fun d b W =>
  Cert.Proof.HeadKernelIdeal.wp_head (F := Ideal) (Name := ℕ) (U := Cert.KernelIdeal.Setup.UU) (fun r => W r) b
    (Cert.KernelIdeal.Setup.K (F := Ideal)).L (Cert.KernelIdeal.Setup.K (F := Ideal)).lev (Cert.KernelIdeal.Setup.ER (F := Ideal)) d
theorem headSpecB : Cert.Kernel.Main.HeadSpec (F := Bits) := fun d b W =>
  Cert.Proof.HeadKernel.wp_head (F := Bits) (Name := ℕ) (U := Cert.Kernel.Setup.UU) (fun r => W r) b
    (Cert.Kernel.Setup.K (F := Bits)).L (Cert.Kernel.Setup.K (F := Bits)).lev (Cert.Kernel.Setup.ER (F := Bits)) d

theorem frame_k : Cert.frame_Kernel := fun m ρ hpre =>
  (θ_run (Cert.Kernel.defs (F := Bits)) _ _).mono (fun r h c => Cert.Kernel.Run.args_of_QC m r h c)
    (Cert.Kernel.Run.run_main (F := Bits) m ρ headSpecB
      (Cert.Kernel.Run.preOK_of_batch m fun d j => Cert.PreFacts.batch_le _ _ _ _ _ _ _ _ _ _ _ (hpre d) j))

theorem frame_ki : Cert.frame_KernelIdeal := fun m ρ hpre =>
  (θ_run (Cert.KernelIdeal.defs (F := Ideal)) _ _).mono (fun r h c => Cert.KernelIdeal.Run.args_of_QC m r h c)
    (Cert.KernelIdeal.Run.run_main (F := Ideal) m ρ headSpecI
      (Cert.KernelIdeal.Run.preOK_of_batch m fun d j => Cert.PreFacts.batch_le _ _ _ _ _ _ _ _ _ _ _ (hpre d) j))

theorem algebraic : Cert.algebraic_KernelIdeal_ReferenceIdeal := by
  intro m ρ m' ρ' hpre hagree
  refine ⟨fun c => Cert.ReferenceIdeal.RefRun.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run (Cert.KernelIdeal.defs (F := Ideal)) _ _).mono (fun r h c => ?_)
      (Cert.KernelIdeal.Run.run_main (F := Ideal) m ρ headSpecI
        (Cert.KernelIdeal.Run.preOK_of_batch m fun d j => Cert.PreFacts.batch_le _ _ _ _ _ _ _ _ _ _ _ (hpre d) j))
    obtain ⟨g, hg, hout⟩ := Cert.KernelIdeal.Run.out_of_QC m r h c
    exact ⟨hout.trans (Cert.KernelIdeal.OutVal.kernel_out m c g (hpre c) hg), Cert.KernelIdeal.Run.args_of_QC m r h c⟩
  · refine (θ_run (Cert.ReferenceIdeal.defs (F := Ideal)) _ _).mono (fun r h c => ⟨?_, (h c).2⟩)
      (Cert.ReferenceIdeal.RefRun.run (F := Ideal) m' ρ')
    obtain ⟨e0, e1, e2, e3, e4, e5, e6, e7, e8, e9, e10⟩ := hagree c
    rw [(h c).1, e0, e1, e2, e3, e4, e5, e6, e7, e8, e9, e10]

theorem claim : Cert.Claim := ⟨Cert.Kernel.Gen.facts, Cert.KernelIdeal.Gen.facts, Cert.ReferenceIdeal.Gen.facts, Cert.Pre_input_domain.Gen.facts,
  frame_k, frame_ki, Cert.ReferenceIdeal.RefRun.frame, trivial, algebraic⟩

end Cert.Proof

end
